-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S32x2048x64 : Shape := ⟨3, ![32, 2048, 64]⟩
abbrev S8 : Shape := ⟨1, ![8]⟩
abbrev S64x64 : Shape := ⟨2, ![64, 64]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S32x2048x64 : S_.BroadcastsInDim S32x2048x64 (![] : Fin 0 → Fin S32x2048x64.rank)
  reducesTo_S32x2048x64_S_d0_1_2 : S32x2048x64.ReducesTo [0, 1, 2] S_
  bcast_S_S8 : S_.BroadcastsInDim S8 (![] : Fin 0 → Fin S8.rank)
  reducesTo_S8_S_d0 : S8.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S32x2048 .f32) (main_arg1 : FVec F S32x2048x64 .f32) (main_arg2 : IVec S32x2048 1) (main_arg3 : FVec F S8 .f32) (main_arg4 : FVec F S64x64 .f32) (main_arg5 : FVec F S64x64 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S32x2048 : Shape := ⟨2, ![32, 2048]⟩
abbrev S32x2048x64 : Shape := ⟨3, ![32, 2048, 64]⟩
abbrev S8 : Shape := ⟨1, ![8]⟩
abbrev S64x64 : Shape := ⟨2, ![64, 64]⟩
abbrev S64x128 : Shape := ⟨2, ![64, 128]⟩
abbrev S65536x64 : Shape := ⟨2, ![65536, 64]⟩
abbrev S65536x128 : Shape := ⟨2, ![65536, 128]⟩
abbrev S8192x64 : Shape := ⟨2, ![8192, 64]⟩
abbrev S8192x128 : Shape := ⟨2, ![8192, 128]⟩
abbrev S32x2048x128 : Shape := ⟨3, ![32, 2048, 128]⟩
abbrev S_ : Shape := ⟨0, ![]⟩
abbrev S32x2056x128 : Shape := ⟨3, ![32, 2056, 128]⟩
abbrev S32x2048x1 : Shape := ⟨3, ![32, 2048, 1]⟩
abbrev S32x2064x1 : Shape := ⟨3, ![32, 2064, 1]⟩
abbrev S1x8 : Shape := ⟨2, ![1, 8]⟩
abbrev S32x2048x9x64 : Shape := ⟨4, ![32, 2048, 9, 64]⟩
abbrev S32x64x128 : Shape := ⟨3, ![32, 64, 128]⟩
abbrev S32x8x128 : Shape := ⟨3, ![32, 8, 128]⟩
abbrev S32x64x1 : Shape := ⟨3, ![32, 64, 1]⟩
abbrev S32x16x1 : Shape := ⟨3, ![32, 16, 1]⟩
abbrev S32x64x9x64 : Shape := ⟨4, ![32, 64, 9, 64]⟩
abbrev S32x72x128 : Shape := ⟨3, ![32, 72, 128]⟩
abbrev S32x80x1 : Shape := ⟨3, ![32, 80, 1]⟩
abbrev S32x64x64 : Shape := ⟨3, ![32, 64, 64]⟩
abbrev S1x1x8 : Shape := ⟨3, ![1, 1, 8]⟩
abbrev S32x64x8 : Shape := ⟨3, ![32, 64, 8]⟩
abbrev S32x64x1x64 : Shape := ⟨4, ![32, 64, 1, 64]⟩
abbrev S32x64x8x1 : Shape := ⟨4, ![32, 64, 8, 1]⟩
abbrev S32x64x8x64 : Shape := ⟨4, ![32, 64, 8, 64]⟩
abbrev S32x1x1x64 : Shape := ⟨4, ![32, 1, 1, 64]⟩
abbrev S32x64 : Shape := ⟨2, ![32, 64]⟩
abbrev S32x2047x9x64 : Shape := ⟨4, ![32, 2047, 9, 64]⟩
abbrev S32x18423x64 : Shape := ⟨3, ![32, 18423, 64]⟩
abbrev S32x1x64 : Shape := ⟨3, ![32, 1, 64]⟩
abbrev S32x18424x64 : Shape := ⟨3, ![32, 18424, 64]⟩

abbrev nBuf : Space → Nat
  | .hbm => 31
  | .vmem => 20
  | .smem => 0
  | _ => 0

abbrev bufTy : (tb : Table) → Fin (tcTables nBuf tb) → BufTy
  | .hbm, ⟨0, _⟩ => ⟨S32x2048, .f32⟩
  | .hbm, ⟨1, _⟩ => ⟨S32x2048x64, .f32⟩
  | .hbm, ⟨2, _⟩ => ⟨S32x2048, .i1⟩
  | .hbm, ⟨3, _⟩ => ⟨S8, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x128, .f32⟩
  | .hbm, ⟨8, _⟩ => ⟨S65536x64, .f32⟩
  | .hbm, ⟨9, _⟩ => ⟨S65536x128, .f32⟩
  | .hbm, ⟨10, _⟩ => ⟨S32x2048x128, .f32⟩
  | .hbm, ⟨11, _⟩ => ⟨S_, .i32⟩
  | .hbm, ⟨12, _⟩ => ⟨S_, .f32⟩
  | .hbm, ⟨13, _⟩ => ⟨S32x2056x128, .f32⟩
  | .hbm, ⟨14, _⟩ => ⟨S32x2048, .f32⟩
  | .hbm, ⟨15, _⟩ => ⟨S32x2048x1, .f32⟩
  | .hbm, ⟨16, _⟩ => ⟨S_, .i32⟩
  | .hbm, ⟨17, _⟩ => ⟨S_, .f32⟩
  | .hbm, ⟨18, _⟩ => ⟨S32x2064x1, .f32⟩
  | .hbm, ⟨19, _⟩ => ⟨S32x2048x1, .f32⟩
  | .hbm, ⟨20, _⟩ => ⟨S_, .i32⟩
  | .hbm, ⟨21, _⟩ => ⟨S_, .f32⟩
  | .hbm, ⟨22, _⟩ => ⟨S32x2064x1, .f32⟩
  | .hbm, ⟨23, _⟩ => ⟨S1x8, .f32⟩
  | .hbm, ⟨24, _⟩ => ⟨S32x2048x9x64, .f32⟩
  | .hbm, ⟨25, _⟩ => ⟨S32x1x1x64, .f32⟩
  | .hbm, ⟨26, _⟩ => ⟨S32x64, .f32⟩
  | .hbm, ⟨27, _⟩ => ⟨S32x2047x9x64, .f32⟩
  | .hbm, ⟨28, _⟩ => ⟨S32x18423x64, .f32⟩
  | .hbm, ⟨29, _⟩ => ⟨S32x1x64, .f32⟩
  | .hbm, ⟨30, _⟩ => ⟨S32x18424x64, .f32⟩
  | .local _ .vmem, ⟨0, _⟩ => ⟨S8192x64, .f32⟩
  | .local _ .vmem, ⟨1, _⟩ => ⟨S8192x64, .f32⟩
  | .local _ .vmem, ⟨2, _⟩ => ⟨S64x128, .f32⟩
  | .local _ .vmem, ⟨3, _⟩ => ⟨S8192x128, .f32⟩
  | .local _ .vmem, ⟨4, _⟩ => ⟨S8192x128, .f32⟩
  | .local _ .vmem, ⟨5, _⟩ => ⟨S32x64x128, .f32⟩
  | .local _ .vmem, ⟨6, _⟩ => ⟨S32x64x128, .f32⟩
  | .local _ .vmem, ⟨7, _⟩ => ⟨S32x8x128, .f32⟩
  | .local _ .vmem, ⟨8, _⟩ => ⟨S32x8x128, .f32⟩
  | .local _ .vmem, ⟨9, _⟩ => ⟨S32x64x1, .f32⟩
  | .local _ .vmem, ⟨10, _⟩ => ⟨S32x64x1, .f32⟩
  | .local _ .vmem, ⟨11, _⟩ => ⟨S32x16x1, .f32⟩
  | .local _ .vmem, ⟨12, _⟩ => ⟨S32x16x1, .f32⟩
  | .local _ .vmem, ⟨13, _⟩ => ⟨S32x64x1, .f32⟩
  | .local _ .vmem, ⟨14, _⟩ => ⟨S32x64x1, .f32⟩
  | .local _ .vmem, ⟨15, _⟩ => ⟨S32x16x1, .f32⟩
  | .local _ .vmem, ⟨16, _⟩ => ⟨S32x16x1, .f32⟩
  | .local _ .vmem, ⟨17, _⟩ => ⟨S1x8, .f32⟩
  | .local _ .vmem, ⟨18, _⟩ => ⟨S32x64x9x64, .f32⟩
  | .local _ .vmem, ⟨19, _⟩ => ⟨S32x64x9x64, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c0_i32 : BitVec 32 := 0#32
  let c0_i32_0 : BitVec 32 := 0#32
  let c0_i32_1 : BitVec 32 := 0#32
  ![c0_i32.toNat, v1.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c0_i32 : BitVec 32 := 0#32
  let c0_i32_0 : BitVec 32 := 0#32
  let c0_i32_1 : BitVec 32 := 0#32
  ![c0_i32.toNat, v1.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c0_i32 : BitVec 32 := 0#32
  let c0_i32_0 : BitVec 32 := 0#32
  let c0_i32_1 : BitVec 32 := 0#32
  ![c0_i32.toNat, v1.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S32x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x16x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x16x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S32x64x9x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S64x64_S64x64_1_0 : S64x64.Transposes [1, 0] S64x64
  concatenates_S64x64_S64x64_S64x128_d1 : Shape.Concatenates [S64x64, S64x64] S64x128 1
  shapeCasts_S32x2048x64_S65536x64 : S32x2048x64.ShapeCasts S65536x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8192x128_S8192x128_0_0 : ∀ a, (![0, 0] : Fin 2 → Nat) a + S8192x128.size a ≤ S8192x128.size a
  h_S8192x128 : 0 < S8192x128.numel
  shapeCasts_S65536x128_S32x2048x128 : S65536x128.ShapeCasts S32x2048x128
  pads_S32x2048x128_S32x2056x128_000_800_000 : S32x2048x128.Pads (![0, 8, 0] : Fin 3 → Nat) ![0, 0, 0] ![0, 0, 0] S32x2056x128
  h_S_ : 0 < S_.numel
  bcast_S32x2048_S32x2048x1_0_1 : S32x2048.BroadcastsInDim S32x2048x1 (![0, 1] : Fin 2 → Fin S32x2048x1.rank)
  pads_S32x2048x1_S32x2064x1_000_880_000 : S32x2048x1.Pads (![0, 8, 0] : Fin 3 → Nat) ![0, 8, 0] ![0, 0, 0] S32x2064x1
  shapeCasts_S8_S1x8 : S8.ShapeCasts S1x8
  inb_S32x64x128_S32x64x128_0_0_0 : ∀ a, (![0, 0, 0] : Fin 3 → Nat) a + S32x64x128.size a ≤ S32x64x128.size a
  h_S32x64x128 : 0 < S32x64x128.numel
  shapeCasts_S32x64x128_S32x64x128 : S32x64x128.ShapeCasts S32x64x128
  inb_S32x8x128_S32x8x128_0_0_0 : ∀ a, (![0, 0, 0] : Fin 3 → Nat) a + S32x8x128.size a ≤ S32x8x128.size a
  h_S32x8x128 : 0 < S32x8x128.numel
  shapeCasts_S32x8x128_S32x8x128 : S32x8x128.ShapeCasts S32x8x128
  concatenates_S32x64x128_S32x8x128_S32x72x128_d1 : Shape.Concatenates [S32x64x128, S32x8x128] S32x72x128 1
  inb_S32x64x1_S32x64x1_0_0_0 : ∀ a, (![0, 0, 0] : Fin 3 → Nat) a + S32x64x1.size a ≤ S32x64x1.size a
  h_S32x64x1 : 0 < S32x64x1.numel
  shapeCasts_S32x64x1_S32x64x1 : S32x64x1.ShapeCasts S32x64x1
  inb_S32x16x1_S32x16x1_0_0_0 : ∀ a, (![0, 0, 0] : Fin 3 → Nat) a + S32x16x1.size a ≤ S32x16x1.size a
  h_S32x16x1 : 0 < S32x16x1.numel
  shapeCasts_S32x16x1_S32x16x1 : S32x16x1.ShapeCasts S32x16x1
  concatenates_S32x64x1_S32x16x1_S32x80x1_d1 : Shape.Concatenates [S32x64x1, S32x16x1] S32x80x1 1
  slices_S32x80x1_o0_8_0_S32x64x1 : S32x80x1.Slices ![0, 8, 0] S32x64x1
  slices_S32x80x1_o0_9_0_S32x64x1 : S32x80x1.Slices ![0, 9, 0] S32x64x1
  slices_S32x72x128_o0_8_0_S32x64x128 : S32x72x128.Slices ![0, 8, 0] S32x64x128
  slices_S32x64x128_o0_0_0_S32x64x64 : S32x64x128.Slices ![0, 0, 0] S32x64x64
  broadcasts_S32x64x1_S32x64x64 : S32x64x1.Broadcasts S32x64x64
  slices_S32x64x128_o0_0_64_S32x64x64 : S32x64x128.Slices ![0, 0, 64] S32x64x64
  slices_S32x72x128_o0_7_0_S32x64x128 : S32x72x128.Slices ![0, 7, 0] S32x64x128
  slices_S32x80x1_o0_7_0_S32x64x1 : S32x80x1.Slices ![0, 7, 0] S32x64x1
  slices_S32x72x128_o0_6_0_S32x64x128 : S32x72x128.Slices ![0, 6, 0] S32x64x128
  slices_S32x80x1_o0_6_0_S32x64x1 : S32x80x1.Slices ![0, 6, 0] S32x64x1
  slices_S32x72x128_o0_5_0_S32x64x128 : S32x72x128.Slices ![0, 5, 0] S32x64x128
  slices_S32x80x1_o0_5_0_S32x64x1 : S32x80x1.Slices ![0, 5, 0] S32x64x1
  slices_S32x72x128_o0_4_0_S32x64x128 : S32x72x128.Slices ![0, 4, 0] S32x64x128
  slices_S32x80x1_o0_4_0_S32x64x1 : S32x80x1.Slices ![0, 4, 0] S32x64x1
  slices_S32x72x128_o0_3_0_S32x64x128 : S32x72x128.Slices ![0, 3, 0] S32x64x128
  slices_S32x80x1_o0_3_0_S32x64x1 : S32x80x1.Slices ![0, 3, 0] S32x64x1
  slices_S32x72x128_o0_2_0_S32x64x128 : S32x72x128.Slices ![0, 2, 0] S32x64x128
  slices_S32x80x1_o0_2_0_S32x64x1 : S32x80x1.Slices ![0, 2, 0] S32x64x1
  slices_S32x72x128_o0_1_0_S32x64x128 : S32x72x128.Slices ![0, 1, 0] S32x64x128
  slices_S32x80x1_o0_1_0_S32x64x1 : S32x80x1.Slices ![0, 1, 0] S32x64x1
  slices_S32x72x128_o0_0_0_S32x64x128 : S32x72x128.Slices ![0, 0, 0] S32x64x128
  slices_S32x80x1_o0_0_0_S32x64x1 : S32x80x1.Slices ![0, 0, 0] S32x64x1
  inb_S1x8_S1x8_0_0 : ∀ a, (![0, 0] : Fin 2 → Nat) a + S1x8.size a ≤ S1x8.size a
  h_S1x8 : 0 < S1x8.numel
  shapeCasts_S1x8_S1x8 : S1x8.ShapeCasts S1x8
  shapeCasts_S1x8_S1x1x8 : S1x8.ShapeCasts S1x1x8
  broadcasts_S32x64x1_S32x64x8 : S32x64x1.Broadcasts S32x64x8
  broadcasts_S1x1x8_S32x64x8 : S1x1x8.Broadcasts S32x64x8
  shapeCasts_S32x64x64_S32x64x1x64 : S32x64x64.ShapeCasts S32x64x1x64
  shapeCasts_S32x64x8_S32x64x8x1 : S32x64x8.ShapeCasts S32x64x8x1
  broadcasts_S32x64x8x1_S32x64x8x64 : S32x64x8x1.Broadcasts S32x64x8x64
  broadcasts_S32x64x1x64_S32x64x8x64 : S32x64x1x64.Broadcasts S32x64x8x64
  inb_S32x64x9x64_S32x64x1x64_0_0_0_0 : ∀ a, (![0, 0, 0, 0] : Fin 4 → Nat) a + S32x64x1x64.size a ≤ S32x64x9x64.size a
  h_S32x64x1x64 : 0 < S32x64x1x64.numel
  inb_S32x64x9x64_S32x64x8x64_0_0_1_0 : ∀ a, (![0, 0, 1, 0] : Fin 4 → Nat) a + S32x64x8x64.size a ≤ S32x64x9x64.size a
  h_S32x64x8x64 : 0 < S32x64x8x64.numel
  slices_S32x2048x9x64_S32x1x1x64_0_2047_0_0 : S32x2048x9x64.Slices ![0, 2047, 0, 0] S32x1x1x64
  shapeCasts_S32x1x1x64_S32x64 : S32x1x1x64.ShapeCasts S32x64
  slices_S32x2048x9x64_S32x2047x9x64_0_0_0_0 : S32x2048x9x64.Slices ![0, 0, 0, 0] S32x2047x9x64
  shapeCasts_S32x2047x9x64_S32x18423x64 : S32x2047x9x64.ShapeCasts S32x18423x64
  bcast_S32x64_S32x1x64_0_2 : S32x64.BroadcastsInDim S32x1x64 (![0, 2] : Fin 2 → Fin S32x1x64.rank)
  concatenates_S32x18423x64_S32x1x64_S32x18424x64_d1 : Shape.Concatenates [S32x18423x64, S32x1x64] S32x18424x64 1
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S65536x64.size a
  hwx0_0 : ∀ i : grid0.Coords, EltTy.bits .f32 = 32 ∨ (Rect.block (s := S65536x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S65536x128.size a
  hwx0_2 : ∀ i : grid0.Coords, EltTy.bits .f32 = 32 ∨ (Rect.block (s := S65536x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S32x64x128.size a < S32x2056x128.size a
  hwx1_0 : ∀ i : grid1.Coords, EltTy.bits .f32 = 32 ∨ (Rect.unit (s := S32x2056x128) (fun a => cc1_transform_0 i a * S32x64x128.size a) (fun a => (Pipeline.Clip.of (cc1_transform_0 i a) (S32x64x128.size a) (S32x2056x128.size a)).extent (S32x64x128.size a)) fun a => Pipeline.Clip.inb (Pipeline.Clip.ok_of (hstart1_0 i a))).WholeWords (EltTy.packing .f32)
  hwxs1_0 : ∀ i : grid1.Coords, EltTy.bits .f32 = 32 ∨ (Rect.unit (s := S32x64x128) (fun _ => 0) (fun a => (Pipeline.Clip.of (cc1_transform_0 i a) (S32x64x128.size a) (S32x2056x128.size a)).extent (S32x64x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x8x128.size a ≤ S32x2056x128.size a
  hwx1_1 : ∀ i : grid1.Coords, EltTy.bits .f32 = 32 ∨ (Rect.block (s := S32x2056x128) S32x8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S32x64x1.size a < S32x2064x1.size a
  hwx1_2 : ∀ i : grid1.Coords, EltTy.bits .f32 = 32 ∨ (Rect.unit (s := S32x2064x1) (fun a => cc1_transform_2 i a * S32x64x1.size a) (fun a => (Pipeline.Clip.of (cc1_transform_2 i a) (S32x64x1.size a) (S32x2064x1.size a)).extent (S32x64x1.size a)) fun a => Pipeline.Clip.inb (Pipeline.Clip.ok_of (hstart1_2 i a))).WholeWords (EltTy.packing .f32)
  hwxs1_2 : ∀ i : grid1.Coords, EltTy.bits .f32 = 32 ∨ (Rect.unit (s := S32x64x1) (fun _ => 0) (fun a => (Pipeline.Clip.of (cc1_transform_2 i a) (S32x64x1.size a) (S32x2064x1.size a)).extent (S32x64x1.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x16x1.size a ≤ S32x2064x1.size a
  hwx1_3 : ∀ i : grid1.Coords, EltTy.bits .f32 = 32 ∨ (Rect.block (s := S32x2064x1) S32x16x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S32x64x1.size a < S32x2064x1.size a
  hwx1_4 : ∀ i : grid1.Coords, EltTy.bits .f32 = 32 ∨ (Rect.unit (s := S32x2064x1) (fun a => cc1_transform_4 i a * S32x64x1.size a) (fun a => (Pipeline.Clip.of (cc1_transform_4 i a) (S32x64x1.size a) (S32x2064x1.size a)).extent (S32x64x1.size a)) fun a => Pipeline.Clip.inb (Pipeline.Clip.ok_of (hstart1_4 i a))).WholeWords (EltTy.packing .f32)
  hwxs1_4 : ∀ i : grid1.Coords, EltTy.bits .f32 = 32 ∨ (Rect.unit (s := S32x64x1) (fun _ => 0) (fun a => (Pipeline.Clip.of (cc1_transform_4 i a) (S32x64x1.size a) (S32x2064x1.size a)).extent (S32x64x1.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x16x1.size a ≤ S32x2064x1.size a
  hwx1_5 : ∀ i : grid1.Coords, EltTy.bits .f32 = 32 ∨ (Rect.block (s := S32x2064x1) S32x16x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x8.size a ≤ S1x8.size a
  hwx1_6 : ∀ i : grid1.Coords, EltTy.bits .f32 = 32 ∨ (Rect.block (s := S1x8) S1x8.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S32x64x9x64.size a ≤ S32x2048x9x64.size a
  hwx1_7 : ∀ i : grid1.Coords, EltTy.bits .f32 = 32 ∨ (Rect.block (s := S32x2048x9x64) S32x64x9x64.size (cc1_transform_7 i) (hinb1_7 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_v2) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v5) S32x64x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v5) S32x8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpecClip (Memref.whole main_v8) S32x64x1.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v8) S32x16x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpecClip (Memref.whole main_v10) S32x64x1.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpec (Memref.whole main_v10) S32x16x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S32x64x9x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x2048 : Shape := ⟨2, ![32, 2048]⟩
abbrev S32x2048x64 : Shape := ⟨3, ![32, 2048, 64]⟩
abbrev S8 : Shape := ⟨1, ![8]⟩
abbrev S64x64 : Shape := ⟨2, ![64, 64]⟩
abbrev S32x2048x128 : Shape := ⟨3, ![32, 2048, 128]⟩
abbrev S_ : Shape := ⟨0, ![]⟩
abbrev S32x2056 : Shape := ⟨2, ![32, 2056]⟩
abbrev S32x2056x128 : Shape := ⟨3, ![32, 2056, 128]⟩
abbrev S32x1x2048 : Shape := ⟨3, ![32, 1, 2048]⟩
abbrev S32x9x2048 : Shape := ⟨3, ![32, 9, 2048]⟩
abbrev S32x1x2048x128 : Shape := ⟨4, ![32, 1, 2048, 128]⟩
abbrev S32x9x2048x128 : Shape := ⟨4, ![32, 9, 2048, 128]⟩
abbrev S32x9x2048x1 : Shape := ⟨4, ![32, 9, 2048, 1]⟩
abbrev S32x9x2048x64 : Shape := ⟨4, ![32, 9, 2048, 64]⟩
abbrev S32x1x2047 : Shape := ⟨3, ![32, 1, 2047]⟩
abbrev S32x2047 : Shape := ⟨2, ![32, 2047]⟩
abbrev S32x8x2048 : Shape := ⟨3, ![32, 8, 2048]⟩
abbrev S32x8x2048x1 : Shape := ⟨4, ![32, 8, 2048, 1]⟩
abbrev S32x8x2048x64 : Shape := ⟨4, ![32, 8, 2048, 64]⟩
abbrev S32x8x2047 : Shape := ⟨3, ![32, 8, 2047]⟩
abbrev S32x8x2047x1 : Shape := ⟨4, ![32, 8, 2047, 1]⟩
abbrev S32x8x2047x64 : Shape := ⟨4, ![32, 8, 2047, 64]⟩
abbrev S32x2047x64 : Shape := ⟨3, ![32, 2047, 64]⟩
abbrev S32x2047x1x64 : Shape := ⟨4, ![32, 2047, 1, 64]⟩
abbrev S32x2047x1x1 : Shape := ⟨4, ![32, 2047, 1, 1]⟩
abbrev S1x1x8x1 : Shape := ⟨4, ![1, 1, 8, 1]⟩
abbrev S32x2047x8x1 : Shape := ⟨4, ![32, 2047, 8, 1]⟩
abbrev S32x2047x8x64 : Shape := ⟨4, ![32, 2047, 8, 64]⟩
abbrev S32x1x64 : Shape := ⟨3, ![32, 1, 64]⟩
abbrev S32x2047x9x64 : Shape := ⟨4, ![32, 2047, 9, 64]⟩
abbrev S32x18423x64 : Shape := ⟨3, ![32, 18423, 64]⟩
abbrev S32x18424x64 : Shape := ⟨3, ![32, 18424, 64]⟩

abbrev nBuf : Space → Nat
  | .hbm => 137
  | .vmem => 0
  | .smem => 0
  | _ => 0

abbrev hbmTy0_0 (i : Nat) : BufTy := match i % 128 with
  | 0 => ⟨S32x2048, .f32⟩
  | 1 => ⟨S32x2048x64, .f32⟩
  | 2 => ⟨S32x2048, .i1⟩
  | 3 => ⟨S8, .f32⟩
  | 4 => ⟨S64x64, .f32⟩
  | 5 => ⟨S64x64, .f32⟩
  | 6 => ⟨S32x2048x64, .f32⟩
  | 7 => ⟨S32x2048x64, .f32⟩
  | 8 => ⟨S32x2048x128, .f32⟩
  | 9 => ⟨S_, .i32⟩
  | 10 => ⟨S_, .f32⟩
  | 11 => ⟨S32x2056, .f32⟩
  | 12 => ⟨S_, .i32⟩
  | 13 => ⟨S_, .f32⟩
  | 14 => ⟨S32x2056x128, .f32⟩
  | 15 => ⟨S_, .i32⟩
  | 16 => ⟨S_, .i32⟩
  | 17 => ⟨S_, .i32⟩
  | 18 => ⟨S_, .i1⟩
  | 19 => ⟨S_, .i1⟩
  | 20 => ⟨S32x2056, .i1⟩
  | 21 => ⟨S32x2048, .f32⟩
  | 22 => ⟨S32x2048, .f32⟩
  | 23 => ⟨S32x2048, .f32⟩
  | 24 => ⟨S32x2048, .f32⟩
  | 25 => ⟨S32x2048, .f32⟩
  | 26 => ⟨S32x2048, .f32⟩
  | 27 => ⟨S32x2048, .f32⟩
  | 28 => ⟨S32x2048, .f32⟩
  | 29 => ⟨S32x2048, .f32⟩
  | 30 => ⟨S32x1x2048, .f32⟩
  | 31 => ⟨S32x1x2048, .f32⟩
  | 32 => ⟨S32x1x2048, .f32⟩
  | 33 => ⟨S32x1x2048, .f32⟩
  | 34 => ⟨S32x1x2048, .f32⟩
  | 35 => ⟨S32x1x2048, .f32⟩
  | 36 => ⟨S32x1x2048, .f32⟩
  | 37 => ⟨S32x1x2048, .f32⟩
  | 38 => ⟨S32x1x2048, .f32⟩
  | 39 => ⟨S32x9x2048, .f32⟩
  | 40 => ⟨S32x2048x128, .f32⟩
  | 41 => ⟨S32x2048x128, .f32⟩
  | 42 => ⟨S32x2048x128, .f32⟩
  | 43 => ⟨S32x2048x128, .f32⟩
  | 44 => ⟨S32x2048x128, .f32⟩
  | 45 => ⟨S32x2048x128, .f32⟩
  | 46 => ⟨S32x2048x128, .f32⟩
  | 47 => ⟨S32x2048x128, .f32⟩
  | 48 => ⟨S32x2048x128, .f32⟩
  | 49 => ⟨S32x1x2048x128, .f32⟩
  | 50 => ⟨S32x1x2048x128, .f32⟩
  | 51 => ⟨S32x1x2048x128, .f32⟩
  | 52 => ⟨S32x1x2048x128, .f32⟩
  | 53 => ⟨S32x1x2048x128, .f32⟩
  | 54 => ⟨S32x1x2048x128, .f32⟩
  | 55 => ⟨S32x1x2048x128, .f32⟩
  | 56 => ⟨S32x1x2048x128, .f32⟩
  | 57 => ⟨S32x1x2048x128, .f32⟩
  | 58 => ⟨S32x9x2048x128, .f32⟩
  | 59 => ⟨S32x2048, .i1⟩
  | 60 => ⟨S32x2048, .i1⟩
  | 61 => ⟨S32x2048, .i1⟩
  | 62 => ⟨S32x2048, .i1⟩
  | 63 => ⟨S32x2048, .i1⟩
  | 64 => ⟨S32x2048, .i1⟩
  | 65 => ⟨S32x2048, .i1⟩
  | 66 => ⟨S32x2048, .i1⟩
  | 67 => ⟨S32x2048, .i1⟩
  | 68 => ⟨S32x1x2048, .i1⟩
  | 69 => ⟨S32x1x2048, .i1⟩
  | 70 => ⟨S32x1x2048, .i1⟩
  | 71 => ⟨S32x1x2048, .i1⟩
  | 72 => ⟨S32x1x2048, .i1⟩
  | 73 => ⟨S32x1x2048, .i1⟩
  | 74 => ⟨S32x1x2048, .i1⟩
  | 75 => ⟨S32x1x2048, .i1⟩
  | 76 => ⟨S32x1x2048, .i1⟩
  | 77 => ⟨S32x9x2048, .i1⟩
  | 78 => ⟨S32x1x2048, .i1⟩
  | 79 => ⟨S32x9x2048, .i1⟩
  | 80 => ⟨S32x9x2048, .i1⟩
  | 81 => ⟨S32x1x2048, .f32⟩
  | 82 => ⟨S32x9x2048, .f32⟩
  | 83 => ⟨S32x9x2048, .f32⟩
  | 84 => ⟨S_, .f32⟩
  | 85 => ⟨S_, .f32⟩
  | 86 => ⟨S32x9x2048, .f32⟩
  | 87 => ⟨S32x9x2048, .f32⟩
  | 88 => ⟨S32x9x2048x1, .i1⟩
  | 89 => ⟨S_, .f32⟩
  | 90 => ⟨S_, .f32⟩
  | 91 => ⟨S32x9x2048x128, .i1⟩
  | 92 => ⟨S32x9x2048x128, .f32⟩
  | 93 => ⟨S32x9x2048x128, .f32⟩
  | 94 => ⟨S32x9x2048x64, .f32⟩
  | 95 => ⟨S32x9x2048x64, .f32⟩
  | 96 => ⟨S32x1x2047, .f32⟩
  | 97 => ⟨S32x2047, .f32⟩
  | 98 => ⟨S32x8x2048, .f32⟩
  | 99 => ⟨S32x8x2048x1, .f32⟩
  | 100 => ⟨S32x8x2048x64, .f32⟩
  | 101 => ⟨S32x8x2048x64, .f32⟩
  | 102 => ⟨S32x8x2048x64, .f32⟩
  | 103 => ⟨S32x8x2048x64, .f32⟩
  | 104 => ⟨S32x8x2048x64, .f32⟩
  | 105 => ⟨S_, .f32⟩
  | 106 => ⟨S32x2048x64, .f32⟩
  | 107 => ⟨S32x8x2047, .f32⟩
  | 108 => ⟨S32x8x2047x1, .f32⟩
  | 109 => ⟨S32x8x2047x64, .f32⟩
  | 110 => ⟨S32x8x2047x64, .f32⟩
  | 111 => ⟨S32x8x2047x64, .f32⟩
  | 112 => ⟨S32x8x2047x64, .f32⟩
  | 113 => ⟨S32x8x2047x64, .f32⟩
  | 114 => ⟨S_, .f32⟩
  | 115 => ⟨S32x2047x64, .f32⟩
  | 116 => ⟨S32x8x2047x64, .f32⟩
  | 117 => ⟨S_, .f32⟩
  | 118 => ⟨S32x2047x64, .f32⟩
  | 119 => ⟨S32x2047x1x64, .f32⟩
  | 120 => ⟨S32x2047x1x1, .f32⟩
  | 121 => ⟨S1x1x8x1, .f32⟩
  | 122 => ⟨S32x2047x8x1, .f32⟩
  | 123 => ⟨S32x2047x8x1, .f32⟩
  | 124 => ⟨S32x2047x8x1, .f32⟩
  | 125 => ⟨S32x2047x1x64, .f32⟩
  | 126 => ⟨S32x2047x8x64, .f32⟩
  | 127 => ⟨S32x2047x8x64, .f32⟩
  | _ => ⟨S32x2048, .f32⟩

abbrev hbmTy0_1 (i : Nat) : BufTy := match i % 128 with
  | 0 => ⟨S32x2047x8x64, .f32⟩
  | 1 => ⟨S32x2047x8x64, .f32⟩
  | 2 => ⟨S32x2047x8x64, .f32⟩
  | 3 => ⟨S32x2047x64, .f32⟩
  | 4 => ⟨S32x2047x1x64, .f32⟩
  | 5 => ⟨S32x1x64, .f32⟩
  | 6 => ⟨S32x2047x9x64, .f32⟩
  | 7 => ⟨S32x18423x64, .f32⟩
  | 8 => ⟨S32x18424x64, .f32⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_c_1 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst : Ref sig .tc := ⟨.hbm, 84, rfl⟩
abbrev main_call3_v0 : Ref sig .tc := ⟨.hbm, 85, rfl⟩
abbrev main_call3_v1 : Ref sig .tc := ⟨.hbm, 86, rfl⟩
abbrev main_v69 : Ref sig .tc := ⟨.hbm, 87, rfl⟩
abbrev main_v70 : Ref sig .tc := ⟨.hbm, 88, rfl⟩
abbrev main_cst_2 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_3 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_4 : Ref sig .tc := ⟨.hbm, 114, rfl⟩
abbrev main_v91 : Ref sig .tc := ⟨.hbm, 115, rfl⟩
abbrev main_v92 : Ref sig .tc := ⟨.hbm, 116, rfl⟩
abbrev main_cst_5 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩

abbrev nD : Nat := 1
abbrev τ : Topo := Topo.v7x

variable {F : FTy → Type} [FloatOps F]

class Facts₀ : Prop where
  concatenates_S32x2048x64_S32x2048x64_S32x2048x128_d2 : Shape.Concatenates [S32x2048x64, S32x2048x64] S32x2048x128 2
  pads_S32x2048_S32x2056_000_800 : S32x2048.Pads (![0, 8] : Fin 2 → Nat) ![0, 0] ![0, 0] S32x2056
  h_S_ : 0 < S_.numel
  pads_S32x2048x128_S32x2056x128_000_800_000 : S32x2048x128.Pads (![0, 8, 0] : Fin 3 → Nat) ![0, 0, 0] ![0, 0, 0] S32x2056x128
  bcast_S_S_ : S_.BroadcastsInDim S_ (![] : Fin 0 → Fin S_.rank)
  slices_S32x2056_S32x2048_0_0 : S32x2056.Slices ![0, 0] S32x2048
  slices_S32x2056_S32x2048_0_1 : S32x2056.Slices ![0, 1] S32x2048
  slices_S32x2056_S32x2048_0_2 : S32x2056.Slices ![0, 2] S32x2048
  slices_S32x2056_S32x2048_0_3 : S32x2056.Slices ![0, 3] S32x2048
  slices_S32x2056_S32x2048_0_4 : S32x2056.Slices ![0, 4] S32x2048
  slices_S32x2056_S32x2048_0_5 : S32x2056.Slices ![0, 5] S32x2048
  slices_S32x2056_S32x2048_0_6 : S32x2056.Slices ![0, 6] S32x2048
  slices_S32x2056_S32x2048_0_7 : S32x2056.Slices ![0, 7] S32x2048
  slices_S32x2056_S32x2048_0_8 : S32x2056.Slices ![0, 8] S32x2048
  bcast_S32x2048_S32x1x2048_0_2 : S32x2048.BroadcastsInDim S32x1x2048 (![0, 2] : Fin 2 → Fin S32x1x2048.rank)
  concatenates_S32x1x2048_S32x1x2048_S32x1x2048_S32x1x2048_S32x1x2048_S32x1x2048_S32x1x2048_S32x1x2048_S32x1x2048_S32x9x2048_d1 : Shape.Concatenates [S32x1x2048, S32x1x2048, S32x1x2048, S32x1x2048, S32x1x2048, S32x1x2048, S32x1x2048, S32x1x2048, S32x1x2048] S32x9x2048 1
  slices_S32x2056x128_S32x2048x128_0_0_0 : S32x2056x128.Slices ![0, 0, 0] S32x2048x128
  slices_S32x2056x128_S32x2048x128_0_1_0 : S32x2056x128.Slices ![0, 1, 0] S32x2048x128
  slices_S32x2056x128_S32x2048x128_0_2_0 : S32x2056x128.Slices ![0, 2, 0] S32x2048x128
  slices_S32x2056x128_S32x2048x128_0_3_0 : S32x2056x128.Slices ![0, 3, 0] S32x2048x128
  slices_S32x2056x128_S32x2048x128_0_4_0 : S32x2056x128.Slices ![0, 4, 0] S32x2048x128
  slices_S32x2056x128_S32x2048x128_0_5_0 : S32x2056x128.Slices ![0, 5, 0] S32x2048x128
  slices_S32x2056x128_S32x2048x128_0_6_0 : S32x2056x128.Slices ![0, 6, 0] S32x2048x128
  slices_S32x2056x128_S32x2048x128_0_7_0 : S32x2056x128.Slices ![0, 7, 0] S32x2048x128
  slices_S32x2056x128_S32x2048x128_0_8_0 : S32x2056x128.Slices ![0, 8, 0] S32x2048x128
  bcast_S32x2048x128_S32x1x2048x128_0_2_3 : S32x2048x128.BroadcastsInDim S32x1x2048x128 (![0, 2, 3] : Fin 3 → Fin S32x1x2048x128.rank)
  concatenates_S32x1x2048x128_S32x1x2048x128_S32x1x2048x128_S32x1x2048x128_S32x1x2048x128_S32x1x2048x128_S32x1x2048x128_S32x1x2048x128_S32x1x2048x128_S32x9x2048x128_d1 : Shape.Concatenates [S32x1x2048x128, S32x1x2048x128, S32x1x2048x128, S32x1x2048x128, S32x1x2048x128, S32x1x2048x128, S32x1x2048x128, S32x1x2048x128, S32x1x2048x128] S32x9x2048x128 1
  bcast_S32x1x2048_S32x9x2048_0_1_2 : S32x1x2048.BroadcastsInDim S32x9x2048 (![0, 1, 2] : Fin 3 → Fin S32x9x2048.rank)
  bcast_S_S32x9x2048 : S_.BroadcastsInDim S32x9x2048 (![] : Fin 0 → Fin S32x9x2048.rank)
  bcast_S32x9x2048_S32x9x2048x1_0_1_2 : S32x9x2048.BroadcastsInDim S32x9x2048x1 (![0, 1, 2] : Fin 3 → Fin S32x9x2048x1.rank)
  bcast_S32x9x2048x1_S32x9x2048x128_0_1_2_3 : S32x9x2048x1.BroadcastsInDim S32x9x2048x128 (![0, 1, 2, 3] : Fin 4 → Fin S32x9x2048x128.rank)
  bcast_S_S32x9x2048x128 : S_.BroadcastsInDim S32x9x2048x128 (![] : Fin 0 → Fin S32x9x2048x128.rank)
  slices_S32x9x2048x128_S32x9x2048x64_0_0_0_0 : S32x9x2048x128.Slices ![0, 0, 0, 0] S32x9x2048x64
  slices_S32x9x2048x128_S32x9x2048x64_0_0_0_64 : S32x9x2048x128.Slices ![0, 0, 0, 64] S32x9x2048x64
  slices_S32x9x2048_S32x1x2047_0_7_1 : S32x9x2048.Slices ![0, 7, 1] S32x1x2047
  shapeCasts_S32x1x2047_S32x2047 : S32x1x2047.ShapeCasts S32x2047
  slices_S32x9x2048_S32x8x2048_0_0_0 : S32x9x2048.Slices ![0, 0, 0] S32x8x2048
  bcast_S32x8x2048_S32x8x2048x1_0_1_2 : S32x8x2048.BroadcastsInDim S32x8x2048x1 (![0, 1, 2] : Fin 3 → Fin S32x8x2048x1.rank)
  slices_S32x9x2048x64_S32x8x2048x64_0_0_0_0 : S32x9x2048x64.Slices ![0, 0, 0, 0] S32x8x2048x64
  bcast_S32x8x2048x1_S32x8x2048x64_0_1_2_3 : S32x8x2048x1.BroadcastsInDim S32x8x2048x64 (![0, 1, 2, 3] : Fin 4 → Fin S32x8x2048x64.rank)
  reducesTo_S32x8x2048x64_S32x2048x64_d1 : S32x8x2048x64.ReducesTo [1] S32x2048x64
  slices_S32x9x2048_S32x8x2047_0_1_0 : S32x9x2048.Slices ![0, 1, 0] S32x8x2047
  bcast_S32x8x2047_S32x8x2047x1_0_1_2 : S32x8x2047.BroadcastsInDim S32x8x2047x1 (![0, 1, 2] : Fin 3 → Fin S32x8x2047x1.rank)
  slices_S32x9x2048x64_S32x8x2047x64_0_1_0_0 : S32x9x2048x64.Slices ![0, 1, 0, 0] S32x8x2047x64
  bcast_S32x8x2047x1_S32x8x2047x64_0_1_2_3 : S32x8x2047x1.BroadcastsInDim S32x8x2047x64 (![0, 1, 2, 3] : Fin 4 → Fin S32x8x2047x64.rank)
  reducesTo_S32x8x2047x64_S32x2047x64_d1 : S32x8x2047x64.ReducesTo [1] S32x2047x64
  bcast_S32x2047x64_S32x2047x1x64_0_1_3 : S32x2047x64.BroadcastsInDim S32x2047x1x64 (![0, 1, 3] : Fin 3 → Fin S32x2047x1x64.rank)
  bcast_S32x2047_S32x2047x1x1_0_1 : S32x2047.BroadcastsInDim S32x2047x1x1 (![0, 1] : Fin 2 → Fin S32x2047x1x1.rank)
  bcast_S8_S1x1x8x1_2 : S8.BroadcastsInDim S1x1x8x1 (![2] : Fin 1 → Fin S1x1x8x1.rank)
  bcast_S32x2047x1x1_S32x2047x8x1_0_1_2_3 : S32x2047x1x1.BroadcastsInDim S32x2047x8x1 (![0, 1, 2, 3] : Fin 4 → Fin S32x2047x8x1.rank)
  bcast_S1x1x8x1_S32x2047x8x1_0_1_2_3 : S1x1x8x1.BroadcastsInDim S32x2047x8x1 (![0, 1, 2, 3] : Fin 4 → Fin S32x2047x8x1.rank)
  bcast_S32x2047x8x1_S32x2047x8x64_0_1_2_3 : S32x2047x8x1.BroadcastsInDim S32x2047x8x64 (![0, 1, 2, 3] : Fin 4 → Fin S32x2047x8x64.rank)
  bcast_S32x2047x1x64_S32x2047x8x64_0_1_2_3 : S32x2047x1x64.BroadcastsInDim S32x2047x8x64 (![0, 1, 2, 3] : Fin 4 → Fin S32x2047x8x64.rank)
  slices_S32x2048x64_S32x2047x64_0_0_0 : S32x2048x64.Slices ![0, 0, 0] S32x2047x64
  slices_S32x2048x64_S32x1x64_0_2047_0 : S32x2048x64.Slices ![0, 2047, 0] S32x1x64
  concatenates_S32x2047x1x64_S32x2047x8x64_S32x2047x9x64_d2 : Shape.Concatenates [S32x2047x1x64, S32x2047x8x64] S32x2047x9x64 2
  shapeCasts_S32x2047x9x64_S32x18423x64 : S32x2047x9x64.ShapeCasts S32x18423x64
  concatenates_S32x18423x64_S32x1x64_S32x18424x64_d1 : Shape.Concatenates [S32x18423x64, S32x1x64] S32x18424x64 1
  dot_S32x2048x64_S64x64_S32x2048x64_2_1_01_0_n_n_wf : DotDims.WF S32x2048x64 S64x64 S32x2048x64 [2] [1] [0, 1] [0] [] []
  dot_S32x2048x64_S64x64_S32x2048x64_2_0_01_1_n_n_wf : DotDims.WF S32x2048x64 S64x64 S32x2048x64 [2] [0] [0, 1] [1] [] []

variable [Facts₀]

def dot_S32x2048x64_S64x64_S32x2048x64_2_1_01_0_n_n : DotDims S32x2048x64 S64x64 S32x2048x64 where
  lhsContracting := [2]
  rhsContracting := [1]
  lhsNonContracting := [0, 1]
  rhsNonContracting := [0]
  lhsBatch := []
  rhsBatch := []
  wf := dot_S32x2048x64_S64x64_S32x2048x64_2_1_01_0_n_n_wf
def dot_S32x2048x64_S64x64_S32x2048x64_2_0_01_1_n_n : DotDims S32x2048x64 S64x64 S32x2048x64 where
  lhsContracting := [2]
  rhsContracting := [0]
  lhsNonContracting := [0, 1]
  rhsNonContracting := [1]
  lhsBatch := []
  rhsBatch := []
  wf := dot_S32x2048x64_S64x64_S32x2048x64_2_0_01_1_n_n_wf

class Facts : Prop extends Facts₀ where

variable [Facts]
-- ==== Proof.Pay.lean ====
/-
  What the windowed kernel's two stores write, as functions of the seven blocks its body loads: the body's arithmetic
  composed along its printed parts (the intermediate names are the printed program's).
-/
import proofs.«104800_j57621281243745_2_alg».proof.Proof.Gen.KernelIdeal.Skeleton

noncomputable section

namespace Cert.KernelIdeal.Hand

open Idealize.ShloMosaic
open Cert.KernelIdeal Cert.KernelIdeal.Gen

variable {F : FTy → Type} [FloatOps F]

/-- What the first store writes (row 0 of every nine): the sum over the eight earlier events, as the body computes it
    from the loaded blocks `v0 v2` (64 rows of projections and the 8 rows after), `v5 v7` (64 rows of times and the 16
    rows after), `v10 v12` (the mask, likewise). -/
def realPay (v0 : Vec F S32x64x128 .f32) (v2 : Vec F S32x8x128 .f32) (v5 : Vec F S32x64x1 .f32) (v7 : Vec F S32x16x1 .f32)
    (v10 : Vec F S32x64x1 .f32) (v12 : Vec F S32x16x1 .f32) : FVec F S32x64x1x64 .f32 :=
  let v4 := k1_pay4 v0 v2
  let v9 := k1_pay5 v5 v7
  let v14 := k1_pay6 v10 v12
  let v15 := k1_pay7 v5 v7
  let v17 := k1_pay9 v10 v12
  let v19 : FVec F S32x64x64 .f32 := k1_pay11 (F := F)
  let v90 := k1_pay29 v4 v9 v14 v15 v17 v19
  let v93 := k1_pay32 v4
  let v96 := k1_pay33 v14 v17
  let v97 := k1_pay34 v9 v15
  let v144 := k1_pay45 v4 v9 v14 v15 v17 v90 v93 v96 v97
  let v152 := k1_pay50 v9 v14 v15 v17
  let v155 := k1_pay51 v4 v14 v17
  let v156 := k1_pay52 v4
  let v157 := k1_pay53 v14 v17
  k1_pay3 v4 v9 v14 v15 v17 v144 v152 v155 v156 v157

/-- What the second store writes (rows 1 … 8 of every nine): the sum over the event and the seven before it, plus each
    sample of the gap to the next event times the summed linear projections; `v184` is the samples' block. -/
def simPay (v0 : Vec F S32x64x128 .f32) (v2 : Vec F S32x8x128 .f32) (v5 : Vec F S32x64x1 .f32) (v7 : Vec F S32x16x1 .f32)
    (v10 : Vec F S32x64x1 .f32) (v12 : Vec F S32x16x1 .f32) (v184 : Vec F S1x8 .f32) : FVec F S32x64x8x64 .f32 :=
  let v4 := k1_pay4 v0 v2
  let v9 := k1_pay5 v5 v7
  let v14 := k1_pay6 v10 v12
  let v15 := k1_pay7 v5 v7
  let v16 := k1_pay8 v5 v7
  let v17 := k1_pay9 v10 v12
  let v18 := k1_pay10 v10 v12
  let v21 : FVec F S32x64x64 .f32 := k1_pay12 (F := F)
  let v30 := k1_pay15 v0 v2 v10 v12
  let v37 := k1_pay16 v0 v2 v5 v7 v10 v12
  let v91 := k1_pay30 v4 v9 v14 v15 v17 v37
  let v92 := k1_pay31 v4 v14 v17 v21 v30
  let v93 := k1_pay32 v4
  let v96 := k1_pay33 v14 v17
  let v97 := k1_pay34 v9 v15
  let v145 := k1_pay46 v4 v9 v14 v15 v17 v91 v93 v96 v97
  let v146 := k1_pay47 v4 v14 v17 v92 v93 v96
  let v152 := k1_pay50 v9 v14 v15 v17
  let v155 := k1_pay51 v4 v14 v17
  let v156 := k1_pay52 v4
  let v157 := k1_pay53 v14 v17
  k1_pay2 v15 v16 v17 v18 v145 v146 v152 v155 v156 v157 v184

end Cert.KernelIdeal.Hand

end
-- ==== Proof.Data.lean ====
/-
  The two kernel regions' data, at a parameter `V` — the TensorCore's buffer contents when the region is entered:
  each window's block at a grid point as read off its array, what the body leaves in the output window's buffer as a
  function of the input blocks (the body's stores over the skeleton's payloads, last store first), and the proof data
  the pipeline rule is run with (the arrays as entered; after the body each input buffer at its block and the output
  buffer at that function of the blocks).

  Region 0 multiplies an 8192-row block of the flattened features by the whole 64 × 128 weight panel. Region 1 reads,
  at block `t`, 64 rows of the padded projections and the 8 rows that follow them, 64 rows of the padded times and of
  the padded mask and the 16 rows that follow each, and the samples, and writes 64 rows of nine output rows each:
  row 0 of every nine by one store, rows 1 … 8 by a second.
-/
import proofs.«104800_j57621281243745_2_alg».proof.Proof.Gen.KernelIdeal.Launch
import proofs.«104800_j57621281243745_2_alg».proof.Proof.Gen.KernelIdeal.Skeleton
import proofs.«104800_j57621281243745_2_alg».proof.Proof.Gen.KernelIdeal.Points
import proofs.«104800_j57621281243745_2_alg».proof.Proof.Pay
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## Region 0: the projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole feature block, the whole weight panel, the whole product block. -/
abbrev rFeat : Rect S8192x64 := Rect.unit (s := S8192x64) ![0, 0] S8192x64.size inb_S8192x64_S8192x64_0_0
abbrev rPanel : Rect S64x128 := Rect.unit (s := S64x128) ![0, 0] S64x128.size inb_S64x128_S64x128_0_0
abbrev rProd : Rect S8192x128 := Rect.unit (s := S8192x128) ![0, 0] S8192x128.size inb_S8192x128_S8192x128_0_0

/-- The product block the body stores, from the feature block and the weight panel. -/
def out0_2 (x0 : Vec F S8192x64 .f32) (x1 : Vec F S64x128 .f32) : Vec F S8192x128 .f32 :=
  View.canon [⟨rProd, k0_pay1 (View.ld x0 rFeat) (View.ld x1 rPanel)⟩]

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the windowed sums -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A 64-row window's block filled out to the buffer's full 64 rows. The padded arrays' row counts are no multiple of
    64, so the pipeline's description of these three windows allows a cut last block; on this grid no block is cut
    (`noclip1_W` below) and the filler is never read. -/
def cblk1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

/-- The whole of each input block. -/
abbrev rCur : Rect S32x64x128 := Rect.unit (s := S32x64x128) ![0, 0, 0] S32x64x128.size inb_S32x64x128_S32x64x128_0_0_0
abbrev rNext : Rect S32x8x128 := Rect.unit (s := S32x8x128) ![0, 0, 0] S32x8x128.size inb_S32x8x128_S32x8x128_0_0_0
abbrev rCol : Rect S32x64x1 := Rect.unit (s := S32x64x1) ![0, 0, 0] S32x64x1.size inb_S32x64x1_S32x64x1_0_0_0
abbrev rColNext : Rect S32x16x1 := Rect.unit (s := S32x16x1) ![0, 0, 0] S32x16x1.size inb_S32x16x1_S32x16x1_0_0_0
abbrev rSamples : Rect S1x8 := Rect.unit (s := S1x8) ![0, 0] S1x8.size inb_S1x8_S1x8_0_0
/-- Row 0 of every nine output rows, and rows 1 … 8. -/
abbrev rReal : Rect S32x64x9x64 := Rect.unit (s := S32x64x9x64) ![0, 0, 0, 0] S32x64x1x64.size inb_S32x64x9x64_S32x64x1x64_0_0_0_0
abbrev rSim : Rect S32x64x9x64 := Rect.unit (s := S32x64x9x64) ![0, 0, 1, 0] S32x64x8x64.size inb_S32x64x9x64_S32x64x8x64_0_0_1_0

/-- The output block the body leaves, from the seven input blocks: its two stores as pieces, last first. -/
def out1_7 (x0 : Vec F S32x64x128 .f32) (x1 : Vec F S32x8x128 .f32) (x2 : Vec F S32x64x1 .f32) (x3 : Vec F S32x16x1 .f32)
    (x4 : Vec F S32x64x1 .f32) (x5 : Vec F S32x16x1 .f32) (x6 : Vec F S1x8 .f32) : Vec F S32x64x9x64 .f32 :=
  View.canon
    [⟨rSim, simPay (View.ld x0 rCur) (View.ld x1 rNext) (View.ld x2 rCol) (View.ld x3 rColNext) (View.ld x4 rCol) (View.ld x5 rColNext) (View.ld x6 rSamples)⟩,
     ⟨rReal, realPay (View.ld x0 rCur) (View.ld x1 rNext) (View.ld x2 rCol) (View.ld x3 rColNext) (View.ld x4 rCol) (View.ld x5 rColNext)⟩]

/-- The share of its array each window of region 1 reads at: the projections, the times and the mask are each read by
    two windows, the left and the right half of the array's share; the samples by one, whole. -/
def q1 : Fin cfg1.W → PosShare TreeShare
  | ⟨0, _⟩ => fullShare.left | ⟨1, _⟩ => fullShare.right | ⟨2, _⟩ => fullShare.left | ⟨3, _⟩ => fullShare.right
  | ⟨4, _⟩ => fullShare.left | ⟨5, _⟩ => fullShare.right | ⟨6, _⟩ => fullShare | ⟨7, _⟩ => fullShare

/-- Region 1's proof data on core `c`. -/
def dat1 (c : Dev nD) : Dat τ (Elt F) Unit ℕ (UR sig nD τ) ℕ cfg1 c where
  A w := V c (Pipeline.arrRef spec1 w)
  after w t := match w with
    | ⟨0, _⟩ => cblk1 V c 0 t (fun _ => Scalar.ofBits .f32 0#32)
    | ⟨1, _⟩ => iblk1 V c 1 t
    | ⟨2, _⟩ => cblk1 V c 2 t (fun _ => Scalar.ofBits .f32 0#32)
    | ⟨3, _⟩ => iblk1 V c 3 t
    | ⟨4, _⟩ => cblk1 V c 4 t (fun _ => Scalar.ofBits .f32 0#32)
    | ⟨5, _⟩ => iblk1 V c 5 t
    | ⟨6, _⟩ => iblk1 V c 6 t
    | ⟨7, _⟩ => out1_7 (cblk1 V c 0 t (fun _ => Scalar.ofBits .f32 0#32)) (iblk1 V c 1 t) (cblk1 V c 2 t (fun _ => Scalar.ofBits .f32 0#32)) (iblk1 V c 3 t)
        (cblk1 V c 4 t (fun _ => Scalar.ofBits .f32 0#32)) (iblk1 V c 5 t) (iblk1 V c 6 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = cblk1 V c 0 t (fun _ => Scalar.ofBits .f32 0#32) := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = cblk1 V c 2 t (fun _ => Scalar.ofBits .f32 0#32) := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = cblk1 V c 4 t (fun _ => Scalar.ofBits .f32 0#32) := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (cblk1 V c 0 t (fun _ => Scalar.ofBits .f32 0#32)) (iblk1 V c 1 t) (cblk1 V c 2 t (fun _ => Scalar.ofBits .f32 0#32)) (iblk1 V c 3 t)
        (cblk1 V c 4 t (fun _ => Scalar.ofBits .f32 0#32)) (iblk1 V c 5 t) (iblk1 V c 6 t) := by dsimp only [dat1]

/-- On this grid no block of the three 64-row windows is cut. -/
theorem noclip1_0 : ∀ (t : Fin cfg1.N) (a), (cfg1.win 0).clip (cfg1.grid.coords t) a = none :=
  (by decide +kernel : ∀ (t : Fin grid1.N) (a), win1_0.clip (grid1.coords t) a = none)
theorem noclip1_2 : ∀ (t : Fin cfg1.N) (a), (cfg1.win 2).clip (cfg1.grid.coords t) a = none :=
  (by decide +kernel : ∀ (t : Fin grid1.N) (a), win1_2.clip (grid1.coords t) a = none)
theorem noclip1_4 : ∀ (t : Fin cfg1.N) (a), (cfg1.win 4).clip (cfg1.grid.coords t) a = none :=
  (by decide +kernel : ∀ (t : Fin grid1.N) (a), win1_4.clip (grid1.coords t) a = none)

end Cert.KernelIdeal.Hand

end
-- ==== Proof.Body0.lean ====
/-
  Region 0's body: at every grid point the kernel loads the feature block and the weight panel whole, multiplies them,
  and stores the product block whole. Its triple, what each input buffer holds when the body runs (its block, fetched
  at that point or — the weight panel — once at the first point and kept), and the pipeline rule's obligation at every
  point.
-/
import proofs.«104800_j57621281243745_2_alg».proof.Proof.Data
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's buffer holds the window's block when the body runs, fetched at that point or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The one store covers the product block. -/
theorem cover0_2 (p0 : Vec F S8192x128 .f32) (y : S8192x128.Idx) :
    ∃ pc ∈ ([⟨rProd, p0⟩] : List (View.Piece (Elt F) S8192x128 .f32)), y ∈ pc.1.set :=
  View.cover_of_tiled [⟨rProd, p0⟩] S8192x128.size (by rfl) y

set_option maxHeartbeats 1000000 in
/-- The body on whole staging buffers: the two inputs' at contents `x0`, `x1` and the output's at anything; it leaves the
    inputs as they were and the output at `out0_2 x0 x1`. -/
theorem sound_kernel0 (c : Dev nD) (E : Set ℕ) (i : grid0.Coords) (arg1 : Memref sig .tc .vmem S8192x64 .f32) (harg1 : arg1.IsWhole)
    (arg2 : Memref sig .tc .vmem S64x128 .f32) (harg2 : arg2.IsWhole) (arg3 : Memref sig .tc .vmem S8192x128 .f32) (harg3 : arg3.IsWhole)
    (x0 : Vec F S8192x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  Region 1's body: at every grid point the kernel loads its seven input blocks whole, computes the windowed sums, and
  writes the output block by two stores — row 0 of every nine, then rows 1 … 8. Its triple, what each input buffer
  holds when the body runs, and the pipeline rule's obligation at every point.
-/
import proofs.«104800_j57621281243745_2_alg».proof.Proof.Data
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input buffers hold when the body runs -/

/-- An uncut input window's buffer holds the window's block, fetched at that point or not. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- A 64-row window is fetched at every point, and no block is cut: the buffer holds the block, whatever it held before. -/
theorem before1_0 (c : Dev nD) (t : Fin cfg1.N) (d) : (dat1 V c).before 0 t d = cblk1 V c 0 t (fun _ => Scalar.ofBits .f32 0#32) :=
  ((dat1 V c).before_fetched 0 t (fetch1_0 t) d).trans
    (((dat1 V c).fetched_of_clip_none 0 t (noclip1_0 t) d (fun _ => Scalar.ofBits .f32 0#32)).trans (by unfold Dat.fetched Dat.blockOf cblk1 iblk1; rw [A_eq1]))
theorem before1_2 (c : Dev nD) (t : Fin cfg1.N) (d) : (dat1 V c).before 2 t d = cblk1 V c 2 t (fun _ => Scalar.ofBits .f32 0#32) :=
  ((dat1 V c).before_fetched 2 t (fetch1_2 t) d).trans
    (((dat1 V c).fetched_of_clip_none 2 t (noclip1_2 t) d (fun _ => Scalar.ofBits .f32 0#32)).trans (by unfold Dat.fetched Dat.blockOf cblk1 iblk1; rw [A_eq1]))
theorem before1_4 (c : Dev nD) (t : Fin cfg1.N) (d) : (dat1 V c).before 4 t d = cblk1 V c 4 t (fun _ => Scalar.ofBits .f32 0#32) :=
  ((dat1 V c).before_fetched 4 t (fetch1_4 t) d).trans
    (((dat1 V c).fetched_of_clip_none 4 t (noclip1_4 t) d (fun _ => Scalar.ofBits .f32 0#32)).trans (by unfold Dat.fetched Dat.blockOf cblk1 iblk1; rw [A_eq1]))

/-! ## The body's triple -/

/-- The two stores cover the output block: row 0 of every nine by the first, rows 1 … 8 by the second. -/
theorem cover1_7 (p1 : Vec F S32x64x8x64 .f32) (p0 : Vec F S32x64x1x64 .f32) (y : S32x64x9x64.Idx) :
    ∃ pc ∈ ([⟨rSim, p1⟩, ⟨rReal, p0⟩] : List (View.Piece (Elt F) S32x64x9x64 .f32)), y ∈ pc.1.set :=
  by
  have h0 : (y 0).val < 32 := (y 0).isLt
  have h1 : (y 1).val < 64 := (y 1).isLt
  have h2 : (y 2).val < 9 := (y 2).isLt
  have h3 : (y 3).val < 64 := (y 3).isLt
  by_cases h : (y 2).val = 0
  · have hm : y ∈ (rReal : Rect S32x64x9x64).set := by
      rw [Rect.mem_set_unit]; intro a
      match a with
      | ⟨0, _⟩ => exact ⟨Nat.zero_le _, (by omega : (y 0).val < 0 + 32)⟩
      | ⟨1, _⟩ => exact ⟨Nat.zero_le _, (by omega : (y 1).val < 0 + 64)⟩
      | ⟨2, _⟩ => exact ⟨Nat.zero_le _, (by omega : (y 2).val < 0 + 1)⟩
      | ⟨3, _⟩ => exact ⟨Nat.zero_le _, (by omega : (y 3).val < 0 + 64)⟩
    exact ⟨⟨rReal, p0⟩, List.mem_cons_of_mem _ (List.mem_singleton.mpr rfl), hm⟩
  · have hm : y ∈ (rSim : Rect S32x64x9x64).set := by
      rw [Rect.mem_set_unit]; intro a
      match a with
      | ⟨0, _⟩ => exact ⟨Nat.zero_le _, (by omega : (y 0).val < 0 + 32)⟩
      | ⟨1, _⟩ => exact ⟨Nat.zero_le _, (by omega : (y 1).val < 0 + 64)⟩
      | ⟨2, _⟩ => exact ⟨(by omega : 1 ≤ (y 2).val), (by omega : (y 2).val < 1 + 8)⟩
      | ⟨3, _⟩ => exact ⟨Nat.zero_le _, (by omega : (y 3).val < 0 + 64)⟩
    exact ⟨⟨rSim, p1⟩, List.mem_cons_self, hm⟩

set_option maxHeartbeats 4000000 in
/-- The body on whole staging buffers: the seven inputs' at contents `x0 … x6` and the output's at anything; it leaves
    the inputs as they were and the output at `out1_7 x0 … x6`. -/
theorem sound_kernel1 (c : Dev nD) (E : Set ℕ) (i : grid1.Coords)
    (arg1 : Memref sig .tc .vmem S32x64x128 .f32) (harg1 : arg1.IsWhole) (arg2 : Memref sig .tc .vmem S32x8x128 .f32) (harg2 : arg2.IsWhole)
    (arg3 : Memref sig .tc .vmem S32x64x1 .f32) (harg3 : arg3.IsWhole) (arg4 : Memref sig .tc .vmem S32x16x1 .f32) (harg4 : arg4.IsWhole)
    (arg5 : Memref sig .tc .vmem S32x64x1 .f32) (harg5 : arg5.IsWhole) (arg6 : Memref sig .tc .vmem S32x16x1 .f32) (harg6 : arg6.IsWhole)
    (arg7 : Memref sig .tc .vmem S1x8 .f32) (harg7 : arg7.IsWhole) (arg8 : Memref sig .tc .vmem S32x64x9x64 .f32) (harg8 : arg8.IsWhole)
    (x0 : Vec F S32x64x128 .f32) (x1 : Vec F S32x8x128 .f32) (x2 : Vec F S32x64x1 .f32) (x3 : Vec F S32x16x1 .f32)
    (x4 : Vec F S32x64x1 .f32) (x5 : Vec F S32x16x1 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__windowed_kernel i arg1 harg1 arg2 harg2 arg3 harg3 arg4 harg4 arg5 harg5 arg6 harg6 arg7 harg7 arg8 harg8) K := by
  simp only [cc1__windowed_kernel_eq_skeleton]; unfold cc1__windowed_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _ _)

/-! ## The obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (cblk1 V c 0 t (fun _ => Scalar.ofBits .f32 0#32)) (iblk1 V c 1 t) (cblk1 V c 2 t (fun _ => Scalar.ofBits .f32 0#32)) (iblk1 V c 3 t)
    (cblk1 V c 4 t (fun _ => Scalar.ofBits .f32 0#32)) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Fold.lean ====
/-
  The TensorCore's buffer contents at every boundary of the program's main function, as a fold from the launch memory:
  a stretch of host operations applies them in order; the projection region leaves its product array at what its
  write-backs make of it; the windowed region likewise its result array; every other buffer passes a region unchanged.
-/
import proofs.«104800_j57621281243745_2_alg».proof.Proof.Data
import Idealize.ShloMosaic.Lib.Pipeline.FrameSuffix

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the weight panel is assembled and the features flattened (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: the product array at what the write-backs leave, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After each of the seven host stretches between the regions (reshape, the three paddings with their operands, the
    samples' reshape). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
abbrev V9 : (c : Dev nD) → (b : Ref sig .tc) → Buf (Elt F) ((c : Thread nD τ).loc b) := fun c b => W9 m c b
/-- At region 1's exit: the result array at what the write-backs leave, every other buffer as entered. -/
def W10 (c : Dev nD) : Valuation τ sig (Elt F) :=
  Function.update (W9 m c) (Proc.devRef .tc main_v12) ((dat1 (V9 m) c).arrAt 7 cfg1.N)
abbrev V10 : (c : Dev nD) → (b : Ref sig .tc) → Buf (Elt F) ((c : Thread nD τ).loc b) := fun c b => W10 m c b
/-- After the closing host operations (the two slices, their reshapes, the concatenation). -/
abbrev W11 : Dev nD → Valuation τ sig (Elt F) := fun c => StableHlo.after hostOps2 (W10 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W10_out (c : Dev nD) : W10 m c (Proc.devRef .tc main_v12) = (dat1 (V9 m) c).arrAt 7 cfg1.N := by
  unfold W10; exact Function.update_self ..
theorem W10_of_ne (c : Dev nD) (b : Ref sig .tc) (hb : b ≠ main_v12) :
    W10 m c (Proc.devRef .tc b) = W9 m c (Proc.devRef .tc b) := by
  unfold W10; exact Function.update_of_ne (StableHlo.devRef_ne_of_ne hb) ..

end Cert.KernelIdeal.Hand

end
-- ==== Proof.Run.lean ====
/-
  The run of the whole program: its main function as eleven segments — nine stretches of host operations and the two
  kernel regions — composed by the several-regions launch rule. Between two segments a core holds every unscoped buffer
  whole at the boundary's contents (the fold of Fold.lean), its generator register at some state, and owes nothing.
  A region takes its windows' arrays out of those buffers at entry and puts them back at exit: the projection region's
  three arrays are distinct buffers; the windowed region reads the padded projections, the padded times and the padded
  mask through two windows each, so each of those three buffers is split into the left and right halves of its share
  at entry and joined again at exit (both halves hold the same contents: no input array is written).
  Every weakly fair execution then terminates, and the final memory holds every unscoped buffer at the last contents of
  the fold — in particular each argument as launched, and the result at the fold's value.
-/
import proofs.«104800_j57621281243745_2_alg».proof.Proof.Body0
import proofs.«104800_j57621281243745_2_alg».proof.Proof.Body1
import proofs.«104800_j57621281243745_2_alg».proof.Proof.Fold
import proofs.«104800_j57621281243745_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 1's arrays and the buffers behind them -/

section Shared

variable (V : (c : Dev nD) → (b : Ref sig .tc) → Buf (Elt F) ((c : Thread nD τ).loc b))

/-- The five buffers behind region 1's eight windows, one by one. -/
theorem bigSep_arr1 {M : Type} [URA M] (Φ : Ref sig .tc → sProp M) :
    bigSep (Finset.univ.image (Pipeline.arrRef spec1)) Φ = iprop(Φ main_v5 ∗ Φ main_v8 ∗ Φ main_v10 ∗ Φ main_v11 ∗ Φ main_v12) :=
  bigSep_eq_bigSepL_of_eq [main_v5, main_v8, main_v10, main_v11, main_v12] (by decide) (by decide) Φ

/-! Each window's array of region 1 as the points-to of the buffer behind it, at the window's share (the padded
    projections, times and mask are each read by two windows: the left and the right half of the buffer's share), at entry
    (the entry contents) and at exit (an input array is never written; the result array holds what its write-backs left). -/
theorem ptIn_0 (c : Dev nD) :
    ((cfg1.win 0).arr.view.loc (c : Thread nD τ) ↦[(cfg1.win 0).arr.view.set]{(dat1 V c).share 0} (dat1 V c).arrAt 0 0 : sProp 𝕄)
      = ((c : Thread nD τ).loc main_v5 ↦{fullShare.left} V c main_v5) := by
  rw [(arr_whole1 0).set_eq_univ]
  exact congrArg (fun f : Buf (Elt F) ((c : Thread nD τ).loc main_v5) => (((c : Thread nD τ).loc main_v5 ↦{fullShare.left} f : sProp 𝕄))) (A_eq1 V c 0)
theorem ptOut_0 (c : Dev nD) :
    ((cfg1.win 0).arr.view.loc (c : Thread nD τ) ↦[(cfg1.win 0).arr.view.set]{(dat1 V c).share 0} (dat1 V c).arrAt 0 cfg1.N : sProp 𝕄)
      = ((c : Thread nD τ).loc main_v5 ↦{fullShare.left} V c main_v5) := by
  rw [(arr_whole1 0).set_eq_univ]
  exact congrArg (fun f : Buf (Elt F) ((c : Thread nD τ).loc main_v5) => (((c : Thread nD τ).loc main_v5 ↦{fullShare.left} f : sProp 𝕄)))
    (((dat1 V c).arrAt_in 0 rfl cfg1.N).trans (A_eq1 V c 0))
theorem ptIn_1 (c : Dev nD) :
    ((cfg1.win 1).arr.view.loc (c : Thread nD τ) ↦[(cfg1.win 1).arr.view.set]{(dat1 V c).share 1} (dat1 V c).arrAt 1 0 : sProp 𝕄)
      = ((c : Thread nD τ).loc main_v5 ↦{fullShare.right} V c main_v5) := by
  rw [(arr_whole1 1).set_eq_univ]
  exact congrArg (fun f : Buf (Elt F) ((c : Thread nD τ).loc main_v5) => (((c : Thread nD τ).loc main_v5 ↦{fullShare.right} f : sProp 𝕄))) (A_eq1 V c 1)
theorem ptOut_1 (c : Dev nD) :
    ((cfg1.win 1).arr.view.loc (c : Thread nD τ) ↦[(cfg1.win 1).arr.view.set]{(dat1 V c).share 1} (dat1 V c).arrAt 1 cfg1.N : sProp 𝕄)
      = ((c : Thread nD τ).loc main_v5 ↦{fullShare.right} V c main_v5) := by
  rw [(arr_whole1 1).set_eq_univ]
  exact congrArg (fun f : Buf (Elt F) ((c : Thread nD τ).loc main_v5) => (((c : Thread nD τ).loc main_v5 ↦{fullShare.right} f : sProp 𝕄)))
    (((dat1 V c).arrAt_in 1 rfl cfg1.N).trans (A_eq1 V c 1))
theorem ptIn_2 (c : Dev nD) :
    ((cfg1.win 2).arr.view.loc (c : Thread nD τ) ↦[(cfg1.win 2).arr.view.set]{(dat1 V c).share 2} (dat1 V c).arrAt 2 0 : sProp 𝕄)
      = ((c : Thread nD τ).loc main_v8 ↦{fullShare.left} V c main_v8) := by
  rw [(arr_whole1 2).set_eq_univ]
  exact congrArg (fun f : Buf (Elt F) ((c : Thread nD τ).loc main_v8) => (((c : Thread nD τ).loc main_v8 ↦{fullShare.left} f : sProp 𝕄))) (A_eq1 V c 2)
theorem ptOut_2 (c : Dev nD) :
    ((cfg1.win 2).arr.view.loc (c : Thread nD τ) ↦[(cfg1.win 2).arr.view.set]{(dat1 V c).share 2} (dat1 V c).arrAt 2 cfg1.N : sProp 𝕄)
      = ((c : Thread nD τ).loc main_v8 ↦{fullShare.left} V c main_v8) := by
  rw [(arr_whole1 2).set_eq_univ]
  exact congrArg (fun f : Buf (Elt F) ((c : Thread nD τ).loc main_v8) => (((c : Thread nD τ).loc main_v8 ↦{fullShare.left} f : sProp 𝕄)))
    (((dat1 V c).arrAt_in 2 rfl cfg1.N).trans (A_eq1 V c 2))
theorem ptIn_3 (c : Dev nD) :
    ((cfg1.win 3).arr.view.loc (c : Thread nD τ) ↦[(cfg1.win 3).arr.view.set]{(dat1 V c).share 3} (dat1 V c).arrAt 3 0 : sProp 𝕄)
      = ((c : Thread nD τ).loc main_v8 ↦{fullShare.right} V c main_v8) := by
  rw [(arr_whole1 3).set_eq_univ]
  exact congrArg (fun f : Buf (Elt F) ((c : Thread nD τ).loc main_v8) => (((c : Thread nD τ).loc main_v8 ↦{fullShare.right} f : sProp 𝕄))) (A_eq1 V c 3)
theorem ptOut_3 (c : Dev nD) :
    ((cfg1.win 3).arr.view.loc (c : Thread nD τ) ↦[(cfg1.win 3).arr.view.set]{(dat1 V c).share 3} (dat1 V c).arrAt 3 cfg1.N : sProp 𝕄)
      = ((c : Thread nD τ).loc main_v8 ↦{fullShare.right} V c main_v8) := by
  rw [(arr_whole1 3).set_eq_univ]
  exact congrArg (fun f : Buf (Elt F) ((c : Thread nD τ).loc main_v8) => (((c : Thread nD τ).loc main_v8 ↦{fullShare.right} f : sProp 𝕄)))
    (((dat1 V c).arrAt_in 3 rfl cfg1.N).trans (A_eq1 V c 3))
theorem ptIn_4 (c : Dev nD) :
    ((cfg1.win 4).arr.view.loc (c : Thread nD τ) ↦[(cfg1.win 4).arr.view.set]{(dat1 V c).share 4} (dat1 V c).arrAt 4 0 : sProp 𝕄)
      = ((c : Thread nD τ).loc main_v10 ↦{fullShare.left} V c main_v10) := by
  rw [(arr_whole1 4).set_eq_univ]
  exact congrArg (fun f : Buf (Elt F) ((c : Thread nD τ).loc main_v10) => (((c : Thread nD τ).loc main_v10 ↦{fullShare.left} f : sProp 𝕄))) (A_eq1 V c 4)
theorem ptOut_4 (c : Dev nD) :
    ((cfg1.win 4).arr.view.loc (c : Thread nD τ) ↦[(cfg1.win 4).arr.view.set]{(dat1 V c).share 4} (dat1 V c).arrAt 4 cfg1.N : sProp 𝕄)
      = ((c : Thread nD τ).loc main_v10 ↦{fullShare.left} V c main_v10) := by
  rw [(arr_whole1 4).set_eq_univ]
  exact congrArg (fun f : Buf (Elt F) ((c : Thread nD τ).loc main_v10) => (((c : Thread nD τ).loc main_v10 ↦{fullShare.left} f : sProp 𝕄)))
    (((dat1 V c).arrAt_in 4 rfl cfg1.N).trans (A_eq1 V c 4))
theorem ptIn_5 (c : Dev nD) :
    ((cfg1.win 5).arr.view.loc (c : Thread nD τ) ↦[(cfg1.win 5).arr.view.set]{(dat1 V c).share 5} (dat1 V c).arrAt 5 0 : sProp 𝕄)
      = ((c : Thread nD τ).loc main_v10 ↦{fullShare.right} V c main_v10) := by
  rw [(arr_whole1 5).set_eq_univ]
  exact congrArg (fun f : Buf (Elt F) ((c : Thread nD τ).loc main_v10) => (((c : Thread nD τ).loc main_v10 ↦{fullShare.right} f : sProp 𝕄))) (A_eq1 V c 5)
theorem ptOut_5 (c : Dev nD) :
    ((cfg1.win 5).arr.view.loc (c : Thread nD τ) ↦[(cfg1.win 5).arr.view.set]{(dat1 V c).share 5} (dat1 V c).arrAt 5 cfg1.N : sProp 𝕄)
      = ((c : Thread nD τ).loc main_v10 ↦{fullShare.right} V c main_v10) := by
  rw [(arr_whole1 5).set_eq_univ]
  exact congrArg (fun f : Buf (Elt F) ((c : Thread nD τ).loc main_v10) => (((c : Thread nD τ).loc main_v10 ↦{fullShare.right} f : sProp 𝕄)))
    (((dat1 V c).arrAt_in 5 rfl cfg1.N).trans (A_eq1 V c 5))
theorem ptIn_6 (c : Dev nD) :
    ((cfg1.win 6).arr.view.loc (c : Thread nD τ) ↦[(cfg1.win 6).arr.view.set]{(dat1 V c).share 6} (dat1 V c).arrAt 6 0 : sProp 𝕄)
      = ((c : Thread nD τ).loc main_v11 ↦{fullShare} V c main_v11) := by
  rw [(arr_whole1 6).set_eq_univ]
  exact congrArg (fun f : Buf (Elt F) ((c : Thread nD τ).loc main_v11) => (((c : Thread nD τ).loc main_v11 ↦{fullShare} f : sProp 𝕄))) (A_eq1 V c 6)
theorem ptOut_6 (c : Dev nD) :
    ((cfg1.win 6).arr.view.loc (c : Thread nD τ) ↦[(cfg1.win 6).arr.view.set]{(dat1 V c).share 6} (dat1 V c).arrAt 6 cfg1.N : sProp 𝕄)
      = ((c : Thread nD τ).loc main_v11 ↦{fullShare} V c main_v11) := by
  rw [(arr_whole1 6).set_eq_univ]
  exact congrArg (fun f : Buf (Elt F) ((c : Thread nD τ).loc main_v11) => (((c : Thread nD τ).loc main_v11 ↦{fullShare} f : sProp 𝕄)))
    (((dat1 V c).arrAt_in 6 rfl cfg1.N).trans (A_eq1 V c 6))
theorem ptIn_7 (c : Dev nD) :
    ((cfg1.win 7).arr.view.loc (c : Thread nD τ) ↦[(cfg1.win 7).arr.view.set]{(dat1 V c).share 7} (dat1 V c).arrAt 7 0 : sProp 𝕄)
      = ((c : Thread nD τ).loc main_v12 ↦{fullShare} V c main_v12) := by
  rw [(arr_whole1 7).set_eq_univ]
  exact congrArg (fun f : Buf (Elt F) ((c : Thread nD τ).loc main_v12) => (((c : Thread nD τ).loc main_v12 ↦{fullShare} f : sProp 𝕄))) (A_eq1 V c 7)
theorem ptOut_7 (c : Dev nD) :
    ((cfg1.win 7).arr.view.loc (c : Thread nD τ) ↦[(cfg1.win 7).arr.view.set]{(dat1 V c).share 7} (dat1 V c).arrAt 7 cfg1.N : sProp 𝕄)
      = ((c : Thread nD τ).loc main_v12 ↦{fullShare} (dat1 V c).arrAt 7 cfg1.N) := by
  rw [(arr_whole1 7).set_eq_univ]; rfl

/-- ENTRY: the five buffers behind region 1's eight windows, each whole at the entry contents, are the windows' arrays at
    entry — the three buffers two windows read split into the halves of their share. -/
theorem split1 (c : Dev nD) :
    (Pipeline.arrBufs spec1 c (V c) : sProp 𝕄) ⊢ (dat1 V c).arrays ((dat1 V c).arrAt · 0) := by
  unfold Pipeline.arrBufs Dat.arrays
  rw [bigSep_arr1, bigSep_W1, ptIn_0, ptIn_1, ptIn_2, ptIn_3, ptIn_4, ptIn_5, ptIn_6, ptIn_7]
  iintro ⟨H5, H8, H10, H11, H12⟩
  ihave H5' := (pointsTo_share (PosShare.mem_left_op_right fullShare)).1 $$ H5
  icases H5' with ⟨H5a, H5b⟩
  ihave H8' := (pointsTo_share (PosShare.mem_left_op_right fullShare)).1 $$ H8
  icases H8' with ⟨H8a, H8b⟩
  ihave H10' := (pointsTo_share (PosShare.mem_left_op_right fullShare)).1 $$ H10
  icases H10' with ⟨H10a, H10b⟩
  isplitl [H5a]; · iexact H5a
  isplitl [H5b]; · iexact H5b
  isplitl [H8a]; · iexact H8a
  isplitl [H8b]; · iexact H8b
  isplitl [H10a]; · iexact H10a
  isplitl [H10b]; · iexact H10b
  isplitl [H11]; · iexact H11
  iexact H12

/-- EXIT: the windows' arrays after the last write-back are the five buffers whole again, at any contents `V'` that
    agree with the entry contents on the four input buffers and hold the write-backs' result at the result buffer. -/
theorem join1 (c : Dev nD) (V' : (b : Ref sig .tc) → Buf (Elt F) ((c : Thread nD τ).loc b))
    (h5 : V' main_v5 = V c main_v5) (h8 : V' main_v8 = V c main_v8) (h10 : V' main_v10 = V c main_v10)
    (h11 : V' main_v11 = V c main_v11) (hout : V' main_v12 = (dat1 V c).arrAt 7 cfg1.N) :
    (dat1 V c).arrays ((dat1 V c).arrAt · cfg1.N) ⊢ (Pipeline.arrBufs spec1 c V' : sProp 𝕄) := by
  unfold Pipeline.arrBufs Dat.arrays
  rw [bigSep_arr1, bigSep_W1, ptOut_0, ptOut_1, ptOut_2, ptOut_3, ptOut_4, ptOut_5, ptOut_6, ptOut_7, h5, h8, h10, h11, hout]
  iintro ⟨H5a, H5b, H8a, H8b, H10a, H10b, H11, H12⟩
  ihave H5 := (pointsTo_share (PosShare.mem_left_op_right fullShare)).2 $$ [H5a H5b]
  · isplitl [H5a]; · iexact H5a
    iexact H5b
  ihave H8 := (pointsTo_share (PosShare.mem_left_op_right fullShare)).2 $$ [H8a H8b]
  · isplitl [H8a]; · iexact H8a
    iexact H8b
  ihave H10 := (pointsTo_share (PosShare.mem_left_op_right fullShare)).2 $$ [H10a H10b]
  · isplitl [H10a]; · iexact H10a
    iexact H10b
  isplitl [H5]; · iexact H5
  isplitl [H8]; · iexact H8
  isplitl [H10]; · iexact H10
  isplitl [H11]; · iexact H11
  iexact H12

end Shared

variable (m : (ℓ : Loc nD τ sig) → Buf (Elt F) ℓ) (ρ : Dev nD → PrngReg)

/-! ## The proof data family and the thread state -/

/-- At region 0's exit each of its arrays holds what the pipeline leaves and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W9`, left at `W10`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsp := Pipeline.unscopedBufs_split₀ (Ix := Unit) (Name := ℕ) (U := UR sig nD τ) (Lvl := ℕ) (Val := Elt F) cfgs 1 winFacts₀1.arr_unscoped c (V9 m c)
    rw [Pipeline.unscopedBufs_held] at hsp
    have hsp' : (StableHlo.held (c : Thread nD τ) (Pipeline.ucRefs τ sig) (W9 m c) : sProp 𝕄)
        ⊢ iprop(Pipeline.arrBufs spec1 c (V9 m c) ∗ Pipeline.unscopedRest spec1 c (V9 m c)) := Entails.of_eq hsp
    iintro ⟨⟨Hub, Hp, HO⟩, -, -⟩
    ihave Hub' := hsp' $$ Hub
    icases Hub' with ⟨Hb, Hrest⟩
    ihave Ha := (split1 (V9 m) c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Val := Elt F) cfgs 1 winFacts₀1.arr_unscoped c (V10 m c)
    rw [Pipeline.unscopedBufs_held] at hsp
    have hrest : (Pipeline.unscopedRest (Ix := Unit) (Name := ℕ) (U := UR sig nD τ) (Lvl := ℕ) spec1 c (V9 m c) : sProp 𝕄)
        = Pipeline.unscopedRest spec1 c (V10 m c) := by
      unfold Pipeline.unscopedRest
      exact bigSep_congr fun b hb => by
        rw [show V10 m c b = V9 m c b from W10_of_ne m c b fun e => (Finset.mem_sdiff.mp hb).2 (Finset.mem_image.mpr ⟨7, Finset.mem_univ _, e ▸ rfl⟩)]
    iintro ⟨Ha, HO, HY, Hrest⟩
    imodintro
    isplitl [Ha Hrest]
    · iapply (show iprop(Pipeline.arrBufs spec1 c (V10 m c) ∗ Pipeline.unscopedRest spec1 c (V10 m c))
          ⊢ (StableHlo.held (c : Thread nD τ) (Pipeline.ucRefs τ sig) (W10 m c) : sProp 𝕄) from Entails.of_eq hsp.symm)
      isplitl [Ha]
      · iapply (join1 (V9 m) c (V10 m c) (W10_of_ne m c main_v5 (by decide)) (W10_of_ne m c main_v8 (by decide)) (W10_of_ne m c main_v10 (by decide))
          (W10_of_ne m c main_v11 (by decide)) (W10_out m c)); iexact Ha
      iapply (show (Pipeline.unscopedRest spec1 c (V9 m c) : sProp 𝕄) ⊢ Pipeline.unscopedRest spec1 c (V10 m c) from Entails.of_eq hrest)
      iexact Hrest
    isplitl [HY]; · iexact HY
    unfold Pipeline.Dat.owesAt Pipeline.owesWithin
    icases HO with ⟨%W, -, HO⟩; iexists W; iexact HO

/-! ## The main function as segments, and the launch -/

/-- The eleven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .region (reg1 m),
    .host (hseg hostOps2 hostOps2_sub hostOps2_fresh (W10 m)) ]

/-- The main function IS the run of the segments. -/
theorem main_run (c : Dev nD) : main (F := F) c = Pipeline.Seg.run (segs m) := (main_chain c).trans (by chain_rfl)

set_option backward.isDefEq.respectTransparency.types false in
/-- THE RUN: from any memory with zero counters every weakly fair execution of the main function terminates, nothing
    faulting, and the final memory holds every unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c =>
        (show iprop(StableHlo.held (c : Thread nD τ) (Pipeline.ucRefs τ sig) (W11 m c) ∗ R c)
            ⊢ (iprop(Tₙ m c ∗ ∃ W, owes (c : Thread nD τ) (0 : CellTallies nD τ sig Unit) W) : sProp 𝕄) from by
          iintro ⟨Hh, Hp, HO⟩
          isplitl [Hh Hp]
          · isplitl [Hh]; · iexact Hh
            iexact Hp
          iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.Hand

end
-- ==== Proof.Frame.lean ====
/-
  What the run leaves: every argument array as launched — no host operation writes an argument and no region's
  write-backs touch one, so the fold of the buffer contents walks back to the launch memory at an argument's buffer —
  and the result array at the fold's last value.
-/
import proofs.«104800_j57621281243745_2_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no stretch of host operations writes and no region's write-backs touch holds its launch contents at the end. -/
theorem W11_keep (c : Dev nD) (r : Ref sig .tc) (h0 : r ∉ hostOps0_W) (hr0 : ∀ w, Pipeline.arrRef spec0 w ≠ r)
    (h1 : r ∉ hostOps1_W) (h11 : r ∉ hostOps1_1_W) (h12 : r ∉ hostOps1_2_W) (h13 : r ∉ hostOps1_3_W) (h14 : r ∉ hostOps1_4_W)
    (h15 : r ∉ hostOps1_5_W) (h16 : r ∉ hostOps1_6_W) (hr1 : r ≠ main_v12) (h2 : r ∉ hostOps2_W) :
    W11 m c (Proc.devRef .tc r) = m ((c : Thread nD τ).loc r) :=
  (StableHlo.after_of_writes_sub hostOps2 _ hostOps2_writes h2).trans <|
  (W10_of_ne m c r hr1).trans <|
  (StableHlo.after_of_writes_sub hostOps1_6 _ hostOps1_6_writes h16).trans <|
  (StableHlo.after_of_writes_sub hostOps1_5 _ hostOps1_5_writes h15).trans <|
  (StableHlo.after_of_writes_sub hostOps1_4 _ hostOps1_4_writes h14).trans <|
  (StableHlo.after_of_writes_sub hostOps1_3 _ hostOps1_3_writes h13).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  (W2_of_ne m c r hr0).trans <|
  (StableHlo.after_of_writes_sub hostOps0 _ hostOps0_writes h0).trans rfl

theorem W11_main_arg0 (c : Dev nD) : W11 m c (Proc.devRef .tc main_arg0) = m ((c : Thread nD τ).loc main_arg0) :=
  W11_keep m c main_arg0 (by decide) (by decide) (by decide) (by decide) (by decide) (by decide) (by decide) (by decide) (by decide) (by decide) (by decide)
theorem W11_main_arg1 (c : Dev nD) : W11 m c (Proc.devRef .tc main_arg1) = m ((c : Thread nD τ).loc main_arg1) :=
  W11_keep m c main_arg1 (by decide) (by decide) (by decide) (by decide) (by decide) (by decide) (by decide) (by decide) (by decide) (by decide) (by decide)
theorem W11_main_arg2 (c : Dev nD) : W11 m c (Proc.devRef .tc main_arg2) = m ((c : Thread nD τ).loc main_arg2) :=
  W11_keep m c main_arg2 (by decide) (by decide) (by decide) (by decide) (by decide) (by decide) (by decide) (by decide) (by decide) (by decide) (by decide)
theorem W11_main_arg3 (c : Dev nD) : W11 m c (Proc.devRef .tc main_arg3) = m ((c : Thread nD τ).loc main_arg3) :=
  W11_keep m c main_arg3 (by decide) (by decide) (by decide) (by decide) (by decide) (by decide) (by decide) (by decide) (by decide) (by decide) (by decide)
theorem W11_main_arg4 (c : Dev nD) : W11 m c (Proc.devRef .tc main_arg4) = m ((c : Thread nD τ).loc main_arg4) :=
  W11_keep m c main_arg4 (by decide) (by decide) (by decide) (by decide) (by decide) (by decide) (by decide) (by decide) (by decide) (by decide) (by decide)
theorem W11_main_arg5 (c : Dev nD) : W11 m c (Proc.devRef .tc main_arg5) = m ((c : Thread nD τ).loc main_arg5) :=
  W11_keep m c main_arg5 (by decide) (by decide) (by decide) (by decide) (by decide) (by decide) (by decide) (by decide) (by decide) (by decide) (by decide)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c)⟩) (run_all m ρ)

/-- THE RUN WITH ITS RESULT: moreover the result array ends at the fold's last value. -/
theorem run_value : θ_run defs (onTc (τ := τ) (main (F := F))) ⟨m, fun _ => 0, ρ⟩ (fun r => ∀ c : Dev nD,
      r.2.mem ((c.tc : Thread nD τ).loc main_v18) = W11 m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v18 (by decide)),
     (h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c)⟩) (run_all m ρ)

end Cert.KernelIdeal.Hand

end
-- ==== Proof.KPay.lean ====
/-
  What the windowed kernel's two stores write, as functions of the seven blocks its body loads: the body's arithmetic
  composed along its printed parts (the intermediate names are the printed program's).
-/
import proofs.«104800_j57621281243745_2_alg».proof.Proof.Gen.Kernel.Skeleton

noncomputable section

namespace Cert.Kernel.Hand

open Idealize.ShloMosaic
open Cert.Kernel Cert.Kernel.Gen

variable {F : FTy → Type} [FloatOps F]

/-- What the first store writes (row 0 of every nine): the sum over the eight earlier events, as the body computes it
    from the loaded blocks `v0 v2` (64 rows of projections and the 8 rows after), `v5 v7` (64 rows of times and the 16
    rows after), `v10 v12` (the mask, likewise). -/
def realPay (v0 : Vec F S32x64x128 .f32) (v2 : Vec F S32x8x128 .f32) (v5 : Vec F S32x64x1 .f32) (v7 : Vec F S32x16x1 .f32)
    (v10 : Vec F S32x64x1 .f32) (v12 : Vec F S32x16x1 .f32) : FVec F S32x64x1x64 .f32 :=
  let v4 := k1_pay4 v0 v2
  let v9 := k1_pay5 v5 v7
  let v14 := k1_pay6 v10 v12
  let v15 := k1_pay7 v5 v7
  let v17 := k1_pay9 v10 v12
  let v19 : FVec F S32x64x64 .f32 := k1_pay11 (F := F)
  let v90 := k1_pay29 v4 v9 v14 v15 v17 v19
  let v93 := k1_pay32 v4
  let v96 := k1_pay33 v14 v17
  let v97 := k1_pay34 v9 v15
  let v144 := k1_pay45 v4 v9 v14 v15 v17 v90 v93 v96 v97
  let v152 := k1_pay50 v9 v14 v15 v17
  let v155 := k1_pay51 v4 v14 v17
  let v156 := k1_pay52 v4
  let v157 := k1_pay53 v14 v17
  k1_pay3 v4 v9 v14 v15 v17 v144 v152 v155 v156 v157

/-- What the second store writes (rows 1 … 8 of every nine): the sum over the event and the seven before it, plus each
    sample of the gap to the next event times the summed linear projections; `v184` is the samples' block. -/
def simPay (v0 : Vec F S32x64x128 .f32) (v2 : Vec F S32x8x128 .f32) (v5 : Vec F S32x64x1 .f32) (v7 : Vec F S32x16x1 .f32)
    (v10 : Vec F S32x64x1 .f32) (v12 : Vec F S32x16x1 .f32) (v184 : Vec F S1x8 .f32) : FVec F S32x64x8x64 .f32 :=
  let v4 := k1_pay4 v0 v2
  let v9 := k1_pay5 v5 v7
  let v14 := k1_pay6 v10 v12
  let v15 := k1_pay7 v5 v7
  let v16 := k1_pay8 v5 v7
  let v17 := k1_pay9 v10 v12
  let v18 := k1_pay10 v10 v12
  let v21 : FVec F S32x64x64 .f32 := k1_pay12 (F := F)
  let v30 := k1_pay15 v0 v2 v10 v12
  let v37 := k1_pay16 v0 v2 v5 v7 v10 v12
  let v91 := k1_pay30 v4 v9 v14 v15 v17 v37
  let v92 := k1_pay31 v4 v14 v17 v21 v30
  let v93 := k1_pay32 v4
  let v96 := k1_pay33 v14 v17
  let v97 := k1_pay34 v9 v15
  let v145 := k1_pay46 v4 v9 v14 v15 v17 v91 v93 v96 v97
  let v146 := k1_pay47 v4 v14 v17 v92 v93 v96
  let v152 := k1_pay50 v9 v14 v15 v17
  let v155 := k1_pay51 v4 v14 v17
  let v156 := k1_pay52 v4
  let v157 := k1_pay53 v14 v17
  k1_pay2 v15 v16 v17 v18 v145 v146 v152 v155 v156 v157 v184

end Cert.Kernel.Hand

end
-- ==== Proof.KData.lean ====
/-
  The two kernel regions' data, at a parameter `V` — the TensorCore's buffer contents when the region is entered:
  each window's block at a grid point as read off its array, what the body leaves in the output window's buffer as a
  function of the input blocks (the body's stores over the skeleton's payloads, last store first), and the proof data
  the pipeline rule is run with (the arrays as entered; after the body each input buffer at its block and the output
  buffer at that function of the blocks).

  Region 0 multiplies an 8192-row block of the flattened features by the whole 64 × 128 weight panel. Region 1 reads,
  at block `t`, 64 rows of the padded projections and the 8 rows that follow them, 64 rows of the padded times and of
  the padded mask and the 16 rows that follow each, and the samples, and writes 64 rows of nine output rows each:
  row 0 of every nine by one store, rows 1 … 8 by a second.
-/
import proofs.«104800_j57621281243745_2_alg».proof.Proof.Gen.Kernel.Launch
import proofs.«104800_j57621281243745_2_alg».proof.Proof.Gen.Kernel.Skeleton
import proofs.«104800_j57621281243745_2_alg».proof.Proof.Gen.Kernel.Points
import proofs.«104800_j57621281243745_2_alg».proof.Proof.KPay
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-! ## Region 0: the projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole feature block, the whole weight panel, the whole product block. -/
abbrev rFeat : Rect S8192x64 := Rect.unit (s := S8192x64) ![0, 0] S8192x64.size inb_S8192x64_S8192x64_0_0
abbrev rPanel : Rect S64x128 := Rect.unit (s := S64x128) ![0, 0] S64x128.size inb_S64x128_S64x128_0_0
abbrev rProd : Rect S8192x128 := Rect.unit (s := S8192x128) ![0, 0] S8192x128.size inb_S8192x128_S8192x128_0_0

/-- The product block the body stores, from the feature block and the weight panel. -/
def out0_2 (x0 : Vec F S8192x64 .f32) (x1 : Vec F S64x128 .f32) : Vec F S8192x128 .f32 :=
  View.canon [⟨rProd, k0_pay1 (View.ld x0 rFeat) (View.ld x1 rPanel)⟩]

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the windowed sums -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A 64-row window's block filled out to the buffer's full 64 rows. The padded arrays' row counts are no multiple of
    64, so the pipeline's description of these three windows allows a cut last block; on this grid no block is cut
    (`noclip1_W` below) and the filler is never read. -/
def cblk1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

/-- The whole of each input block. -/
abbrev rCur : Rect S32x64x128 := Rect.unit (s := S32x64x128) ![0, 0, 0] S32x64x128.size inb_S32x64x128_S32x64x128_0_0_0
abbrev rNext : Rect S32x8x128 := Rect.unit (s := S32x8x128) ![0, 0, 0] S32x8x128.size inb_S32x8x128_S32x8x128_0_0_0
abbrev rCol : Rect S32x64x1 := Rect.unit (s := S32x64x1) ![0, 0, 0] S32x64x1.size inb_S32x64x1_S32x64x1_0_0_0
abbrev rColNext : Rect S32x16x1 := Rect.unit (s := S32x16x1) ![0, 0, 0] S32x16x1.size inb_S32x16x1_S32x16x1_0_0_0
abbrev rSamples : Rect S1x8 := Rect.unit (s := S1x8) ![0, 0] S1x8.size inb_S1x8_S1x8_0_0
/-- Row 0 of every nine output rows, and rows 1 … 8. -/
abbrev rReal : Rect S32x64x9x64 := Rect.unit (s := S32x64x9x64) ![0, 0, 0, 0] S32x64x1x64.size inb_S32x64x9x64_S32x64x1x64_0_0_0_0
abbrev rSim : Rect S32x64x9x64 := Rect.unit (s := S32x64x9x64) ![0, 0, 1, 0] S32x64x8x64.size inb_S32x64x9x64_S32x64x8x64_0_0_1_0

/-- The output block the body leaves, from the seven input blocks: its two stores as pieces, last first. -/
def out1_7 (x0 : Vec F S32x64x128 .f32) (x1 : Vec F S32x8x128 .f32) (x2 : Vec F S32x64x1 .f32) (x3 : Vec F S32x16x1 .f32)
    (x4 : Vec F S32x64x1 .f32) (x5 : Vec F S32x16x1 .f32) (x6 : Vec F S1x8 .f32) : Vec F S32x64x9x64 .f32 :=
  View.canon
    [⟨rSim, simPay (View.ld x0 rCur) (View.ld x1 rNext) (View.ld x2 rCol) (View.ld x3 rColNext) (View.ld x4 rCol) (View.ld x5 rColNext) (View.ld x6 rSamples)⟩,
     ⟨rReal, realPay (View.ld x0 rCur) (View.ld x1 rNext) (View.ld x2 rCol) (View.ld x3 rColNext) (View.ld x4 rCol) (View.ld x5 rColNext)⟩]

/-- The share of its array each window of region 1 reads at: the projections, the times and the mask are each read by
    two windows, the left and the right half of the array's share; the samples by one, whole. -/
def q1 : Fin cfg1.W → PosShare TreeShare
  | ⟨0, _⟩ => fullShare.left | ⟨1, _⟩ => fullShare.right | ⟨2, _⟩ => fullShare.left | ⟨3, _⟩ => fullShare.right
  | ⟨4, _⟩ => fullShare.left | ⟨5, _⟩ => fullShare.right | ⟨6, _⟩ => fullShare | ⟨7, _⟩ => fullShare

/-- Region 1's proof data on core `c`. -/
def dat1 (c : Dev nD) : Dat τ (Elt F) Unit ℕ (UR sig nD τ) ℕ cfg1 c where
  A w := V c (Pipeline.arrRef spec1 w)
  after w t := match w with
    | ⟨0, _⟩ => cblk1 V c 0 t (fun _ => Scalar.ofBits .f32 0#32)
    | ⟨1, _⟩ => iblk1 V c 1 t
    | ⟨2, _⟩ => cblk1 V c 2 t (fun _ => Scalar.ofBits .f32 0#32)
    | ⟨3, _⟩ => iblk1 V c 3 t
    | ⟨4, _⟩ => cblk1 V c 4 t (fun _ => Scalar.ofBits .f32 0#32)
    | ⟨5, _⟩ => iblk1 V c 5 t
    | ⟨6, _⟩ => iblk1 V c 6 t
    | ⟨7, _⟩ => out1_7 (cblk1 V c 0 t (fun _ => Scalar.ofBits .f32 0#32)) (iblk1 V c 1 t) (cblk1 V c 2 t (fun _ => Scalar.ofBits .f32 0#32)) (iblk1 V c 3 t)
        (cblk1 V c 4 t (fun _ => Scalar.ofBits .f32 0#32)) (iblk1 V c 5 t) (iblk1 V c 6 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = cblk1 V c 0 t (fun _ => Scalar.ofBits .f32 0#32) := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = cblk1 V c 2 t (fun _ => Scalar.ofBits .f32 0#32) := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = cblk1 V c 4 t (fun _ => Scalar.ofBits .f32 0#32) := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (cblk1 V c 0 t (fun _ => Scalar.ofBits .f32 0#32)) (iblk1 V c 1 t) (cblk1 V c 2 t (fun _ => Scalar.ofBits .f32 0#32)) (iblk1 V c 3 t)
        (cblk1 V c 4 t (fun _ => Scalar.ofBits .f32 0#32)) (iblk1 V c 5 t) (iblk1 V c 6 t) := by dsimp only [dat1]

/-- On this grid no block of the three 64-row windows is cut. -/
theorem noclip1_0 : ∀ (t : Fin cfg1.N) (a), (cfg1.win 0).clip (cfg1.grid.coords t) a = none :=
  (by decide +kernel : ∀ (t : Fin grid1.N) (a), win1_0.clip (grid1.coords t) a = none)
theorem noclip1_2 : ∀ (t : Fin cfg1.N) (a), (cfg1.win 2).clip (cfg1.grid.coords t) a = none :=
  (by decide +kernel : ∀ (t : Fin grid1.N) (a), win1_2.clip (grid1.coords t) a = none)
theorem noclip1_4 : ∀ (t : Fin cfg1.N) (a), (cfg1.win 4).clip (cfg1.grid.coords t) a = none :=
  (by decide +kernel : ∀ (t : Fin grid1.N) (a), win1_4.clip (grid1.coords t) a = none)

end Cert.Kernel.Hand

end
-- ==== Proof.KBody0.lean ====
/-
  Region 0's body: at every grid point the kernel loads the feature block and the weight panel whole, multiplies them,
  and stores the product block whole. Its triple, what each input buffer holds when the body runs (its block, fetched
  at that point or — the weight panel — once at the first point and kept), and the pipeline rule's obligation at every
  point.
-/
import proofs.«104800_j57621281243745_2_alg».proof.Proof.KData
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's buffer holds the window's block when the body runs, fetched at that point or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The one store covers the product block. -/
theorem cover0_2 (p0 : Vec F S8192x128 .f32) (y : S8192x128.Idx) :
    ∃ pc ∈ ([⟨rProd, p0⟩] : List (View.Piece (Elt F) S8192x128 .f32)), y ∈ pc.1.set :=
  View.cover_of_tiled [⟨rProd, p0⟩] S8192x128.size (by rfl) y

set_option maxHeartbeats 1000000 in
/-- The body on whole staging buffers: the two inputs' at contents `x0`, `x1` and the output's at anything; it leaves the
    inputs as they were and the output at `out0_2 x0 x1`. -/
theorem sound_kernel0 (c : Dev nD) (E : Set ℕ) (i : grid0.Coords) (arg1 : Memref sig .tc .vmem S8192x64 .f32) (harg1 : arg1.IsWhole)
    (arg2 : Memref sig .tc .vmem S64x128 .f32) (harg2 : arg2.IsWhole) (arg3 : Memref sig .tc .vmem S8192x128 .f32) (harg3 : arg3.IsWhole)
    (x0 : Vec F S8192x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  Region 1's body: at every grid point the kernel loads its seven input blocks whole, computes the windowed sums, and
  writes the output block by two stores — row 0 of every nine, then rows 1 … 8. Its triple, what each input buffer
  holds when the body runs, and the pipeline rule's obligation at every point.
-/
import proofs.«104800_j57621281243745_2_alg».proof.Proof.KData
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input buffers hold when the body runs -/

/-- An uncut input window's buffer holds the window's block, fetched at that point or not. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- A 64-row window is fetched at every point, and no block is cut: the buffer holds the block, whatever it held before. -/
theorem before1_0 (c : Dev nD) (t : Fin cfg1.N) (d) : (dat1 V c).before 0 t d = cblk1 V c 0 t (fun _ => Scalar.ofBits .f32 0#32) :=
  ((dat1 V c).before_fetched 0 t (fetch1_0 t) d).trans
    (((dat1 V c).fetched_of_clip_none 0 t (noclip1_0 t) d (fun _ => Scalar.ofBits .f32 0#32)).trans (by unfold Dat.fetched Dat.blockOf cblk1 iblk1; rw [A_eq1]))
theorem before1_2 (c : Dev nD) (t : Fin cfg1.N) (d) : (dat1 V c).before 2 t d = cblk1 V c 2 t (fun _ => Scalar.ofBits .f32 0#32) :=
  ((dat1 V c).before_fetched 2 t (fetch1_2 t) d).trans
    (((dat1 V c).fetched_of_clip_none 2 t (noclip1_2 t) d (fun _ => Scalar.ofBits .f32 0#32)).trans (by unfold Dat.fetched Dat.blockOf cblk1 iblk1; rw [A_eq1]))
theorem before1_4 (c : Dev nD) (t : Fin cfg1.N) (d) : (dat1 V c).before 4 t d = cblk1 V c 4 t (fun _ => Scalar.ofBits .f32 0#32) :=
  ((dat1 V c).before_fetched 4 t (fetch1_4 t) d).trans
    (((dat1 V c).fetched_of_clip_none 4 t (noclip1_4 t) d (fun _ => Scalar.ofBits .f32 0#32)).trans (by unfold Dat.fetched Dat.blockOf cblk1 iblk1; rw [A_eq1]))

/-! ## The body's triple -/

/-- The two stores cover the output block: row 0 of every nine by the first, rows 1 … 8 by the second. -/
theorem cover1_7 (p1 : Vec F S32x64x8x64 .f32) (p0 : Vec F S32x64x1x64 .f32) (y : S32x64x9x64.Idx) :
    ∃ pc ∈ ([⟨rSim, p1⟩, ⟨rReal, p0⟩] : List (View.Piece (Elt F) S32x64x9x64 .f32)), y ∈ pc.1.set :=
  by
  have h0 : (y 0).val < 32 := (y 0).isLt
  have h1 : (y 1).val < 64 := (y 1).isLt
  have h2 : (y 2).val < 9 := (y 2).isLt
  have h3 : (y 3).val < 64 := (y 3).isLt
  by_cases h : (y 2).val = 0
  · have hm : y ∈ (rReal : Rect S32x64x9x64).set := by
      rw [Rect.mem_set_unit]; intro a
      match a with
      | ⟨0, _⟩ => exact ⟨Nat.zero_le _, (by omega : (y 0).val < 0 + 32)⟩
      | ⟨1, _⟩ => exact ⟨Nat.zero_le _, (by omega : (y 1).val < 0 + 64)⟩
      | ⟨2, _⟩ => exact ⟨Nat.zero_le _, (by omega : (y 2).val < 0 + 1)⟩
      | ⟨3, _⟩ => exact ⟨Nat.zero_le _, (by omega : (y 3).val < 0 + 64)⟩
    exact ⟨⟨rReal, p0⟩, List.mem_cons_of_mem _ (List.mem_singleton.mpr rfl), hm⟩
  · have hm : y ∈ (rSim : Rect S32x64x9x64).set := by
      rw [Rect.mem_set_unit]; intro a
      match a with
      | ⟨0, _⟩ => exact ⟨Nat.zero_le _, (by omega : (y 0).val < 0 + 32)⟩
      | ⟨1, _⟩ => exact ⟨Nat.zero_le _, (by omega : (y 1).val < 0 + 64)⟩
      | ⟨2, _⟩ => exact ⟨(by omega : 1 ≤ (y 2).val), (by omega : (y 2).val < 1 + 8)⟩
      | ⟨3, _⟩ => exact ⟨Nat.zero_le _, (by omega : (y 3).val < 0 + 64)⟩
    exact ⟨⟨rSim, p1⟩, List.mem_cons_self, hm⟩

set_option maxHeartbeats 4000000 in
/-- The body on whole staging buffers: the seven inputs' at contents `x0 … x6` and the output's at anything; it leaves
    the inputs as they were and the output at `out1_7 x0 … x6`. -/
theorem sound_kernel1 (c : Dev nD) (E : Set ℕ) (i : grid1.Coords)
    (arg1 : Memref sig .tc .vmem S32x64x128 .f32) (harg1 : arg1.IsWhole) (arg2 : Memref sig .tc .vmem S32x8x128 .f32) (harg2 : arg2.IsWhole)
    (arg3 : Memref sig .tc .vmem S32x64x1 .f32) (harg3 : arg3.IsWhole) (arg4 : Memref sig .tc .vmem S32x16x1 .f32) (harg4 : arg4.IsWhole)
    (arg5 : Memref sig .tc .vmem S32x64x1 .f32) (harg5 : arg5.IsWhole) (arg6 : Memref sig .tc .vmem S32x16x1 .f32) (harg6 : arg6.IsWhole)
    (arg7 : Memref sig .tc .vmem S1x8 .f32) (harg7 : arg7.IsWhole) (arg8 : Memref sig .tc .vmem S32x64x9x64 .f32) (harg8 : arg8.IsWhole)
    (x0 : Vec F S32x64x128 .f32) (x1 : Vec F S32x8x128 .f32) (x2 : Vec F S32x64x1 .f32) (x3 : Vec F S32x16x1 .f32)
    (x4 : Vec F S32x64x1 .f32) (x5 : Vec F S32x16x1 .f32) (x6 : Vec F S1x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__windowed_kernel i arg1 harg1 arg2 harg2 arg3 harg3 arg4 harg4 arg5 harg5 arg6 harg6 arg7 harg7 arg8 harg8) K := by
  simp only [cc1__windowed_kernel_eq_skeleton]; unfold cc1__windowed_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _ _)

/-! ## The obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (cblk1 V c 0 t (fun _ => Scalar.ofBits .f32 0#32)) (iblk1 V c 1 t) (cblk1 V c 2 t (fun _ => Scalar.ofBits .f32 0#32)) (iblk1 V c 3 t)
    (cblk1 V c 4 t (fun _ => Scalar.ofBits .f32 0#32)) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFold.lean ====
/-
  The TensorCore's buffer contents at every boundary of the program's main function, as a fold from the launch memory:
  a stretch of host operations applies them in order; the projection region leaves its product array at what its
  write-backs make of it; the windowed region likewise its result array; every other buffer passes a region unchanged.
-/
import proofs.«104800_j57621281243745_2_alg».proof.Proof.KData
import Idealize.ShloMosaic.Lib.Pipeline.FrameSuffix

noncomputable section

namespace Cert.Kernel.Hand

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the weight panel is assembled and the features flattened (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: the product array at what the write-backs leave, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After each of the seven host stretches between the regions (reshape, the three paddings with their operands, the
    samples' reshape). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
abbrev V9 : (c : Dev nD) → (b : Ref sig .tc) → Buf (Elt F) ((c : Thread nD τ).loc b) := fun c b => W9 m c b
/-- At region 1's exit: the result array at what the write-backs leave, every other buffer as entered. -/
def W10 (c : Dev nD) : Valuation τ sig (Elt F) :=
  Function.update (W9 m c) (Proc.devRef .tc main_v12) ((dat1 (V9 m) c).arrAt 7 cfg1.N)
abbrev V10 : (c : Dev nD) → (b : Ref sig .tc) → Buf (Elt F) ((c : Thread nD τ).loc b) := fun c b => W10 m c b
/-- After the closing host operations (the two slices, their reshapes, the concatenation). -/
abbrev W11 : Dev nD → Valuation τ sig (Elt F) := fun c => StableHlo.after hostOps2 (W10 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W10_out (c : Dev nD) : W10 m c (Proc.devRef .tc main_v12) = (dat1 (V9 m) c).arrAt 7 cfg1.N := by
  unfold W10; exact Function.update_self ..
theorem W10_of_ne (c : Dev nD) (b : Ref sig .tc) (hb : b ≠ main_v12) :
    W10 m c (Proc.devRef .tc b) = W9 m c (Proc.devRef .tc b) := by
  unfold W10; exact Function.update_of_ne (StableHlo.devRef_ne_of_ne hb) ..

end Cert.Kernel.Hand

end
-- ==== Proof.KRun.lean ====
/-
  The run of the whole program: its main function as eleven segments — nine stretches of host operations and the two
  kernel regions — composed by the several-regions launch rule. Between two segments a core holds every unscoped buffer
  whole at the boundary's contents (the fold of Fold.lean), its generator register at some state, and owes nothing.
  A region takes its windows' arrays out of those buffers at entry and puts them back at exit: the projection region's
  three arrays are distinct buffers; the windowed region reads the padded projections, the padded times and the padded
  mask through two windows each, so each of those three buffers is split into the left and right halves of its share
  at entry and joined again at exit (both halves hold the same contents: no input array is written).
  Every weakly fair execution then terminates, and the final memory holds every unscoped buffer at the last contents of
  the fold — in particular each argument as launched, and the result at the fold's value.
-/
import proofs.«104800_j57621281243745_2_alg».proof.Proof.KBody0
import proofs.«104800_j57621281243745_2_alg».proof.Proof.KBody1
import proofs.«104800_j57621281243745_2_alg».proof.Proof.KFold
import proofs.«104800_j57621281243745_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 1's arrays and the buffers behind them -/

section Shared

variable (V : (c : Dev nD) → (b : Ref sig .tc) → Buf (Elt F) ((c : Thread nD τ).loc b))

/-- The five buffers behind region 1's eight windows, one by one. -/
theorem bigSep_arr1 {M : Type} [URA M] (Φ : Ref sig .tc → sProp M) :
    bigSep (Finset.univ.image (Pipeline.arrRef spec1)) Φ = iprop(Φ main_v5 ∗ Φ main_v8 ∗ Φ main_v10 ∗ Φ main_v11 ∗ Φ main_v12) :=
  bigSep_eq_bigSepL_of_eq [main_v5, main_v8, main_v10, main_v11, main_v12] (by decide) (by decide) Φ

/-! Each window's array of region 1 as the points-to of the buffer behind it, at the window's share (the padded
    projections, times and mask are each read by two windows: the left and the right half of the buffer's share), at entry
    (the entry contents) and at exit (an input array is never written; the result array holds what its write-backs left). -/
theorem ptIn_0 (c : Dev nD) :
    ((cfg1.win 0).arr.view.loc (c : Thread nD τ) ↦[(cfg1.win 0).arr.view.set]{(dat1 V c).share 0} (dat1 V c).arrAt 0 0 : sProp 𝕄)
      = ((c : Thread nD τ).loc main_v5 ↦{fullShare.left} V c main_v5) := by
  rw [(arr_whole1 0).set_eq_univ]
  exact congrArg (fun f : Buf (Elt F) ((c : Thread nD τ).loc main_v5) => (((c : Thread nD τ).loc main_v5 ↦{fullShare.left} f : sProp 𝕄))) (A_eq1 V c 0)
theorem ptOut_0 (c : Dev nD) :
    ((cfg1.win 0).arr.view.loc (c : Thread nD τ) ↦[(cfg1.win 0).arr.view.set]{(dat1 V c).share 0} (dat1 V c).arrAt 0 cfg1.N : sProp 𝕄)
      = ((c : Thread nD τ).loc main_v5 ↦{fullShare.left} V c main_v5) := by
  rw [(arr_whole1 0).set_eq_univ]
  exact congrArg (fun f : Buf (Elt F) ((c : Thread nD τ).loc main_v5) => (((c : Thread nD τ).loc main_v5 ↦{fullShare.left} f : sProp 𝕄)))
    (((dat1 V c).arrAt_in 0 rfl cfg1.N).trans (A_eq1 V c 0))
theorem ptIn_1 (c : Dev nD) :
    ((cfg1.win 1).arr.view.loc (c : Thread nD τ) ↦[(cfg1.win 1).arr.view.set]{(dat1 V c).share 1} (dat1 V c).arrAt 1 0 : sProp 𝕄)
      = ((c : Thread nD τ).loc main_v5 ↦{fullShare.right} V c main_v5) := by
  rw [(arr_whole1 1).set_eq_univ]
  exact congrArg (fun f : Buf (Elt F) ((c : Thread nD τ).loc main_v5) => (((c : Thread nD τ).loc main_v5 ↦{fullShare.right} f : sProp 𝕄))) (A_eq1 V c 1)
theorem ptOut_1 (c : Dev nD) :
    ((cfg1.win 1).arr.view.loc (c : Thread nD τ) ↦[(cfg1.win 1).arr.view.set]{(dat1 V c).share 1} (dat1 V c).arrAt 1 cfg1.N : sProp 𝕄)
      = ((c : Thread nD τ).loc main_v5 ↦{fullShare.right} V c main_v5) := by
  rw [(arr_whole1 1).set_eq_univ]
  exact congrArg (fun f : Buf (Elt F) ((c : Thread nD τ).loc main_v5) => (((c : Thread nD τ).loc main_v5 ↦{fullShare.right} f : sProp 𝕄)))
    (((dat1 V c).arrAt_in 1 rfl cfg1.N).trans (A_eq1 V c 1))
theorem ptIn_2 (c : Dev nD) :
    ((cfg1.win 2).arr.view.loc (c : Thread nD τ) ↦[(cfg1.win 2).arr.view.set]{(dat1 V c).share 2} (dat1 V c).arrAt 2 0 : sProp 𝕄)
      = ((c : Thread nD τ).loc main_v8 ↦{fullShare.left} V c main_v8) := by
  rw [(arr_whole1 2).set_eq_univ]
  exact congrArg (fun f : Buf (Elt F) ((c : Thread nD τ).loc main_v8) => (((c : Thread nD τ).loc main_v8 ↦{fullShare.left} f : sProp 𝕄))) (A_eq1 V c 2)
theorem ptOut_2 (c : Dev nD) :
    ((cfg1.win 2).arr.view.loc (c : Thread nD τ) ↦[(cfg1.win 2).arr.view.set]{(dat1 V c).share 2} (dat1 V c).arrAt 2 cfg1.N : sProp 𝕄)
      = ((c : Thread nD τ).loc main_v8 ↦{fullShare.left} V c main_v8) := by
  rw [(arr_whole1 2).set_eq_univ]
  exact congrArg (fun f : Buf (Elt F) ((c : Thread nD τ).loc main_v8) => (((c : Thread nD τ).loc main_v8 ↦{fullShare.left} f : sProp 𝕄)))
    (((dat1 V c).arrAt_in 2 rfl cfg1.N).trans (A_eq1 V c 2))
theorem ptIn_3 (c : Dev nD) :
    ((cfg1.win 3).arr.view.loc (c : Thread nD τ) ↦[(cfg1.win 3).arr.view.set]{(dat1 V c).share 3} (dat1 V c).arrAt 3 0 : sProp 𝕄)
      = ((c : Thread nD τ).loc main_v8 ↦{fullShare.right} V c main_v8) := by
  rw [(arr_whole1 3).set_eq_univ]
  exact congrArg (fun f : Buf (Elt F) ((c : Thread nD τ).loc main_v8) => (((c : Thread nD τ).loc main_v8 ↦{fullShare.right} f : sProp 𝕄))) (A_eq1 V c 3)
theorem ptOut_3 (c : Dev nD) :
    ((cfg1.win 3).arr.view.loc (c : Thread nD τ) ↦[(cfg1.win 3).arr.view.set]{(dat1 V c).share 3} (dat1 V c).arrAt 3 cfg1.N : sProp 𝕄)
      = ((c : Thread nD τ).loc main_v8 ↦{fullShare.right} V c main_v8) := by
  rw [(arr_whole1 3).set_eq_univ]
  exact congrArg (fun f : Buf (Elt F) ((c : Thread nD τ).loc main_v8) => (((c : Thread nD τ).loc main_v8 ↦{fullShare.right} f : sProp 𝕄)))
    (((dat1 V c).arrAt_in 3 rfl cfg1.N).trans (A_eq1 V c 3))
theorem ptIn_4 (c : Dev nD) :
    ((cfg1.win 4).arr.view.loc (c : Thread nD τ) ↦[(cfg1.win 4).arr.view.set]{(dat1 V c).share 4} (dat1 V c).arrAt 4 0 : sProp 𝕄)
      = ((c : Thread nD τ).loc main_v10 ↦{fullShare.left} V c main_v10) := by
  rw [(arr_whole1 4).set_eq_univ]
  exact congrArg (fun f : Buf (Elt F) ((c : Thread nD τ).loc main_v10) => (((c : Thread nD τ).loc main_v10 ↦{fullShare.left} f : sProp 𝕄))) (A_eq1 V c 4)
theorem ptOut_4 (c : Dev nD) :
    ((cfg1.win 4).arr.view.loc (c : Thread nD τ) ↦[(cfg1.win 4).arr.view.set]{(dat1 V c).share 4} (dat1 V c).arrAt 4 cfg1.N : sProp 𝕄)
      = ((c : Thread nD τ).loc main_v10 ↦{fullShare.left} V c main_v10) := by
  rw [(arr_whole1 4).set_eq_univ]
  exact congrArg (fun f : Buf (Elt F) ((c : Thread nD τ).loc main_v10) => (((c : Thread nD τ).loc main_v10 ↦{fullShare.left} f : sProp 𝕄)))
    (((dat1 V c).arrAt_in 4 rfl cfg1.N).trans (A_eq1 V c 4))
theorem ptIn_5 (c : Dev nD) :
    ((cfg1.win 5).arr.view.loc (c : Thread nD τ) ↦[(cfg1.win 5).arr.view.set]{(dat1 V c).share 5} (dat1 V c).arrAt 5 0 : sProp 𝕄)
      = ((c : Thread nD τ).loc main_v10 ↦{fullShare.right} V c main_v10) := by
  rw [(arr_whole1 5).set_eq_univ]
  exact congrArg (fun f : Buf (Elt F) ((c : Thread nD τ).loc main_v10) => (((c : Thread nD τ).loc main_v10 ↦{fullShare.right} f : sProp 𝕄))) (A_eq1 V c 5)
theorem ptOut_5 (c : Dev nD) :
    ((cfg1.win 5).arr.view.loc (c : Thread nD τ) ↦[(cfg1.win 5).arr.view.set]{(dat1 V c).share 5} (dat1 V c).arrAt 5 cfg1.N : sProp 𝕄)
      = ((c : Thread nD τ).loc main_v10 ↦{fullShare.right} V c main_v10) := by
  rw [(arr_whole1 5).set_eq_univ]
  exact congrArg (fun f : Buf (Elt F) ((c : Thread nD τ).loc main_v10) => (((c : Thread nD τ).loc main_v10 ↦{fullShare.right} f : sProp 𝕄)))
    (((dat1 V c).arrAt_in 5 rfl cfg1.N).trans (A_eq1 V c 5))
theorem ptIn_6 (c : Dev nD) :
    ((cfg1.win 6).arr.view.loc (c : Thread nD τ) ↦[(cfg1.win 6).arr.view.set]{(dat1 V c).share 6} (dat1 V c).arrAt 6 0 : sProp 𝕄)
      = ((c : Thread nD τ).loc main_v11 ↦{fullShare} V c main_v11) := by
  rw [(arr_whole1 6).set_eq_univ]
  exact congrArg (fun f : Buf (Elt F) ((c : Thread nD τ).loc main_v11) => (((c : Thread nD τ).loc main_v11 ↦{fullShare} f : sProp 𝕄))) (A_eq1 V c 6)
theorem ptOut_6 (c : Dev nD) :
    ((cfg1.win 6).arr.view.loc (c : Thread nD τ) ↦[(cfg1.win 6).arr.view.set]{(dat1 V c).share 6} (dat1 V c).arrAt 6 cfg1.N : sProp 𝕄)
      = ((c : Thread nD τ).loc main_v11 ↦{fullShare} V c main_v11) := by
  rw [(arr_whole1 6).set_eq_univ]
  exact congrArg (fun f : Buf (Elt F) ((c : Thread nD τ).loc main_v11) => (((c : Thread nD τ).loc main_v11 ↦{fullShare} f : sProp 𝕄)))
    (((dat1 V c).arrAt_in 6 rfl cfg1.N).trans (A_eq1 V c 6))
theorem ptIn_7 (c : Dev nD) :
    ((cfg1.win 7).arr.view.loc (c : Thread nD τ) ↦[(cfg1.win 7).arr.view.set]{(dat1 V c).share 7} (dat1 V c).arrAt 7 0 : sProp 𝕄)
      = ((c : Thread nD τ).loc main_v12 ↦{fullShare} V c main_v12) := by
  rw [(arr_whole1 7).set_eq_univ]
  exact congrArg (fun f : Buf (Elt F) ((c : Thread nD τ).loc main_v12) => (((c : Thread nD τ).loc main_v12 ↦{fullShare} f : sProp 𝕄))) (A_eq1 V c 7)
theorem ptOut_7 (c : Dev nD) :
    ((cfg1.win 7).arr.view.loc (c : Thread nD τ) ↦[(cfg1.win 7).arr.view.set]{(dat1 V c).share 7} (dat1 V c).arrAt 7 cfg1.N : sProp 𝕄)
      = ((c : Thread nD τ).loc main_v12 ↦{fullShare} (dat1 V c).arrAt 7 cfg1.N) := by
  rw [(arr_whole1 7).set_eq_univ]; rfl

/-- ENTRY: the five buffers behind region 1's eight windows, each whole at the entry contents, are the windows' arrays at
    entry — the three buffers two windows read split into the halves of their share. -/
theorem split1 (c : Dev nD) :
    (Pipeline.arrBufs spec1 c (V c) : sProp 𝕄) ⊢ (dat1 V c).arrays ((dat1 V c).arrAt · 0) := by
  unfold Pipeline.arrBufs Dat.arrays
  rw [bigSep_arr1, bigSep_W1, ptIn_0, ptIn_1, ptIn_2, ptIn_3, ptIn_4, ptIn_5, ptIn_6, ptIn_7]
  iintro ⟨H5, H8, H10, H11, H12⟩
  ihave H5' := (pointsTo_share (PosShare.mem_left_op_right fullShare)).1 $$ H5
  icases H5' with ⟨H5a, H5b⟩
  ihave H8' := (pointsTo_share (PosShare.mem_left_op_right fullShare)).1 $$ H8
  icases H8' with ⟨H8a, H8b⟩
  ihave H10' := (pointsTo_share (PosShare.mem_left_op_right fullShare)).1 $$ H10
  icases H10' with ⟨H10a, H10b⟩
  isplitl [H5a]; · iexact H5a
  isplitl [H5b]; · iexact H5b
  isplitl [H8a]; · iexact H8a
  isplitl [H8b]; · iexact H8b
  isplitl [H10a]; · iexact H10a
  isplitl [H10b]; · iexact H10b
  isplitl [H11]; · iexact H11
  iexact H12

/-- EXIT: the windows' arrays after the last write-back are the five buffers whole again, at any contents `V'` that
    agree with the entry contents on the four input buffers and hold the write-backs' result at the result buffer. -/
theorem join1 (c : Dev nD) (V' : (b : Ref sig .tc) → Buf (Elt F) ((c : Thread nD τ).loc b))
    (h5 : V' main_v5 = V c main_v5) (h8 : V' main_v8 = V c main_v8) (h10 : V' main_v10 = V c main_v10)
    (h11 : V' main_v11 = V c main_v11) (hout : V' main_v12 = (dat1 V c).arrAt 7 cfg1.N) :
    (dat1 V c).arrays ((dat1 V c).arrAt · cfg1.N) ⊢ (Pipeline.arrBufs spec1 c V' : sProp 𝕄) := by
  unfold Pipeline.arrBufs Dat.arrays
  rw [bigSep_arr1, bigSep_W1, ptOut_0, ptOut_1, ptOut_2, ptOut_3, ptOut_4, ptOut_5, ptOut_6, ptOut_7, h5, h8, h10, h11, hout]
  iintro ⟨H5a, H5b, H8a, H8b, H10a, H10b, H11, H12⟩
  ihave H5 := (pointsTo_share (PosShare.mem_left_op_right fullShare)).2 $$ [H5a H5b]
  · isplitl [H5a]; · iexact H5a
    iexact H5b
  ihave H8 := (pointsTo_share (PosShare.mem_left_op_right fullShare)).2 $$ [H8a H8b]
  · isplitl [H8a]; · iexact H8a
    iexact H8b
  ihave H10 := (pointsTo_share (PosShare.mem_left_op_right fullShare)).2 $$ [H10a H10b]
  · isplitl [H10a]; · iexact H10a
    iexact H10b
  isplitl [H5]; · iexact H5
  isplitl [H8]; · iexact H8
  isplitl [H10]; · iexact H10
  isplitl [H11]; · iexact H11
  iexact H12

end Shared

variable (m : (ℓ : Loc nD τ sig) → Buf (Elt F) ℓ) (ρ : Dev nD → PrngReg)

/-! ## The proof data family and the thread state -/

/-- At region 0's exit each of its arrays holds what the pipeline leaves and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W9`, left at `W10`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsp := Pipeline.unscopedBufs_split₀ (Ix := Unit) (Name := ℕ) (U := UR sig nD τ) (Lvl := ℕ) (Val := Elt F) cfgs 1 winFacts₀1.arr_unscoped c (V9 m c)
    rw [Pipeline.unscopedBufs_held] at hsp
    have hsp' : (StableHlo.held (c : Thread nD τ) (Pipeline.ucRefs τ sig) (W9 m c) : sProp 𝕄)
        ⊢ iprop(Pipeline.arrBufs spec1 c (V9 m c) ∗ Pipeline.unscopedRest spec1 c (V9 m c)) := Entails.of_eq hsp
    iintro ⟨⟨Hub, Hp, HO⟩, -, -⟩
    ihave Hub' := hsp' $$ Hub
    icases Hub' with ⟨Hb, Hrest⟩
    ihave Ha := (split1 (V9 m) c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Val := Elt F) cfgs 1 winFacts₀1.arr_unscoped c (V10 m c)
    rw [Pipeline.unscopedBufs_held] at hsp
    have hrest : (Pipeline.unscopedRest (Ix := Unit) (Name := ℕ) (U := UR sig nD τ) (Lvl := ℕ) spec1 c (V9 m c) : sProp 𝕄)
        = Pipeline.unscopedRest spec1 c (V10 m c) := by
      unfold Pipeline.unscopedRest
      exact bigSep_congr fun b hb => by
        rw [show V10 m c b = V9 m c b from W10_of_ne m c b fun e => (Finset.mem_sdiff.mp hb).2 (Finset.mem_image.mpr ⟨7, Finset.mem_univ _, e ▸ rfl⟩)]
    iintro ⟨Ha, HO, HY, Hrest⟩
    imodintro
    isplitl [Ha Hrest]
    · iapply (show iprop(Pipeline.arrBufs spec1 c (V10 m c) ∗ Pipeline.unscopedRest spec1 c (V10 m c))
          ⊢ (StableHlo.held (c : Thread nD τ) (Pipeline.ucRefs τ sig) (W10 m c) : sProp 𝕄) from Entails.of_eq hsp.symm)
      isplitl [Ha]
      · iapply (join1 (V9 m) c (V10 m c) (W10_of_ne m c main_v5 (by decide)) (W10_of_ne m c main_v8 (by decide)) (W10_of_ne m c main_v10 (by decide))
          (W10_of_ne m c main_v11 (by decide)) (W10_out m c)); iexact Ha
      iapply (show (Pipeline.unscopedRest spec1 c (V9 m c) : sProp 𝕄) ⊢ Pipeline.unscopedRest spec1 c (V10 m c) from Entails.of_eq hrest)
      iexact Hrest
    isplitl [HY]; · iexact HY
    unfold Pipeline.Dat.owesAt Pipeline.owesWithin
    icases HO with ⟨%W, -, HO⟩; iexists W; iexact HO

/-! ## The main function as segments, and the launch -/

/-- The eleven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .region (reg1 m),
    .host (hseg hostOps2 hostOps2_sub hostOps2_fresh (W10 m)) ]

/-- The main function IS the run of the segments. -/
theorem main_run (c : Dev nD) : main (F := F) c = Pipeline.Seg.run (segs m) := (main_chain c).trans (by chain_rfl)

set_option backward.isDefEq.respectTransparency.types false in
/-- THE RUN: from any memory with zero counters every weakly fair execution of the main function terminates, nothing
    faulting, and the final memory holds every unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c =>
        (show iprop(StableHlo.held (c : Thread nD τ) (Pipeline.ucRefs τ sig) (W11 m c) ∗ R c)
            ⊢ (iprop(Tₙ m c ∗ ∃ W, owes (c : Thread nD τ) (0 : CellTallies nD τ sig Unit) W) : sProp 𝕄) from by
          iintro ⟨Hh, Hp, HO⟩
          isplitl [Hh Hp]
          · isplitl [Hh]; · iexact Hh
            iexact Hp
          iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.Kernel.Hand

end
-- ==== Proof.KFrame.lean ====
/-
  What the run leaves: every argument array as launched — no host operation writes an argument and no region's
  write-backs touch one, so the fold of the buffer contents walks back to the launch memory at an argument's buffer —
  and the result array at the fold's last value.
-/
import proofs.«104800_j57621281243745_2_alg».proof.Proof.KRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no stretch of host operations writes and no region's write-backs touch holds its launch contents at the end. -/
theorem W11_keep (c : Dev nD) (r : Ref sig .tc) (h0 : r ∉ hostOps0_W) (hr0 : ∀ w, Pipeline.arrRef spec0 w ≠ r)
    (h1 : r ∉ hostOps1_W) (h11 : r ∉ hostOps1_1_W) (h12 : r ∉ hostOps1_2_W) (h13 : r ∉ hostOps1_3_W) (h14 : r ∉ hostOps1_4_W)
    (h15 : r ∉ hostOps1_5_W) (h16 : r ∉ hostOps1_6_W) (hr1 : r ≠ main_v12) (h2 : r ∉ hostOps2_W) :
    W11 m c (Proc.devRef .tc r) = m ((c : Thread nD τ).loc r) :=
  (StableHlo.after_of_writes_sub hostOps2 _ hostOps2_writes h2).trans <|
  (W10_of_ne m c r hr1).trans <|
  (StableHlo.after_of_writes_sub hostOps1_6 _ hostOps1_6_writes h16).trans <|
  (StableHlo.after_of_writes_sub hostOps1_5 _ hostOps1_5_writes h15).trans <|
  (StableHlo.after_of_writes_sub hostOps1_4 _ hostOps1_4_writes h14).trans <|
  (StableHlo.after_of_writes_sub hostOps1_3 _ hostOps1_3_writes h13).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  (W2_of_ne m c r hr0).trans <|
  (StableHlo.after_of_writes_sub hostOps0 _ hostOps0_writes h0).trans rfl

theorem W11_main_arg0 (c : Dev nD) : W11 m c (Proc.devRef .tc main_arg0) = m ((c : Thread nD τ).loc main_arg0) :=
  W11_keep m c main_arg0 (by decide) (by decide) (by decide) (by decide) (by decide) (by decide) (by decide) (by decide) (by decide) (by decide) (by decide)
theorem W11_main_arg1 (c : Dev nD) : W11 m c (Proc.devRef .tc main_arg1) = m ((c : Thread nD τ).loc main_arg1) :=
  W11_keep m c main_arg1 (by decide) (by decide) (by decide) (by decide) (by decide) (by decide) (by decide) (by decide) (by decide) (by decide) (by decide)
theorem W11_main_arg2 (c : Dev nD) : W11 m c (Proc.devRef .tc main_arg2) = m ((c : Thread nD τ).loc main_arg2) :=
  W11_keep m c main_arg2 (by decide) (by decide) (by decide) (by decide) (by decide) (by decide) (by decide) (by decide) (by decide) (by decide) (by decide)
theorem W11_main_arg3 (c : Dev nD) : W11 m c (Proc.devRef .tc main_arg3) = m ((c : Thread nD τ).loc main_arg3) :=
  W11_keep m c main_arg3 (by decide) (by decide) (by decide) (by decide) (by decide) (by decide) (by decide) (by decide) (by decide) (by decide) (by decide)
theorem W11_main_arg4 (c : Dev nD) : W11 m c (Proc.devRef .tc main_arg4) = m ((c : Thread nD τ).loc main_arg4) :=
  W11_keep m c main_arg4 (by decide) (by decide) (by decide) (by decide) (by decide) (by decide) (by decide) (by decide) (by decide) (by decide) (by decide)
theorem W11_main_arg5 (c : Dev nD) : W11 m c (Proc.devRef .tc main_arg5) = m ((c : Thread nD τ).loc main_arg5) :=
  W11_keep m c main_arg5 (by decide) (by decide) (by decide) (by decide) (by decide) (by decide) (by decide) (by decide) (by decide) (by decide) (by decide)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c)⟩) (run_all m ρ)

/-- THE RUN WITH ITS RESULT: moreover the result array ends at the fold's last value. -/
theorem run_value : θ_run defs (onTc (τ := τ) (main (F := F))) ⟨m, fun _ => 0, ρ⟩ (fun r => ∀ c : Dev nD,
      r.2.mem ((c.tc : Thread nD τ).loc main_v18) = W11 m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v18 (by decide)),
     (h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c)⟩) (run_all m ρ)

end Cert.Kernel.Hand

end
-- ==== Proof.HostStretch.lean ====
/-
  Each stretch of host operations of the program's main function, read off as a term: what the buffer it writes holds
  afterwards, as the printed operation applied to what its operand buffers held before, from any contents `V`.
-/
import proofs.«104800_j57621281243745_2_alg».proof.Proof.Gen.KernelIdeal.Launch
import Idealize.ShloMosaic.Lib.StableHlo.Run
import Idealize.ShloMosaic.PureOps.Ideal

noncomputable section

namespace Cert.KernelIdeal.Hand

open Idealize.ShloMosaic Idealize.ShloMosaic.TcCoe
open Idealize.SL Idealize.SL.Sem
open Cert.KernelIdeal Cert.KernelIdeal.Gen

variable (V : Valuation τ sig (Elt Ideal))

/-- The weight panel: the transposed weights joined with the bias matrix along the columns. -/
theorem after0_panel : StableHlo.after hostOps0 V (Proc.devRef .tc main_v1)
    = concatenate S64x128 1 [⟨S64x64, transpose S64x64 [1, 0] (V (Proc.devRef .tc main_arg4)) transposes_S64x64_S64x64_1_0⟩,
        ⟨S64x64, V (Proc.devRef .tc main_arg5)⟩] concatenates_S64x64_S64x64_S64x128_d1 := by
  after_results
  try rfl

/-- The features flattened to rows. -/
theorem after0_flat : StableHlo.after hostOps0 V (Proc.devRef .tc main_v2)
    = shapeCast S65536x64 (V (Proc.devRef .tc main_arg1)) shapeCasts_S32x2048x64_S65536x64 := by
  after_results
  try rfl

/-- The products regrouped by batch row. -/
theorem after1_grouped : StableHlo.after hostOps1 V (Proc.devRef .tc main_v4)
    = shapeCast S32x2048x128 (V (Proc.devRef .tc main_v3)) shapeCasts_S65536x128_S32x2048x128 := by
  after_results
  try rfl

/-- The integer zero the first padding converts. -/
theorem after1_zero : StableHlo.after hostOps1 V (Proc.devRef .tc main_c) = constantI S_ 32 0#32 := by
  after_results
  try rfl

/-- The products with eight rows laid in front. -/
theorem after1_1_padded : StableHlo.after hostOps1_1 V (Proc.devRef .tc main_v5)
    = pad S32x2056x128 ![0, 8, 0] ![0, 0, 0] ![0, 0, 0] (V (Proc.devRef .tc main_v4) : (⟨S32x2048x128, .f32⟩ : BufTy).Contents (Elt Ideal))
        (sitofp (F := Ideal) .f32 (V (Proc.devRef .tc main_c) : IVec S_ 32) : FVec Ideal S_ .f32)
        pads_S32x2048x128_S32x2056x128_000_800_000 h_S_ := by
  after_results
  try rfl

/-- The mask bits as numbers. -/
theorem after1_2_maskf : StableHlo.after hostOps1_2 V (Proc.devRef .tc main_v6)
    = (uitofp (F := Ideal) .f32 (V (Proc.devRef .tc main_arg2) : IVec S32x2048 1) : FVec Ideal S32x2048 .f32) := by
  after_results
  try rfl

/-- The times with a unit axis behind. -/
theorem after1_2_times : StableHlo.after hostOps1_2 V (Proc.devRef .tc main_v7)
    = broadcastInDim S32x2048x1 ![0, 1] bcast_S32x2048_S32x2048x1_0_1 (V (Proc.devRef .tc main_arg0)) := by
  after_results
  try rfl

theorem after1_2_zero : StableHlo.after hostOps1_2 V (Proc.devRef .tc main_c_0) = constantI S_ 32 0#32 := by
  after_results
  try rfl

/-- The times with eight rows laid in front and eight behind. -/
theorem after1_3_padded : StableHlo.after hostOps1_3 V (Proc.devRef .tc main_v8)
    = pad S32x2064x1 ![0, 8, 0] ![0, 8, 0] ![0, 0, 0] (V (Proc.devRef .tc main_v7) : (⟨S32x2048x1, .f32⟩ : BufTy).Contents (Elt Ideal))
        (sitofp (F := Ideal) .f32 (V (Proc.devRef .tc main_c_0) : IVec S_ 32) : FVec Ideal S_ .f32)
        pads_S32x2048x1_S32x2064x1_000_880_000 h_S_ := by
  after_results
  try rfl

/-- The mask values with a unit axis behind. -/
theorem after1_4_mask : StableHlo.after hostOps1_4 V (Proc.devRef .tc main_v9)
    = broadcastInDim S32x2048x1 ![0, 1] bcast_S32x2048_S32x2048x1_0_1 (V (Proc.devRef .tc main_v6)) := by
  after_results
  try rfl

theorem after1_4_zero : StableHlo.after hostOps1_4 V (Proc.devRef .tc main_c_1) = constantI S_ 32 0#32 := by
  after_results
  try rfl

/-- The mask values with eight rows laid in front and eight behind. -/
theorem after1_5_padded : StableHlo.after hostOps1_5 V (Proc.devRef .tc main_v10)
    = pad S32x2064x1 ![0, 8, 0] ![0, 8, 0] ![0, 0, 0] (V (Proc.devRef .tc main_v9) : (⟨S32x2048x1, .f32⟩ : BufTy).Contents (Elt Ideal))
        (sitofp (F := Ideal) .f32 (V (Proc.devRef .tc main_c_1) : IVec S_ 32) : FVec Ideal S_ .f32)
        pads_S32x2048x1_S32x2064x1_000_880_000 h_S_ := by
  after_results
  try rfl

/-- The samples as one row. -/
theorem after1_6_samples : StableHlo.after hostOps1_6 V (Proc.devRef .tc main_v11)
    = shapeCast S1x8 (V (Proc.devRef .tc main_arg3)) shapeCasts_S8_S1x8 := by
  after_results
  try rfl

/-- The closing operations: the first 2047 events' rows flattened, then the last event's first row. -/
theorem after2_result : StableHlo.after hostOps2 V (Proc.devRef .tc main_v18)
    = concatenate S32x18424x64 1
        [⟨S32x18423x64, shapeCast S32x18423x64
            (extractStridedSlice S32x2047x9x64 ![0, 0, 0, 0] (V (Proc.devRef .tc main_v12)) slices_S32x2048x9x64_S32x2047x9x64_0_0_0_0)
            shapeCasts_S32x2047x9x64_S32x18423x64⟩,
         ⟨S32x1x64, broadcastInDim S32x1x64 ![0, 2] bcast_S32x64_S32x1x64_0_2
            (shapeCast S32x64
              (extractStridedSlice S32x1x1x64 ![0, 2047, 0, 0] (V (Proc.devRef .tc main_v12)) slices_S32x2048x9x64_S32x1x1x64_0_2047_0_0)
              shapeCasts_S32x1x1x64_S32x64)⟩]
        concatenates_S32x18423x64_S32x1x64_S32x18424x64_d1 := by
  after_results
  try rfl

end Cert.KernelIdeal.Hand

end
-- ==== Proof.HostFold.lean ====
/-
  The buffers the two kernel regions read and the result buffer, as terms over the launch memory: each is followed
  back through the stretches of host operations that do not write it to the stretch that does, and that stretch's
  operation is applied to what its operands held there.
-/
import proofs.«104800_j57621281243745_2_alg».proof.Proof.Fold
import proofs.«104800_j57621281243745_2_alg».proof.Proof.HostStretch
import proofs.«104800_j57621281243745_2_alg».proof.Proof.Gen.KernelIdeal.Regions

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (c : Dev nD)

/-! ## A buffer a stretch, or a region, does not write keeps its contents -/

theorem keep1 (r : Ref sig .tc) (h : r ∉ hostOps0_W) :
    W1 (F := Ideal) m c (Proc.devRef .tc r) = W0 (F := Ideal) m c (Proc.devRef .tc r) :=
  StableHlo.after_of_writes_sub hostOps0 _ hostOps0_writes h
theorem keep2 (r : Ref sig .tc) (h : ∀ w, Pipeline.arrRef spec0 w ≠ r) :
    W2 (F := Ideal) m c (Proc.devRef .tc r) = W1 (F := Ideal) m c (Proc.devRef .tc r) :=
  W2_of_ne m c r h
theorem keep3 (r : Ref sig .tc) (h : r ∉ hostOps1_W) :
    W3 (F := Ideal) m c (Proc.devRef .tc r) = W2 (F := Ideal) m c (Proc.devRef .tc r) :=
  StableHlo.after_of_writes_sub hostOps1 _ hostOps1_writes h
theorem keep4 (r : Ref sig .tc) (h : r ∉ hostOps1_1_W) :
    W4 (F := Ideal) m c (Proc.devRef .tc r) = W3 (F := Ideal) m c (Proc.devRef .tc r) :=
  StableHlo.after_of_writes_sub hostOps1_1 _ hostOps1_1_writes h
theorem keep5 (r : Ref sig .tc) (h : r ∉ hostOps1_2_W) :
    W5 (F := Ideal) m c (Proc.devRef .tc r) = W4 (F := Ideal) m c (Proc.devRef .tc r) :=
  StableHlo.after_of_writes_sub hostOps1_2 _ hostOps1_2_writes h
theorem keep6 (r : Ref sig .tc) (h : r ∉ hostOps1_3_W) :
    W6 (F := Ideal) m c (Proc.devRef .tc r) = W5 (F := Ideal) m c (Proc.devRef .tc r) :=
  StableHlo.after_of_writes_sub hostOps1_3 _ hostOps1_3_writes h
theorem keep7 (r : Ref sig .tc) (h : r ∉ hostOps1_4_W) :
    W7 (F := Ideal) m c (Proc.devRef .tc r) = W6 (F := Ideal) m c (Proc.devRef .tc r) :=
  StableHlo.after_of_writes_sub hostOps1_4 _ hostOps1_4_writes h
theorem keep8 (r : Ref sig .tc) (h : r ∉ hostOps1_5_W) :
    W8 (F := Ideal) m c (Proc.devRef .tc r) = W7 (F := Ideal) m c (Proc.devRef .tc r) :=
  StableHlo.after_of_writes_sub hostOps1_5 _ hostOps1_5_writes h
theorem keep9 (r : Ref sig .tc) (h : r ∉ hostOps1_6_W) :
    W9 (F := Ideal) m c (Proc.devRef .tc r) = W8 (F := Ideal) m c (Proc.devRef .tc r) :=
  StableHlo.after_of_writes_sub hostOps1_6 _ hostOps1_6_writes h

/-- An argument array no stretch up to the first padding writes. -/
theorem W4_launch (r : Ref sig .tc) (h1 : r ∉ hostOps0_W) (h2 : ∀ w, Pipeline.arrRef spec0 w ≠ r) (h3 : r ∉ hostOps1_W)
    (h4 : r ∉ hostOps1_1_W) : W4 (F := Ideal) m c (Proc.devRef .tc r) = m ((c : Thread nD τ).loc r) :=
  (keep4 m c r h4).trans <| (keep3 m c r h3).trans <| (keep2 m c r h2).trans <| (keep1 m c r h1).trans rfl

/-! ## The projection region's operands and product -/

theorem W1_panel : W1 (F := Ideal) m c (Proc.devRef .tc main_v1)
    = concatenate S64x128 1 [⟨S64x64, transpose S64x64 [1, 0] (m ((c : Thread nD τ).loc main_arg4)) transposes_S64x64_S64x64_1_0⟩,
        ⟨S64x64, m ((c : Thread nD τ).loc main_arg5)⟩] concatenates_S64x64_S64x64_S64x128_d1 :=
  after0_panel (W0 m c)

theorem W1_flat : W1 (F := Ideal) m c (Proc.devRef .tc main_v2)
    = shapeCast S65536x64 (m ((c : Thread nD τ).loc main_arg1)) shapeCasts_S32x2048x64_S65536x64 :=
  after0_flat (W0 m c)

theorem W2_prod : W2 (F := Ideal) m c (Proc.devRef .tc main_v3) = (dat0 (F := Ideal) (V1 m) c).arrAt 2 cfg0.N :=
  W2_arr m c 2

theorem W3_grouped : W3 (F := Ideal) m c (Proc.devRef .tc main_v4)
    = shapeCast S32x2048x128 (W2 (F := Ideal) m c (Proc.devRef .tc main_v3)) shapeCasts_S65536x128_S32x2048x128 :=
  after1_grouped (W2 m c)

/-! ## The windowed region's operands -/

theorem W9_feat : W9 (F := Ideal) m c (Proc.devRef .tc main_v5)
    = pad S32x2056x128 ![0, 8, 0] ![0, 0, 0] ![0, 0, 0]
        (W3 (F := Ideal) m c (Proc.devRef .tc main_v4) : (⟨S32x2048x128, .f32⟩ : BufTy).Contents (Elt Ideal))
        (sitofp (F := Ideal) .f32 (W3 (F := Ideal) m c (Proc.devRef .tc main_c) : IVec S_ 32) : FVec Ideal S_ .f32)
        pads_S32x2048x128_S32x2056x128_000_800_000 h_S_ :=
  (keep9 m c main_v5 (by decide)).trans <| (keep8 m c main_v5 (by decide)).trans <| (keep7 m c main_v5 (by decide)).trans <| (keep6 m c main_v5 (by decide)).trans <| (keep5 m c main_v5 (by decide)).trans <|
    after1_1_padded (W3 m c)

theorem W5_times : W5 (F := Ideal) m c (Proc.devRef .tc main_v7)
    = broadcastInDim S32x2048x1 ![0, 1] bcast_S32x2048_S32x2048x1_0_1 (m ((c : Thread nD τ).loc main_arg0)) :=
  (after1_2_times (W4 m c)).trans
    (congrArg (broadcastInDim S32x2048x1 ![0, 1] bcast_S32x2048_S32x2048x1_0_1)
      (W4_launch m c main_arg0 (by decide) (by decide) (by decide) (by decide)))

theorem W5_maskf : W5 (F := Ideal) m c (Proc.devRef .tc main_v6)
    = (uitofp (F := Ideal) .f32 (m ((c : Thread nD τ).loc main_arg2) : IVec S32x2048 1) : FVec Ideal S32x2048 .f32) :=
  (after1_2_maskf (W4 m c)).trans
    (congrArg (fun x : IVec S32x2048 1 => (uitofp (F := Ideal) .f32 x : FVec Ideal S32x2048 .f32))
      (W4_launch m c main_arg2 (by decide) (by decide) (by decide) (by decide)))

theorem W9_times : W9 (F := Ideal) m c (Proc.devRef .tc main_v8)
    = pad S32x2064x1 ![0, 8, 0] ![0, 8, 0] ![0, 0, 0]
        (W5 (F := Ideal) m c (Proc.devRef .tc main_v7) : (⟨S32x2048x1, .f32⟩ : BufTy).Contents (Elt Ideal))
        (sitofp (F := Ideal) .f32 (W5 (F := Ideal) m c (Proc.devRef .tc main_c_0) : IVec S_ 32) : FVec Ideal S_ .f32)
        pads_S32x2048x1_S32x2064x1_000_880_000 h_S_ :=
  (keep9 m c main_v8 (by decide)).trans <| (keep8 m c main_v8 (by decide)).trans <| (keep7 m c main_v8 (by decide)).trans <|
    after1_3_padded (W5 m c)

theorem W7_mask : W7 (F := Ideal) m c (Proc.devRef .tc main_v9)
    = broadcastInDim S32x2048x1 ![0, 1] bcast_S32x2048_S32x2048x1_0_1
        (W5 (F := Ideal) m c (Proc.devRef .tc main_v6) : (⟨S32x2048, .f32⟩ : BufTy).Contents (Elt Ideal)) :=
by
  have e : W6 (F := Ideal) m c (Proc.devRef .tc main_v6) = W5 (F := Ideal) m c (Proc.devRef .tc main_v6) :=
    keep6 m c main_v6 (by decide)
  have e2 := after1_4_mask (W6 (F := Ideal) m c)
  rw [e] at e2
  exact e2

theorem W7_zero : W7 (F := Ideal) m c (Proc.devRef .tc main_c_1) = constantI S_ 32 0#32 :=
  after1_4_zero (W6 m c)

theorem W9_mask : W9 (F := Ideal) m c (Proc.devRef .tc main_v10)
    = pad S32x2064x1 ![0, 8, 0] ![0, 8, 0] ![0, 0, 0]
        (W7 (F := Ideal) m c (Proc.devRef .tc main_v9) : (⟨S32x2048x1, .f32⟩ : BufTy).Contents (Elt Ideal))
        (sitofp (F := Ideal) .f32 (W7 (F := Ideal) m c (Proc.devRef .tc main_c_1) : IVec S_ 32) : FVec Ideal S_ .f32)
        pads_S32x2048x1_S32x2064x1_000_880_000 h_S_ :=
  (keep9 m c main_v10 (by decide)).trans <|
    after1_5_padded (W7 m c)

theorem W8_samples_arg : W8 (F := Ideal) m c (Proc.devRef .tc main_arg3) = m ((c : Thread nD τ).loc main_arg3) :=
  (keep8 m c main_arg3 (by decide)).trans <| (keep7 m c main_arg3 (by decide)).trans <| (keep6 m c main_arg3 (by decide)).trans <| (keep5 m c main_arg3 (by decide)).trans <|
    W4_launch m c main_arg3 (by decide) (by decide) (by decide) (by decide)

theorem W9_samples : W9 (F := Ideal) m c (Proc.devRef .tc main_v11)
    = shapeCast S1x8 (m ((c : Thread nD τ).loc main_arg3)) shapeCasts_S8_S1x8 :=
  (after1_6_samples (W8 m c)).trans
    (congrArg (fun x : (⟨S8, .f32⟩ : BufTy).Contents (Elt Ideal) => shapeCast S1x8 x shapeCasts_S8_S1x8) (W8_samples_arg m c))

/-! ## The result -/

theorem W11_result : W11 (F := Ideal) m c (Proc.devRef .tc main_v18)
    = concatenate S32x18424x64 1
        [⟨S32x18423x64, shapeCast S32x18423x64
            (extractStridedSlice S32x2047x9x64 ![0, 0, 0, 0] (W10 (F := Ideal) m c (Proc.devRef .tc main_v12))
              slices_S32x2048x9x64_S32x2047x9x64_0_0_0_0)
            shapeCasts_S32x2047x9x64_S32x18423x64⟩,
         ⟨S32x1x64, broadcastInDim S32x1x64 ![0, 2] bcast_S32x64_S32x1x64_0_2
            (shapeCast S32x64
              (extractStridedSlice S32x1x1x64 ![0, 2047, 0, 0] (W10 (F := Ideal) m c (Proc.devRef .tc main_v12))
                slices_S32x2048x9x64_S32x1x1x64_0_2047_0_0)
              shapeCasts_S32x1x1x64_S32x64)⟩]
        concatenates_S32x18423x64_S32x1x64_S32x18424x64_d1 :=
  after2_result (W10 m c)

end Cert.KernelIdeal.Hand

end
-- ==== Proof.HostReads.lean ====
/-
  The host operations around the two kernel regions, each read at an index over literal coordinates: the weight panel
  (the transposed weights in columns `0 … 63`, the bias matrix in columns `64 … 127`), the two regroupings of rows
  (row `b · 2048 + l` of the flat arrays is event `l` of batch row `b`), the paddings (padded row `l + 8` is event
  `l`; a row in front of the events or behind them holds the padding value), the unit axes, the samples as one row,
  and the closing slices, regrouping and join (result row `r < 18423` is row `r % 9` of event `r / 9`'s nine, result
  row `18423` is row `0` of the last event's nine).
-/
import proofs.«104800_j57621281243745_2_alg».proof.Proof.Gen.KernelIdeal.Launch
import Idealize.ShloMosaic.Lib.Pipeline.Value
import Idealize.ShloMosaic.Lib.KernelVsHost
import Idealize.ShloMosaic.PureOps.Ideal

noncomputable section

namespace Cert.KernelIdeal.Hand

open Idealize.ShloMosaic Idealize.ShloMosaic.ValueIdx
open Cert.KernelIdeal Cert.KernelIdeal.Gen

/-- The integer zero converted to a float is the float zero. -/
theorem sitofp_zero : (FloatOps.sitofp (F := Ideal) .f32 (0#32 : BitVec 32) : EReal) = 0 := by
  show ((((0#32 : BitVec 32).toInt : ℤ) : ℝ) : EReal) = 0
  simp

/-- The padding value of the three paddings: the integer constant zero, converted. -/
theorem padValue_zero : (sitofp (F := Ideal) .f32 (constantI S_ 32 0#32 : IVec S_ 32) : FVec Ideal S_ .f32) (Shape.Idx.first h_S_) = 0 :=
  sitofp_zero

/-- The weight panel's left half: the weights, transposed. -/
theorem panel_left (w bp : (⟨S64x64, .f32⟩ : BufTy).Contents (Elt Ideal)) (k : Fin 64) (x : Fin 128) (o : Fin 64)
    (hx : x.val = o.val) :
    concatenate S64x128 1 [⟨S64x64, transpose S64x64 [1, 0] w transposes_S64x64_S64x64_1_0⟩, ⟨S64x64, bp⟩]
      concatenates_S64x64_S64x64_S64x128_d1 (ix2 k x) = w (ix2 o k) := by
  rw [concatenate_pair_apply_left (s₁ := S64x64) (s₂ := S64x64) (1 : Fin 2) _ _ concatenates_S64x64_S64x64_S64x128_d1
    (ix2 k x) rfl (ix2 k o) (fun a => match a with
      | ⟨0, _⟩ => rfl
      | ⟨1, _⟩ => hx.symm)]
  exact transpose_apply [1, 0] w transposes_S64x64_S64x64_1_0 (ix2 k o) (ix2 o k) (fun a => match a with
    | ⟨0, _⟩ => rfl
    | ⟨1, _⟩ => rfl)

/-- The weight panel's right half: the bias matrix. -/
theorem panel_right (w bp : (⟨S64x64, .f32⟩ : BufTy).Contents (Elt Ideal)) (k : Fin 64) (x : Fin 128) (o : Fin 64)
    (hx : x.val = o.val + 64) :
    concatenate S64x128 1 [⟨S64x64, transpose S64x64 [1, 0] w transposes_S64x64_S64x64_1_0⟩, ⟨S64x64, bp⟩]
      concatenates_S64x64_S64x64_S64x128_d1 (ix2 k x) = bp (ix2 k o) := by
  rw [concatenate_pair_apply_right (s₁ := S64x64) (s₂ := S64x64) (1 : Fin 2) _ _ concatenates_S64x64_S64x64_S64x128_d1
    (ix2 k x) rfl rfl (ix2 k o) (fun a => match a with
      | ⟨0, _⟩ => fun _ => rfl
      | ⟨1, _⟩ => fun hne => absurd rfl hne) (by show o.val + 64 = x.val; omega)]

/-- The flattened features: row `b · 2048 + l` is event `l` of batch row `b`. -/
theorem flat_apply (ft : (⟨S32x2048x64, .f32⟩ : BufTy).Contents (Elt Ideal)) (r : Fin 65536) (b : Fin 32) (l : Fin 2048)
    (k : Fin 64) (hr : r.val = b.val * 2048 + l.val) :
    shapeCast S65536x64 ft shapeCasts_S32x2048x64_S65536x64 (ix2 r k) = ft (ix3 b l k) := by
  refine shapeCast_apply ft _ (ix2 r k) (ix3 b l k) ?_
  rw [Shape.rowMajor_val_three, Shape.rowMajor_val_two]
  show (b.val * 2048 + l.val) * 64 + k.val = r.val * 64 + k.val
  rw [hr]

/-- The products regrouped by batch row. -/
theorem grouped_apply (y : (⟨S65536x128, .f32⟩ : BufTy).Contents (Elt Ideal)) (r : Fin 65536) (b : Fin 32) (l : Fin 2048)
    (x : Fin 128) (hr : r.val = b.val * 2048 + l.val) :
    shapeCast S32x2048x128 y shapeCasts_S65536x128_S32x2048x128 (ix3 b l x) = y (ix2 r x) := by
  refine shapeCast_apply y _ (ix3 b l x) (ix2 r x) ?_
  rw [Shape.rowMajor_val_three, Shape.rowMajor_val_two]
  show r.val * 128 + x.val = (b.val * 2048 + l.val) * 128 + x.val
  rw [hr]

/-- The padded products at a row behind the eight in front. -/
theorem padFeat_inside (y : (⟨S32x2048x128, .f32⟩ : BufTy).Contents (Elt Ideal)) (v : FVec Ideal S_ .f32) (b : Fin 32)
    (j : Fin 2056) (l : Fin 2048) (x : Fin 128) (hj : j.val = l.val + 8) :
    pad S32x2056x128 ![0, 8, 0] ![0, 0, 0] ![0, 0, 0] y v pads_S32x2048x128_S32x2056x128_000_800_000 h_S_ (ix3 b j x)
      = y (ix3 b l x) :=
  pad_apply_of_inside ![0, 8, 0] ![0, 0, 0] ![0, 0, 0] y v pads_S32x2048x128_S32x2056x128_000_800_000 h_S_ (ix3 b j x)
    (ix3 b l x) (fun a => match a with
      | ⟨0, _⟩ => by show b.val = 0 + b.val * (0 + 1); omega
      | ⟨1, _⟩ => by show j.val = 8 + l.val * (0 + 1); omega
      | ⟨2, _⟩ => by show x.val = 0 + x.val * (0 + 1); omega)

/-- A column padded in front and behind, at a row between the paddings. -/
theorem padCol_inside (y : (⟨S32x2048x1, .f32⟩ : BufTy).Contents (Elt Ideal)) (v : FVec Ideal S_ .f32) (b : Fin 32)
    (j : Fin 2064) (l : Fin 2048) (hj : j.val = l.val + 8) :
    pad S32x2064x1 ![0, 8, 0] ![0, 8, 0] ![0, 0, 0] y v pads_S32x2048x1_S32x2064x1_000_880_000 h_S_ (ix3 b j (0 : Fin 1))
      = y (ix3 b l (0 : Fin 1)) :=
  pad_apply_of_inside ![0, 8, 0] ![0, 8, 0] ![0, 0, 0] y v pads_S32x2048x1_S32x2064x1_000_880_000 h_S_ (ix3 b j (0 : Fin 1))
    (ix3 b l (0 : Fin 1)) (fun a => match a with
      | ⟨0, _⟩ => by show b.val = 0 + b.val * (0 + 1); omega
      | ⟨1, _⟩ => by show j.val = 8 + l.val * (0 + 1); omega
      | ⟨2, _⟩ => by show 0 = 0 + 0 * (0 + 1); omega)

/-- A column padded in front and behind, at a row inside either padding. -/
theorem padCol_outside (y : (⟨S32x2048x1, .f32⟩ : BufTy).Contents (Elt Ideal)) (v : FVec Ideal S_ .f32) (b : Fin 32)
    (j : Fin 2064) (hj : j.val < 8 ∨ 2056 ≤ j.val) :
    pad S32x2064x1 ![0, 8, 0] ![0, 8, 0] ![0, 0, 0] y v pads_S32x2048x1_S32x2064x1_000_880_000 h_S_ (ix3 b j (0 : Fin 1))
      = v (Shape.Idx.first h_S_) :=
  pad_apply_of_not_inside ![0, 8, 0] ![0, 8, 0] ![0, 0, 0] y v pads_S32x2048x1_S32x2064x1_000_880_000 h_S_
    (ix3 b j (0 : Fin 1)) (1 : Fin 3) (by
      show ¬(8 ≤ j.val ∧ (j.val - 8) % (0 + 1) = 0 ∧ (j.val - 8) / (0 + 1) < 2048)
      rintro ⟨h1, -, h3⟩
      rw [Nat.zero_add, Nat.div_one] at h3
      omega)

/-- A matrix given a unit axis behind. -/
theorem col_apply (t : (⟨S32x2048, .f32⟩ : BufTy).Contents (Elt Ideal)) (b : Fin 32) (l : Fin 2048) :
    broadcastInDim S32x2048x1 ![0, 1] bcast_S32x2048_S32x2048x1_0_1 t (ix3 b l (0 : Fin 1)) = t (ix2 b l) :=
  broadcastInDim_apply ![0, 1] bcast_S32x2048_S32x2048x1_0_1 t (ix3 b l (0 : Fin 1)) (ix2 b l) (fun a => match a with
    | ⟨0, _⟩ => rfl
    | ⟨1, _⟩ => rfl)

/-- A mask bit converted to a float is the number zero or one. -/
theorem maskf_apply (mk : IVec S32x2048 1) (i : S32x2048.Idx) :
    (uitofp (F := Ideal) .f32 mk : FVec Ideal S32x2048 .f32) i = (((mk i).toNat : ℝ) : EReal) := rfl

/-- The samples as one row. -/
theorem samples_apply (us : (⟨S8, .f32⟩ : BufTy).Contents (Elt Ideal)) (s : Fin 8) :
    shapeCast S1x8 us shapeCasts_S8_S1x8 (ix2 (0 : Fin 1) s) = us (ix1 s) := by
  refine shapeCast_apply us _ (ix2 (0 : Fin 1) s) (ix1 s) ?_
  rw [Shape.rowMajor_val_one, Shape.rowMajor_val_two]
  show s.val = 0 * 8 + s.val
  omega

/-- The closing operations' term over the windowed kernel's result `z`. -/
def closing (z : (⟨S32x2048x9x64, .f32⟩ : BufTy).Contents (Elt Ideal)) : (⟨S32x18424x64, .f32⟩ : BufTy).Contents (Elt Ideal) :=
  concatenate S32x18424x64 1
    [⟨S32x18423x64, shapeCast S32x18423x64
        (extractStridedSlice S32x2047x9x64 ![0, 0, 0, 0] z slices_S32x2048x9x64_S32x2047x9x64_0_0_0_0)
        shapeCasts_S32x2047x9x64_S32x18423x64⟩,
     ⟨S32x1x64, broadcastInDim S32x1x64 ![0, 2] bcast_S32x64_S32x1x64_0_2
        (shapeCast S32x64
          (extractStridedSlice S32x1x1x64 ![0, 2047, 0, 0] z slices_S32x2048x9x64_S32x1x1x64_0_2047_0_0)
          shapeCasts_S32x1x1x64_S32x64)⟩]
    concatenates_S32x18423x64_S32x1x64_S32x18424x64_d1

/-- A result row among the first `18423`: row `r % 9` of event `r / 9`'s nine. -/
theorem closing_main (z : (⟨S32x2048x9x64, .f32⟩ : BufTy).Contents (Elt Ideal)) (b : Fin 32) (r : Fin 18424) (o : Fin 64)
    (hr : r.val < 18423) :
    closing z (ix3 b r o) = z (ix4 b (⟨r.val / 9, by omega⟩ : Fin 2048) (⟨r.val % 9, by omega⟩ : Fin 9) o) := by
  unfold closing
  have hb : b.val < 32 := b.isLt
  have ho : o.val < 64 := o.isLt
  rw [concatenate_pair_apply_left (s₁ := S32x18423x64) (s₂ := S32x1x64) (1 : Fin 3) _ _
    concatenates_S32x18423x64_S32x1x64_S32x18424x64_d1 (ix3 b r o) rfl (ix3 b (⟨r.val, hr⟩ : Fin 18423) o) (fun a => match a with
      | ⟨0, _⟩ => rfl
      | ⟨1, _⟩ => rfl
      | ⟨2, _⟩ => rfl)]
  refine (shapeCast_apply _ shapeCasts_S32x2047x9x64_S32x18423x64 (ix3 b (⟨r.val, hr⟩ : Fin 18423) o)
    (ix4 b (⟨r.val / 9, by omega⟩ : Fin 2047) (⟨r.val % 9, by omega⟩ : Fin 9) o) ?_).trans ?_
  · rw [Shape.rowMajor_val_four, Shape.rowMajor_val_three]
    show ((b.val * 2047 + r.val / 9) * 9 + r.val % 9) * 64 + o.val = (b.val * 18423 + r.val) * 64 + o.val
    omega
  · exact extractStridedSlice_apply ![0, 0, 0, 0] z slices_S32x2048x9x64_S32x2047x9x64_0_0_0_0
      (ix4 b (⟨r.val / 9, by omega⟩ : Fin 2047) (⟨r.val % 9, by omega⟩ : Fin 9) o)
      (ix4 b (⟨r.val / 9, by omega⟩ : Fin 2048) (⟨r.val % 9, by omega⟩ : Fin 9) o) (fun a => match a with
        | ⟨0, _⟩ => by show b.val = 0 + b.val; omega
        | ⟨1, _⟩ => by show r.val / 9 = 0 + r.val / 9; omega
        | ⟨2, _⟩ => by show r.val % 9 = 0 + r.val % 9; omega
        | ⟨3, _⟩ => by show o.val = 0 + o.val; omega)

/-- The last result row: row `0` of the last event's nine. -/
theorem closing_last (z : (⟨S32x2048x9x64, .f32⟩ : BufTy).Contents (Elt Ideal)) (b : Fin 32) (r : Fin 18424) (o : Fin 64)
    (hr : ¬ r.val < 18423) :
    closing z (ix3 b r o) = z (ix4 b (⟨2047, by omega⟩ : Fin 2048) (⟨0, by omega⟩ : Fin 9) o) := by
  unfold closing
  have hr' : r.val < 18424 := r.isLt
  rw [concatenate_pair_apply_right (s₁ := S32x18423x64) (s₂ := S32x1x64) (1 : Fin 3) _ _
    concatenates_S32x18423x64_S32x1x64_S32x18424x64_d1 (ix3 b r o) rfl rfl (ix3 b (0 : Fin 1) o) (fun a => match a with
      | ⟨0, _⟩ => fun _ => rfl
      | ⟨1, _⟩ => fun hne => absurd rfl hne
      | ⟨2, _⟩ => fun _ => rfl) (by show 0 + 18423 = r.val; omega)]
  refine (broadcastInDim_apply ![0, 2] bcast_S32x64_S32x1x64_0_2 _ (ix3 b (0 : Fin 1) o) (ix2 b o) (fun a => match a with
    | ⟨0, _⟩ => rfl
    | ⟨1, _⟩ => rfl)).trans ?_
  refine (shapeCast_apply _ shapeCasts_S32x1x1x64_S32x64 (ix2 b o) (ix4 b (0 : Fin 1) (0 : Fin 1) o) ?_).trans ?_
  · rw [Shape.rowMajor_val_four, Shape.rowMajor_val_two]
    show ((b.val * 1 + 0) * 1 + 0) * 64 + o.val = b.val * 64 + o.val
    omega
  · exact extractStridedSlice_apply ![0, 2047, 0, 0] z slices_S32x2048x9x64_S32x1x1x64_0_2047_0_0
      (ix4 b (0 : Fin 1) (0 : Fin 1) o) (ix4 b (⟨2047, by omega⟩ : Fin 2048) (⟨0, by omega⟩ : Fin 9) o) (fun a => match a with
        | ⟨0, _⟩ => by show b.val = 0 + b.val; omega
        | ⟨1, _⟩ => by show 2047 = 2047 + 0; omega
        | ⟨2, _⟩ => by show 0 = 0 + 0; omega
        | ⟨3, _⟩ => by show o.val = 0 + o.val; omega)

end Cert.KernelIdeal.Hand

end
-- ==== Proof.Mid.lean ====
/-
  The two kernel regions' results as whole-array functions of the arrays they read.

  * `proj`: the flattened features `[65536, 64]` times the weight panel `[64, 128]`.
  * `out2`: over the padded projections `fp : [32, 2056, 128]` (8 zero rows in front), padded times `tp` and padded mask
    values `mp : [32, 2064, 1]` (8 pad rows in front and behind) and the samples `us2 : [1, 8]`, event `t` sits at padded
    row `t + 8`; with `gvalid m = mp (t+8−m) · mp (t+8)`,
    `gterm m = (gvalid m · (tp (t+8) − tp (t+8−m))) · (fp (t+8−m) o · gvalid m) + fp (t+8−m) (o+64) · gvalid m`,
    `glin m = fp (t+8−m) o · gvalid m` and the gap `gudt = (mp (t+8) · mp (t+9)) · (tp (t+9) − tp (t+8))`:
    row 0 of event `t`'s nine is `∑ m = 1 … 8, gterm m`, row `s + 1` is
    `(∑ m = 0 … 7, gterm m) + (gudt · us2 s) · ∑ m = 0 … 7, glin m`.
-/
import Idealize.ShloMosaic.PureOps.Ideal
import Idealize.ShloMosaic.Lib.ValueIdx

noncomputable section

open scoped BigOperators

namespace Cert.WindowMid

open Idealize.ShloMosaic Idealize.ShloMosaic.ValueIdx

/-- The projection: features block rows times the weight panel. -/
def proj (ff : (⟨2, ![65536, 64]⟩ : Shape).Idx → EReal) (wc : (⟨2, ![64, 128]⟩ : Shape).Idx → EReal) :
    (⟨2, ![65536, 128]⟩ : Shape).Idx → EReal :=
  fun i => ∑ k : Fin 64, ff (ix2 (i 0) k) * wc (ix2 k (i 1))

variable (fp : (⟨3, ![32, 2056, 128]⟩ : Shape).Idx → EReal) (tp mp : (⟨3, ![32, 2064, 1]⟩ : Shape).Idx → EReal)
  (us2 : (⟨2, ![1, 8]⟩ : Shape).Idx → EReal)

def gvalid (b : Fin 32) (t : Fin 2048) (m : ℕ) : EReal :=
  if h : m ≤ 8 then mp (ix3 b ⟨t.val + 8 - m, by omega⟩ (0 : Fin 1)) * mp (ix3 b ⟨t.val + 8, by omega⟩ (0 : Fin 1)) else 0

def gterm (b : Fin 32) (t : Fin 2048) (m : ℕ) (o : Fin 64) : EReal :=
  if h : m ≤ 8 then
    (gvalid mp b t m * (tp (ix3 b ⟨t.val + 8, by omega⟩ (0 : Fin 1)) - tp (ix3 b ⟨t.val + 8 - m, by omega⟩ (0 : Fin 1))))
        * (fp (ix3 b ⟨t.val + 8 - m, by omega⟩ ⟨o.val, by omega⟩) * gvalid mp b t m)
      + fp (ix3 b ⟨t.val + 8 - m, by omega⟩ ⟨o.val + 64, by omega⟩) * gvalid mp b t m
  else 0

def glin (b : Fin 32) (t : Fin 2048) (m : ℕ) (o : Fin 64) : EReal :=
  if h : m ≤ 8 then fp (ix3 b ⟨t.val + 8 - m, by omega⟩ ⟨o.val, by omega⟩) * gvalid mp b t m else 0

def gudt (b : Fin 32) (t : Fin 2048) : EReal :=
  (mp (ix3 b ⟨t.val + 8, by omega⟩ (0 : Fin 1)) * mp (ix3 b ⟨t.val + 9, by omega⟩ (0 : Fin 1)))
    * (tp (ix3 b ⟨t.val + 9, by omega⟩ (0 : Fin 1)) - tp (ix3 b ⟨t.val + 8, by omega⟩ (0 : Fin 1)))

def out2At (b : Fin 32) (t : Fin 2048) (s : Fin 9) (o : Fin 64) : EReal :=
  if h : s.val = 0 then ∑ j : Fin 8, gterm fp tp mp b t (j.val + 1) o
  else (∑ j : Fin 8, gterm fp tp mp b t j.val o)
    + (gudt tp mp b t * us2 (ix2 (0 : Fin 1) ⟨s.val - 1, by omega⟩)) * ∑ j : Fin 8, glin fp mp b t j.val o

/-- The windowed kernel's whole result `[32, 2048, 9, 64]`. -/
def out2 : (⟨4, ![32, 2048, 9, 64]⟩ : Shape).Idx → EReal := fun i => out2At fp tp mp us2 (i 0) (i 1) (i 2) (i 3)

theorem out2_ix4 (b : Fin 32) (t : Fin 2048) (s : Fin 9) (o : Fin 64) :
    out2 fp tp mp us2 (ix4 b t s o) = out2At fp tp mp us2 b t s o := rfl

end Cert.WindowMid

end
-- ==== Proof.Spec.lean ====
/-
  The mathematics of the windowed continuous convolution, stated once, index by index, over the six argument arrays.

  For a batch row `b`, an event `t` and an output channel `o`:
  * `lin b l o = ∑ c, features (b,l,c) · W (o,c)` and `bia b l o = ∑ c, features (b,l,c) · bias (c,o)` are the two
    linear projections of event `l`;
  * the event `m` steps before `t` contributes `term b t m o = (time t − time (t−m)) · lin (t−m) + bia (t−m)` when
    `t − m` exists and both events are unpadded (the mask bit is one at both), and nothing otherwise; `linTerm` is the
    same with only the linear projection;
  * `real` sums the contributions of the eight events strictly before `t` (`m = 1 … 8`), `sim` and `sumLin` those of
    `t` itself and the seven before it (`m = 0 … 7`);
  * `udt b t` is the gap to the next event when both are unpadded, and sample `s` of the gap adds
    `(udt · u s) · sumLin` to `sim`;
  * the result lays, for every event but the last, `real` followed by the eight samples (nine rows per event), and ends
    with the last event's `real`.
-/
import Idealize.ShloMosaic.PureOps.Ideal
import Idealize.ShloMosaic.Lib.ValueIdx

noncomputable section

open scoped BigOperators

namespace Cert.WindowSpec

open Idealize.ShloMosaic Idealize.ShloMosaic.ValueIdx

variable (tm : (⟨2, ![32, 2048]⟩ : Shape).Idx → EReal) (ft : (⟨3, ![32, 2048, 64]⟩ : Shape).Idx → EReal)
  (mk : (⟨2, ![32, 2048]⟩ : Shape).Idx → BitVec 1) (us : (⟨1, ![8]⟩ : Shape).Idx → EReal)
  (W bp : (⟨2, ![64, 64]⟩ : Shape).Idx → EReal)

/-- The linear projection of event `l`: `∑ c, features (b,l,c) · W (o,c)`. -/
def lin (b : Fin 32) (l : Fin 2048) (o : Fin 64) : EReal := ∑ c : Fin 64, ft (ix3 b l c) * W (ix2 o c)

/-- The bias projection of event `l`: `∑ c, features (b,l,c) · bias (c,o)`. -/
def bia (b : Fin 32) (l : Fin 2048) (o : Fin 64) : EReal := ∑ c : Fin 64, ft (ix3 b l c) * bp (ix2 c o)

/-- The event `m` steps before `t`, when there is one. -/
def back (t : Fin 2048) (m : ℕ) (h : m ≤ t.val) : Fin 2048 := ⟨t.val - m, by omega⟩

/-- What the event `m` steps before `t` contributes to event `t`. -/
def term (b : Fin 32) (t : Fin 2048) (m : ℕ) (o : Fin 64) : EReal :=
  if h : m ≤ t.val then
    if mk (ix2 b (back t m h)) = 1#1 ∧ mk (ix2 b t) = 1#1 then
      (tm (ix2 b t) - tm (ix2 b (back t m h))) * lin ft W b (back t m h) o + bia ft bp b (back t m h) o
    else 0
  else 0

/-- Its linear projection alone, under the same two mask bits. -/
def linTerm (b : Fin 32) (t : Fin 2048) (m : ℕ) (o : Fin 64) : EReal :=
  if h : m ≤ t.val then
    if mk (ix2 b (back t m h)) = 1#1 ∧ mk (ix2 b t) = 1#1 then lin ft W b (back t m h) o else 0
  else 0

/-- The eight events strictly before `t`. -/
def real (b : Fin 32) (t : Fin 2048) (o : Fin 64) : EReal := ∑ j : Fin 8, term tm ft mk W bp b t (j.val + 1) o

/-- Event `t` and the seven before it. -/
def sim (b : Fin 32) (t : Fin 2048) (o : Fin 64) : EReal := ∑ j : Fin 8, term tm ft mk W bp b t j.val o

/-- The linear projections of event `t` and the seven before it. -/
def sumLin (b : Fin 32) (t : Fin 2048) (o : Fin 64) : EReal := ∑ j : Fin 8, linTerm ft mk W b t j.val o

/-- The gap from event `t` to the next one, when there is a next one and both are unpadded. -/
def udt (b : Fin 32) (t : Fin 2048) : EReal :=
  if h : t.val + 1 < 2048 then
    if mk (ix2 b t) = 1#1 ∧ mk (ix2 b ⟨t.val + 1, h⟩) = 1#1 then tm (ix2 b ⟨t.val + 1, h⟩) - tm (ix2 b t) else 0
  else 0

/-- Row `s` of event `t`'s nine: the real value first, then the eight samples of the gap. -/
def cell (b : Fin 32) (t : Fin 2048) (s : Fin 9) (o : Fin 64) : EReal :=
  if h : s.val = 0 then real tm ft mk W bp b t o
  else sim tm ft mk W bp b t o + (udt tm mk b t * us (ix1 ⟨s.val - 1, by omega⟩)) * sumLin ft mk W b t o

/-- The result at coordinates: nine rows per event for the first 2047 events, then the last event's real value. -/
def resultAt (b : Fin 32) (r : Fin 18424) (o : Fin 64) : EReal :=
  if h : r.val < 18423 then cell tm ft mk us W bp b ⟨r.val / 9, by omega⟩ ⟨r.val % 9, by omega⟩ o
  else real tm ft mk W bp b ⟨2047, by omega⟩ o

/-- The whole result array. -/
def result : (⟨3, ![32, 18424, 64]⟩ : Shape).Idx → EReal := fun i => resultAt tm ft mk us W bp (i 0) (i 1) (i 2)

theorem result_ix3 (b : Fin 32) (r : Fin 18424) (o : Fin 64) :
    result tm ft mk us W bp (ix3 b r o) = resultAt tm ft mk us W bp b r o := rfl

end Cert.WindowSpec

end
-- ==== Proof.Bridge.lean ====
/-
  The windowed kernel's whole-array result is the specification's cell, once the padded arrays it reads are known
  index by index: a padded row `l + 8` holds event `l` (the two projections, the time, the mask bit as the number
  zero or one), and a padded mask row outside the events holds zero. A product of two mask values is one when both
  bits are one and zero otherwise, and a zero factor annihilates a summand whatever the other factors are, so the
  rows in front of the first event and behind the last one contribute nothing, as in the specification.
-/
import proofs.«104800_j57621281243745_2_alg».proof.Proof.Mid
import proofs.«104800_j57621281243745_2_alg».proof.Proof.Spec

noncomputable section

open scoped BigOperators

namespace Cert.WindowBridge

open Idealize.ShloMosaic Idealize.ShloMosaic.ValueIdx Cert.WindowMid Cert.WindowSpec

/-- A mask bit as a number: zero or one. -/
def bit (x : BitVec 1) : EReal := ((x.toNat : ℝ) : EReal)

theorem bit_one : bit 1#1 = 1 := by simp [bit]
theorem bit_zero : bit 0#1 = 0 := by simp [bit]

/-- The product of two mask values: one when both bits are one, zero otherwise. -/
theorem bit_mul_bit (x y : BitVec 1) : bit x * bit y = if x = 1#1 ∧ y = 1#1 then 1 else 0 := by
  rcases BitVec.eq_zero_or_eq_one x with hx | hx <;> rcases BitVec.eq_zero_or_eq_one y with hy | hy <;> subst hx <;> subst hy
  · rw [if_neg (by decide), bit_zero, zero_mul]
  · rw [if_neg (by decide), bit_zero, zero_mul]
  · rw [if_neg (by decide), bit_zero, mul_zero]
  · rw [if_pos (by decide), bit_one, one_mul]

variable (fp : (⟨3, ![32, 2056, 128]⟩ : Shape).Idx → EReal) (tp mp : (⟨3, ![32, 2064, 1]⟩ : Shape).Idx → EReal)
  (us2 : (⟨2, ![1, 8]⟩ : Shape).Idx → EReal)
  (tm : (⟨2, ![32, 2048]⟩ : Shape).Idx → EReal) (ft : (⟨3, ![32, 2048, 64]⟩ : Shape).Idx → EReal)
  (mk : (⟨2, ![32, 2048]⟩ : Shape).Idx → BitVec 1) (us : (⟨1, ![8]⟩ : Shape).Idx → EReal)
  (W bp : (⟨2, ![64, 64]⟩ : Shape).Idx → EReal)

/-- What the padded arrays hold, index by index, in terms of the six arguments. -/
structure Padded : Prop where
  feat_lin : ∀ (b : Fin 32) (j : Fin 2056) (x : Fin 128) (l : Fin 2048) (o : Fin 64), j.val = l.val + 8 → x.val = o.val →
    fp (ix3 b j x) = lin ft W b l o
  feat_bia : ∀ (b : Fin 32) (j : Fin 2056) (x : Fin 128) (l : Fin 2048) (o : Fin 64), j.val = l.val + 8 → x.val = o.val + 64 →
    fp (ix3 b j x) = bia ft bp b l o
  time_at : ∀ (b : Fin 32) (j : Fin 2064) (l : Fin 2048), j.val = l.val + 8 → tp (ix3 b j (0 : Fin 1)) = tm (ix2 b l)
  mask_at : ∀ (b : Fin 32) (j : Fin 2064) (l : Fin 2048), j.val = l.val + 8 → mp (ix3 b j (0 : Fin 1)) = bit (mk (ix2 b l))
  mask_zero : ∀ (b : Fin 32) (j : Fin 2064), j.val < 8 ∨ 2056 ≤ j.val → mp (ix3 b j (0 : Fin 1)) = 0
  samp_at : ∀ s : Fin 8, us2 (ix2 (0 : Fin 1) s) = us (ix1 s)

variable {fp tp mp us2 tm ft mk us W bp}

/-- The validity factor of the event `m` steps back: one when that event exists and both events are unpadded. -/
theorem gvalid_eq (H : Padded fp tp mp us2 tm ft mk us W bp) (b : Fin 32) (t : Fin 2048) (m : ℕ) (hm : m ≤ 8) :
    gvalid mp b t m
      = if h : m ≤ t.val then (if mk (ix2 b (back t m h)) = 1#1 ∧ mk (ix2 b t) = 1#1 then 1 else 0) else 0 := by
  unfold gvalid
  rw [dif_pos hm]
  by_cases h : m ≤ t.val
  · rw [dif_pos h, H.mask_at b _ (back t m h) (by show t.val + 8 - m = (t.val - m) + 8; omega), H.mask_at b _ t rfl,
      bit_mul_bit]
  · rw [dif_neg h, H.mask_zero b _ (Or.inl (by show t.val + 8 - m < 8; omega)), zero_mul]

/-- The kernel's summand for the event `m` steps back is the specification's. -/
theorem gterm_eq (H : Padded fp tp mp us2 tm ft mk us W bp) (b : Fin 32) (t : Fin 2048) (m : ℕ) (hm : m ≤ 8) (o : Fin 64) :
    gterm fp tp mp b t m o = term tm ft mk W bp b t m o := by
  unfold gterm term
  rw [dif_pos hm, gvalid_eq H b t m hm]
  by_cases h : m ≤ t.val
  · simp only [dif_pos h]
    by_cases hb : mk (ix2 b (back t m h)) = 1#1 ∧ mk (ix2 b t) = 1#1
    · simp only [if_pos hb, one_mul, mul_one]
      rw [H.time_at b _ t rfl, H.time_at b _ (back t m h) (by show t.val + 8 - m = (t.val - m) + 8; omega),
        H.feat_lin b _ _ (back t m h) o (by show t.val + 8 - m = (t.val - m) + 8; omega) rfl,
        H.feat_bia b _ _ (back t m h) o (by show t.val + 8 - m = (t.val - m) + 8; omega) rfl]
    · simp only [if_neg hb, zero_mul, mul_zero, add_zero]
  · simp only [dif_neg h, zero_mul, mul_zero, add_zero]

/-- Its linear part alone likewise. -/
theorem glin_eq (H : Padded fp tp mp us2 tm ft mk us W bp) (b : Fin 32) (t : Fin 2048) (m : ℕ) (hm : m ≤ 8) (o : Fin 64) :
    glin fp mp b t m o = linTerm ft mk W b t m o := by
  unfold glin linTerm
  rw [dif_pos hm, gvalid_eq H b t m hm]
  by_cases h : m ≤ t.val
  · simp only [dif_pos h]
    by_cases hb : mk (ix2 b (back t m h)) = 1#1 ∧ mk (ix2 b t) = 1#1
    · simp only [if_pos hb, mul_one]
      rw [H.feat_lin b _ _ (back t m h) o (by show t.val + 8 - m = (t.val - m) + 8; omega) rfl]
    · simp only [if_neg hb, mul_zero]
  · simp only [dif_neg h, mul_zero]

/-- The gap to the next event: behind the last event the padded mask row holds zero, as the specification's gap does. -/
theorem gudt_eq (H : Padded fp tp mp us2 tm ft mk us W bp) (b : Fin 32) (t : Fin 2048) :
    gudt tp mp b t = udt tm mk b t := by
  unfold gudt udt
  by_cases h : t.val + 1 < 2048
  · rw [dif_pos h, H.mask_at b ⟨t.val + 8, by omega⟩ t rfl,
      H.mask_at b ⟨t.val + 9, by omega⟩ ⟨t.val + 1, h⟩ (by show t.val + 9 = (t.val + 1) + 8; omega),
      H.time_at b ⟨t.val + 8, by omega⟩ t rfl,
      H.time_at b ⟨t.val + 9, by omega⟩ ⟨t.val + 1, h⟩ (by show t.val + 9 = (t.val + 1) + 8; omega), bit_mul_bit]
    by_cases hb : mk (ix2 b t) = 1#1 ∧ mk (ix2 b ⟨t.val + 1, h⟩) = 1#1
    · rw [if_pos hb, if_pos hb, one_mul]
    · rw [if_neg hb, if_neg hb, zero_mul]
  · rw [dif_neg h, H.mask_zero b ⟨t.val + 9, by omega⟩ (Or.inr (by show 2056 ≤ t.val + 9; omega)), mul_zero, zero_mul]

/-- Row `s` of event `t`'s nine, as the kernel computes it, is the specification's cell. -/
theorem out2At_eq_cell (H : Padded fp tp mp us2 tm ft mk us W bp) (b : Fin 32) (t : Fin 2048) (s : Fin 9) (o : Fin 64) :
    out2At fp tp mp us2 b t s o = cell tm ft mk us W bp b t s o := by
  unfold out2At cell
  by_cases hs : s.val = 0
  · rw [dif_pos hs, dif_pos hs]
    unfold real
    exact Finset.sum_congr rfl fun j _ => gterm_eq H b t (j.val + 1) (by omega) o
  · rw [dif_neg hs, dif_neg hs, gudt_eq H b t, H.samp_at]
    unfold sim sumLin
    have e1 : ∑ j : Fin 8, gterm fp tp mp b t j.val o = ∑ j : Fin 8, term tm ft mk W bp b t j.val o :=
      Finset.sum_congr rfl fun j _ => gterm_eq H b t j.val (by omega) o
    have e2 : ∑ j : Fin 8, glin fp mp b t j.val o = ∑ j : Fin 8, linTerm ft mk W b t j.val o :=
      Finset.sum_congr rfl fun j _ => glin_eq H b t j.val (by omega) o
    rw [e1, e2]

end Cert.WindowBridge

end
-- ==== Proof.HostPadded.lean ====
/-
  The four arrays the windowed region reads, index by index, in terms of the six arguments: padded row `l + 8` of the
  projections is the linear projection (columns `0 … 63`) or the bias projection (columns `64 … 127`) of event `l`
  — the projection region's product, regrouped and padded, with the panel's two halves read —, of the times is the
  time of event `l`, of the mask values is its mask bit as a number; a padded mask row in front of the events or
  behind them holds zero; the samples are the samples. The projection region's product is taken as a hypothesis here.
-/
import proofs.«104800_j57621281243745_2_alg».proof.Proof.HostFold
import proofs.«104800_j57621281243745_2_alg».proof.Proof.HostReads
import proofs.«104800_j57621281243745_2_alg».proof.Proof.Bridge

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The projection region leaves the product of the flattened features and the weight panel. -/
abbrev ProjFinal : Prop :=
  ∀ (V : (c : Dev nD) → (b : Ref sig .tc) → Buf (Elt Ideal) ((c : Thread nD τ).loc b)) (c : Dev nD),
    (dat0 (F := Ideal) V c).arrAt 2 cfg0.N = Cert.WindowMid.proj (V c main_v2) (V c main_v1)

/-- Event `l`'s features times column `x` of a panel. -/
def projRow (ft : (⟨3, ![32, 2048, 64]⟩ : Shape).Idx → EReal) (pn : (⟨2, ![64, 128]⟩ : Shape).Idx → EReal) (b : Fin 32)
    (l : Fin 2048) (x : Fin 128) : EReal :=
  ∑ k : Fin 64, ft (ix3 b l k) * pn (ix2 k x)

/-- A row of the product array whose row of flattened features is event `l`'s. -/
theorem proj_row (ff : (⟨2, ![65536, 64]⟩ : Shape).Idx → EReal) (wc : (⟨2, ![64, 128]⟩ : Shape).Idx → EReal)
    (ft : (⟨3, ![32, 2048, 64]⟩ : Shape).Idx → EReal) (r : Fin 65536) (b : Fin 32) (l : Fin 2048) (x : Fin 128)
    (hff : ∀ k : Fin 64, ff (ix2 r k) = ft (ix3 b l k)) :
    Cert.WindowMid.proj ff wc (ix2 r x) = projRow ft wc b l x := by
  show ∑ k : Fin 64, ff (ix2 r k) * wc (ix2 k x) = ∑ k : Fin 64, ft (ix3 b l k) * wc (ix2 k x)
  exact Finset.sum_congr rfl fun k _ => by rw [hff k]

variable (m : (ℓ : Loc nD τ sig) → Buf (Elt Ideal) ℓ) (c : Dev nD)

/-- Padded row `l + 8` of the projections: event `l`'s features times a column of the panel. -/
theorem feat_at (h0 : ProjFinal) (b : Fin 32) (j : Fin 2056) (x : Fin 128) (l : Fin 2048) (hj : j.val = l.val + 8) :
    @Eq EReal (V9 (F := Ideal) m c main_v5 (ix3 b j x))
      (projRow (m ((c : Thread nD τ).loc main_arg1)) (W1 (F := Ideal) m c (Proc.devRef .tc main_v1)) b l x) := by
  have hb : b.val < 32 := b.isLt
  have hl : l.val < 2048 := l.isLt
  refine (congrFun (W9_feat m c) (ix3 b j x)).trans ?_
  refine (padFeat_inside _ _ b j l x hj).trans ?_
  refine (congrFun (W3_grouped m c) (ix3 b l x)).trans ?_
  refine (grouped_apply _ (⟨b.val * 2048 + l.val, by omega⟩ : Fin 65536) b l x rfl).trans ?_
  refine (congrFun ((W2_prod m c).trans (h0 (V1 m) c)) _).trans ?_
  exact proj_row _ _ (m ((c : Thread nD τ).loc main_arg1)) (⟨b.val * 2048 + l.val, by omega⟩ : Fin 65536) b l x
    (fun k => (congrFun (W1_flat m c) _).trans (flat_apply _ _ b l k rfl))

/-- What the windowed region reads, index by index. -/
theorem padded (h0 : ProjFinal) :
    Cert.WindowBridge.Padded (V9 (F := Ideal) m c main_v5) (V9 (F := Ideal) m c main_v8) (V9 (F := Ideal) m c main_v10)
      (V9 (F := Ideal) m c main_v11) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) where
  feat_lin b j x l o hj hx := by
    refine (feat_at m c h0 b j x l hj).trans ?_
    unfold projRow Cert.WindowSpec.lin
    exact Finset.sum_congr rfl fun k _ => by rw [congrFun (W1_panel m c) (ix2 k x), panel_left _ _ k x o hx]
  feat_bia b j x l o hj hx := by
    refine (feat_at m c h0 b j x l hj).trans ?_
    unfold projRow Cert.WindowSpec.bia
    exact Finset.sum_congr rfl fun k _ => by rw [congrFun (W1_panel m c) (ix2 k x), panel_right _ _ k x o hx]
  time_at b j l hj :=
    (congrFun (W9_times m c) (ix3 b j (0 : Fin 1))).trans <| (padCol_inside _ _ b j l hj).trans <|
      (congrFun (W5_times m c) (ix3 b l (0 : Fin 1))).trans (col_apply _ b l)
  mask_at b j l hj :=
    (congrFun (W9_mask m c) (ix3 b j (0 : Fin 1))).trans <| (padCol_inside _ _ b j l hj).trans <|
      (congrFun (W7_mask m c) (ix3 b l (0 : Fin 1))).trans <| (col_apply _ b l).trans <|
        (congrFun (W5_maskf m c) (ix2 b l)).trans (maskf_apply _ _)
  mask_zero b j hj :=
    (congrFun (W9_mask m c) (ix3 b j (0 : Fin 1))).trans <| (padCol_outside _ _ b j hj).trans <|
      (congrArg (fun z : IVec S_ 32 => (sitofp (F := Ideal) .f32 z : FVec Ideal S_ .f32) (Shape.Idx.first h_S_)) (W7_zero m c)).trans
        padValue_zero
  samp_at s := (congrFun (W9_samples m c) (ix2 (0 : Fin 1) s)).trans (samples_apply _ s)

end Cert.KernelIdeal.Hand

end
-- ==== Proof.KernelValue.lean ====
/-
  The program's result buffer, index by index, is the specification's result of the six arguments: the closing host
  operations read the windowed region's result (row `r % 9` of event `r / 9`'s nine for the first `18423` rows, row
  `0` of the last event's nine for the last row), the windowed region's result is the specification's cell once what
  it reads is known index by index, and that is read off the host operations in front of it and the projection
  region's product. The two regions' whole-array results are taken as hypotheses here.
-/
import proofs.«104800_j57621281243745_2_alg».proof.Proof.HostPadded

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The windowed region leaves its whole-array function of the four arrays it reads. -/
abbrev WindowFinal : Prop :=
  ∀ (V : (c : Dev nD) → (b : Ref sig .tc) → Buf (Elt Ideal) ((c : Thread nD τ).loc b)) (c : Dev nD),
    (dat1 (F := Ideal) V c).arrAt 7 cfg1.N
      = Cert.WindowMid.out2 (V c main_v5) (V c main_v8) (V c main_v10) (V c main_v11)

/-- The result buffer after the program, given the two regions' results. -/
theorem kernel_value_of (h0 : ProjFinal) (h1 : WindowFinal) (m : (ℓ : Loc nD τ sig) → Buf (Elt Ideal) ℓ) (c : Dev nD) :
    W11 (F := Ideal) m c (Proc.devRef .tc main_v18)
      = Cert.WindowSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, r, o, rfl⟩ : ∃ (b : Fin 32) (r : Fin 18424) (o : Fin 64), i = ix3 b r o := ⟨i 0, i 1, i 2, eq_ix3 i⟩
  have hz : (W10 (F := Ideal) m c (Proc.devRef .tc main_v12) : (⟨4, ![32, 2048, 9, 64]⟩ : Shape).Idx → EReal)
      = Cert.WindowMid.out2 (V9 (F := Ideal) m c main_v5) (V9 (F := Ideal) m c main_v8) (V9 (F := Ideal) m c main_v10)
          (V9 (F := Ideal) m c main_v11) := (W10_out m c).trans (h1 (V9 m) c)
  refine (congrFun (W11_result m c) (ix3 b r o)).trans ?_
  show closing (W10 (F := Ideal) m c (Proc.devRef .tc main_v12)) (ix3 b r o) = _
  rw [Cert.WindowSpec.result_ix3]
  unfold Cert.WindowSpec.resultAt
  by_cases hr : r.val < 18423
  · rw [dif_pos hr, closing_main _ b r o hr, hz, Cert.WindowMid.out2_ix4, Cert.WindowBridge.out2At_eq_cell (padded m c h0)]
  · rw [dif_neg hr, closing_last _ b r o hr, hz, Cert.WindowMid.out2_ix4, Cert.WindowBridge.out2At_eq_cell (padded m c h0)]
    unfold Cert.WindowSpec.cell
    rw [dif_pos rfl]

end Cert.KernelIdeal.Hand

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.PayProj.lean ====
/-
  The first kernel's product at an entry.

  The body rounds both loaded blocks to a narrower float format, multiplies them on the matrix unit into a zero
  accumulator and stores the result. On the extended reals a change of format is the identity and the zero word is 0,
  so entry (p, q) of what is stored is  ∑ k < 64, x (p, k) · w (k, q).
-/
import proofs.«104800_j57621281243745_2_alg».proof.Proof.Gen.KernelIdeal.Skeleton
import proofs.«104800_j57621281243745_2_alg».proof.Proof.LibPlainDot
import Idealize.ShloMosaic.Lib.Pipeline.Value

noncomputable section

namespace Cert.KernelIdeal.Hand

open Idealize.ShloMosaic Idealize.ShloMosaic.ValueIdx Cert.KernelIdeal Cert.KernelIdeal.Gen

/-- Entry (p, q) of the stored product is the sum over the 64 contracted positions. -/
theorem projPay_apply (v0 : Vec Ideal S8192x64 .f32) (v3 : Vec Ideal S64x128 .f32) (p : Fin 8192) (q : Fin 128) :
    k0_pay1 (F := Ideal) v0 v3 (ix2 p q) = ∑ k : Fin 64, v0 (ix2 p k) * v3 (ix2 k q) := by
  unfold k0_pay1
  rw [shapeCast_self v0, shapeCast_self v3]
  exact PlainDot.matmul_zero_ix2 dot_S8192x64_S64x128_S8192x128_1_0_0_1_n_n rfl rfl rfl rfl
    (fun _ _ => rfl) (fun _ _ => rfl) none _ _ p q

end Cert.KernelIdeal.Hand

end
-- ==== Proof.Arr0.lean ====
/-
  Region 0's result as one array: the flattened features times the weight panel.

  Point t of the grid of 8 reads rows 8192·t … 8192·t + 8191 of the features and the whole 64 × 128 panel, and writes the
  same rows of the result: entry (p, q) of what it writes is ∑ k < 64, block (p, k) · panel (k, q), and block row p is
  array row 8192·t + p. The 8 row blocks cover the result's 65536 rows (row r lies in block r / 8192), so after the last
  point the result holds, at every (r, q), ∑ k < 64, features (r, k) · panel (k, q).
-/
import proofs.«104800_j57621281243745_2_alg».proof.Proof.Data
import proofs.«104800_j57621281243745_2_alg».proof.Proof.PayProj
import proofs.«104800_j57621281243745_2_alg».proof.Proof.Mid
import Idealize.ShloMosaic.Lib.Pipeline.Value

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_off2 : (![0, 0] : Fin 2 → Nat) = fun _ => 0 := funext fun a => by fin_cases a <;> rfl

/-- The printed index maps over the grid: the feature block and the result block are row block t, the panel is whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of the stored product is the whole-array product at i, when block row p is the features' row i 0 and
    the panel block is the panel. -/
theorem prod_at (ff : (⟨2, ![65536, 64]⟩ : Shape).Idx → EReal) (wc : (⟨2, ![64, 128]⟩ : Shape).Idx → EReal)
    (x0 : Vec Ideal S8192x64 .f32) (x1 : Vec Ideal S64x128 .f32) (i : (⟨2, ![65536, 128]⟩ : Shape).Idx)
    (p : Fin 8192) (q : Fin 128)
    (h0 : ∀ k : Fin 64, x0 (ix2 p k) = ff (ix2 (i 0) k))
    (h1 : ∀ k : Fin 64, x1 (ix2 k q) = wc (ix2 k (i 1))) :
    k0_pay1 (F := Ideal) x0 x1 (ix2 p q) = Cert.WindowMid.proj ff wc i := by
  rw [projPay_apply]
  show _ = ∑ k : Fin 64, ff (ix2 (i 0) k) * wc (ix2 k (i 1))
  exact Finset.sum_congr rfl fun k _ => by rw [h0 k, h1 k]

/-- What point t writes back is block t of the product of the two arrays as the region finds them. -/
theorem flushed0_eq (c : Dev nD) (t : Fin cfg0.N) :
    (dat0 V c).flushed 2 t
      = ((cfg0.win 2).blk t).view.read (Elt Ideal) (Cert.WindowMid.proj (V c main_v2) (V c main_v1)) := by
  show (cfg0.win 2).cut (grid0.coords t) ((dat0 V c).after 2 t) = _
  rw [after0_2]
  unfold out0_2
  rw [View.canon_unit_zero zero_off2]
  simp only [View.ld_unit_zero (S := S8192x64) zero_off2, View.ld_unit_zero (S := S64x128) zero_off2]
  obtain ⟨e00, e01, e10, e11, e20, e21⟩ := idx0 t
  funext j
  obtain ⟨p, q, rfl⟩ : ∃ (p : Fin 8192) (q : Fin 128), j = ix2 p q := ⟨j 0, j 1, eq_ix2 j⟩
  show k0_pay1 (F := Ideal) (iblk0 V c 0 t) (iblk0 V c 1 t) (ix2 p q)
    = Cert.WindowMid.proj (V c main_v2) (V c main_v1) (((cfg0.win 2).blk t).view.emb (ix2 p q))
  refine prod_at (V c main_v2) (V c main_v1) (iblk0 V c 0 t) (iblk0 V c 1 t) _ p q (fun k => ?_) (fun k => ?_)
  · show V c main_v2 (((cfg0.win 0).blk t).view.emb (ix2 p k)) = V c main_v2 _
    congr 1
    funext a; apply Fin.ext
    match a with
    | ⟨0, _⟩ => show win0_0.index t (0 : Fin 2) * 8192 + 1 * p.val = win0_2.index t (0 : Fin 2) * 8192 + 1 * p.val; omega
    | ⟨1, _⟩ => show win0_0.index t (1 : Fin 2) * 64 + 1 * k.val = k.val; omega
  · show V c main_v1 (((cfg0.win 1).blk t).view.emb (ix2 k q)) = V c main_v1 _
    congr 1
    funext a; apply Fin.ext
    match a with
    | ⟨0, _⟩ => show win0_1.index t (0 : Fin 2) * 64 + 1 * k.val = k.val; omega
    | ⟨1, _⟩ => show win0_1.index t (1 : Fin 2) * 128 + 1 * q.val = win0_2.index t (1 : Fin 2) * 128 + 1 * q.val; omega

/-- An index of the result is in point t's block iff each coordinate is in the block's range on its axis. -/
theorem mem_blk0 (t : Fin cfg0.N) (i : S65536x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v3).slice (win0_2.rect t)).set ↔ _
  rw [View.set_slice_whole, Rect.mem_set_unit]
  exact Iff.rfl

/-- Row r of the result lies in the block of point r / 8192. -/
theorem cover0 (i : S65536x128.Idx) : ∃ t : Fin cfg0.N, (cfg0.win 2).flush t = true ∧ i ∈ ((cfg0.win 2).blk t).view.set := by
  have hi0 : (i 0).val < 65536 := (i 0).isLt
  have hi1 : (i 1).val < 128 := (i 1).isLt
  have hN : cfg0.N = 8 := N_0
  refine ⟨⟨(i 0).val / 8192, by rw [hN]; omega⟩, flush0_2 _, ?_⟩
  rw [mem_blk0]
  obtain ⟨e00, e01, e10, e11, e20, e21⟩ := idx0 ⟨(i 0).val / 8192, by rw [hN]; omega⟩
  intro a
  match a with
  | ⟨0, _⟩ => show win0_2.index _ (0 : Fin 2) * 8192 ≤ (i 0).val ∧ (i 0).val < win0_2.index _ (0 : Fin 2) * 8192 + 8192; rw [e20]; show (i 0).val / 8192 * 8192 ≤ (i 0).val ∧ (i 0).val < (i 0).val / 8192 * 8192 + 8192; omega
  | ⟨1, _⟩ => show win0_2.index _ (1 : Fin 2) * 128 ≤ (i 1).val ∧ (i 1).val < win0_2.index _ (1 : Fin 2) * 128 + 128; rw [e21]; omega

/-- Region 0's result array after its last point: the features times the panel. -/
theorem arr0_final (c : Dev nD) :
    (dat0 V c).arrAt 2 cfg0.N = Cert.WindowMid.proj (V c main_v2) (V c main_v1) :=
  (dat0 V c).arrAt_eq_of_cover 2 (Cert.WindowMid.proj (V c main_v2) (V c main_v1))
    (fun t _ => flushed0_eq V c t) cover0

end Cert.KernelIdeal.Hand

end
-- ==== Proof.PayWindows.lean ====
/-
  The rows one block's body sees, as functions of a window row number.

  The body loads two consecutive pieces of each padded array and joins them along the row axis: 64 rows followed by 8
  (the projections, 128 channels) or by 16 (the times and the mask values, one column). `Fw` and `Cw` name the
  joined windows by their rows: a row number below 64 falls in the first piece, any later row in the second piece at
  that row number less 64.
-/
import proofs.«104800_j57621281243745_2_alg».proof.KernelIdeal
import Idealize.ShloMosaic.PureOps.Ideal
import Idealize.ShloMosaic.Lib.ValueIdx

noncomputable section

namespace Cert.KernelIdeal.Hand

open Idealize.ShloMosaic Idealize.ShloMosaic.ValueIdx Cert.KernelIdeal

/-- The 72 rows of projections the body sees: the block's 64 rows, then the 8 rows after them. -/
def Fw (v0 : Vec Ideal S32x64x128 .f32) (v2 : Vec Ideal S32x8x128 .f32) : Fin 32 → Fin 72 → Fin 128 → EReal :=
  fun b j ch => if h : j.val < 64 then v0 (ix3 b ⟨j.val, h⟩ ch) else v2 (ix3 b ⟨j.val - 64, by omega⟩ ch)

/-- The 80 rows of a one-column array (times, mask values) the body sees: the block's 64 rows, then the 16 after. -/
def Cw (v5 : Vec Ideal S32x64x1 .f32) (v7 : Vec Ideal S32x16x1 .f32) : Fin 32 → Fin 80 → EReal :=
  fun b j => if h : j.val < 64 then v5 (ix3 b ⟨j.val, h⟩ (0 : Fin 1)) else v7 (ix3 b ⟨j.val - 64, by omega⟩ (0 : Fin 1))

end Cert.KernelIdeal.Hand

end
-- ==== Proof.PayReads.lean ====
/-
  The body's layout operations read at an index, over the literal shapes it meets.

  Each lemma says at which ONE index of its operand a layout operation reads: a cut of 64 consecutive rows out of a
  window of 72 or 80 rows starting at row k reads row r + k; a cut of the lower or the upper 64 of 128 channels reads
  channel o or o + 64; a one-column array spread over 64 channels or over 8 samples reads its only column; the
  re-shapings that insert a unit axis read the same entry; a spread along an inserted unit axis reads that axis at 0.
-/
import proofs.«104800_j57621281243745_2_alg».proof.KernelIdeal
import Idealize.ShloMosaic.Lib.Pipeline.Value
import Idealize.ShloMosaic.Lib.ValueIdx

noncomputable section

namespace Cert.KernelIdeal.Hand

open Idealize.ShloMosaic Idealize.ShloMosaic.ValueIdx Cert.KernelIdeal

variable {α : Type}

/-- 64 rows of the 72-row window from row `k`: local row `r` is window row `r + k`. -/
theorem rows72_apply (k : ℕ) (hk : k ≤ 8) (x : S32x72x128.Idx → α) (h : S32x72x128.Slices ![0, k, 0] S32x64x128)
    (b : Fin 32) (r : Fin 64) (ch : Fin 128) :
    extractStridedSlice S32x64x128 ![0, k, 0] x h (ix3 b r ch) = x (ix3 b ⟨r.val + k, by omega⟩ ch) :=
  extractStridedSlice_apply _ x h _ _ fun a => by
    match a with
    | ⟨0, _⟩ => exact (Nat.zero_add _).symm
    | ⟨1, _⟩ => exact Nat.add_comm _ _
    | ⟨2, _⟩ => exact (Nat.zero_add _).symm

/-- 64 rows of an 80-row one-column window from row `k`: local row `r` is window row `r + k`. -/
theorem rows80_apply (k : ℕ) (hk : k ≤ 16) (x : S32x80x1.Idx → α) (h : S32x80x1.Slices ![0, k, 0] S32x64x1)
    (b : Fin 32) (r : Fin 64) (c : Fin 1) :
    extractStridedSlice S32x64x1 ![0, k, 0] x h (ix3 b r c) = x (ix3 b ⟨r.val + k, by omega⟩ c) :=
  extractStridedSlice_apply _ x h _ _ fun a => by
    match a with
    | ⟨0, _⟩ => exact (Nat.zero_add _).symm
    | ⟨1, _⟩ => exact Nat.add_comm _ _
    | ⟨2, _⟩ => exact (Nat.zero_add _).symm

/-- The lower 64 of 128 channels: channel `o`. -/
theorem chanLo_apply (x : S32x64x128.Idx → α) (h : S32x64x128.Slices ![0, 0, 0] S32x64x64)
    (b : Fin 32) (r : Fin 64) (o : Fin 64) :
    extractStridedSlice S32x64x64 ![0, 0, 0] x h (ix3 b r o) = x (ix3 b r ⟨o.val, by omega⟩) :=
  extractStridedSlice_apply _ x h _ _ fun a => by
    match a with
    | ⟨0, _⟩ => exact (Nat.zero_add _).symm
    | ⟨1, _⟩ => exact (Nat.zero_add _).symm
    | ⟨2, _⟩ => exact (Nat.zero_add _).symm

/-- The upper 64 of 128 channels: channel `o + 64`. -/
theorem chanHi_apply (x : S32x64x128.Idx → α) (h : S32x64x128.Slices ![0, 0, 64] S32x64x64)
    (b : Fin 32) (r : Fin 64) (o : Fin 64) :
    extractStridedSlice S32x64x64 ![0, 0, 64] x h (ix3 b r o) = x (ix3 b r ⟨o.val + 64, by omega⟩) :=
  extractStridedSlice_apply _ x h _ _ fun a => by
    match a with
    | ⟨0, _⟩ => exact (Nat.zero_add _).symm
    | ⟨1, _⟩ => exact (Nat.zero_add _).symm
    | ⟨2, _⟩ => exact Nat.add_comm _ _

/-- A one-column array spread over 64 channels reads its column. -/
theorem colToChan_apply (x : S32x64x1.Idx → α) (h : S32x64x1.Broadcasts S32x64x64) (b : Fin 32) (r : Fin 64) (o : Fin 64) :
    broadcastTo S32x64x64 x h (ix3 b r o) = x (ix3 b r (0 : Fin 1)) :=
  broadcastTo_apply x h _ _ fun a => by
    match a with
    | ⟨0, _⟩ => rfl
    | ⟨1, _⟩ => rfl
    | ⟨2, _⟩ => rfl

/-- A one-column array spread over 8 samples reads its column. -/
theorem colToSample_apply (x : S32x64x1.Idx → α) (h : S32x64x1.Broadcasts S32x64x8) (b : Fin 32) (r : Fin 64) (s : Fin 8) :
    broadcastTo S32x64x8 x h (ix3 b r s) = x (ix3 b r (0 : Fin 1)) :=
  broadcastTo_apply x h _ _ fun a => by
    match a with
    | ⟨0, _⟩ => rfl
    | ⟨1, _⟩ => rfl
    | ⟨2, _⟩ => rfl

/-- The row of 8 samples spread over every event reads the sample. -/
theorem sampleRow_apply (x : S1x1x8.Idx → α) (h : S1x1x8.Broadcasts S32x64x8) (b : Fin 32) (r : Fin 64) (s : Fin 8) :
    broadcastTo S32x64x8 x h (ix3 b r s) = x (ix3 (0 : Fin 1) (0 : Fin 1) s) :=
  broadcastTo_apply x h _ _ fun a => by
    match a with
    | ⟨0, _⟩ => rfl
    | ⟨1, _⟩ => rfl
    | ⟨2, _⟩ => rfl

/-- The [1, 8] samples re-shaped [1, 1, 8]: the same sample. -/
theorem sampleCast_apply (x : S1x8.Idx → α) (h : S1x8.ShapeCasts S1x1x8) (s : Fin 8) :
    shapeCast S1x1x8 x h (ix3 (0 : Fin 1) (0 : Fin 1) s) = x (ix2 (0 : Fin 1) s) :=
  shapeCast_apply x h _ _ (by
    rw [Shape.rowMajor_val_two, Shape.rowMajor_val_three]
    show (0 : ℕ) * 8 + s.val = (0 * 1 + 0) * 8 + s.val
    omega)

/-- [32, 64, 64] re-shaped [32, 64, 1, 64]: the same entry. -/
theorem keepChan_apply (x : S32x64x64.Idx → α) (h : S32x64x64.ShapeCasts S32x64x1x64)
    (b : Fin 32) (r : Fin 64) (c : Fin 1) (o : Fin 64) :
    shapeCast S32x64x1x64 x h (ix4 b r c o) = x (ix3 b r o) :=
  shapeCast_apply x h _ _ (by
    rw [Shape.rowMajor_val_three, Shape.rowMajor_val_four]
    show (b.val * 64 + r.val) * 64 + o.val = ((b.val * 64 + r.val) * 1 + c.val) * 64 + o.val
    have := c.isLt
    omega)

/-- [32, 64, 8] re-shaped [32, 64, 8, 1]: the same entry. -/
theorem keepSample_apply (x : S32x64x8.Idx → α) (h : S32x64x8.ShapeCasts S32x64x8x1)
    (b : Fin 32) (r : Fin 64) (s : Fin 8) (c : Fin 1) :
    shapeCast S32x64x8x1 x h (ix4 b r s c) = x (ix3 b r s) :=
  shapeCast_apply x h _ _ (by
    rw [Shape.rowMajor_val_three, Shape.rowMajor_val_four]
    show (b.val * 64 + r.val) * 8 + s.val = ((b.val * 64 + r.val) * 8 + s.val) * 1 + c.val
    have := c.isLt
    omega)

/-- [32, 64, 8, 1] spread over 64 channels reads its only channel. -/
theorem sampleToChan_apply (x : S32x64x8x1.Idx → α) (h : S32x64x8x1.Broadcasts S32x64x8x64)
    (b : Fin 32) (r : Fin 64) (s : Fin 8) (o : Fin 64) :
    broadcastTo S32x64x8x64 x h (ix4 b r s o) = x (ix4 b r s (0 : Fin 1)) :=
  broadcastTo_apply x h _ _ fun a => by
    match a with
    | ⟨0, _⟩ => rfl
    | ⟨1, _⟩ => rfl
    | ⟨2, _⟩ => rfl
    | ⟨3, _⟩ => rfl

/-- [32, 64, 1, 64] spread over 8 samples reads its only sample row. -/
theorem chanToSample_apply (x : S32x64x1x64.Idx → α) (h : S32x64x1x64.Broadcasts S32x64x8x64)
    (b : Fin 32) (r : Fin 64) (s : Fin 8) (o : Fin 64) :
    broadcastTo S32x64x8x64 x h (ix4 b r s o) = x (ix4 b r (0 : Fin 1) o) :=
  broadcastTo_apply x h _ _ fun a => by
    match a with
    | ⟨0, _⟩ => rfl
    | ⟨1, _⟩ => rfl
    | ⟨2, _⟩ => rfl
    | ⟨3, _⟩ => rfl

end Cert.KernelIdeal.Hand

end
-- ==== Proof.PayWin.lean ====
/-
  The three joined windows, and the block's own and next rows, read at an index.

  The body joins the two loaded pieces of each array along the row axis; row j of the joined window is row j of the
  first piece when j < 64 and row j - 64 of the second otherwise, which is how `Fw` and `Cw` name the windows. The
  block's own rows of the times and of the mask are window rows r + 8, the next event's rows are window rows r + 9.
-/
import proofs.«104800_j57621281243745_2_alg».proof.Proof.Gen.KernelIdeal.Skeleton
import proofs.«104800_j57621281243745_2_alg».proof.Proof.PayWindows
import proofs.«104800_j57621281243745_2_alg».proof.Proof.PayReads

noncomputable section

namespace Cert.KernelIdeal.Hand

open Idealize.ShloMosaic Idealize.ShloMosaic.ValueIdx Cert.KernelIdeal Cert.KernelIdeal.Gen

/-- The joined window of projections, row by row. -/
theorem featsWin_apply (v0 : Vec Ideal S32x64x128 .f32) (v2 : Vec Ideal S32x8x128 .f32)
    (b : Fin 32) (j : Fin 72) (ch : Fin 128) :
    k1_pay4 (F := Ideal) v0 v2 (ix3 b j ch) = Fw v0 v2 b j ch := by
  unfold k1_pay4 Fw
  rw [shapeCast_self v0, shapeCast_self v2]
  by_cases h : j.val < 64
  · rw [dif_pos h]
    exact concatenate_pair_apply_left (t := S32x72x128) (s₁ := S32x64x128) (s₂ := S32x8x128) 1 v0 v2
      concatenates_S32x64x128_S32x8x128_S32x72x128_d1 (ix3 b j ch) rfl (ix3 b ⟨j.val, h⟩ ch) (fun a => by
      match a with
      | ⟨0, _⟩ => rfl
      | ⟨1, _⟩ => rfl
      | ⟨2, _⟩ => rfl)
  · rw [dif_neg h]
    exact concatenate_pair_apply_right (t := S32x72x128) (s₁ := S32x64x128) (s₂ := S32x8x128) 1 v0 v2
      concatenates_S32x64x128_S32x8x128_S32x72x128_d1 (ix3 b j ch) rfl rfl (ix3 b ⟨j.val - 64, by omega⟩ ch) (fun a ha => by
      match a with
      | ⟨0, _⟩ => rfl
      | ⟨1, _⟩ => exact absurd rfl ha
      | ⟨2, _⟩ => rfl) (by
        show j.val - 64 + 64 = j.val
        omega)

/-- The joined window of a one-column array (the times), row by row. -/
theorem colWin_apply (v5 : Vec Ideal S32x64x1 .f32) (v7 : Vec Ideal S32x16x1 .f32) (b : Fin 32) (j : Fin 80) :
    k1_pay5 (F := Ideal) v5 v7 (ix3 b j (0 : Fin 1)) = Cw v5 v7 b j := by
  unfold k1_pay5 Cw
  rw [shapeCast_self v5, shapeCast_self v7]
  by_cases h : j.val < 64
  · rw [dif_pos h]
    exact concatenate_pair_apply_left (t := S32x80x1) (s₁ := S32x64x1) (s₂ := S32x16x1) 1 v5 v7
      concatenates_S32x64x1_S32x16x1_S32x80x1_d1 (ix3 b j (0 : Fin 1)) rfl (ix3 b ⟨j.val, h⟩ (0 : Fin 1)) (fun a => by
      match a with
      | ⟨0, _⟩ => rfl
      | ⟨1, _⟩ => rfl
      | ⟨2, _⟩ => rfl)
  · rw [dif_neg h]
    exact concatenate_pair_apply_right (t := S32x80x1) (s₁ := S32x64x1) (s₂ := S32x16x1) 1 v5 v7
      concatenates_S32x64x1_S32x16x1_S32x80x1_d1 (ix3 b j (0 : Fin 1)) rfl rfl (ix3 b ⟨j.val - 64, by omega⟩ (0 : Fin 1)) (fun a ha => by
      match a with
      | ⟨0, _⟩ => rfl
      | ⟨1, _⟩ => exact absurd rfl ha
      | ⟨2, _⟩ => rfl) (by
        show j.val - 64 + 64 = j.val
        omega)

/-- The joined window of the mask values is built the same way. -/
theorem maskWin_apply (v10 : Vec Ideal S32x64x1 .f32) (v12 : Vec Ideal S32x16x1 .f32) (b : Fin 32) (j : Fin 80) :
    k1_pay6 (F := Ideal) v10 v12 (ix3 b j (0 : Fin 1)) = Cw v10 v12 b j :=
  colWin_apply v10 v12 b j

/-- The block's own times are window rows r + 8. -/
theorem timeCur_apply (v5 : Vec Ideal S32x64x1 .f32) (v7 : Vec Ideal S32x16x1 .f32) (b : Fin 32) (r : Fin 64) :
    k1_pay7 (F := Ideal) v5 v7 (ix3 b r (0 : Fin 1)) = Cw v5 v7 b ⟨r.val + 8, by omega⟩ := by
  unfold k1_pay7
  rw [rows80_apply 8 (by omega)]
  exact colWin_apply v5 v7 b _

/-- The next event's times are window rows r + 9. -/
theorem timeNext_apply (v5 : Vec Ideal S32x64x1 .f32) (v7 : Vec Ideal S32x16x1 .f32) (b : Fin 32) (r : Fin 64) :
    k1_pay8 (F := Ideal) v5 v7 (ix3 b r (0 : Fin 1)) = Cw v5 v7 b ⟨r.val + 9, by omega⟩ := by
  unfold k1_pay8
  rw [rows80_apply 9 (by omega)]
  exact colWin_apply v5 v7 b _

/-- The block's own mask values are window rows r + 8. -/
theorem maskCur_apply (v10 : Vec Ideal S32x64x1 .f32) (v12 : Vec Ideal S32x16x1 .f32) (b : Fin 32) (r : Fin 64) :
    k1_pay9 (F := Ideal) v10 v12 (ix3 b r (0 : Fin 1)) = Cw v10 v12 b ⟨r.val + 8, by omega⟩ := by
  unfold k1_pay9
  rw [rows80_apply 8 (by omega)]
  exact maskWin_apply v10 v12 b _

/-- The next event's mask values are window rows r + 9. -/
theorem maskNext_apply (v10 : Vec Ideal S32x64x1 .f32) (v12 : Vec Ideal S32x16x1 .f32) (b : Fin 32) (r : Fin 64) :
    k1_pay10 (F := Ideal) v10 v12 (ix3 b r (0 : Fin 1)) = Cw v10 v12 b ⟨r.val + 9, by omega⟩ := by
  unfold k1_pay10
  rw [rows80_apply 9 (by omega)]
  exact maskWin_apply v10 v12 b _

end Cert.KernelIdeal.Hand

end
-- ==== Proof.Block.lean ====
/-
  The windowed sums of ONE block of 64 events, over the rows the block's body sees: 72 rows of projections `Fw`
  (128 channels: 64 linear, 64 bias), 80 rows of times `Tw` and of mask values `Mw` — rows 8 … 71 are the block's own
  events, rows 0 … 7 the eight before it, the rest what follows.

  For the event at local row `r` (window row `r + 8`) and a lookback `m ≤ 8`, with `valid = Mw (r+8−m) · Mw (r+8)`:
  `wterm = (valid · (Tw (r+8) − Tw (r+8−m))) · (Fw (r+8−m) o · valid) + Fw (r+8−m) (o+64) · valid`,
  `wlin = Fw (r+8−m) o · valid`, and the gap `wudt = (Mw (r+8) · Mw (r+9)) · (Tw (r+9) − Tw (r+8))`.
-/
import Idealize.ShloMosaic.PureOps.Ideal
import Idealize.ShloMosaic.Lib.ValueIdx

noncomputable section

open scoped BigOperators

namespace Cert.WindowBlock

variable (Fw : Fin 32 → Fin 72 → Fin 128 → EReal) (Tw Mw : Fin 32 → Fin 80 → EReal)

/-- Both events unpadded, as a product of mask values. -/
def valid (b : Fin 32) (r : Fin 64) (m : ℕ) : EReal :=
  if h : m ≤ 8 then Mw b ⟨r.val + 8 - m, by omega⟩ * Mw b ⟨r.val + 8, by omega⟩ else 0

/-- The contribution of the event `m` rows back. -/
def wterm (b : Fin 32) (r : Fin 64) (m : ℕ) (o : Fin 64) : EReal :=
  if h : m ≤ 8 then
    (valid Mw b r m * (Tw b ⟨r.val + 8, by omega⟩ - Tw b ⟨r.val + 8 - m, by omega⟩))
        * (Fw b ⟨r.val + 8 - m, by omega⟩ ⟨o.val, by omega⟩ * valid Mw b r m)
      + Fw b ⟨r.val + 8 - m, by omega⟩ ⟨o.val + 64, by omega⟩ * valid Mw b r m
  else 0

/-- Its linear projection alone. -/
def wlin (b : Fin 32) (r : Fin 64) (m : ℕ) (o : Fin 64) : EReal :=
  if h : m ≤ 8 then Fw b ⟨r.val + 8 - m, by omega⟩ ⟨o.val, by omega⟩ * valid Mw b r m else 0

/-- The gap to the next event, masked. -/
def wudt (b : Fin 32) (r : Fin 64) : EReal :=
  (Mw b ⟨r.val + 8, by omega⟩ * Mw b ⟨r.val + 9, by omega⟩) * (Tw b ⟨r.val + 9, by omega⟩ - Tw b ⟨r.val + 8, by omega⟩)

/-- The eight events strictly before. -/
def wreal (b : Fin 32) (r : Fin 64) (o : Fin 64) : EReal := ∑ j : Fin 8, wterm Fw Tw Mw b r (j.val + 1) o

/-- The event and the seven before it, plus sample `u` of the gap times the summed linear projections. -/
def wsim (u : EReal) (b : Fin 32) (r : Fin 64) (o : Fin 64) : EReal :=
  (∑ j : Fin 8, wterm Fw Tw Mw b r j.val o) + (wudt Tw Mw b r * u) * ∑ j : Fin 8, wlin Fw Mw b r j.val o

end Cert.WindowBlock

end
-- ==== Proof.PayStep.lean ====
/-
  One step of the body's lookback loop, at an index.

  The loop is unrolled: step m reads the three windows 8 - m rows above the block's own rows. With k = 8 - m the
  offset of the cut, the step forms, entry by entry,

    valid = mask (r + k) · mask_cur r,          lin = proj (r + k, o) · valid,
    term  = (valid · (time_cur r - time (r + k))) · lin + proj (r + k, o + 64) · valid,

  where mask_cur and time_cur are the block's own rows of the mask and the times. `stepValid`, `stepLin` and
  `stepTerm` are these three arrays as the body builds them from its layout operations; the lemmas read them at an
  index and identify them — once the windows are known row by row and the block's own rows are window rows r + 8 —
  with the block-local terms `valid`, `wlin` and `wterm` for the lookback m = 8 - k.
-/
import proofs.«104800_j57621281243745_2_alg».proof.Proof.PayReads
import proofs.«104800_j57621281243745_2_alg».proof.Proof.Block

noncomputable section

namespace Cert.KernelIdeal.Hand

open Idealize.ShloMosaic Idealize.ShloMosaic.ValueIdx Cert.KernelIdeal
open Cert.WindowBlock

/-- Both events unpadded: the mask `k` rows into the window times the block's own mask. -/
def stepValid (k : ℕ) (h1 : S32x80x1.Slices ![0, k, 0] S32x64x1)
    (v14 : FVec Ideal S32x80x1 .f32) (v17 : FVec Ideal S32x64x1 .f32) : FVec Ideal S32x64x1 .f32 :=
  mulf (extractStridedSlice S32x64x1 ![0, k, 0] v14 h1) v17

/-- The linear projections `k` rows into the window, masked. -/
def stepLin (k : ℕ) (h4 : S32x72x128.Slices ![0, k, 0] S32x64x128) (h1 : S32x80x1.Slices ![0, k, 0] S32x64x1)
    (hlo : S32x64x128.Slices ![0, 0, 0] S32x64x64) (hb : S32x64x1.Broadcasts S32x64x64)
    (v4 : FVec Ideal S32x72x128 .f32) (v14 : FVec Ideal S32x80x1 .f32) (v17 : FVec Ideal S32x64x1 .f32) :
    FVec Ideal S32x64x64 .f32 :=
  mulf (extractStridedSlice S32x64x64 ![0, 0, 0] (extractStridedSlice S32x64x128 ![0, k, 0] v4 h4) hlo)
    (broadcastTo S32x64x64 (stepValid k h1 v14 v17) hb)

/-- The step's contribution: the masked time difference times the masked linear projections, plus the masked bias
    projections. -/
def stepTerm (k : ℕ) (h4 : S32x72x128.Slices ![0, k, 0] S32x64x128) (h1 : S32x80x1.Slices ![0, k, 0] S32x64x1)
    (hlo : S32x64x128.Slices ![0, 0, 0] S32x64x64) (hhi : S32x64x128.Slices ![0, 0, 64] S32x64x64)
    (hb : S32x64x1.Broadcasts S32x64x64)
    (v4 : FVec Ideal S32x72x128 .f32) (v9 v14 : FVec Ideal S32x80x1 .f32) (v15 v17 : FVec Ideal S32x64x1 .f32) :
    FVec Ideal S32x64x64 .f32 :=
  addf
    (mulf
      (broadcastTo S32x64x64
        (mulf (stepValid k h1 v14 v17) (subf v15 (extractStridedSlice S32x64x1 ![0, k, 0] v9 h1))) hb)
      (stepLin k h4 h1 hlo hb v4 v14 v17))
    (mulf (extractStridedSlice S32x64x64 ![0, 0, 64] (extractStridedSlice S32x64x128 ![0, k, 0] v4 h4) hhi)
      (broadcastTo S32x64x64 (stepValid k h1 v14 v17) hb))

/-- The step's masked linear projections are the block-local ones for the lookback `m = 8 - k`. -/
theorem stepLin_apply (k m : ℕ) (hkm : k + m = 8)
    (h4 : S32x72x128.Slices ![0, k, 0] S32x64x128) (h1 : S32x80x1.Slices ![0, k, 0] S32x64x1)
    (hlo : S32x64x128.Slices ![0, 0, 0] S32x64x64) (hb : S32x64x1.Broadcasts S32x64x64)
    (v4 : FVec Ideal S32x72x128 .f32) (v14 : FVec Ideal S32x80x1 .f32) (v17 : FVec Ideal S32x64x1 .f32)
    (Fw : Fin 32 → Fin 72 → Fin 128 → EReal) (Mw : Fin 32 → Fin 80 → EReal)
    (hF : ∀ (b : Fin 32) (j : Fin 72) (ch : Fin 128), v4 (ix3 b j ch) = Fw b j ch)
    (hM : ∀ (b : Fin 32) (j : Fin 80), v14 (ix3 b j (0 : Fin 1)) = Mw b j)
    (hMc : ∀ (b : Fin 32) (r : Fin 64), v17 (ix3 b r (0 : Fin 1)) = Mw b ⟨r.val + 8, by omega⟩)
    (b : Fin 32) (r : Fin 64) (o : Fin 64) :
    stepLin k h4 h1 hlo hb v4 v14 v17 (ix3 b r o) = wlin Fw Mw b r m o := by
  have hm : m ≤ 8 := by omega
  have e : r.val + 8 - m = r.val + k := by omega
  unfold stepLin stepValid wlin valid
  simp only [mulf_apply, colToChan_apply, chanLo_apply, rows72_apply k (by omega), rows80_apply k (by omega),
    hF, hM, hMc, dif_pos hm, e]

/-- The step's contribution is the block-local term for the lookback `m = 8 - k`. -/
theorem stepTerm_apply (k m : ℕ) (hkm : k + m = 8)
    (h4 : S32x72x128.Slices ![0, k, 0] S32x64x128) (h1 : S32x80x1.Slices ![0, k, 0] S32x64x1)
    (hlo : S32x64x128.Slices ![0, 0, 0] S32x64x64) (hhi : S32x64x128.Slices ![0, 0, 64] S32x64x64)
    (hb : S32x64x1.Broadcasts S32x64x64)
    (v4 : FVec Ideal S32x72x128 .f32) (v9 v14 : FVec Ideal S32x80x1 .f32) (v15 v17 : FVec Ideal S32x64x1 .f32)
    (Fw : Fin 32 → Fin 72 → Fin 128 → EReal) (Tw Mw : Fin 32 → Fin 80 → EReal)
    (hF : ∀ (b : Fin 32) (j : Fin 72) (ch : Fin 128), v4 (ix3 b j ch) = Fw b j ch)
    (hT : ∀ (b : Fin 32) (j : Fin 80), v9 (ix3 b j (0 : Fin 1)) = Tw b j)
    (hM : ∀ (b : Fin 32) (j : Fin 80), v14 (ix3 b j (0 : Fin 1)) = Mw b j)
    (hTc : ∀ (b : Fin 32) (r : Fin 64), v15 (ix3 b r (0 : Fin 1)) = Tw b ⟨r.val + 8, by omega⟩)
    (hMc : ∀ (b : Fin 32) (r : Fin 64), v17 (ix3 b r (0 : Fin 1)) = Mw b ⟨r.val + 8, by omega⟩)
    (b : Fin 32) (r : Fin 64) (o : Fin 64) :
    stepTerm k h4 h1 hlo hhi hb v4 v9 v14 v15 v17 (ix3 b r o) = wterm Fw Tw Mw b r m o := by
  have hm : m ≤ 8 := by omega
  have e : r.val + 8 - m = r.val + k := by omega
  unfold stepTerm stepLin stepValid wterm valid
  simp only [addf_apply, mulf_apply, subf_apply, colToChan_apply, chanLo_apply, chanHi_apply,
    rows72_apply k (by omega), rows80_apply k (by omega), hF, hT, hM, hTc, hMc, dif_pos hm, e]

end Cert.KernelIdeal.Hand

end
-- ==== Proof.PayWinStep.lean ====
/-
  The loop's steps over the joined windows.

  Step m of the loop works on the joined windows cut k = 8 - m rows in, against the block's own rows of the times and
  of the mask. With the windows known row by row, its contribution at an entry is the block-local term for the
  lookback m, and its masked linear projection the block-local one. The accumulators start from a splat of the zero
  word, which is 0 on the extended reals.
-/
import proofs.«104800_j57621281243745_2_alg».proof.Proof.Gen.KernelIdeal.Skeleton
import proofs.«104800_j57621281243745_2_alg».proof.Proof.PayWin
import proofs.«104800_j57621281243745_2_alg».proof.Proof.PayStep
import Idealize.ShloMosaic.PureOps.Ideal.Laws

noncomputable section

namespace Cert.KernelIdeal.Hand

open Idealize.ShloMosaic Idealize.ShloMosaic.ValueIdx Cert.KernelIdeal Cert.KernelIdeal.Gen
open Cert.WindowBlock

/-- The accumulators' starting value is 0 at every entry. -/
theorem zeroSplat_apply (i : S32x64x64.Idx) : k1_pay11 (F := Ideal) i = 0 :=
  Ideal.ofBits_zero_f32

/-- The step's contribution, over the joined windows cut `k` rows in. -/
def winTerm (k : ℕ) (h4 : S32x72x128.Slices ![0, k, 0] S32x64x128) (h1 : S32x80x1.Slices ![0, k, 0] S32x64x1)
    (v0 : Vec Ideal S32x64x128 .f32) (v2 : Vec Ideal S32x8x128 .f32) (v5 : Vec Ideal S32x64x1 .f32)
    (v7 : Vec Ideal S32x16x1 .f32) (v10 : Vec Ideal S32x64x1 .f32) (v12 : Vec Ideal S32x16x1 .f32) :
    FVec Ideal S32x64x64 .f32 :=
  stepTerm k h4 h1 slices_S32x64x128_o0_0_0_S32x64x64 slices_S32x64x128_o0_0_64_S32x64x64 broadcasts_S32x64x1_S32x64x64
    (k1_pay4 v0 v2) (k1_pay5 v5 v7) (k1_pay6 v10 v12) (k1_pay7 v5 v7) (k1_pay9 v10 v12)

/-- The step's masked linear projections, over the joined windows cut `k` rows in. -/
def winLin (k : ℕ) (h4 : S32x72x128.Slices ![0, k, 0] S32x64x128) (h1 : S32x80x1.Slices ![0, k, 0] S32x64x1)
    (v0 : Vec Ideal S32x64x128 .f32) (v2 : Vec Ideal S32x8x128 .f32)
    (v10 : Vec Ideal S32x64x1 .f32) (v12 : Vec Ideal S32x16x1 .f32) : FVec Ideal S32x64x64 .f32 :=
  stepLin k h4 h1 slices_S32x64x128_o0_0_0_S32x64x64 broadcasts_S32x64x1_S32x64x64
    (k1_pay4 v0 v2) (k1_pay6 v10 v12) (k1_pay9 v10 v12)

/-- Step m = 8 - k contributes the block-local term for the lookback m. -/
theorem winTerm_apply (k m : ℕ) (hkm : k + m = 8)
    (h4 : S32x72x128.Slices ![0, k, 0] S32x64x128) (h1 : S32x80x1.Slices ![0, k, 0] S32x64x1)
    (v0 : Vec Ideal S32x64x128 .f32) (v2 : Vec Ideal S32x8x128 .f32) (v5 : Vec Ideal S32x64x1 .f32)
    (v7 : Vec Ideal S32x16x1 .f32) (v10 : Vec Ideal S32x64x1 .f32) (v12 : Vec Ideal S32x16x1 .f32)
    (b : Fin 32) (r : Fin 64) (o : Fin 64) :
    winTerm k h4 h1 v0 v2 v5 v7 v10 v12 (ix3 b r o) = wterm (Fw v0 v2) (Cw v5 v7) (Cw v10 v12) b r m o :=
  stepTerm_apply k m hkm h4 h1 _ _ _ _ _ _ _ _ (Fw v0 v2) (Cw v5 v7) (Cw v10 v12)
    (featsWin_apply v0 v2) (colWin_apply v5 v7) (maskWin_apply v10 v12) (timeCur_apply v5 v7) (maskCur_apply v10 v12) b r o

/-- Step m = 8 - k's masked linear projections are the block-local ones for the lookback m. -/
theorem winLin_apply (k m : ℕ) (hkm : k + m = 8)
    (h4 : S32x72x128.Slices ![0, k, 0] S32x64x128) (h1 : S32x80x1.Slices ![0, k, 0] S32x64x1)
    (v0 : Vec Ideal S32x64x128 .f32) (v2 : Vec Ideal S32x8x128 .f32)
    (v10 : Vec Ideal S32x64x1 .f32) (v12 : Vec Ideal S32x16x1 .f32)
    (b : Fin 32) (r : Fin 64) (o : Fin 64) :
    winLin k h4 h1 v0 v2 v10 v12 (ix3 b r o) = wlin (Fw v0 v2) (Cw v10 v12) b r m o :=
  stepLin_apply k m hkm h4 h1 _ _ _ _ _ (Fw v0 v2) (Cw v10 v12)
    (featsWin_apply v0 v2) (maskWin_apply v10 v12) (maskCur_apply v10 v12) b r o

end Cert.KernelIdeal.Hand

end
-- ==== Proof.PaySums.lean ====
/-
  The block-local windowed sums written out term by term.

  Each of the three sums of one event runs over eight lookbacks; written out in the order 0, 1, …, 7 of the summation
  index they are the left-nested sums the body's accumulators build.
-/
import proofs.«104800_j57621281243745_2_alg».proof.Proof.Block

noncomputable section

open scoped BigOperators

namespace Cert.WindowBlock

variable (Fw : Fin 32 → Fin 72 → Fin 128 → EReal) (Tw Mw : Fin 32 → Fin 80 → EReal)

/-- The sum over the eight earlier events, lookbacks 1 … 8 in this order. -/
theorem wreal_eq (b : Fin 32) (r : Fin 64) (o : Fin 64) :
    wreal Fw Tw Mw b r o
      = wterm Fw Tw Mw b r 1 o + wterm Fw Tw Mw b r 2 o + wterm Fw Tw Mw b r 3 o + wterm Fw Tw Mw b r 4 o
        + wterm Fw Tw Mw b r 5 o + wterm Fw Tw Mw b r 6 o + wterm Fw Tw Mw b r 7 o + wterm Fw Tw Mw b r 8 o := by
  unfold wreal
  rw [Fin.sum_univ_eight]
  rfl

/-- The sum over the event and the seven before it, lookbacks 0 … 7 in this order. -/
theorem wsimSum_eq (b : Fin 32) (r : Fin 64) (o : Fin 64) :
    (∑ j : Fin 8, wterm Fw Tw Mw b r j.val o)
      = wterm Fw Tw Mw b r 0 o + wterm Fw Tw Mw b r 1 o + wterm Fw Tw Mw b r 2 o + wterm Fw Tw Mw b r 3 o
        + wterm Fw Tw Mw b r 4 o + wterm Fw Tw Mw b r 5 o + wterm Fw Tw Mw b r 6 o + wterm Fw Tw Mw b r 7 o := by
  rw [Fin.sum_univ_eight]
  rfl

/-- The summed linear projections, lookbacks 0 … 7 in this order. -/
theorem wlinSum_eq (b : Fin 32) (r : Fin 64) (o : Fin 64) :
    (∑ j : Fin 8, wlin Fw Mw b r j.val o)
      = wlin Fw Mw b r 0 o + wlin Fw Mw b r 1 o + wlin Fw Mw b r 2 o + wlin Fw Mw b r 3 o
        + wlin Fw Mw b r 4 o + wlin Fw Mw b r 5 o + wlin Fw Mw b r 6 o + wlin Fw Mw b r 7 o := by
  rw [Fin.sum_univ_eight]
  rfl

end Cert.WindowBlock

end
-- ==== Proof.PayReal.lean ====
/-
  What the first store writes, at an entry: the sum over the eight earlier events.

  The accumulator starts from the zero splat and adds the contributions of the steps m = 1, …, 8 in this order (the
  windows cut 7, 6, …, 0 rows in); the stored value is the accumulator with a unit axis inserted. Entry by entry this
  is the block-local sum `wreal` over the joined windows.
-/
import proofs.«104800_j57621281243745_2_alg».proof.Proof.Pay
import proofs.«104800_j57621281243745_2_alg».proof.Proof.PayWinStep
import proofs.«104800_j57621281243745_2_alg».proof.Proof.PaySums

noncomputable section

namespace Cert.KernelIdeal.Hand

open Idealize.ShloMosaic Idealize.ShloMosaic.ValueIdx Cert.KernelIdeal Cert.KernelIdeal.Gen
open Cert.WindowBlock

/-- The first store's value is the eight steps' contributions added, left to right, to the zero splat. -/
theorem realPay_eq (v0 : Vec Ideal S32x64x128 .f32) (v2 : Vec Ideal S32x8x128 .f32) (v5 : Vec Ideal S32x64x1 .f32)
    (v7 : Vec Ideal S32x16x1 .f32) (v10 : Vec Ideal S32x64x1 .f32) (v12 : Vec Ideal S32x16x1 .f32) :
    realPay (F := Ideal) v0 v2 v5 v7 v10 v12
      = shapeCast S32x64x1x64
        (addf (addf (addf (addf (addf (addf (addf (addf (k1_pay11 (F := Ideal))
        (winTerm 7 slices_S32x72x128_o0_7_0_S32x64x128 slices_S32x80x1_o0_7_0_S32x64x1 v0 v2 v5 v7 v10 v12))
        (winTerm 6 slices_S32x72x128_o0_6_0_S32x64x128 slices_S32x80x1_o0_6_0_S32x64x1 v0 v2 v5 v7 v10 v12))
        (winTerm 5 slices_S32x72x128_o0_5_0_S32x64x128 slices_S32x80x1_o0_5_0_S32x64x1 v0 v2 v5 v7 v10 v12))
        (winTerm 4 slices_S32x72x128_o0_4_0_S32x64x128 slices_S32x80x1_o0_4_0_S32x64x1 v0 v2 v5 v7 v10 v12))
        (winTerm 3 slices_S32x72x128_o0_3_0_S32x64x128 slices_S32x80x1_o0_3_0_S32x64x1 v0 v2 v5 v7 v10 v12))
        (winTerm 2 slices_S32x72x128_o0_2_0_S32x64x128 slices_S32x80x1_o0_2_0_S32x64x1 v0 v2 v5 v7 v10 v12))
        (winTerm 1 slices_S32x72x128_o0_1_0_S32x64x128 slices_S32x80x1_o0_1_0_S32x64x1 v0 v2 v5 v7 v10 v12))
        (winTerm 0 slices_S32x72x128_o0_0_0_S32x64x128 slices_S32x80x1_o0_0_0_S32x64x1 v0 v2 v5 v7 v10 v12))
        shapeCasts_S32x64x64_S32x64x1x64 := rfl

/-- Row 0 of every nine: the sum over the eight earlier events. -/
theorem realPay_apply (v0 : Vec Ideal S32x64x128 .f32) (v2 : Vec Ideal S32x8x128 .f32) (v5 : Vec Ideal S32x64x1 .f32)
    (v7 : Vec Ideal S32x16x1 .f32) (v10 : Vec Ideal S32x64x1 .f32) (v12 : Vec Ideal S32x16x1 .f32)
    (b : Fin 32) (r : Fin 64) (o : Fin 64) :
    realPay (F := Ideal) v0 v2 v5 v7 v10 v12 (ix4 b r (0 : Fin 1) o)
      = Cert.WindowBlock.wreal (Fw v0 v2) (Cw v5 v7) (Cw v10 v12) b r o := by
  rw [realPay_eq, keepChan_apply, wreal_eq]
  simp only [addf_apply, zeroSplat_apply, zero_add,
    winTerm_apply 7 1 rfl, winTerm_apply 6 2 rfl, winTerm_apply 5 3 rfl, winTerm_apply 4 4 rfl,
    winTerm_apply 3 5 rfl, winTerm_apply 2 6 rfl, winTerm_apply 1 7 rfl, winTerm_apply 0 8 rfl]

end Cert.KernelIdeal.Hand

end
-- ==== Proof.PaySim.lean ====
/-
  What the second store writes, at an entry: the sum over the event and the seven before it, plus each sample of the
  gap to the next event times the summed linear projections.

  Two accumulators start from zero splats and add, for the steps m = 0, …, 7 in this order (the windows cut
  8, 7, …, 1 rows in), the step's contribution and its masked linear projections. The body then forms the masked gap
  to the next event, multiplies it with each of the 8 samples, spreads the products over the 64 channels, multiplies
  them with the summed linear projections and adds the first accumulator. Entry by entry this is `wsim` over the
  joined windows, with the sample read from the samples' block.
-/
import proofs.«104800_j57621281243745_2_alg».proof.Proof.Pay
import proofs.«104800_j57621281243745_2_alg».proof.Proof.PayWinStep
import proofs.«104800_j57621281243745_2_alg».proof.Proof.PaySums

noncomputable section

namespace Cert.KernelIdeal.Hand

open Idealize.ShloMosaic Idealize.ShloMosaic.ValueIdx Cert.KernelIdeal Cert.KernelIdeal.Gen
open Cert.WindowBlock

/-- The second store's value from the block's own and next rows of the times (`v15 v16`) and of the mask
    (`v17 v18`), the two accumulators and the samples' block. -/
def simOut (v15 v16 v17 v18 : FVec Ideal S32x64x1 .f32) (acc lin : FVec Ideal S32x64x64 .f32)
    (v184 : Vec Ideal S1x8 .f32) : FVec Ideal S32x64x8x64 .f32 :=
  addf
    (broadcastTo S32x64x8x64 (shapeCast S32x64x1x64 acc shapeCasts_S32x64x64_S32x64x1x64)
      broadcasts_S32x64x1x64_S32x64x8x64)
    (mulf
      (broadcastTo S32x64x8x64
        (shapeCast S32x64x8x1
          (mulf
            (broadcastTo S32x64x8 (mulf (mulf v17 v18) (subf v16 v15)) broadcasts_S32x64x1_S32x64x8)
            (broadcastTo S32x64x8
              (shapeCast S1x1x8 (shapeCast S1x8 v184 shapeCasts_S1x8_S1x8 : FVec Ideal S1x8 .f32) shapeCasts_S1x8_S1x1x8)
              broadcasts_S1x1x8_S32x64x8))
          shapeCasts_S32x64x8_S32x64x8x1)
        broadcasts_S32x64x8x1_S32x64x8x64)
      (broadcastTo S32x64x8x64 (shapeCast S32x64x1x64 lin shapeCasts_S32x64x64_S32x64x1x64)
        broadcasts_S32x64x1x64_S32x64x8x64))

/-- The second store's value at an entry. -/
theorem simOut_apply (v15 v16 v17 v18 : FVec Ideal S32x64x1 .f32) (acc lin : FVec Ideal S32x64x64 .f32)
    (v184 : Vec Ideal S1x8 .f32) (b : Fin 32) (r : Fin 64) (s : Fin 8) (o : Fin 64) :
    simOut v15 v16 v17 v18 acc lin v184 (ix4 b r s o)
      = acc (ix3 b r o)
        + (((v17 (ix3 b r (0 : Fin 1)) * v18 (ix3 b r (0 : Fin 1)))
              * (v16 (ix3 b r (0 : Fin 1)) - v15 (ix3 b r (0 : Fin 1)))) * v184 (ix2 (0 : Fin 1) s))
          * lin (ix3 b r o) := by
  unfold simOut
  simp only [addf_apply, mulf_apply, subf_apply, chanToSample_apply, keepChan_apply, sampleToChan_apply,
    keepSample_apply, colToSample_apply, sampleRow_apply, sampleCast_apply, shapeCast_self]

/-- The second store's value is `simOut` of the rows, the two accumulators (the steps' contributions and masked linear
    projections added, left to right, to zero splats) and the samples. -/
theorem simPay_eq (v0 : Vec Ideal S32x64x128 .f32) (v2 : Vec Ideal S32x8x128 .f32) (v5 : Vec Ideal S32x64x1 .f32)
    (v7 : Vec Ideal S32x16x1 .f32) (v10 : Vec Ideal S32x64x1 .f32) (v12 : Vec Ideal S32x16x1 .f32) (v184 : Vec Ideal S1x8 .f32) :
    simPay (F := Ideal) v0 v2 v5 v7 v10 v12 v184
      = simOut (k1_pay7 v5 v7) (k1_pay8 v5 v7) (k1_pay9 v10 v12) (k1_pay10 v10 v12)
        (addf (addf (addf (addf (addf (addf (addf (addf (k1_pay11 (F := Ideal))
        (winTerm 8 slices_S32x72x128_o0_8_0_S32x64x128 slices_S32x80x1_o0_8_0_S32x64x1 v0 v2 v5 v7 v10 v12))
        (winTerm 7 slices_S32x72x128_o0_7_0_S32x64x128 slices_S32x80x1_o0_7_0_S32x64x1 v0 v2 v5 v7 v10 v12))
        (winTerm 6 slices_S32x72x128_o0_6_0_S32x64x128 slices_S32x80x1_o0_6_0_S32x64x1 v0 v2 v5 v7 v10 v12))
        (winTerm 5 slices_S32x72x128_o0_5_0_S32x64x128 slices_S32x80x1_o0_5_0_S32x64x1 v0 v2 v5 v7 v10 v12))
        (winTerm 4 slices_S32x72x128_o0_4_0_S32x64x128 slices_S32x80x1_o0_4_0_S32x64x1 v0 v2 v5 v7 v10 v12))
        (winTerm 3 slices_S32x72x128_o0_3_0_S32x64x128 slices_S32x80x1_o0_3_0_S32x64x1 v0 v2 v5 v7 v10 v12))
        (winTerm 2 slices_S32x72x128_o0_2_0_S32x64x128 slices_S32x80x1_o0_2_0_S32x64x1 v0 v2 v5 v7 v10 v12))
        (winTerm 1 slices_S32x72x128_o0_1_0_S32x64x128 slices_S32x80x1_o0_1_0_S32x64x1 v0 v2 v5 v7 v10 v12))
        (addf (addf (addf (addf (addf (addf (addf (addf (k1_pay11 (F := Ideal))
        (winLin 8 slices_S32x72x128_o0_8_0_S32x64x128 slices_S32x80x1_o0_8_0_S32x64x1 v0 v2 v10 v12))
        (winLin 7 slices_S32x72x128_o0_7_0_S32x64x128 slices_S32x80x1_o0_7_0_S32x64x1 v0 v2 v10 v12))
        (winLin 6 slices_S32x72x128_o0_6_0_S32x64x128 slices_S32x80x1_o0_6_0_S32x64x1 v0 v2 v10 v12))
        (winLin 5 slices_S32x72x128_o0_5_0_S32x64x128 slices_S32x80x1_o0_5_0_S32x64x1 v0 v2 v10 v12))
        (winLin 4 slices_S32x72x128_o0_4_0_S32x64x128 slices_S32x80x1_o0_4_0_S32x64x1 v0 v2 v10 v12))
        (winLin 3 slices_S32x72x128_o0_3_0_S32x64x128 slices_S32x80x1_o0_3_0_S32x64x1 v0 v2 v10 v12))
        (winLin 2 slices_S32x72x128_o0_2_0_S32x64x128 slices_S32x80x1_o0_2_0_S32x64x1 v0 v2 v10 v12))
        (winLin 1 slices_S32x72x128_o0_1_0_S32x64x128 slices_S32x80x1_o0_1_0_S32x64x1 v0 v2 v10 v12))
        v184 := rfl

/-- Rows 1 … 8 of every nine: the sum over the event and the seven before it, plus sample `s` of the gap to the next
    event times the summed linear projections. -/
theorem simPay_apply (v0 : Vec Ideal S32x64x128 .f32) (v2 : Vec Ideal S32x8x128 .f32) (v5 : Vec Ideal S32x64x1 .f32)
    (v7 : Vec Ideal S32x16x1 .f32) (v10 : Vec Ideal S32x64x1 .f32) (v12 : Vec Ideal S32x16x1 .f32) (v184 : Vec Ideal S1x8 .f32)
    (b : Fin 32) (r : Fin 64) (s : Fin 8) (o : Fin 64) :
    simPay (F := Ideal) v0 v2 v5 v7 v10 v12 v184 (ix4 b r s o)
      = Cert.WindowBlock.wsim (Fw v0 v2) (Cw v5 v7) (Cw v10 v12) (v184 (ix2 (0 : Fin 1) s)) b r o := by
  rw [simPay_eq, simOut_apply]
  unfold wsim wudt
  rw [wsimSum_eq, wlinSum_eq]
  simp only [addf_apply, zeroSplat_apply, zero_add,
    winTerm_apply 8 0 rfl, winTerm_apply 7 1 rfl, winTerm_apply 6 2 rfl, winTerm_apply 5 3 rfl,
    winTerm_apply 4 4 rfl, winTerm_apply 3 5 rfl, winTerm_apply 2 6 rfl, winTerm_apply 1 7 rfl,
    winLin_apply 8 0 rfl, winLin_apply 7 1 rfl, winLin_apply 6 2 rfl, winLin_apply 5 3 rfl,
    winLin_apply 4 4 rfl, winLin_apply 3 5 rfl, winLin_apply 2 6 rfl, winLin_apply 1 7 rfl,
    timeCur_apply, timeNext_apply, maskCur_apply, maskNext_apply]

end Cert.KernelIdeal.Hand

end
-- ==== Proof.Arr1Math.lean ====
/-
  One block's windowed sums are the whole arrays' windowed sums, shifted.

  Block T of the grid sees window rows that are the padded arrays' rows 64·T + j: 72 rows of projections, 80 rows of
  times and of mask values. The event at local row r of the block is event t = 64·T + r, at window row r + 8 and padded
  row t + 8, and a lookback of m rows is the same on both sides. So each block-local term, gap and sum is the
  whole-array one at t: the eight earlier events' sum is row 0 of event t's nine, and the sum with sample s is row s + 1.
-/
import proofs.«104800_j57621281243745_2_alg».proof.Proof.Block
import proofs.«104800_j57621281243745_2_alg».proof.Proof.Mid

noncomputable section

open scoped BigOperators

namespace Cert.WindowShift

open Idealize.ShloMosaic Idealize.ShloMosaic.ValueIdx Cert.WindowBlock Cert.WindowMid

variable (fp : (⟨3, ![32, 2056, 128]⟩ : Shape).Idx → EReal) (tp mp : (⟨3, ![32, 2064, 1]⟩ : Shape).Idx → EReal)
  (us2 : (⟨2, ![1, 8]⟩ : Shape).Idx → EReal)
  (Fw : Fin 32 → Fin 72 → Fin 128 → EReal) (Tw Mw : Fin 32 → Fin 80 → EReal) (T : ℕ)

/-- Window row j of the mask values is padded row 64·T + j: the block-local validity is the whole-array one. -/
theorem valid_shift
    (hM : ∀ (b : Fin 32) (j : Fin 80) (J : Fin 2064), J.val = 64 * T + j.val → Mw b j = mp (ix3 b J (0 : Fin 1)))
    (b : Fin 32) (r : Fin 64) (t : Fin 2048) (ht : t.val = 64 * T + r.val) (m : ℕ) :
    valid Mw b r m = gvalid mp b t m := by
  unfold valid gvalid
  by_cases h : m ≤ 8
  · rw [dif_pos h, dif_pos h,
      hM b ⟨r.val + 8 - m, by omega⟩ ⟨t.val + 8 - m, by omega⟩ (by show t.val + 8 - m = 64 * T + (r.val + 8 - m); omega),
      hM b ⟨r.val + 8, by omega⟩ ⟨t.val + 8, by omega⟩ (by show t.val + 8 = 64 * T + (r.val + 8); omega)]
  · rw [dif_neg h, dif_neg h]

/-- The contribution of the event m rows back. -/
theorem wterm_shift
    (hF : ∀ (b : Fin 32) (j : Fin 72) (J : Fin 2056) (ch : Fin 128), J.val = 64 * T + j.val → Fw b j ch = fp (ix3 b J ch))
    (hT : ∀ (b : Fin 32) (j : Fin 80) (J : Fin 2064), J.val = 64 * T + j.val → Tw b j = tp (ix3 b J (0 : Fin 1)))
    (hM : ∀ (b : Fin 32) (j : Fin 80) (J : Fin 2064), J.val = 64 * T + j.val → Mw b j = mp (ix3 b J (0 : Fin 1)))
    (b : Fin 32) (r : Fin 64) (t : Fin 2048) (ht : t.val = 64 * T + r.val) (m : ℕ) (o : Fin 64) :
    wterm Fw Tw Mw b r m o = gterm fp tp mp b t m o := by
  unfold wterm gterm
  by_cases h : m ≤ 8
  · rw [dif_pos h, dif_pos h, valid_shift mp Mw T hM b r t ht m,
      hT b ⟨r.val + 8, by omega⟩ ⟨t.val + 8, by omega⟩ (by show t.val + 8 = 64 * T + (r.val + 8); omega),
      hT b ⟨r.val + 8 - m, by omega⟩ ⟨t.val + 8 - m, by omega⟩ (by show t.val + 8 - m = 64 * T + (r.val + 8 - m); omega),
      hF b ⟨r.val + 8 - m, by omega⟩ ⟨t.val + 8 - m, by omega⟩ ⟨o.val, by omega⟩ (by show t.val + 8 - m = 64 * T + (r.val + 8 - m); omega),
      hF b ⟨r.val + 8 - m, by omega⟩ ⟨t.val + 8 - m, by omega⟩ ⟨o.val + 64, by omega⟩ (by show t.val + 8 - m = 64 * T + (r.val + 8 - m); omega)]
  · rw [dif_neg h, dif_neg h]

/-- Its linear projection alone. -/
theorem wlin_shift
    (hF : ∀ (b : Fin 32) (j : Fin 72) (J : Fin 2056) (ch : Fin 128), J.val = 64 * T + j.val → Fw b j ch = fp (ix3 b J ch))
    (hM : ∀ (b : Fin 32) (j : Fin 80) (J : Fin 2064), J.val = 64 * T + j.val → Mw b j = mp (ix3 b J (0 : Fin 1)))
    (b : Fin 32) (r : Fin 64) (t : Fin 2048) (ht : t.val = 64 * T + r.val) (m : ℕ) (o : Fin 64) :
    wlin Fw Mw b r m o = glin fp mp b t m o := by
  unfold wlin glin
  by_cases h : m ≤ 8
  · rw [dif_pos h, dif_pos h, valid_shift mp Mw T hM b r t ht m,
      hF b ⟨r.val + 8 - m, by omega⟩ ⟨t.val + 8 - m, by omega⟩ ⟨o.val, by omega⟩ (by show t.val + 8 - m = 64 * T + (r.val + 8 - m); omega)]
  · rw [dif_neg h, dif_neg h]

/-- The gap to the next event. -/
theorem wudt_shift
    (hT : ∀ (b : Fin 32) (j : Fin 80) (J : Fin 2064), J.val = 64 * T + j.val → Tw b j = tp (ix3 b J (0 : Fin 1)))
    (hM : ∀ (b : Fin 32) (j : Fin 80) (J : Fin 2064), J.val = 64 * T + j.val → Mw b j = mp (ix3 b J (0 : Fin 1)))
    (b : Fin 32) (r : Fin 64) (t : Fin 2048) (ht : t.val = 64 * T + r.val) :
    wudt Tw Mw b r = gudt tp mp b t := by
  unfold wudt gudt
  rw [hM b ⟨r.val + 8, by omega⟩ ⟨t.val + 8, by omega⟩ (by show t.val + 8 = 64 * T + (r.val + 8); omega),
    hM b ⟨r.val + 9, by omega⟩ ⟨t.val + 9, by omega⟩ (by show t.val + 9 = 64 * T + (r.val + 9); omega),
    hT b ⟨r.val + 9, by omega⟩ ⟨t.val + 9, by omega⟩ (by show t.val + 9 = 64 * T + (r.val + 9); omega),
    hT b ⟨r.val + 8, by omega⟩ ⟨t.val + 8, by omega⟩ (by show t.val + 8 = 64 * T + (r.val + 8); omega)]

/-- The eight earlier events' sum is row 0 of event t's nine. -/
theorem wreal_shift
    (hF : ∀ (b : Fin 32) (j : Fin 72) (J : Fin 2056) (ch : Fin 128), J.val = 64 * T + j.val → Fw b j ch = fp (ix3 b J ch))
    (hT : ∀ (b : Fin 32) (j : Fin 80) (J : Fin 2064), J.val = 64 * T + j.val → Tw b j = tp (ix3 b J (0 : Fin 1)))
    (hM : ∀ (b : Fin 32) (j : Fin 80) (J : Fin 2064), J.val = 64 * T + j.val → Mw b j = mp (ix3 b J (0 : Fin 1)))
    (b : Fin 32) (r : Fin 64) (t : Fin 2048) (ht : t.val = 64 * T + r.val) (S : Fin 9) (hS : S.val = 0) (o : Fin 64) :
    wreal Fw Tw Mw b r o = out2At fp tp mp us2 b t S o := by
  unfold wreal out2At
  rw [dif_pos hS]
  exact Finset.sum_congr rfl fun j _ => wterm_shift fp tp mp Fw Tw Mw T hF hT hM b r t ht (j.val + 1) o

/-- The sum with sample s is row s + 1. -/
theorem wsim_shift
    (hF : ∀ (b : Fin 32) (j : Fin 72) (J : Fin 2056) (ch : Fin 128), J.val = 64 * T + j.val → Fw b j ch = fp (ix3 b J ch))
    (hT : ∀ (b : Fin 32) (j : Fin 80) (J : Fin 2064), J.val = 64 * T + j.val → Tw b j = tp (ix3 b J (0 : Fin 1)))
    (hM : ∀ (b : Fin 32) (j : Fin 80) (J : Fin 2064), J.val = 64 * T + j.val → Mw b j = mp (ix3 b J (0 : Fin 1)))
    (b : Fin 32) (r : Fin 64) (t : Fin 2048) (ht : t.val = 64 * T + r.val) (S : Fin 9) (s : Fin 8) (hS : S.val = s.val + 1)
    (o : Fin 64) :
    wsim Fw Tw Mw (us2 (ix2 (0 : Fin 1) s)) b r o = out2At fp tp mp us2 b t S o := by
  unfold wsim out2At
  have hS0 : ¬ S.val = 0 := by omega
  rw [dif_neg hS0]
  have es : (⟨S.val - 1, by omega⟩ : Fin 8) = s := Fin.ext (by show S.val - 1 = s.val; omega)
  have e1 : (∑ j : Fin 8, wterm Fw Tw Mw b r j.val o) = ∑ j : Fin 8, gterm fp tp mp b t j.val o :=
    Finset.sum_congr rfl fun j _ => wterm_shift fp tp mp Fw Tw Mw T hF hT hM b r t ht j.val o
  have e2 : (∑ j : Fin 8, wlin Fw Mw b r j.val o) = ∑ j : Fin 8, glin fp mp b t j.val o :=
    Finset.sum_congr rfl fun j _ => wlin_shift fp mp Fw Mw T hF hM b r t ht j.val o
  rw [es, wudt_shift tp mp Tw Mw T hT hM b r t ht, e1, e2]

end Cert.WindowShift

end
-- ==== Proof.Arr1Reads.lean ====
/-
  Region 1's input blocks read back to the arrays.

  At point t of the grid of 32 the windows over the padded projections hold its rows 64·t … 64·t + 63 and the eight rows
  64·t + 64 … 64·t + 71 (block index (t + 1)·8 of 8-row blocks), the windows over the padded times and over the padded
  mask values their rows 64·t … 64·t + 63 and the sixteen rows 64·t + 64 … 64·t + 79 (block index (t + 1)·4 of 16-row
  blocks), the samples' window the whole row of samples. A block's element sits in the array at block index × block
  size + its own coordinate. The three 64-row windows are described with a possibly cut last block; no block of this
  grid is cut, so the filled-out block is the block itself at every index.
-/
import proofs.«104800_j57621281243745_2_alg».proof.Proof.Data
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL.Sem
open Idealize.ShloMosaic.Pipeline (Dat Window)
open Cert.KernelIdeal Cert.KernelIdeal.Gen

variable (V : (c : Dev nD) → (b : Ref sig .tc) → Buf (Elt Ideal) ((c : Thread nD τ).loc b))

/-- The printed index maps of the six row windows over the grid. -/
theorem idx1_rows : ∀ t : Fin cfg1.N,
    (win1_0.index t (0 : Fin 3) = 0 ∧ win1_0.index t (1 : Fin 3) = t.val ∧ win1_0.index t (2 : Fin 3) = 0)
    ∧ (win1_1.index t (0 : Fin 3) = 0 ∧ win1_1.index t (1 : Fin 3) = (t.val + 1) * 8 ∧ win1_1.index t (2 : Fin 3) = 0)
    ∧ (win1_2.index t (0 : Fin 3) = 0 ∧ win1_2.index t (1 : Fin 3) = t.val ∧ win1_2.index t (2 : Fin 3) = 0)
    ∧ (win1_3.index t (0 : Fin 3) = 0 ∧ win1_3.index t (1 : Fin 3) = (t.val + 1) * 4 ∧ win1_3.index t (2 : Fin 3) = 0)
    ∧ (win1_4.index t (0 : Fin 3) = 0 ∧ win1_4.index t (1 : Fin 3) = t.val ∧ win1_4.index t (2 : Fin 3) = 0)
    ∧ (win1_5.index t (0 : Fin 3) = 0 ∧ win1_5.index t (1 : Fin 3) = (t.val + 1) * 4 ∧ win1_5.index t (2 : Fin 3) = 0) :=
  (by decide +kernel : ∀ t : Fin grid1.N, _)

/-- The samples' window is the whole array; the output's block is row block t. -/
theorem idx1_rest : ∀ t : Fin cfg1.N,
    (win1_6.index t (0 : Fin 2) = 0 ∧ win1_6.index t (1 : Fin 2) = 0)
    ∧ (win1_7.index t (0 : Fin 4) = 0 ∧ win1_7.index t (1 : Fin 4) = t.val ∧ win1_7.index t (2 : Fin 4) = 0
        ∧ win1_7.index t (3 : Fin 4) = 0) :=
  (by decide +kernel : ∀ t : Fin grid1.N, _)

/-- A fill of an uncut block takes every element from what is filled in. -/
theorem fill_apply_of_clip_none {G : Pipeline.Grid} (w : Window sig G) (i : G.Coords) (h : ∀ a, w.clip i a = none) {α : Type}
    (d : w.block.Idx → α) (g : (w.xblock i).Idx → α) (j : w.block.Idx) :
    w.fill i d g j = g fun a => ⟨(j a).val, by
      have := (j a).isLt; show (j a).val < (w.clip i a).extent (w.size a); rw [h a]; exact this⟩ := by
  have hm : w.moved i j = true :=
    (w.moved_iff _ j).mpr fun a => by have := (j a).isLt; unfold Window.xsize; rw [h a]; exact this
  unfold Window.fill; rw [dif_pos hm]

/-- The 64 rows of projections at point t are the padded projections' rows 64·t + r. -/
theorem curFeat_apply (c : Dev nD) (t : Fin cfg1.N) (d : (cfg1.win 0).block.Idx → Elt Ideal (cfg1.win 0).elt)
    (b : Fin 32) (r : Fin 64) (ch : Fin 128) (J : Fin 2056) (hJ : J.val = 64 * t.val + r.val) :
    cblk1 V c 0 t d (ix3 b r ch) = V c main_v5 (ix3 b J ch) := by
  obtain ⟨⟨e0, e1, e2⟩, -⟩ := idx1_rows t
  unfold cblk1
  rw [fill_apply_of_clip_none (cfg1.win 0) (cfg1.grid.coords t) (noclip1_0 t)]
  show V c main_v5 (((cfg1.win 0).blk t).view.emb _) = V c main_v5 _
  congr 1
  funext a; apply Fin.ext
  match a with
  | ⟨0, _⟩ => show win1_0.index t (0 : Fin 3) * 32 + 1 * b.val = b.val; omega
  | ⟨1, _⟩ => show win1_0.index t (1 : Fin 3) * 64 + 1 * r.val = J.val; omega
  | ⟨2, _⟩ => show win1_0.index t (2 : Fin 3) * 128 + 1 * ch.val = ch.val; omega

/-- The 8 rows after them are the padded projections' rows 64·t + 64 + r. -/
theorem nextFeat_apply (c : Dev nD) (t : Fin cfg1.N)
    (b : Fin 32) (r : Fin 8) (ch : Fin 128) (J : Fin 2056) (hJ : J.val = 64 * t.val + 64 + r.val) :
    iblk1 V c 1 t (ix3 b r ch) = V c main_v5 (ix3 b J ch) := by
  obtain ⟨-, ⟨e0, e1, e2⟩, -⟩ := idx1_rows t
  show V c main_v5 (((cfg1.win 1).blk t).view.emb _) = V c main_v5 _
  congr 1
  funext a; apply Fin.ext
  match a with
  | ⟨0, _⟩ => show win1_1.index t (0 : Fin 3) * 32 + 1 * b.val = b.val; omega
  | ⟨1, _⟩ => show win1_1.index t (1 : Fin 3) * 8 + 1 * r.val = J.val; omega
  | ⟨2, _⟩ => show win1_1.index t (2 : Fin 3) * 128 + 1 * ch.val = ch.val; omega

/-- The 64 rows of times at point t are the padded times' rows 64·t + r. -/
theorem curTime_apply (c : Dev nD) (t : Fin cfg1.N) (d : (cfg1.win 2).block.Idx → Elt Ideal (cfg1.win 2).elt)
    (b : Fin 32) (r : Fin 64) (J : Fin 2064) (hJ : J.val = 64 * t.val + r.val) :
    cblk1 V c 2 t d (ix3 b r (0 : Fin 1)) = V c main_v8 (ix3 b J (0 : Fin 1)) := by
  obtain ⟨-, -, ⟨e0, e1, e2⟩, -⟩ := idx1_rows t
  unfold cblk1
  rw [fill_apply_of_clip_none (cfg1.win 2) (cfg1.grid.coords t) (noclip1_2 t)]
  show V c main_v8 (((cfg1.win 2).blk t).view.emb _) = V c main_v8 _
  congr 1
  funext a; apply Fin.ext
  match a with
  | ⟨0, _⟩ => show win1_2.index t (0 : Fin 3) * 32 + 1 * b.val = b.val; omega
  | ⟨1, _⟩ => show win1_2.index t (1 : Fin 3) * 64 + 1 * r.val = J.val; omega
  | ⟨2, _⟩ => show win1_2.index t (2 : Fin 3) * 1 + 1 * 0 = 0; omega

/-- The 16 rows after them are the padded times' rows 64·t + 64 + r. -/
theorem nextTime_apply (c : Dev nD) (t : Fin cfg1.N)
    (b : Fin 32) (r : Fin 16) (J : Fin 2064) (hJ : J.val = 64 * t.val + 64 + r.val) :
    iblk1 V c 3 t (ix3 b r (0 : Fin 1)) = V c main_v8 (ix3 b J (0 : Fin 1)) := by
  obtain ⟨-, -, -, ⟨e0, e1, e2⟩, -⟩ := idx1_rows t
  show V c main_v8 (((cfg1.win 3).blk t).view.emb _) = V c main_v8 _
  congr 1
  funext a; apply Fin.ext
  match a with
  | ⟨0, _⟩ => show win1_3.index t (0 : Fin 3) * 32 + 1 * b.val = b.val; omega
  | ⟨1, _⟩ => show win1_3.index t (1 : Fin 3) * 16 + 1 * r.val = J.val; omega
  | ⟨2, _⟩ => show win1_3.index t (2 : Fin 3) * 1 + 1 * 0 = 0; omega

/-- The 64 rows of mask values at point t are the padded mask's rows 64·t + r. -/
theorem curMask_apply (c : Dev nD) (t : Fin cfg1.N) (d : (cfg1.win 4).block.Idx → Elt Ideal (cfg1.win 4).elt)
    (b : Fin 32) (r : Fin 64) (J : Fin 2064) (hJ : J.val = 64 * t.val + r.val) :
    cblk1 V c 4 t d (ix3 b r (0 : Fin 1)) = V c main_v10 (ix3 b J (0 : Fin 1)) := by
  obtain ⟨-, -, -, -, ⟨e0, e1, e2⟩, -⟩ := idx1_rows t
  unfold cblk1
  rw [fill_apply_of_clip_none (cfg1.win 4) (cfg1.grid.coords t) (noclip1_4 t)]
  show V c main_v10 (((cfg1.win 4).blk t).view.emb _) = V c main_v10 _
  congr 1
  funext a; apply Fin.ext
  match a with
  | ⟨0, _⟩ => show win1_4.index t (0 : Fin 3) * 32 + 1 * b.val = b.val; omega
  | ⟨1, _⟩ => show win1_4.index t (1 : Fin 3) * 64 + 1 * r.val = J.val; omega
  | ⟨2, _⟩ => show win1_4.index t (2 : Fin 3) * 1 + 1 * 0 = 0; omega

/-- The 16 rows after them are the padded mask's rows 64·t + 64 + r. -/
theorem nextMask_apply (c : Dev nD) (t : Fin cfg1.N)
    (b : Fin 32) (r : Fin 16) (J : Fin 2064) (hJ : J.val = 64 * t.val + 64 + r.val) :
    iblk1 V c 5 t (ix3 b r (0 : Fin 1)) = V c main_v10 (ix3 b J (0 : Fin 1)) := by
  obtain ⟨-, -, -, -, -, ⟨e0, e1, e2⟩⟩ := idx1_rows t
  show V c main_v10 (((cfg1.win 5).blk t).view.emb _) = V c main_v10 _
  congr 1
  funext a; apply Fin.ext
  match a with
  | ⟨0, _⟩ => show win1_5.index t (0 : Fin 3) * 32 + 1 * b.val = b.val; omega
  | ⟨1, _⟩ => show win1_5.index t (1 : Fin 3) * 16 + 1 * r.val = J.val; omega
  | ⟨2, _⟩ => show win1_5.index t (2 : Fin 3) * 1 + 1 * 0 = 0; omega

/-- The samples' block is the samples. -/
theorem samplesBlk_apply (c : Dev nD) (t : Fin cfg1.N) (s : Fin 8) :
    iblk1 V c 6 t (ix2 (0 : Fin 1) s) = V c main_v11 (ix2 (0 : Fin 1) s) := by
  obtain ⟨⟨e0, e1⟩, -⟩ := idx1_rest t
  show V c main_v11 (((cfg1.win 6).blk t).view.emb _) = V c main_v11 _
  congr 1
  funext a; apply Fin.ext
  match a with
  | ⟨0, _⟩ => show win1_6.index t (0 : Fin 2) * 1 + 1 * 0 = 0; omega
  | ⟨1, _⟩ => show win1_6.index t (1 : Fin 2) * 8 + 1 * s.val = s.val; omega

end Cert.KernelIdeal.Hand

end
-- ==== Proof.Arr1Canon.lean ====
/-
  The output block the windowed kernel's body leaves, at an entry.

  The body's two stores cover the block of 64 × 9 output rows between them: the later one writes rows 1 … 8 of every
  nine, the earlier one row 0. Each loaded block is read through the whole of its buffer, so the body's values are
  those of the blocks themselves. At row 0 of a nine only the earlier store's rectangle holds the entry, which is
  therefore the sum over the eight earlier events; at row s ≥ 1 the later store's rectangle holds it, at its own row
  s - 1, and the entry is the simulated sum for sample s - 1.
-/
import proofs.«104800_j57621281243745_2_alg».proof.Proof.Data
import proofs.«104800_j57621281243745_2_alg».proof.Proof.PayReal
import proofs.«104800_j57621281243745_2_alg».proof.Proof.PaySim

noncomputable section

namespace Cert.KernelIdeal.Hand

open Idealize.ShloMosaic Idealize.ShloMosaic.ValueIdx Cert.KernelIdeal Cert.KernelIdeal.Gen
open Cert.WindowBlock

/-- The zero offsets of a rank-3 buffer, however spelt. -/
theorem zeroOff3 : (![0, 0, 0] : Fin 3 → Nat) = fun _ => 0 :=
  funext fun a => by
    match a with
    | ⟨0, _⟩ => rfl
    | ⟨1, _⟩ => rfl
    | ⟨2, _⟩ => rfl

/-- The zero offsets of a rank-2 buffer. -/
theorem zeroOff2 : (![0, 0] : Fin 2 → Nat) = fun _ => 0 :=
  funext fun a => by
    match a with
    | ⟨0, _⟩ => rfl
    | ⟨1, _⟩ => rfl

/-- Two stores, the later over rows 1 … 8 of every nine and the earlier over row 0, read at (b, r, s, o): the
    earlier store's payload at row 0, the later store's at its own row s - 1 otherwise. -/
theorem canonTwo_apply (W1 : FVec Ideal S32x64x8x64 .f32) (W2 : FVec Ideal S32x64x1x64 .f32)
    (b : Fin 32) (r : Fin 64) (s : Fin 9) (o : Fin 64) :
    View.canon (Val := Elt Ideal) (e := .f32) [(⟨rSim, W1⟩ : View.Piece (Elt Ideal) S32x64x9x64 .f32), ⟨rReal, W2⟩] (ix4 b r s o)
      = if h : s.val = 0 then W2 (ix4 b r (0 : Fin 1) o) else W1 (ix4 b r (⟨s.val - 1, by omega⟩ : Fin 8) o) := by
  by_cases h : s.val = 0
  · rw [dif_pos h]
    have hnot : ix4 b r s o ∉ (rSim).set := by
      rw [Rect.mem_set_unit]
      intro hh
      have h2 : 1 ≤ s.val := (hh 2).1
      omega
    have e : ix4 b r s o = (rReal).emb (ix4 b r (0 : Fin 1) o) := funext fun a => Fin.ext (by
      match a with
      | ⟨0, _⟩ => show b.val = 0 + 1 * b.val; omega
      | ⟨1, _⟩ => show r.val = 0 + 1 * r.val; omega
      | ⟨2, _⟩ => show s.val = 0 + 1 * 0; omega
      | ⟨3, _⟩ => show o.val = 0 + 1 * o.val; omega)
    refine (View.canon_cons_of_not_mem (⟨rSim, W1⟩ : View.Piece (Elt Ideal) S32x64x9x64 .f32)
      [(⟨rReal, W2⟩ : View.Piece (Elt Ideal) S32x64x9x64 .f32)] hnot).trans ?_
    rw [e]
    exact View.canon_cons_emb (Val := Elt Ideal) (e := .f32) rReal W2 [] (ix4 b r (0 : Fin 1) o)
  · rw [dif_neg h]
    have e : ix4 b r s o = (rSim).emb (ix4 b r (⟨s.val - 1, by omega⟩ : Fin 8) o) := funext fun a => Fin.ext (by
      match a with
      | ⟨0, _⟩ => show b.val = 0 + 1 * b.val; omega
      | ⟨1, _⟩ => show r.val = 0 + 1 * r.val; omega
      | ⟨2, _⟩ => show s.val = 1 + 1 * (s.val - 1); omega
      | ⟨3, _⟩ => show o.val = 0 + 1 * o.val; omega)
    rw [e]
    exact View.canon_cons_emb (Val := Elt Ideal) (e := .f32) rSim W1
      [(⟨rReal, W2⟩ : View.Piece (Elt Ideal) S32x64x9x64 .f32)] (ix4 b r (⟨s.val - 1, by omega⟩ : Fin 8) o)

/-- The output block at (b, r, s, o): row 0 of a nine is the sum over the eight earlier events, row s ≥ 1 the
    simulated sum for sample s - 1. -/
theorem out1_7_apply (x0 : Vec Ideal S32x64x128 .f32) (x1 : Vec Ideal S32x8x128 .f32) (x2 : Vec Ideal S32x64x1 .f32)
    (x3 : Vec Ideal S32x16x1 .f32) (x4 : Vec Ideal S32x64x1 .f32) (x5 : Vec Ideal S32x16x1 .f32)
    (x6 : Vec Ideal S1x8 .f32) (b : Fin 32) (r : Fin 64) (s : Fin 9) (o : Fin 64) :
    out1_7 (F := Ideal) x0 x1 x2 x3 x4 x5 x6 (ix4 b r s o)
      = if h : s.val = 0 then Cert.WindowBlock.wreal (Fw x0 x1) (Cw x2 x3) (Cw x4 x5) b r o
        else Cert.WindowBlock.wsim (Fw x0 x1) (Cw x2 x3) (Cw x4 x5) (x6 (ix2 (0 : Fin 1) ⟨s.val - 1, by omega⟩)) b r o := by
  unfold out1_7
  rw [View.ld_unit_zero (S := S32x64x128) zeroOff3 _ x0, View.ld_unit_zero (S := S32x8x128) zeroOff3 _ x1,
    View.ld_unit_zero (S := S32x64x1) zeroOff3 _ x2, View.ld_unit_zero (S := S32x16x1) zeroOff3 _ x3,
    View.ld_unit_zero (S := S32x64x1) zeroOff3 _ x4, View.ld_unit_zero (S := S32x16x1) zeroOff3 _ x5,
    View.ld_unit_zero (S := S1x8) zeroOff2 _ x6]
  refine (canonTwo_apply _ _ b r s o).trans ?_
  by_cases h : s.val = 0
  · rw [dif_pos h, dif_pos h]
    exact realPay_apply x0 x1 x2 x3 x4 x5 b r o
  · rw [dif_neg h, dif_neg h]
    exact simPay_apply x0 x1 x2 x3 x4 x5 x6 b r ⟨s.val - 1, by omega⟩ o

end Cert.KernelIdeal.Hand

end
-- ==== Proof.Arr1.lean ====
/-
  Region 1's result as one array: the windowed sums of every event.

  Point t of the grid of 32 writes the 64 events 64·t … 64·t + 63 of every batch row, nine output rows each. What it
  leaves in its block is, row 0 of every nine, the block-local sum over the eight earlier events and, row s + 1, the
  block-local sum with sample s — over the window rows the body sees, which are the padded arrays' rows 64·t + j. So the
  block is block t of the whole-array windowed sums, the 32 row blocks cover the 2048 events (event e lies in block
  e / 64), and after the last point the result holds the windowed sums at every index.
-/
import proofs.«104800_j57621281243745_2_alg».proof.Proof.Data
import proofs.«104800_j57621281243745_2_alg».proof.Proof.PayReal
import proofs.«104800_j57621281243745_2_alg».proof.Proof.PaySim
import proofs.«104800_j57621281243745_2_alg».proof.Proof.Mid
import proofs.«104800_j57621281243745_2_alg».proof.Proof.Arr1Math
import proofs.«104800_j57621281243745_2_alg».proof.Proof.Arr1Reads
import proofs.«104800_j57621281243745_2_alg».proof.Proof.Arr1Canon
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL.Sem
open Idealize.ShloMosaic.Pipeline (Dat Window)
open Cert.KernelIdeal Cert.KernelIdeal.Gen

/-- The 72 window rows of projections are the padded projections' rows 64·T + j. -/
theorem Fw_rows (fp : (⟨3, ![32, 2056, 128]⟩ : Shape).Idx → EReal) (T : ℕ)
    (x0 : Vec Ideal S32x64x128 .f32) (x1 : Vec Ideal S32x8x128 .f32)
    (h0 : ∀ (b : Fin 32) (r : Fin 64) (ch : Fin 128) (J : Fin 2056), J.val = 64 * T + r.val → x0 (ix3 b r ch) = fp (ix3 b J ch))
    (h1 : ∀ (b : Fin 32) (r : Fin 8) (ch : Fin 128) (J : Fin 2056), J.val = 64 * T + 64 + r.val → x1 (ix3 b r ch) = fp (ix3 b J ch))
    (b : Fin 32) (j : Fin 72) (J : Fin 2056) (ch : Fin 128) (hJ : J.val = 64 * T + j.val) :
    Fw x0 x1 b j ch = fp (ix3 b J ch) := by
  unfold Fw
  by_cases h : j.val < 64
  · rw [dif_pos h]; exact h0 b ⟨j.val, h⟩ ch J hJ
  · rw [dif_neg h]; exact h1 b ⟨j.val - 64, by omega⟩ ch J (by show J.val = 64 * T + 64 + (j.val - 64); omega)

/-- The 80 window rows of a one-column array are the padded array's rows 64·T + j. -/
theorem Cw_rows (tp : (⟨3, ![32, 2064, 1]⟩ : Shape).Idx → EReal) (T : ℕ)
    (x2 : Vec Ideal S32x64x1 .f32) (x3 : Vec Ideal S32x16x1 .f32)
    (h2 : ∀ (b : Fin 32) (r : Fin 64) (J : Fin 2064), J.val = 64 * T + r.val → x2 (ix3 b r (0 : Fin 1)) = tp (ix3 b J (0 : Fin 1)))
    (h3 : ∀ (b : Fin 32) (r : Fin 16) (J : Fin 2064), J.val = 64 * T + 64 + r.val → x3 (ix3 b r (0 : Fin 1)) = tp (ix3 b J (0 : Fin 1)))
    (b : Fin 32) (j : Fin 80) (J : Fin 2064) (hJ : J.val = 64 * T + j.val) :
    Cw x2 x3 b j = tp (ix3 b J (0 : Fin 1)) := by
  unfold Cw
  by_cases h : j.val < 64
  · rw [dif_pos h]; exact h2 b ⟨j.val, h⟩ J hJ
  · rw [dif_neg h]; exact h3 b ⟨j.val - 64, by omega⟩ J (by show J.val = 64 * T + 64 + (j.val - 64); omega)

/-- What the body leaves at block-local (b, r, S, o) is the whole-array windowed sum at event 64·T + r, when the
    seven blocks are the arrays' rows at block T. -/
theorem block_at (fp : (⟨3, ![32, 2056, 128]⟩ : Shape).Idx → EReal) (tp mp : (⟨3, ![32, 2064, 1]⟩ : Shape).Idx → EReal)
    (us2 : (⟨2, ![1, 8]⟩ : Shape).Idx → EReal) (T : ℕ)
    (x0 : Vec Ideal S32x64x128 .f32) (x1 : Vec Ideal S32x8x128 .f32) (x2 : Vec Ideal S32x64x1 .f32) (x3 : Vec Ideal S32x16x1 .f32)
    (x4 : Vec Ideal S32x64x1 .f32) (x5 : Vec Ideal S32x16x1 .f32) (x6 : Vec Ideal S1x8 .f32)
    (h0 : ∀ (b : Fin 32) (r : Fin 64) (ch : Fin 128) (J : Fin 2056), J.val = 64 * T + r.val → x0 (ix3 b r ch) = fp (ix3 b J ch))
    (h1 : ∀ (b : Fin 32) (r : Fin 8) (ch : Fin 128) (J : Fin 2056), J.val = 64 * T + 64 + r.val → x1 (ix3 b r ch) = fp (ix3 b J ch))
    (h2 : ∀ (b : Fin 32) (r : Fin 64) (J : Fin 2064), J.val = 64 * T + r.val → x2 (ix3 b r (0 : Fin 1)) = tp (ix3 b J (0 : Fin 1)))
    (h3 : ∀ (b : Fin 32) (r : Fin 16) (J : Fin 2064), J.val = 64 * T + 64 + r.val → x3 (ix3 b r (0 : Fin 1)) = tp (ix3 b J (0 : Fin 1)))
    (h4 : ∀ (b : Fin 32) (r : Fin 64) (J : Fin 2064), J.val = 64 * T + r.val → x4 (ix3 b r (0 : Fin 1)) = mp (ix3 b J (0 : Fin 1)))
    (h5 : ∀ (b : Fin 32) (r : Fin 16) (J : Fin 2064), J.val = 64 * T + 64 + r.val → x5 (ix3 b r (0 : Fin 1)) = mp (ix3 b J (0 : Fin 1)))
    (h6 : ∀ s : Fin 8, x6 (ix2 (0 : Fin 1) s) = us2 (ix2 (0 : Fin 1) s))
    (b : Fin 32) (r : Fin 64) (S : Fin 9) (o : Fin 64) (t : Fin 2048) (ht : t.val = 64 * T + r.val) :
    out1_7 (F := Ideal) x0 x1 x2 x3 x4 x5 x6 (ix4 b r S o) = Cert.WindowMid.out2 fp tp mp us2 (ix4 b t S o) := by
  have hF : ∀ (b : Fin 32) (j : Fin 72) (J : Fin 2056) (ch : Fin 128), J.val = 64 * T + j.val →
      Fw x0 x1 b j ch = fp (ix3 b J ch) := fun b j J ch hJ => Fw_rows fp T x0 x1 h0 h1 b j J ch hJ
  have hT : ∀ (b : Fin 32) (j : Fin 80) (J : Fin 2064), J.val = 64 * T + j.val →
      Cw x2 x3 b j = tp (ix3 b J (0 : Fin 1)) := fun b j J hJ => Cw_rows tp T x2 x3 h2 h3 b j J hJ
  have hM : ∀ (b : Fin 32) (j : Fin 80) (J : Fin 2064), J.val = 64 * T + j.val →
      Cw x4 x5 b j = mp (ix3 b J (0 : Fin 1)) := fun b j J hJ => Cw_rows mp T x4 x5 h4 h5 b j J hJ
  rw [out1_7_apply, Cert.WindowMid.out2_ix4]
  by_cases hS : S.val = 0
  · rw [dif_pos hS]
    exact Cert.WindowShift.wreal_shift fp tp mp us2 (Fw x0 x1) (Cw x2 x3) (Cw x4 x5) T hF hT hM b r t ht S hS o
  · have hS9 : S.val < 9 := S.isLt
    rw [dif_neg hS, h6]
    exact Cert.WindowShift.wsim_shift fp tp mp us2 (Fw x0 x1) (Cw x2 x3) (Cw x4 x5) T hF hT hM b r t ht S
      ⟨S.val - 1, by omega⟩ (by show S.val = S.val - 1 + 1; omega) o

variable (V : (c : Dev nD) → (b : Ref sig .tc) → Buf (Elt Ideal) ((c : Thread nD τ).loc b))

/-- What point t writes back is block t of the windowed sums of the four arrays as the region finds them. -/
theorem flushed1_eq (c : Dev nD) (t : Fin cfg1.N) :
    (dat1 V c).flushed 7 t
      = ((cfg1.win 7).blk t).view.read (Elt Ideal)
          (Cert.WindowMid.out2 (V c main_v5) (V c main_v8) (V c main_v10) (V c main_v11)) := by
  show (cfg1.win 7).cut (grid1.coords t) ((dat1 V c).after 7 t) = _
  rw [after1_7]
  obtain ⟨-, e0, e1, e2, e3⟩ := idx1_rest t
  have hN : cfg1.N = 32 := N_1
  have htN : t.val < 32 := hN ▸ t.isLt
  funext j
  obtain ⟨b, r, S, o, rfl⟩ : ∃ (b : Fin 32) (r : Fin 64) (S : Fin 9) (o : Fin 64), j = ix4 b r S o :=
    ⟨j 0, j 1, j 2, j 3, eq_ix4 j⟩
  have hemb : ((cfg1.win 7).blk t).view.emb (ix4 b r S o) = (ix4 b ⟨64 * t.val + r.val, by omega⟩ S o : S32x2048x9x64.Idx) := by
    funext a; apply Fin.ext
    match a with
    | ⟨0, _⟩ => show win1_7.index t (0 : Fin 4) * 32 + 1 * b.val = b.val; omega
    | ⟨1, _⟩ => show win1_7.index t (1 : Fin 4) * 64 + 1 * r.val = 64 * t.val + r.val; omega
    | ⟨2, _⟩ => show win1_7.index t (2 : Fin 4) * 9 + 1 * S.val = S.val; omega
    | ⟨3, _⟩ => show win1_7.index t (3 : Fin 4) * 64 + 1 * o.val = o.val; omega
  show out1_7 (F := Ideal) _ _ _ _ _ _ _ (ix4 b r S o)
    = Cert.WindowMid.out2 (V c main_v5) (V c main_v8) (V c main_v10) (V c main_v11) (((cfg1.win 7).blk t).view.emb (ix4 b r S o))
  rw [hemb]
  refine block_at (V c main_v5) (V c main_v8) (V c main_v10) (V c main_v11) t.val _ _ _ _ _ _ _ ?h0 ?h1 ?h2 ?h3 ?h4 ?h5 ?h6
    b r S o ⟨64 * t.val + r.val, by omega⟩ rfl
  · exact fun b r ch J hJ => curFeat_apply V c t _ b r ch J hJ
  · exact fun b r ch J hJ => nextFeat_apply V c t b r ch J hJ
  · exact fun b r J hJ => curTime_apply V c t _ b r J hJ
  · exact fun b r J hJ => nextTime_apply V c t b r J hJ
  · exact fun b r J hJ => curMask_apply V c t _ b r J hJ
  · exact fun b r J hJ => nextMask_apply V c t b r J hJ
  · exact fun s => samplesBlk_apply V c t s

/-- An index of the result is in point t's block iff each coordinate is in the block's range on its axis. -/
theorem mem_blk1 (t : Fin cfg1.N) (i : S32x2048x9x64.Idx) :
    i ∈ ((cfg1.win 7).blk t).view.set ↔ ∀ a : Fin 4, win1_7.index t a * S32x64x9x64.size a ≤ (i a).val ∧ (i a).val < win1_7.index t a * S32x64x9x64.size a + S32x64x9x64.size a := by
  show i ∈ ((View.whole main_v12).slice (win1_7.rect t)).set ↔ _
  rw [View.set_slice_whole, Rect.mem_set_unit]
  exact Iff.rfl

/-- Event e of the result lies in the block of point e / 64. -/
theorem cover1 (i : S32x2048x9x64.Idx) : ∃ t : Fin cfg1.N, (cfg1.win 7).flush t = true ∧ i ∈ ((cfg1.win 7).blk t).view.set := by
  have hi0 : (i 0).val < 32 := (i 0).isLt
  have hi1 : (i 1).val < 2048 := (i 1).isLt
  have hi2 : (i 2).val < 9 := (i 2).isLt
  have hi3 : (i 3).val < 64 := (i 3).isLt
  have hN : cfg1.N = 32 := N_1
  refine ⟨⟨(i 1).val / 64, by rw [hN]; omega⟩, flush1_7 _, ?_⟩
  rw [mem_blk1]
  obtain ⟨-, e0, e1, e2, e3⟩ := idx1_rest ⟨(i 1).val / 64, by rw [hN]; omega⟩
  intro a
  match a with
  | ⟨0, _⟩ => show win1_7.index _ (0 : Fin 4) * 32 ≤ (i 0).val ∧ (i 0).val < win1_7.index _ (0 : Fin 4) * 32 + 32; rw [e0]; omega
  | ⟨1, _⟩ => show win1_7.index _ (1 : Fin 4) * 64 ≤ (i 1).val ∧ (i 1).val < win1_7.index _ (1 : Fin 4) * 64 + 64; rw [e1]; show (i 1).val / 64 * 64 ≤ (i 1).val ∧ (i 1).val < (i 1).val / 64 * 64 + 64; omega
  | ⟨2, _⟩ => show win1_7.index _ (2 : Fin 4) * 9 ≤ (i 2).val ∧ (i 2).val < win1_7.index _ (2 : Fin 4) * 9 + 9; rw [e2]; omega
  | ⟨3, _⟩ => show win1_7.index _ (3 : Fin 4) * 64 ≤ (i 3).val ∧ (i 3).val < win1_7.index _ (3 : Fin 4) * 64 + 64; rw [e3]; omega

/-- Region 1's result array after its last point: the windowed sums. -/
theorem arr1_final (c : Dev nD) :
    (dat1 V c).arrAt 7 cfg1.N = Cert.WindowMid.out2 (V c main_v5) (V c main_v8) (V c main_v10) (V c main_v11) :=
  (dat1 V c).arrAt_eq_of_cover 7 (Cert.WindowMid.out2 (V c main_v5) (V c main_v8) (V c main_v10) (V c main_v11))
    (fun t _ => flushed1_eq V c t) cover1

end Cert.KernelIdeal.Hand

end
-- ==== Proof.KernelFinal.lean ====
/-
  The program's result buffer is the specification's result of the six arguments: the two kernel regions' whole-array
  results, proved apart, discharge the two hypotheses of the host-side reading.
-/
import proofs.«104800_j57621281243745_2_alg».proof.Proof.KernelValue
import proofs.«104800_j57621281243745_2_alg».proof.Proof.Arr0
import proofs.«104800_j57621281243745_2_alg».proof.Proof.Arr1

noncomputable section

namespace Cert.KernelIdeal.Hand

open Idealize.ShloMosaic Idealize.ShloMosaic.TcCoe
open Idealize.SL Idealize.SL.Sem
open Cert.KernelIdeal Cert.KernelIdeal.Gen

/-- The result buffer after the program. -/
theorem kernel_value (m : (ℓ : Loc nD τ sig) → Buf (Elt Ideal) ℓ) (c : Dev nD) :
    W11 (F := Ideal) m c (Proc.devRef .tc main_v18)
      = Cert.WindowSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  kernel_value_of (fun V c => arr0_final V c) (fun V c => arr1_final V c) m c

end Cert.KernelIdeal.Hand

end
-- ==== Proof.RefPad.lean ====
/-
  The three front paddings of the reference, read at an index: eight rows are laid before the events, holding the
  float zero (times, the two projections) or the zero bit (the mask); row `p` of a padded array is event `p − 8`
  once `8 ≤ p`. The joined projections hold the linear projection in columns `0 … 63` and the bias projection in
  columns `64 … 127`.
-/
import proofs.«104800_j57621281243745_2_alg».proof.Proof.RefRead
import proofs.«104800_j57621281243745_2_alg».proof.Proof.Spec
import Idealize.ShloMosaic.Lib.KernelVsHost

noncomputable section

open scoped BigOperators

namespace Cert.ReferenceIdeal.RefValue

open Cert.ReferenceIdeal Cert.ReferenceIdeal.Gen Cert.ReferenceIdeal.Read Idealize.ShloMosaic Idealize.ShloMosaic.ValueIdx

abbrev TimeArr := (⟨S32x2048, .f32⟩ : BufTy).Contents (Elt Ideal)
abbrev FeatArr := (⟨S32x2048x64, .f32⟩ : BufTy).Contents (Elt Ideal)
abbrev MaskArr := (⟨S32x2048, .i1⟩ : BufTy).Contents (Elt Ideal)
abbrev SampArr := (⟨S8, .f32⟩ : BufTy).Contents (Elt Ideal)
abbrev WArr := (⟨S64x64, .f32⟩ : BufTy).Contents (Elt Ideal)

/-- The integer zero converted to a float is the float zero. -/
theorem sitofp_zero32 : (FloatOps.sitofp (F := Ideal) .f32 (0#32 : BitVec 32) : EReal) = 0 := by
  show ((((0#32 : BitVec 32).toInt : ℤ) : ℝ) : EReal) = 0
  simp

/-- The padded times: zero on the eight rows in front, event `p − 8` after them. -/
theorem padTime_apply (tm : TimeArr) (b : Fin 32) (p : Fin 2056) :
    val_main_v3 (F := Ideal) tm (ix2 b p) = if h : 8 ≤ p.val then tm (ix2 b ⟨p.val - 8, by omega⟩) else 0 := by
  unfold val_main_v3
  by_cases h : 8 ≤ p.val
  · rw [dif_pos h]
    exact pad_apply_of_inside ![0, 8] ![0, 0] ![0, 0] tm _ pads_S32x2048_S32x2056_000_800 h_S_ (ix2 b p)
      (ix2 b ⟨p.val - 8, by omega⟩) (fun a => match a with
        | ⟨0, _⟩ => by show b.val = 0 + b.val * (0 + 1); omega
        | ⟨1, _⟩ => by show p.val = 8 + (p.val - 8) * (0 + 1); omega)
  · rw [dif_neg h, pad_apply_of_not_inside ![0, 8] ![0, 0] ![0, 0] tm _ pads_S32x2048_S32x2056_000_800 h_S_ (ix2 b p)
      (1 : Fin 2) (by show ¬(8 ≤ p.val ∧ _); exact fun hh => h hh.1)]
    exact sitofp_zero32

/-- The padded mask: the zero bit on the eight rows in front, event `p − 8` after them. -/
theorem padMask_apply (mk : MaskArr) (b : Fin 32) (p : Fin 2056) :
    val_main_v5 (F := Ideal) mk (ix2 b p) = if h : 8 ≤ p.val then mk (ix2 b ⟨p.val - 8, by omega⟩) else 0#1 := by
  unfold val_main_v5
  by_cases h : 8 ≤ p.val
  · rw [dif_pos h]
    exact pad_apply_of_inside ![0, 8] ![0, 0] ![0, 0] mk _ pads_S32x2048_S32x2056_000_800 h_S_ (ix2 b p)
      (ix2 b ⟨p.val - 8, by omega⟩) (fun a => match a with
        | ⟨0, _⟩ => by show b.val = 0 + b.val * (0 + 1); omega
        | ⟨1, _⟩ => by show p.val = 8 + (p.val - 8) * (0 + 1); omega)
  · rw [dif_neg h, pad_apply_of_not_inside ![0, 8] ![0, 0] ![0, 0] mk _ pads_S32x2048_S32x2056_000_800 h_S_ (ix2 b p)
      (1 : Fin 2) (by show ¬(8 ≤ p.val ∧ _); exact fun hh => h hh.1)]
    rw [val_main_call2_v2_apply, val_main_call2_v1_apply, val_main_c_1_apply, val_main_call2_v0_apply,
      val_main_call2_c_apply]
    decide

/-- The joined projections, left half: the linear projection. -/
theorem joined_lin (ft : FeatArr) (W bp : WArr) (b : Fin 32) (l : Fin 2048) (o : Fin 64) :
    val_main_v2 (F := Ideal) ft W bp (ix3 b l ⟨o.val, by omega⟩) = Cert.WindowSpec.lin ft W b l o := by
  unfold val_main_v2
  rw [concatenate_pair_apply_left (s₁ := S32x2048x64) (s₂ := S32x2048x64) (2 : Fin 3) _ _
    concatenates_S32x2048x64_S32x2048x64_S32x2048x128_d2
    (ix3 b l (⟨o.val, by omega⟩ : Fin 128)) rfl (ix3 b l o) (fun a => match a with
      | ⟨0, _⟩ => rfl
      | ⟨1, _⟩ => rfl
      | ⟨2, _⟩ => rfl)]
  rw [val_main_v0_apply]
  unfold Cert.WindowSpec.lin
  refine Finset.sum_congr rfl fun c _ => ?_
  have e1 : lidx_main_v0 (ix3 b l o) c = ix3 b l c :=
    funext fun a => Fin.ext (by match a with | ⟨0, _⟩ => rfl | ⟨1, _⟩ => rfl | ⟨2, _⟩ => rfl)
  have e2 : ridx_main_v0 (ix3 b l o) c = ix2 o c :=
    funext fun a => Fin.ext (by match a with | ⟨0, _⟩ => rfl | ⟨1, _⟩ => rfl)
  rw [e1, e2]

/-- The joined projections, right half: the bias projection. -/
theorem joined_bia (ft : FeatArr) (W bp : WArr) (b : Fin 32) (l : Fin 2048) (o : Fin 64) :
    val_main_v2 (F := Ideal) ft W bp (ix3 b l ⟨64 + o.val, by omega⟩) = Cert.WindowSpec.bia ft bp b l o := by
  unfold val_main_v2
  rw [concatenate_pair_apply_right (s₁ := S32x2048x64) (s₂ := S32x2048x64) (2 : Fin 3) _ _
    concatenates_S32x2048x64_S32x2048x64_S32x2048x128_d2
    (ix3 b l (⟨64 + o.val, by omega⟩ : Fin 128)) rfl rfl (ix3 b l o) (fun a => match a with
      | ⟨0, _⟩ => fun _ => rfl
      | ⟨1, _⟩ => fun _ => rfl
      | ⟨2, _⟩ => fun h => absurd rfl h) (by show o.val + 64 = 64 + o.val; omega)]
  rw [val_main_v1_apply]
  unfold Cert.WindowSpec.bia
  refine Finset.sum_congr rfl fun c _ => ?_
  have e1 : lidx_main_v1 (ix3 b l o) c = ix3 b l c :=
    funext fun a => Fin.ext (by match a with | ⟨0, _⟩ => rfl | ⟨1, _⟩ => rfl | ⟨2, _⟩ => rfl)
  have e2 : ridx_main_v1 (ix3 b l o) c = ix2 c o :=
    funext fun a => Fin.ext (by match a with | ⟨0, _⟩ => rfl | ⟨1, _⟩ => rfl)
  rw [e1, e2]

/-- The padded projections: zero on the eight rows in front, event `p − 8` after them. -/
theorem padFeat_apply (ft : FeatArr) (W bp : WArr) (b : Fin 32) (p : Fin 2056) (x : Fin 128) :
    val_main_v4 (F := Ideal) ft W bp (ix3 b p x)
      = if h : 8 ≤ p.val then val_main_v2 (F := Ideal) ft W bp (ix3 b ⟨p.val - 8, by omega⟩ x) else 0 := by
  unfold val_main_v4
  generalize val_main_v2 (F := Ideal) ft W bp = y
  by_cases h : 8 ≤ p.val
  · rw [dif_pos h]
    exact pad_apply_of_inside ![0, 8, 0] ![0, 0, 0] ![0, 0, 0] y _ pads_S32x2048x128_S32x2056x128_000_800_000 h_S_ (ix3 b p x)
      (ix3 b ⟨p.val - 8, by omega⟩ x) (fun a => match a with
        | ⟨0, _⟩ => by show b.val = 0 + b.val * (0 + 1); omega
        | ⟨1, _⟩ => by show p.val = 8 + (p.val - 8) * (0 + 1); omega
        | ⟨2, _⟩ => by show x.val = 0 + x.val * (0 + 1); omega)
  · rw [dif_neg h, pad_apply_of_not_inside ![0, 8, 0] ![0, 0, 0] ![0, 0, 0] y _ pads_S32x2048x128_S32x2056x128_000_800_000 h_S_
      (ix3 b p x) (1 : Fin 3) (by show ¬(8 ≤ p.val ∧ _); exact fun hh => h hh.1)]
    exact sitofp_zero32

end Cert.ReferenceIdeal.RefValue

end
-- ==== Proof.RefLayout.lean ====
/-
  Nine one-row pieces joined along the middle axis, read at an index: row `k` of the joined array is piece `k`, at the
  same outer coordinates. Stated for rank three and rank four, over any element type.
-/
import Idealize.ShloMosaic.Lib.Pipeline.Value
import Idealize.ShloMosaic.Lib.ValueIdx

noncomputable section

namespace Cert.ReferenceIdeal.RefValue

open Idealize.ShloMosaic Idealize.ShloMosaic.ValueIdx

/-- Rank three: `[32, 9, n]` out of nine `[32, 1, n]`. -/
theorem nineRows3_apply {α : Type} {n : Nat} (xs : List ((s : Shape) × (s.Idx → α)))
    (h : Shape.Concatenates (xs.map (·.1)) ⟨3, ![32, 9, n]⟩ 1) (k : Nat) (hk : k < xs.length) (hk9 : k < 9)
    (x₁ : (⟨3, ![32, 1, n]⟩ : Shape).Idx → α) (hxk : xs[k] = ⟨⟨3, ![32, 1, n]⟩, x₁⟩)
    (hpre : (((xs.take k).map (·.1)).map fun s : Shape =>
      if h : s.rank = 3 then s.size ((1 : Fin 3).cast h.symm) else 0).sum = k)
    (b : Fin 32) (l : Fin n) :
    concatenate ⟨3, ![32, 9, n]⟩ 1 xs h (ix3 b ⟨k, hk9⟩ l) = x₁ (ix3 b 0 l) :=
  concatenate_apply_piece (1 : Fin 3) xs h (ix3 b ⟨k, hk9⟩ l) k hk _ x₁ hxk rfl k hpre (ix3 b 0 l)
    (fun a => match a with
      | ⟨0, _⟩ => fun _ => rfl
      | ⟨1, _⟩ => fun hne => absurd rfl hne
      | ⟨2, _⟩ => fun _ => rfl)
    (by show k + 0 = k; omega)

/-- Rank four: `[32, 9, n, c]` out of nine `[32, 1, n, c]`. -/
theorem nineRows4_apply {α : Type} {n c : Nat} (xs : List ((s : Shape) × (s.Idx → α)))
    (h : Shape.Concatenates (xs.map (·.1)) ⟨4, ![32, 9, n, c]⟩ 1) (k : Nat) (hk : k < xs.length) (hk9 : k < 9)
    (x₁ : (⟨4, ![32, 1, n, c]⟩ : Shape).Idx → α) (hxk : xs[k] = ⟨⟨4, ![32, 1, n, c]⟩, x₁⟩)
    (hpre : (((xs.take k).map (·.1)).map fun s : Shape =>
      if h : s.rank = 4 then s.size ((1 : Fin 4).cast h.symm) else 0).sum = k)
    (b : Fin 32) (l : Fin n) (x : Fin c) :
    concatenate ⟨4, ![32, 9, n, c]⟩ 1 xs h (ix4 b ⟨k, hk9⟩ l x) = x₁ (ix4 b 0 l x) :=
  concatenate_apply_piece (1 : Fin 4) xs h (ix4 b ⟨k, hk9⟩ l x) k hk _ x₁ hxk rfl k hpre (ix4 b 0 l x)
    (fun a => match a with
      | ⟨0, _⟩ => fun _ => rfl
      | ⟨1, _⟩ => fun hne => absurd rfl hne
      | ⟨2, _⟩ => fun _ => rfl
      | ⟨3, _⟩ => fun _ => rfl)
    (by show k + 0 = k; omega)

end Cert.ReferenceIdeal.RefValue

end
-- ==== Proof.RefWinTime.lean ====
/-
  The nine shifted views of the padded times, stacked: row `k` of the stack at event `l` is the padded array at
  row `k + l`.
-/
import proofs.«104800_j57621281243745_2_alg».proof.Proof.RefPad
import proofs.«104800_j57621281243745_2_alg».proof.Proof.RefLayout

noncomputable section

open scoped BigOperators

namespace Cert.ReferenceIdeal.RefValue

open Cert.ReferenceIdeal Cert.ReferenceIdeal.Gen Cert.ReferenceIdeal.Read Idealize.ShloMosaic Idealize.ShloMosaic.ValueIdx

/-- Row `k` of the stacked time windows is the padded times shifted by `k`: the row is the `k`-th piece, a one-row
    copy of the padded times cut from row `k` on. -/
theorem winTime_pad (tm : TimeArr) (b : Fin 32) (k : Fin 9) (l : Fin 2048) :
    val_main_v24 (F := Ideal) tm (ix3 b k l) = val_main_v3 (F := Ideal) tm (ix2 b ⟨k.val + l.val, by omega⟩) := by
  unfold val_main_v24
  match k with
  | ⟨0, _⟩ | ⟨1, _⟩ | ⟨2, _⟩ | ⟨3, _⟩ | ⟨4, _⟩ | ⟨5, _⟩ | ⟨6, _⟩ | ⟨7, _⟩ | ⟨8, _⟩ =>
    refine (nineRows3_apply _ _ _ (by simp) _ _ (by rfl) (by rfl) b l).trans ?_
    simp only [val_main_v15_apply, val_main_v16_apply, val_main_v17_apply, val_main_v18_apply, val_main_v19_apply,
      val_main_v20_apply, val_main_v21_apply, val_main_v22_apply, val_main_v23_apply, val_main_v6_apply,
      val_main_v7_apply, val_main_v8_apply, val_main_v9_apply, val_main_v10_apply, val_main_v11_apply,
      val_main_v12_apply, val_main_v13_apply, val_main_v14_apply]
    refine congrArg (val_main_v3 (F := Ideal) tm) (funext fun a => Fin.ext ?_)
    match a with
    | ⟨0, _⟩ => rfl
    | ⟨1, _⟩ => first | rfl | (show l.val = 0 + l.val; omega)

/-- Row `k` of the stacked time windows: event `k + l − 8` when there is one, zero otherwise. -/
theorem winTime_apply (tm : TimeArr) (b : Fin 32) (k : Fin 9) (l : Fin 2048) :
    val_main_v24 (F := Ideal) tm (ix3 b k l)
      = if h : 8 ≤ k.val + l.val then tm (ix2 b ⟨k.val + l.val - 8, by omega⟩) else 0 := by
  rw [winTime_pad, padTime_apply]

end Cert.ReferenceIdeal.RefValue

end
-- ==== Proof.RefWinMask.lean ====
/-
  The nine shifted views of the padded mask, stacked: row `k` of the stack at event `l` is the padded mask at
  row `k + l`.
-/
import proofs.«104800_j57621281243745_2_alg».proof.Proof.RefPad
import proofs.«104800_j57621281243745_2_alg».proof.Proof.RefLayout

noncomputable section

open scoped BigOperators

namespace Cert.ReferenceIdeal.RefValue

open Cert.ReferenceIdeal Cert.ReferenceIdeal.Gen Cert.ReferenceIdeal.Read Idealize.ShloMosaic Idealize.ShloMosaic.ValueIdx

/-- Row `k` of the stacked mask windows is the padded mask shifted by `k`: the row is the `k`-th piece, a one-row
    copy of the padded mask cut from row `k` on. -/
theorem winMask_pad (mk : MaskArr) (b : Fin 32) (k : Fin 9) (l : Fin 2048) :
    val_main_v62 (F := Ideal) mk (ix3 b k l) = val_main_v5 (F := Ideal) mk (ix2 b ⟨k.val + l.val, by omega⟩) := by
  unfold val_main_v62
  match k with
  | ⟨0, _⟩ | ⟨1, _⟩ | ⟨2, _⟩ | ⟨3, _⟩ | ⟨4, _⟩ | ⟨5, _⟩ | ⟨6, _⟩ | ⟨7, _⟩ | ⟨8, _⟩ =>
    refine (nineRows3_apply _ _ _ (by simp) _ _ (by rfl) (by rfl) b l).trans ?_
    simp only [val_main_v53_apply, val_main_v54_apply, val_main_v55_apply, val_main_v56_apply, val_main_v57_apply,
      val_main_v58_apply, val_main_v59_apply, val_main_v60_apply, val_main_v61_apply, val_main_v44_apply,
      val_main_v45_apply, val_main_v46_apply, val_main_v47_apply, val_main_v48_apply, val_main_v49_apply,
      val_main_v50_apply, val_main_v51_apply, val_main_v52_apply]
    refine congrArg (val_main_v5 (F := Ideal) mk) (funext fun a => Fin.ext ?_)
    match a with
    | ⟨0, _⟩ => rfl
    | ⟨1, _⟩ => first | rfl | (show l.val = 0 + l.val; omega)

/-- Row `k` of the stacked mask windows: the bit of event `k + l − 8` when there is one, the zero bit otherwise. -/
theorem winMask_apply (mk : MaskArr) (b : Fin 32) (k : Fin 9) (l : Fin 2048) :
    val_main_v62 (F := Ideal) mk (ix3 b k l)
      = if h : 8 ≤ k.val + l.val then mk (ix2 b ⟨k.val + l.val - 8, by omega⟩) else 0#1 := by
  rw [winMask_pad, padMask_apply]

end Cert.ReferenceIdeal.RefValue

end
-- ==== Proof.RefWinFeat.lean ====
/-
  The nine shifted views of the padded projections, stacked: row `k` of the stack at event `l` is the padded array
  at row `k + l`.
-/
import proofs.«104800_j57621281243745_2_alg».proof.Proof.RefPad
import proofs.«104800_j57621281243745_2_alg».proof.Proof.RefLayout

noncomputable section

open scoped BigOperators

namespace Cert.ReferenceIdeal.RefValue

open Cert.ReferenceIdeal Cert.ReferenceIdeal.Gen Cert.ReferenceIdeal.Read Idealize.ShloMosaic Idealize.ShloMosaic.ValueIdx

/-- Row `k` of the stacked projection windows is the padded projections shifted by `k`: the row is the `k`-th piece,
    a one-row copy of the padded projections cut from row `k` on. -/
theorem winFeat_pad (ft : FeatArr) (W bp : WArr) (b : Fin 32) (k : Fin 9) (l : Fin 2048) (x : Fin 128) :
    val_main_v43 (F := Ideal) ft W bp (ix4 b k l x)
      = val_main_v4 (F := Ideal) ft W bp (ix3 b ⟨k.val + l.val, by omega⟩ x) := by
  unfold val_main_v43
  match k with
  | ⟨0, _⟩ | ⟨1, _⟩ | ⟨2, _⟩ | ⟨3, _⟩ | ⟨4, _⟩ | ⟨5, _⟩ | ⟨6, _⟩ | ⟨7, _⟩ | ⟨8, _⟩ =>
    refine (nineRows4_apply _ _ _ (by simp) _ _ (by rfl) (by rfl) b l x).trans ?_
    simp only [val_main_v34_apply, val_main_v35_apply, val_main_v36_apply, val_main_v37_apply, val_main_v38_apply,
      val_main_v39_apply, val_main_v40_apply, val_main_v41_apply, val_main_v42_apply, val_main_v25_apply,
      val_main_v26_apply, val_main_v27_apply, val_main_v28_apply, val_main_v29_apply, val_main_v30_apply,
      val_main_v31_apply, val_main_v32_apply, val_main_v33_apply]
    refine congrArg (val_main_v4 (F := Ideal) ft W bp) (funext fun a => Fin.ext ?_)
    match a with
    | ⟨0, _⟩ => rfl
    | ⟨1, _⟩ => first | rfl | (show l.val = 0 + l.val; omega)
    | ⟨2, _⟩ => rfl

/-- Row `k` of the stacked projection windows: event `k + l − 8` when there is one, zero otherwise. -/
theorem winFeat_apply (ft : FeatArr) (W bp : WArr) (b : Fin 32) (k : Fin 9) (l : Fin 2048) (x : Fin 128) :
    val_main_v43 (F := Ideal) ft W bp (ix4 b k l x)
      = if h : 8 ≤ k.val + l.val then val_main_v2 (F := Ideal) ft W bp (ix3 b ⟨k.val + l.val - 8, by omega⟩ x) else 0 := by
  rw [winFeat_pad, padFeat_apply]

end Cert.ReferenceIdeal.RefValue

end
-- ==== Proof.RefMasked.lean ====
/-
  The masked window stages of the reference, read at an index. Window row `k` (of nine) at event `l` looks back
  `m = 8 − k` events: its gate is the mask bit of event `l − m` (the zero bit when there is no such event) and the
  mask bit of event `l`; under the gate the time difference, the linear projection and the bias projection of event
  `l − m` are kept, and zero stands everywhere else. Together they make the specification's `term`.
-/
import proofs.«104800_j57621281243745_2_alg».proof.Proof.RefWinTime
import proofs.«104800_j57621281243745_2_alg».proof.Proof.RefWinMask
import proofs.«104800_j57621281243745_2_alg».proof.Proof.RefWinFeat

noncomputable section

open scoped BigOperators

namespace Cert.ReferenceIdeal.RefValue

open Cert.ReferenceIdeal Cert.ReferenceIdeal.Gen Cert.ReferenceIdeal.Read Idealize.ShloMosaic Idealize.ShloMosaic.ValueIdx

open Cert.WindowSpec (back lin bia term linTerm)

/-- The zero the rank-three masked stage falls back to. -/
theorem zero3_apply (i : S32x9x2048.Idx) : val_main_call3_v1 (F := Ideal) i = 0 := by
  rw [val_main_call3_v1_apply, val_main_call3_v0_apply, val_main_cst_apply]
  exact Ideal.ofBits_zero_f32

/-- The zero the rank-four masked stage falls back to. -/
theorem zero4_apply (i : S32x9x2048x128.Idx) : val_main_call4_v2 (F := Ideal) i = 0 := by
  rw [val_main_call4_v2_apply, val_main_call4_v0_apply, val_main_cst_2_apply]
  exact Ideal.ofBits_zero_f32

/-- Row `k + l − 8` of the events is the event `8 − k` steps before `l`. -/
theorem shifted_eq_back (k : Fin 9) (l : Fin 2048) (h : 8 - k.val ≤ l.val) (h' : k.val + l.val - 8 < 2048) :
    (⟨k.val + l.val - 8, h'⟩ : Fin 2048) = back l (8 - k.val) h :=
  Fin.ext (by show k.val + l.val - 8 = l.val - (8 - k.val); omega)

/-- The gate of window row `k` at event `l`: one exactly when event `l − (8 − k)` exists and both mask bits are one. -/
theorem gate_apply (mk : MaskArr) (b : Fin 32) (k : Fin 9) (l : Fin 2048) :
    val_main_v65 (F := Ideal) mk (ix3 b k l)
      = if h : 8 - k.val ≤ l.val then
          (if mk (ix2 b (back l (8 - k.val) h)) = 1#1 ∧ mk (ix2 b l) = 1#1 then 1#1 else 0#1)
        else 0#1 := by
  rw [val_main_v65_apply, winMask_apply, val_main_v64_apply, val_main_v63_apply]
  have e : idx_main_v63 (idx_main_v64 (ix3 b k l)) = ix2 b l :=
    funext fun a => Fin.ext (by match a with | ⟨0, _⟩ => rfl | ⟨1, _⟩ => rfl)
  rw [e]
  by_cases h : 8 - k.val ≤ l.val
  · have h' : 8 ≤ k.val + l.val := by omega
    rw [dif_pos h', dif_pos h, shifted_eq_back k l h]
    generalize mk (ix2 b (back l (8 - k.val) h)) = p
    generalize mk (ix2 b l) = q
    rcases BitVec.eq_zero_or_eq_one p with rfl | rfl <;> rcases BitVec.eq_zero_or_eq_one q with rfl | rfl <;> decide
  · have h' : ¬8 ≤ k.val + l.val := by omega
    rw [dif_neg h', dif_neg h]
    generalize mk (ix2 b l) = q
    rcases BitVec.eq_zero_or_eq_one q with rfl | rfl <;> decide

/-- The masked time difference of window row `k` at event `l`. -/
theorem delta_apply (tm : TimeArr) (mk : MaskArr) (b : Fin 32) (k : Fin 9) (l : Fin 2048) :
    val_main_v69 (F := Ideal) tm mk (ix3 b k l)
      = if h : 8 - k.val ≤ l.val then
          (if mk (ix2 b (back l (8 - k.val) h)) = 1#1 ∧ mk (ix2 b l) = 1#1 then
            tm (ix2 b l) - tm (ix2 b (back l (8 - k.val) h)) else 0)
        else 0 := by
  rw [val_main_v69_apply, gate_apply, zero3_apply]
  by_cases h : 8 - k.val ≤ l.val
  · rw [dif_pos h, dif_pos h]
    by_cases hm : mk (ix2 b (back l (8 - k.val) h)) = 1#1 ∧ mk (ix2 b l) = 1#1
    · rw [if_pos hm, if_pos hm, select_one, val_main_v68_apply, val_main_v67_apply, val_main_v66_apply, winTime_apply,
        dif_pos (by omega : 8 ≤ k.val + l.val), shifted_eq_back k l h]
      have e : idx_main_v66 (idx_main_v67 (ix3 b k l)) = ix2 b l :=
        funext fun a => Fin.ext (by match a with | ⟨0, _⟩ => rfl | ⟨1, _⟩ => rfl)
      rw [e] <;> rfl
    · rw [if_neg hm, if_neg hm, select_zero]
  · rw [dif_neg h, dif_neg h, select_zero]

/-- The masked joined projections of window row `k` at event `l`, column `x` of 128. -/
theorem maskedFeat_apply (ft : FeatArr) (mk : MaskArr) (W bp : WArr) (b : Fin 32) (k : Fin 9) (l : Fin 2048)
    (x : Fin 128) :
    val_main_v71 (F := Ideal) ft mk W bp (ix4 b k l x)
      = if h : 8 - k.val ≤ l.val then
          (if mk (ix2 b (back l (8 - k.val) h)) = 1#1 ∧ mk (ix2 b l) = 1#1 then
            val_main_v2 (F := Ideal) ft W bp (ix3 b (back l (8 - k.val) h) x) else 0)
        else 0 := by
  rw [val_main_v71_apply, val_main_call4_v1_apply, val_main_v70_apply, zero4_apply]
  have e : idx_main_v70 (idx_main_call4_v1 (ix4 b k l x)) = ix3 b k l :=
    funext fun a => Fin.ext (by match a with | ⟨0, _⟩ => rfl | ⟨1, _⟩ => rfl | ⟨2, _⟩ => rfl)
  rw [e, gate_apply]
  by_cases h : 8 - k.val ≤ l.val
  · rw [dif_pos h, dif_pos h]
    by_cases hm : mk (ix2 b (back l (8 - k.val) h)) = 1#1 ∧ mk (ix2 b l) = 1#1
    · rw [if_pos hm, if_pos hm, select_one, winFeat_apply, dif_pos (by omega : 8 ≤ k.val + l.val),
        shifted_eq_back k l h]
    · rw [if_neg hm, if_neg hm, select_zero]
  · rw [dif_neg h, dif_neg h, select_zero]

/-- The masked linear projection of window row `k` at event `l`: the specification's `linTerm`. -/
theorem maskedLin_apply (ft : FeatArr) (mk : MaskArr) (W bp : WArr) (b : Fin 32) (k : Fin 9) (l : Fin 2048)
    (o : Fin 64) :
    val_main_v72 (F := Ideal) ft mk W bp (ix4 b k l o) = linTerm ft mk W b l (8 - k.val) o := by
  rw [val_main_v72_apply]
  have e : idx_main_v72 (ix4 b k l o) = ix4 b k l (⟨o.val, by omega⟩ : Fin 128) :=
    funext fun a => Fin.ext (by match a with | ⟨0, _⟩ => rfl | ⟨1, _⟩ => rfl | ⟨2, _⟩ => rfl | ⟨3, _⟩ => rfl)
  rw [e, maskedFeat_apply]
  unfold linTerm
  by_cases h : 8 - k.val ≤ l.val
  · rw [dif_pos h, dif_pos h, joined_lin]
  · rw [dif_neg h, dif_neg h]

/-- The masked bias projection of window row `k` at event `l`. -/
theorem maskedBia_apply (ft : FeatArr) (mk : MaskArr) (W bp : WArr) (b : Fin 32) (k : Fin 9) (l : Fin 2048)
    (o : Fin 64) :
    val_main_v73 (F := Ideal) ft mk W bp (ix4 b k l o)
      = if h : 8 - k.val ≤ l.val then
          (if mk (ix2 b (back l (8 - k.val) h)) = 1#1 ∧ mk (ix2 b l) = 1#1 then
            bia ft bp b (back l (8 - k.val) h) o else 0)
        else 0 := by
  rw [val_main_v73_apply]
  have e : idx_main_v73 (ix4 b k l o) = ix4 b k l (⟨64 + o.val, by omega⟩ : Fin 128) :=
    funext fun a => Fin.ext (by match a with | ⟨0, _⟩ => rfl | ⟨1, _⟩ => rfl | ⟨2, _⟩ => rfl | ⟨3, _⟩ => rfl)
  rw [e, maskedFeat_apply]
  by_cases h : 8 - k.val ≤ l.val
  · rw [dif_pos h, dif_pos h, joined_bia]
  · rw [dif_neg h, dif_neg h]

/-- Time difference times linear projection plus bias projection, all three masked: the specification's `term`. -/
theorem windowTerm (tm : TimeArr) (ft : FeatArr) (mk : MaskArr) (W bp : WArr) (b : Fin 32) (k : Fin 9)
    (l : Fin 2048) (o : Fin 64) :
    val_main_v69 (F := Ideal) tm mk (ix3 b k l) * val_main_v72 (F := Ideal) ft mk W bp (ix4 b k l o)
        + val_main_v73 (F := Ideal) ft mk W bp (ix4 b k l o)
      = term tm ft mk W bp b l (8 - k.val) o := by
  rw [delta_apply, maskedLin_apply, maskedBia_apply]
  unfold term linTerm
  by_cases h : 8 - k.val ≤ l.val
  · simp only [dif_pos h]
    by_cases hm : mk (ix2 b (back l (8 - k.val) h)) = 1#1 ∧ mk (ix2 b l) = 1#1
    · simp only [if_pos hm]
    · simp only [if_neg hm, mul_zero, add_zero]
  · simp only [dif_neg h, mul_zero, add_zero]

end Cert.ReferenceIdeal.RefValue

end
-- ==== Proof.RefReal.lean ====
/-
  The reference's first sum over the window: rows `k = 0 … 7` of the nine look back `8 − k = 8 … 1` events, which are
  the specification's eight events strictly before `l`, met in the opposite order.
-/
import proofs.«104800_j57621281243745_2_alg».proof.Proof.RefMasked

noncomputable section

open scoped BigOperators

namespace Cert.ReferenceIdeal.RefValue

open Cert.ReferenceIdeal Cert.ReferenceIdeal.Gen Cert.ReferenceIdeal.Read Idealize.ShloMosaic Idealize.ShloMosaic.ValueIdx

open Cert.WindowSpec (term real)

/-- Row `k` of the first eight at event `l`: the contribution of the event `8 − k` steps back. -/
theorem realSummand (tm : TimeArr) (ft : FeatArr) (mk : MaskArr) (W bp : WArr) (b : Fin 32) (l : Fin 2048)
    (o : Fin 64) (k : Fin 8) :
    val_main_v82 (F := Ideal) tm ft mk W bp (idx_main_v83 (ix3 b l o) k) = term tm ft mk W bp b l (8 - k.val) o := by
  rw [val_main_v82_apply, val_main_v80_apply, val_main_v79_apply, val_main_v77_apply, val_main_v76_apply,
    val_main_v78_apply, val_main_v81_apply]
  have e1 : idx_main_v76 (idx_main_v77 (idx_main_v79 (idx_main_v83 (ix3 b l o) k)))
      = ix3 b (⟨k.val, by omega⟩ : Fin 9) l :=
    funext fun a => Fin.ext (by match a with | ⟨0, _⟩ => rfl | ⟨1, _⟩ => rfl | ⟨2, _⟩ => rfl)
  have e2 : idx_main_v78 (idx_main_v83 (ix3 b l o) k) = ix4 b (⟨k.val, by omega⟩ : Fin 9) l o :=
    funext fun a => Fin.ext (by match a with | ⟨0, _⟩ => rfl | ⟨1, _⟩ => rfl | ⟨2, _⟩ => rfl | ⟨3, _⟩ => rfl)
  have e3 : idx_main_v81 (idx_main_v83 (ix3 b l o) k) = ix4 b (⟨k.val, by omega⟩ : Fin 9) l o :=
    funext fun a => Fin.ext (by match a with | ⟨0, _⟩ => rfl | ⟨1, _⟩ => rfl | ⟨2, _⟩ => rfl | ⟨3, _⟩ => rfl)
  rw [e1, e2, e3]
  exact windowTerm tm ft mk W bp b (⟨k.val, by omega⟩ : Fin 9) l o

/-- The reference's first sum is the specification's `real`. -/
theorem real_apply (tm : TimeArr) (ft : FeatArr) (mk : MaskArr) (W bp : WArr) (b : Fin 32) (l : Fin 2048)
    (o : Fin 64) :
    val_main_v83 (F := Ideal) tm ft mk W bp (ix3 b l o) = real tm ft mk W bp b l o := by
  rw [val_main_v83_apply, val_main_cst_3_apply,
    show (FloatOps.ofBits (F := Ideal) .f32 0x00000000#32 : EReal) = 0 from Ideal.ofBits_zero_f32, zero_add]
  unfold real
  rw [← Equiv.sum_comp Fin.revPerm (fun j : Fin 8 => term tm ft mk W bp b l (j.val + 1) o)]
  refine Finset.sum_congr rfl fun k _ => ?_
  rw [realSummand]
  have hk : 8 - k.val = (Fin.revPerm k).val + 1 := by
    have hk8 : k.val < 8 := k.isLt
    rw [Fin.revPerm_apply, Fin.val_rev]; omega
  rw [hk]

end Cert.ReferenceIdeal.RefValue

end
-- ==== Proof.RefSim.lean ====
/-
  The reference's second family, over events `l = 0 … 2046`: rows `k = 1 … 8` of the nine look back `8 − k = 7 … 0`
  events, which are event `l` and the seven before it, met in the opposite order. Their terms sum to the
  specification's `sim`, their linear projections to `sumLin`; row 7 of the masked time differences at event `l + 1`
  is the gap `udt`; and sample `s` of the gap adds `(udt · u s) · sumLin` to `sim`.
-/
import proofs.«104800_j57621281243745_2_alg».proof.Proof.RefMasked

noncomputable section

open scoped BigOperators

namespace Cert.ReferenceIdeal.RefValue

open Cert.ReferenceIdeal Cert.ReferenceIdeal.Gen Cert.ReferenceIdeal.Read Idealize.ShloMosaic Idealize.ShloMosaic.ValueIdx

open Cert.WindowSpec (back term linTerm sim sumLin udt)

/-- Event `l` of the first 2047, as one of the 2048. -/
abbrev ev (l : Fin 2047) : Fin 2048 := ⟨l.val, by omega⟩

/-- Row `k + 1` at event `l`: the contribution of the event `7 − k` steps back. -/
theorem simSummand (tm : TimeArr) (ft : FeatArr) (mk : MaskArr) (W bp : WArr) (b : Fin 32) (l : Fin 2047)
    (o : Fin 64) (k : Fin 8) :
    val_main_v90 (F := Ideal) tm ft mk W bp (idx_main_v91 (ix3 b l o) k)
      = term tm ft mk W bp b (ev l) (8 - (1 + k.val)) o := by
  rw [val_main_v90_apply, val_main_v88_apply, val_main_v87_apply, val_main_v85_apply, val_main_v84_apply,
    val_main_v86_apply, val_main_v89_apply]
  have e1 : idx_main_v84 (idx_main_v85 (idx_main_v87 (idx_main_v91 (ix3 b l o) k)))
      = ix3 b (⟨1 + k.val, by omega⟩ : Fin 9) (ev l) :=
    funext fun a => Fin.ext (by match a with | ⟨0, _⟩ => rfl | ⟨1, _⟩ => rfl | ⟨2, _⟩ => rfl)
  have e2 : idx_main_v86 (idx_main_v91 (ix3 b l o) k) = ix4 b (⟨1 + k.val, by omega⟩ : Fin 9) (ev l) o :=
    funext fun a => Fin.ext (by match a with | ⟨0, _⟩ => rfl | ⟨1, _⟩ => rfl | ⟨2, _⟩ => rfl | ⟨3, _⟩ => rfl)
  have e3 : idx_main_v89 (idx_main_v91 (ix3 b l o) k) = ix4 b (⟨1 + k.val, by omega⟩ : Fin 9) (ev l) o :=
    funext fun a => Fin.ext (by match a with | ⟨0, _⟩ => rfl | ⟨1, _⟩ => rfl | ⟨2, _⟩ => rfl | ⟨3, _⟩ => rfl)
  rw [e1, e2, e3]
  exact windowTerm tm ft mk W bp b (⟨1 + k.val, by omega⟩ : Fin 9) (ev l) o

/-- The reference's second sum is the specification's `sim`. -/
theorem sim_apply (tm : TimeArr) (ft : FeatArr) (mk : MaskArr) (W bp : WArr) (b : Fin 32) (l : Fin 2047)
    (o : Fin 64) :
    val_main_v91 (F := Ideal) tm ft mk W bp (ix3 b l o) = sim tm ft mk W bp b (ev l) o := by
  rw [val_main_v91_apply, val_main_cst_4_apply,
    show (FloatOps.ofBits (F := Ideal) .f32 0x00000000#32 : EReal) = 0 from Ideal.ofBits_zero_f32, zero_add]
  unfold sim
  rw [← Equiv.sum_comp Fin.revPerm (fun j : Fin 8 => term tm ft mk W bp b (ev l) j.val o)]
  refine Finset.sum_congr rfl fun k _ => ?_
  rw [simSummand]
  have hk : 8 - (1 + k.val) = (Fin.revPerm k).val := by
    have hk8 : k.val < 8 := k.isLt
    rw [Fin.revPerm_apply, Fin.val_rev]; omega
  rw [hk]

/-- Row `k + 1` of the masked linear projections at event `l`. -/
theorem sumLinSummand (ft : FeatArr) (mk : MaskArr) (W bp : WArr) (b : Fin 32) (l : Fin 2047) (o : Fin 64)
    (k : Fin 8) :
    val_main_v92 (F := Ideal) ft mk W bp (idx_main_v93 (ix3 b l o) k)
      = linTerm ft mk W b (ev l) (8 - (1 + k.val)) o := by
  rw [val_main_v92_apply]
  have e : idx_main_v92 (idx_main_v93 (ix3 b l o) k) = ix4 b (⟨1 + k.val, by omega⟩ : Fin 9) (ev l) o :=
    funext fun a => Fin.ext (by match a with | ⟨0, _⟩ => rfl | ⟨1, _⟩ => rfl | ⟨2, _⟩ => rfl | ⟨3, _⟩ => rfl)
  rw [e]
  exact maskedLin_apply ft mk W bp b (⟨1 + k.val, by omega⟩ : Fin 9) (ev l) o

/-- The reference's third sum is the specification's `sumLin`. -/
theorem sumLin_apply (ft : FeatArr) (mk : MaskArr) (W bp : WArr) (b : Fin 32) (l : Fin 2047) (o : Fin 64) :
    val_main_v93 (F := Ideal) ft mk W bp (ix3 b l o) = sumLin ft mk W b (ev l) o := by
  rw [val_main_v93_apply, val_main_cst_5_apply,
    show (FloatOps.ofBits (F := Ideal) .f32 0x00000000#32 : EReal) = 0 from Ideal.ofBits_zero_f32, zero_add]
  unfold sumLin
  rw [← Equiv.sum_comp Fin.revPerm (fun j : Fin 8 => linTerm ft mk W b (ev l) j.val o)]
  refine Finset.sum_congr rfl fun k _ => ?_
  rw [sumLinSummand]
  have hk : 8 - (1 + k.val) = (Fin.revPerm k).val := by
    have hk8 : k.val < 8 := k.isLt
    rw [Fin.revPerm_apply, Fin.val_rev]; omega
  rw [hk]

/-- Row 7 of the masked time differences at event `l + 1` is the gap from event `l` to the next. -/
theorem udt_apply (tm : TimeArr) (mk : MaskArr) (b : Fin 32) (l : Fin 2047) :
    val_main_v75 (F := Ideal) tm mk (ix2 b l) = udt tm mk b (ev l) := by
  have hl : l.val < 2047 := l.isLt
  have hb : b.val < 32 := b.isLt
  rw [val_main_v75_apply, val_main_v74_apply]
  have e : idx_main_v74 (idx_main_v75 (ix2 b l))
      = ix3 b (⟨7, by omega⟩ : Fin 9) (⟨1 + l.val, by omega⟩ : Fin 2048) :=
    funext fun a => Fin.ext (by
      match a with
      | ⟨0, _⟩ => show (b.val * 2047 + l.val) / 2047 = b.val; omega
      | ⟨1, _⟩ => rfl
      | ⟨2, _⟩ => show 1 + (b.val * 2047 + l.val) % 2047 = 1 + l.val; omega)
  rw [e, delta_apply]
  unfold udt
  have h1 : 8 - (⟨7, by omega⟩ : Fin 9).val ≤ (⟨1 + l.val, by omega⟩ : Fin 2048).val := by
    show 8 - 7 ≤ 1 + l.val; omega
  have h2 : (ev l).val + 1 < 2048 := by show l.val + 1 < 2048; omega
  rw [dif_pos h1, dif_pos h2]
  have eb : back (⟨1 + l.val, by omega⟩ : Fin 2048) (8 - (⟨7, by omega⟩ : Fin 9).val) h1 = ev l :=
    Fin.ext (by show 1 + l.val - (8 - 7) = l.val; omega)
  have es : (⟨1 + l.val, by omega⟩ : Fin 2048) = ⟨(ev l).val + 1, h2⟩ :=
    Fin.ext (by show 1 + l.val = l.val + 1; omega)
  rw [eb, es]

/-- Sample `s` of the gap after event `l`: `sim + (udt · u s) · sumLin`. -/
theorem simCell_apply (tm : TimeArr) (ft : FeatArr) (mk : MaskArr) (us : SampArr) (W bp : WArr) (b : Fin 32)
    (l : Fin 2047) (s : Fin 8) (o : Fin 64) :
    val_main_v105 (F := Ideal) tm ft mk us W bp (ix4 b l s o)
      = sim tm ft mk W bp b (ev l) o + (udt tm mk b (ev l) * us (ix1 s)) * sumLin ft mk W b (ev l) o := by
  rw [val_main_v105_apply, val_main_v104_apply, val_main_v94_apply, val_main_v103_apply, val_main_v101_apply,
    val_main_v99_apply, val_main_v97_apply, val_main_v95_apply, val_main_v98_apply, val_main_v96_apply,
    val_main_v102_apply, val_main_v100_apply]
  have e1 : idx_main_v94 (idx_main_v104 (ix4 b l s o)) = ix3 b l o :=
    funext fun a => Fin.ext (by match a with | ⟨0, _⟩ => rfl | ⟨1, _⟩ => rfl | ⟨2, _⟩ => rfl)
  have e2 : idx_main_v95 (idx_main_v97 (idx_main_v101 (ix4 b l s o))) = ix2 b l :=
    funext fun a => Fin.ext (by match a with | ⟨0, _⟩ => rfl | ⟨1, _⟩ => rfl)
  have e3 : idx_main_v96 (idx_main_v98 (idx_main_v101 (ix4 b l s o))) = ix1 s :=
    funext fun a => Fin.ext (by match a with | ⟨0, _⟩ => rfl)
  have e4 : idx_main_v100 (idx_main_v102 (ix4 b l s o)) = ix3 b l o :=
    funext fun a => Fin.ext (by match a with | ⟨0, _⟩ => rfl | ⟨1, _⟩ => rfl | ⟨2, _⟩ => rfl)
  rw [e1, e2, e3, e4, sim_apply, udt_apply, sumLin_apply] <;> rfl

end Cert.ReferenceIdeal.RefValue

end
-- ==== Proof.RefValue.lean ====
/-
  The reference program's result, read index by index, is the windowed continuous convolution of Spec.lean: the last
  row is the last event's `real`; row `r < 18423` is row `r % 9` of event `r / 9`'s nine, the `real` value first and the
  eight samples of the gap after it.
-/
import proofs.«104800_j57621281243745_2_alg».proof.Proof.RefReal
import proofs.«104800_j57621281243745_2_alg».proof.Proof.RefSim

noncomputable section

open scoped BigOperators

namespace Cert.ReferenceIdeal.RefValue

open Cert.ReferenceIdeal Cert.ReferenceIdeal.Gen Cert.ReferenceIdeal.Read Idealize.ShloMosaic Idealize.ShloMosaic.ValueIdx

open Cert.WindowSpec (real cell resultAt result)

/-- Row `s` of event `l`'s nine. -/
theorem nine_apply (tm : TimeArr) (ft : FeatArr) (mk : MaskArr) (us : SampArr) (W bp : WArr) (b : Fin 32)
    (l : Fin 2047) (s : Fin 9) (o : Fin 64) :
    val_main_v109 (F := Ideal) tm ft mk us W bp (ix4 b l s o) = cell tm ft mk us W bp b (ev l) s o := by
  unfold val_main_v109 cell
  by_cases h : s.val = 0
  · rw [dif_pos h]
    rw [concatenate_pair_apply_left (s₁ := S32x2047x1x64) (s₂ := S32x2047x8x64) (2 : Fin 4) _ _
      concatenates_S32x2047x1x64_S32x2047x8x64_S32x2047x9x64_d2
      (ix4 b l s o) rfl (ix4 b l (0 : Fin 1) o) (fun a => match a with
        | ⟨0, _⟩ => rfl
        | ⟨1, _⟩ => rfl
        | ⟨2, _⟩ => h.symm
        | ⟨3, _⟩ => rfl)]
    rw [val_main_v107_apply, val_main_v106_apply]
    have e : idx_main_v106 (idx_main_v107 (ix4 b l (0 : Fin 1) o)) = ix3 b (ev l) o :=
      funext fun a => Fin.ext (by match a with | ⟨0, _⟩ => rfl | ⟨1, _⟩ => rfl | ⟨2, _⟩ => rfl)
    rw [e, real_apply]
  · rw [dif_neg h]
    have hs : s.val < 9 := s.isLt
    rw [concatenate_pair_apply_right (s₁ := S32x2047x1x64) (s₂ := S32x2047x8x64) (2 : Fin 4) _ _
      concatenates_S32x2047x1x64_S32x2047x8x64_S32x2047x9x64_d2
      (ix4 b l s o) rfl rfl (ix4 b l (⟨s.val - 1, by omega⟩ : Fin 8) o) (fun a => match a with
        | ⟨0, _⟩ => fun _ => rfl
        | ⟨1, _⟩ => fun _ => rfl
        | ⟨2, _⟩ => fun hne => absurd rfl hne
        | ⟨3, _⟩ => fun _ => rfl) (by show s.val - 1 + 1 = s.val; omega)]
    exact simCell_apply tm ft mk us W bp b l ⟨s.val - 1, by omega⟩ o

/-- Row `r` of the first `18423`: row `r % 9` of event `r / 9`'s nine. -/
theorem flat_apply (tm : TimeArr) (ft : FeatArr) (mk : MaskArr) (us : SampArr) (W bp : WArr) (b : Fin 32)
    (r : Fin 18423) (o : Fin 64) :
    val_main_v110 (F := Ideal) tm ft mk us W bp (ix3 b r o)
      = cell tm ft mk us W bp b ⟨r.val / 9, by omega⟩ ⟨r.val % 9, by omega⟩ o := by
  have hr : r.val < 18423 := r.isLt
  have hb : b.val < 32 := b.isLt
  have ho : o.val < 64 := o.isLt
  rw [val_main_v110_apply]
  have e : idx_main_v110 (ix3 b r o)
      = ix4 b (⟨r.val / 9, by omega⟩ : Fin 2047) (⟨r.val % 9, by omega⟩ : Fin 9) o :=
    funext fun a => Fin.ext (by
      match a with
      | ⟨0, _⟩ => show ((b.val * 18423 + r.val) * 64 + o.val) / 1179072 = b.val; omega
      | ⟨1, _⟩ => show ((b.val * 18423 + r.val) * 64 + o.val) / 576 % 2047 = r.val / 9; omega
      | ⟨2, _⟩ => show ((b.val * 18423 + r.val) * 64 + o.val) / 64 % 9 = r.val % 9; omega
      | ⟨3, _⟩ => show ((b.val * 18423 + r.val) * 64 + o.val) % 64 = o.val; omega)
  rw [e, nine_apply]

/-- The reference's result is the specification's. -/
theorem ref_eq (tm : (⟨S32x2048, .f32⟩ : BufTy).Contents (Elt Ideal)) (ft : (⟨S32x2048x64, .f32⟩ : BufTy).Contents (Elt Ideal))
    (mk : (⟨S32x2048, .i1⟩ : BufTy).Contents (Elt Ideal)) (us : (⟨S8, .f32⟩ : BufTy).Contents (Elt Ideal))
    (W bp : (⟨S64x64, .f32⟩ : BufTy).Contents (Elt Ideal)) :
    Cert.ReferenceIdeal.Read.val_main_v111 (F := Ideal) tm ft mk us W bp = Cert.WindowSpec.result tm ft mk us W bp := by
  funext i
  obtain ⟨b, r, o, rfl⟩ : ∃ (b : Fin 32) (r : Fin 18424) (o : Fin 64), i = ix3 b r o := ⟨i 0, i 1, i 2, eq_ix3 i⟩
  rw [Cert.WindowSpec.result_ix3]
  unfold resultAt val_main_v111
  have hr : r.val < 18424 := r.isLt
  by_cases h : r.val < 18423
  · rw [dif_pos h]
    rw [concatenate_pair_apply_left (s₁ := S32x18423x64) (s₂ := S32x1x64) (1 : Fin 3) _ _
      concatenates_S32x18423x64_S32x1x64_S32x18424x64_d1
      (ix3 b r o) rfl (ix3 b (⟨r.val, h⟩ : Fin 18423) o) (fun a => match a with
        | ⟨0, _⟩ => rfl
        | ⟨1, _⟩ => rfl
        | ⟨2, _⟩ => rfl)]
    exact flat_apply tm ft mk us W bp b ⟨r.val, h⟩ o
  · rw [dif_neg h]
    rw [concatenate_pair_apply_right (s₁ := S32x18423x64) (s₂ := S32x1x64) (1 : Fin 3) _ _
      concatenates_S32x18423x64_S32x1x64_S32x18424x64_d1
      (ix3 b r o) rfl rfl (ix3 b (0 : Fin 1) o) (fun a => match a with
        | ⟨0, _⟩ => fun _ => rfl
        | ⟨1, _⟩ => fun hne => absurd rfl hne
        | ⟨2, _⟩ => fun _ => rfl) (by show 0 + 18423 = r.val; omega)]
    rw [val_main_v108_apply]
    have e : idx_main_v108 (ix3 b (0 : Fin 1) o) = ix3 b (⟨2047, by omega⟩ : Fin 2048) o :=
      funext fun a => Fin.ext (by match a with | ⟨0, _⟩ => rfl | ⟨1, _⟩ => rfl | ⟨2, _⟩ => rfl)
    rw [e, real_apply]

end Cert.ReferenceIdeal.RefValue

end
-- ==== Proof.RefAfter0.lean ====
/-
  The reference program's host operations run forward, one at a time, a sublist of ten at a time.

  Each operation rewrites the buffer it writes and leaves every other buffer alone. After each operation the proof
  keeps, for exactly the buffers a later operation still reads, the equation "this buffer holds its stage" — the stage
  `val_<buffer>` being the operation's function applied to the stages of its operands, so one unfolding of the stage's
  definition and the equations of the operands close each step. The composed, tree-expanded term of the arguments is
  never formed.
  This module: operations 0 … 39.
-/
import proofs.«104800_j57621281243745_2_alg».proof.Proof.RefOps
import proofs.«104800_j57621281243745_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 0 in
/-- Operations 0 … 9: from contents at which the buffers still read hold their stages, to contents at which the
    buffers read later hold theirs. -/
theorem stages0 (V0 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f0_main_arg0 : V0 (Proc.devRef .tc main_arg0) = x0)
    (f0_main_arg1 : V0 (Proc.devRef .tc main_arg1) = x1)
    (f0_main_arg2 : V0 (Proc.devRef .tc main_arg2) = x2)
    (f0_main_arg3 : V0 (Proc.devRef .tc main_arg3) = x3)
    (f0_main_arg4 : V0 (Proc.devRef .tc main_arg4) = x4)
    (f0_main_arg5 : V0 (Proc.devRef .tc main_arg5) = x5) :
    after (ops0 (F := F)) V0 (Proc.devRef .tc main_v3) = Read.val_main_v3 (F := F) x0
    ∧ after (ops0 (F := F)) V0 (Proc.devRef .tc main_v4) = Read.val_main_v4 (F := F) x1 x4 x5
    ∧ after (ops0 (F := F)) V0 (Proc.devRef .tc main_c_1) = Read.val_main_c_1 (F := F)
    ∧ after (ops0 (F := F)) V0 (Proc.devRef .tc main_arg0) = x0
    ∧ after (ops0 (F := F)) V0 (Proc.devRef .tc main_arg2) = x2
    ∧ after (ops0 (F := F)) V0 (Proc.devRef .tc main_arg3) = x3 := by
  unfold ops0
  -- operation 0: main_v0
  rw [after_cons]
  generalize hV : HloOp.result _ V0 = V1
  have f1_main_v0 : V1 (Proc.devRef .tc main_v0) = Read.val_main_v0 (F := F) x1 x4 := by
    rw [← hV]; refine (binary_result _ _ _ _ _ _ _ _).trans ?_; unfold Read.val_main_v0
    rw [← f0_main_arg1, ← f0_main_arg4]
    all_goals rfl
  have f1_main_arg0 : V1 (Proc.devRef .tc main_arg0) = x0 := by
    rw [← hV]; simp (disch := decide) only [nullary_result_ne', unary_result_ne', binary_result_ne', ternary_result_ne', reshape_result_ne', nary_result_ne']; exact f0_main_arg0
  have f1_main_arg1 : V1 (Proc.devRef .tc main_arg1) = x1 := by
    rw [← hV]; simp (disch := decide) only [nullary_result_ne', unary_result_ne', binary_result_ne', ternary_result_ne', reshape_result_ne', nary_result_ne']; exact f0_main_arg1
  have f1_main_arg2 : V1 (Proc.devRef .tc main_arg2) = x2 := by
    rw [← hV]; simp (disch := decide) only [nullary_result_ne', unary_result_ne', binary_result_ne', ternary_result_ne', reshape_result_ne', nary_result_ne']; exact f0_main_arg2
  have f1_main_arg3 : V1 (Proc.devRef .tc main_arg3) = x3 := by
    rw [← hV]; simp (disch := decide) only [nullary_result_ne', unary_result_ne', binary_result_ne', ternary_result_ne', reshape_result_ne', nary_result_ne']; exact f0_main_arg3
  have f1_main_arg5 : V1 (Proc.devRef .tc main_arg5) = x5 := by
    rw [← hV]; simp (disch := decide) only [nullary_result_ne', unary_result_ne', binary_result_ne', ternary_result_ne', reshape_result_ne', nary_result_ne']; exact f0_main_arg5
  clear hV f0_main_arg0 f0_main_arg1 f0_main_arg2 f0_main_arg3 f0_main_arg4 f0_main_arg5 V0
  -- operation 1: main_v1
  rw [after_cons]
  generalize hV : HloOp.result _ V1 = V2
  have f2_main_v1 : V2 (Proc.devRef .tc main_v1) = Read.val_main_v1 (F := F) x1 x5 := by
    rw [← hV]; refine (binary_result _ _ _ _ _ _ _ _).trans ?_; unfold Read.val_main_v1
    rw [← f1_main_arg1, ← f1_main_arg5]
    all_goals rfl
  have f2_main_v0 : V2 (Proc.devRef .tc main_v0) = Read.val_main_v0 (F := F) x1 x4 := by
    rw [← hV]; simp (disch := decide) only [nullary_result_ne', unary_result_ne', binary_result_ne', ternary_result_ne', reshape_result_ne', nary_result_ne']; exact f1_main_v0
  have f2_main_arg0 : V2 (Proc.devRef .tc main_arg0) = x0 := by
    rw [← hV]; simp (disch := decide) only [nullary_result_ne', unary_result_ne', binary_result_ne', ternary_result_ne', reshape_result_ne', nary_result_ne']; exact f1_main_arg0
  have f2_main_arg2 : V2 (Proc.devRef .tc main_arg2) = x2 := by
    rw [← hV]; simp (disch := decide) only [nullary_result_ne', unary_result_ne', binary_result_ne', ternary_result_ne', reshape_result_ne', nary_result_ne']; exact f1_main_arg2
  have f2_main_arg3 : V2 (Proc.devRef .tc main_arg3) = x3 := by
    rw [← hV]; simp (disch := decide) only [nullary_result_ne', unary_result_ne', binary_result_ne', ternary_result_ne', reshape_result_ne', nary_result_ne']; exact f1_main_arg3
  clear hV f1_main_v0 f1_main_arg0 f1_main_arg1 f1_main_arg2 f1_main_arg3 f1_main_arg5 V1
  -- operation 2: main_v2
  rw [after_cons]
  generalize hV : HloOp.result _ V2 = V3
  have f3_main_v2 : V3 (Proc.devRef .tc main_v2) = Read.val_main_v2 (F := F) x1 x4 x5 := by
    rw [← hV]; refine (binary_result _ _ _ _ _ _ _ _).trans ?_; unfold Read.val_main_v2
    rw [← f2_main_v0, ← f2_main_v1]
    all_goals rfl
  have f3_main_arg0 : V3 (Proc.devRef .tc main_arg0) = x0 := by
    rw [← hV]; simp (disch := decide) only [nullary_result_ne', unary_result_ne', binary_result_ne', ternary_result_ne', reshape_result_ne', nary_result_ne']; exact f2_main_arg0
  have f3_main_arg2 : V3 (Proc.devRef .tc main_arg2) = x2 := by
    rw [← hV]; simp (disch := decide) only [nullary_result_ne', unary_result_ne', binary_result_ne', ternary_result_ne', reshape_result_ne', nary_result_ne']; exact f2_main_arg2
  have f3_main_arg3 : V3 (Proc.devRef .tc main_arg3) = x3 := by
    rw [← hV]; simp (disch := decide) only [nullary_result_ne', unary_result_ne', binary_result_ne', ternary_result_ne', reshape_result_ne', nary_result_ne']; exact f2_main_arg3
  clear hV f2_main_v0 f2_main_v1 f2_main_arg0 f2_main_arg2 f2_main_arg3 V2
  -- operation 3: main_c
  rw [after_cons]
  generalize hV : HloOp.result _ V3 = V4
  have f4_main_c : V4 (Proc.devRef .tc main_c) = Read.val_main_c (F := F) := by
    rw [← hV]; refine (nullary_result _ _ _ _).trans ?_; unfold Read.val_main_c
    rfl
  have f4_main_v2 : V4 (Proc.devRef .tc main_v2) = Read.val_main_v2 (F := F) x1 x4 x5 := by
    rw [← hV]; simp (disch := decide) only [nullary_result_ne', unary_result_ne', binary_result_ne', ternary_result_ne', reshape_result_ne', nary_result_ne']; exact f3_main_v2
  have f4_main_arg0 : V4 (Proc.devRef .tc main_arg0) = x0 := by
    rw [← hV]; simp (disch := decide) only [nullary_result_ne', unary_result_ne', binary_result_ne', ternary_result_ne', reshape_result_ne', nary_result_ne']; exact f3_main_arg0
  have f4_main_arg2 : V4 (Proc.devRef .tc main_arg2) = x2 := by
    rw [← hV]; simp (disch := decide) only [nullary_result_ne', unary_result_ne', binary_result_ne', ternary_result_ne', reshape_result_ne', nary_result_ne']; exact f3_main_arg2
  have f4_main_arg3 : V4 (Proc.devRef .tc main_arg3) = x3 := by
    rw [← hV]; simp (disch := decide) only [nullary_result_ne', unary_result_ne', binary_result_ne', ternary_result_ne', reshape_result_ne', nary_result_ne']; exact f3_main_arg3
  clear hV f3_main_v2 f3_main_arg0 f3_main_arg2 f3_main_arg3 V3
  -- operation 4: main_call0_v0
  rw [after_cons]
  generalize hV : HloOp.result _ V4 = V5
  have f5_main_call0_v0 : V5 (Proc.devRef .tc main_call0_v0) = Read.val_main_call0_v0 (F := F) := by
    rw [← hV]; refine (unary_result _ _ _ _ _ _).trans ?_; unfold Read.val_main_call0_v0
    rw [← f4_main_c]
    all_goals rfl
  have f5_main_v2 : V5 (Proc.devRef .tc main_v2) = Read.val_main_v2 (F := F) x1 x4 x5 := by
    rw [← hV]; simp (disch := decide) only [nullary_result_ne', unary_result_ne', binary_result_ne', ternary_result_ne', reshape_result_ne', nary_result_ne']; exact f4_main_v2
  have f5_main_arg0 : V5 (Proc.devRef .tc main_arg0) = x0 := by
    rw [← hV]; simp (disch := decide) only [nullary_result_ne', unary_result_ne', binary_result_ne', ternary_result_ne', reshape_result_ne', nary_result_ne']; exact f4_main_arg0
  have f5_main_arg2 : V5 (Proc.devRef .tc main_arg2) = x2 := by
    rw [← hV]; simp (disch := decide) only [nullary_result_ne', unary_result_ne', binary_result_ne', ternary_result_ne', reshape_result_ne', nary_result_ne']; exact f4_main_arg2
  have f5_main_arg3 : V5 (Proc.devRef .tc main_arg3) = x3 := by
    rw [← hV]; simp (disch := decide) only [nullary_result_ne', unary_result_ne', binary_result_ne', ternary_result_ne', reshape_result_ne', nary_result_ne']; exact f4_main_arg3
  clear hV f4_main_v2 f4_main_c f4_main_arg0 f4_main_arg2 f4_main_arg3 V4
  -- operation 5: main_v3
  rw [after_cons]
  generalize hV : HloOp.result _ V5 = V6
  have f6_main_v3 : V6 (Proc.devRef .tc main_v3) = Read.val_main_v3 (F := F) x0 := by
    rw [← hV]; refine (binary_result _ _ _ _ _ _ _ _).trans ?_; unfold Read.val_main_v3
    rw [← f5_main_call0_v0, ← f5_main_arg0]
    all_goals rfl
  have f6_main_v2 : V6 (Proc.devRef .tc main_v2) = Read.val_main_v2 (F := F) x1 x4 x5 := by
    rw [← hV]; simp (disch := decide) only [nullary_result_ne', unary_result_ne', binary_result_ne', ternary_result_ne', reshape_result_ne', nary_result_ne']; exact f5_main_v2
  have f6_main_arg0 : V6 (Proc.devRef .tc main_arg0) = x0 := by
    rw [← hV]; simp (disch := decide) only [nullary_result_ne', unary_result_ne', binary_result_ne', ternary_result_ne', reshape_result_ne', nary_result_ne']; exact f5_main_arg0
  have f6_main_arg2 : V6 (Proc.devRef .tc main_arg2) = x2 := by
    rw [← hV]; simp (disch := decide) only [nullary_result_ne', unary_result_ne', binary_result_ne', ternary_result_ne', reshape_result_ne', nary_result_ne']; exact f5_main_arg2
  have f6_main_arg3 : V6 (Proc.devRef .tc main_arg3) = x3 := by
    rw [← hV]; simp (disch := decide) only [nullary_result_ne', unary_result_ne', binary_result_ne', ternary_result_ne', reshape_result_ne', nary_result_ne']; exact f5_main_arg3
  clear hV f5_main_v2 f5_main_call0_v0 f5_main_arg0 f5_main_arg2 f5_main_arg3 V5
  -- operation 6: main_c_0
  rw [after_cons]
  generalize hV : HloOp.result _ V6 = V7
  have f7_main_c_0 : V7 (Proc.devRef .tc main_c_0) = Read.val_main_c_0 (F := F) := by
    rw [← hV]; refine (nullary_result _ _ _ _).trans ?_; unfold Read.val_main_c_0
    rfl
  have f7_main_v2 : V7 (Proc.devRef .tc main_v2) = Read.val_main_v2 (F := F) x1 x4 x5 := by
    rw [← hV]; simp (disch := decide) only [nullary_result_ne', unary_result_ne', binary_result_ne', ternary_result_ne', reshape_result_ne', nary_result_ne']; exact f6_main_v2
  have f7_main_v3 : V7 (Proc.devRef .tc main_v3) = Read.val_main_v3 (F := F) x0 := by
    rw [← hV]; simp (disch := decide) only [nullary_result_ne', unary_result_ne', binary_result_ne', ternary_result_ne', reshape_result_ne', nary_result_ne']; exact f6_main_v3
  have f7_main_arg0 : V7 (Proc.devRef .tc main_arg0) = x0 := by
    rw [← hV]; simp (disch := decide) only [nullary_result_ne', unary_result_ne', binary_result_ne', ternary_result_ne', reshape_result_ne', nary_result_ne']; exact f6_main_arg0
  have f7_main_arg2 : V7 (Proc.devRef .tc main_arg2) = x2 := by
    rw [← hV]; simp (disch := decide) only [nullary_result_ne', unary_result_ne', binary_result_ne', ternary_result_ne', reshape_result_ne', nary_result_ne']; exact f6_main_arg2
  have f7_main_arg3 : V7 (Proc.devRef .tc main_arg3) = x3 := by
    rw [← hV]; simp (disch := decide) only [nullary_result_ne', unary_result_ne', binary_result_ne', ternary_result_ne', reshape_result_ne', nary_result_ne']; exact f6_main_arg3
  clear hV f6_main_v2 f6_main_v3 f6_main_arg0 f6_main_arg2 f6_main_arg3 V6
  -- operation 7: main_call1_v0
  rw [after_cons]
  generalize hV : HloOp.result _ V7 = V8
  have f8_main_call1_v0 : V8 (Proc.devRef .tc main_call1_v0) = Read.val_main_call1_v0 (F := F) := by
    rw [← hV]; refine (unary_result _ _ _ _ _ _).trans ?_; unfold Read.val_main_call1_v0
    rw [← f7_main_c_0]
    all_goals rfl
  have f8_main_v2 : V8 (Proc.devRef .tc main_v2) = Read.val_main_v2 (F := F) x1 x4 x5 := by
    rw [← hV]; simp (disch := decide) only [nullary_result_ne', unary_result_ne', binary_result_ne', ternary_result_ne', reshape_result_ne', nary_result_ne']; exact f7_main_v2
  have f8_main_v3 : V8 (Proc.devRef .tc main_v3) = Read.val_main_v3 (F := F) x0 := by
    rw [← hV]; simp (disch := decide) only [nullary_result_ne', unary_result_ne', binary_result_ne', ternary_result_ne', reshape_result_ne', nary_result_ne']; exact f7_main_v3
  have f8_main_arg0 : V8 (Proc.devRef .tc main_arg0) = x0 := by
    rw [← hV]; simp (disch := decide) only [nullary_result_ne', unary_result_ne', binary_result_ne', ternary_result_ne', reshape_result_ne', nary_result_ne']; exact f7_main_arg0
  have f8_main_arg2 : V8 (Proc.devRef .tc main_arg2) = x2 := by
    rw [← hV]; simp (disch := decide) only [nullary_result_ne', unary_result_ne', binary_result_ne', ternary_result_ne', reshape_result_ne', nary_result_ne']; exact f7_main_arg2
  have f8_main_arg3 : V8 (Proc.devRef .tc main_arg3) = x3 := by
    rw [← hV]; simp (disch := decide) only [nullary_result_ne', unary_result_ne', binary_result_ne', ternary_result_ne', reshape_result_ne', nary_result_ne']; exact f7_main_arg3
  clear hV f7_main_v2 f7_main_v3 f7_main_c_0 f7_main_arg0 f7_main_arg2 f7_main_arg3 V7
  -- operation 8: main_v4
  rw [after_cons]
  generalize hV : HloOp.result _ V8 = V9
  have f9_main_v4 : V9 (Proc.devRef .tc main_v4) = Read.val_main_v4 (F := F) x1 x4 x5 := by
    rw [← hV]; refine (binary_result _ _ _ _ _ _ _ _).trans ?_; unfold Read.val_main_v4
    rw [← f8_main_v2, ← f8_main_call1_v0]
    all_goals rfl
  have f9_main_v3 : V9 (Proc.devRef .tc main_v3) = Read.val_main_v3 (F := F) x0 := by
    rw [← hV]; simp (disch := decide) only [nullary_result_ne', unary_result_ne', binary_result_ne', ternary_result_ne', reshape_result_ne', nary_result_ne']; exact f8_main_v3
  have f9_main_arg0 : V9 (Proc.devRef .tc main_arg0) = x0 := by
    rw [← hV]; simp (disch := decide) only [nullary_result_ne', unary_result_ne', binary_result_ne', ternary_result_ne', reshape_result_ne', nary_result_ne']; exact f8_main_arg0
  have f9_main_arg2 : V9 (Proc.devRef .tc main_arg2) = x2 := by
    rw [← hV]; simp (disch := decide) only [nullary_result_ne', unary_result_ne', binary_result_ne', ternary_result_ne', reshape_result_ne', nary_result_ne']; exact f8_main_arg2
  have f9_main_arg3 : V9 (Proc.devRef .tc main_arg3) = x3 := by
    rw [← hV]; simp (disch := decide) only [nullary_result_ne', unary_result_ne', binary_result_ne', ternary_result_ne', reshape_result_ne', nary_result_ne']; exact f8_main_arg3
  clear hV f8_main_v2 f8_main_v3 f8_main_call1_v0 f8_main_arg0 f8_main_arg2 f8_main_arg3 V8
  -- operation 9: main_c_1
  rw [after_cons]
  generalize hV : HloOp.result _ V9 = V10
  have f10_main_c_1 : V10 (Proc.devRef .tc main_c_1) = Read.val_main_c_1 (F := F) := by
    rw [← hV]; refine (nullary_result _ _ _ _).trans ?_; unfold Read.val_main_c_1
    rfl
  have f10_main_v3 : V10 (Proc.devRef .tc main_v3) = Read.val_main_v3 (F := F) x0 := by
    rw [← hV]; simp (disch := decide) only [nullary_result_ne', unary_result_ne', binary_result_ne', ternary_result_ne', reshape_result_ne', nary_result_ne']; exact f9_main_v3
  have f10_main_v4 : V10 (Proc.devRef .tc main_v4) = Read.val_main_v4 (F := F) x1 x4 x5 := by
    rw [← hV]; simp (disch := decide) only [nullary_result_ne', unary_result_ne', binary_result_ne', ternary_result_ne', reshape_result_ne', nary_result_ne']; exact f9_main_v4
  have f10_main_arg0 : V10 (Proc.devRef .tc main_arg0) = x0 := by
    rw [← hV]; simp (disch := decide) only [nullary_result_ne', unary_result_ne', binary_result_ne', ternary_result_ne', reshape_result_ne', nary_result_ne']; exact f9_main_arg0
  have f10_main_arg2 : V10 (Proc.devRef .tc main_arg2) = x2 := by
    rw [← hV]; simp (disch := decide) only [nullary_result_ne', unary_result_ne', binary_result_ne', ternary_result_ne', reshape_result_ne', nary_result_ne']; exact f9_main_arg2
  have f10_main_arg3 : V10 (Proc.devRef .tc main_arg3) = x3 := by
    rw [← hV]; simp (disch := decide) only [nullary_result_ne', unary_result_ne', binary_result_ne', ternary_result_ne', reshape_result_ne', nary_result_ne']; exact f9_main_arg3
  clear hV f9_main_v3 f9_main_v4 f9_main_arg0 f9_main_arg2 f9_main_arg3 V9
  exact ⟨f10_main_v3, f10_main_v4, f10_main_c_1, f10_main_arg0, f10_main_arg2, f10_main_arg3⟩

set_option maxRecDepth 16384 in
set_option maxHeartbeats 0 in
/-- Operations 10 … 19: from contents at which the buffers still read hold their stages, to contents at which the
    buffers read later hold theirs. -/
theorem stages1 (V10 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f10_main_v3 : V10 (Proc.devRef .tc main_v3) = Read.val_main_v3 (F := F) x0)
    (f10_main_v4 : V10 (Proc.devRef .tc main_v4) = Read.val_main_v4 (F := F) x1 x4 x5)
    (f10_main_c_1 : V10 (Proc.devRef .tc main_c_1) = Read.val_main_c_1 (F := F))
    (f10_main_arg0 : V10 (Proc.devRef .tc main_arg0) = x0)
    (f10_main_arg2 : V10 (Proc.devRef .tc main_arg2) = x2)
    (f10_main_arg3 : V10 (Proc.devRef .tc main_arg3) = x3) :
    after (ops1 (F := F)) V10 (Proc.devRef .tc main_v3) = Read.val_main_v3 (F := F) x0
    ∧ after (ops1 (F := F)) V10 (Proc.devRef .tc main_v4) = Read.val_main_v4 (F := F) x1 x4 x5
    ∧ after (ops1 (F := F)) V10 (Proc.devRef .tc main_v5) = Read.val_main_v5 (F := F) x2
    ∧ after (ops1 (F := F)) V10 (Proc.devRef .tc main_v6) = Read.val_main_v6 (F := F) x0
    ∧ after (ops1 (F := F)) V10 (Proc.devRef .tc main_v7) = Read.val_main_v7 (F := F) x0
    ∧ after (ops1 (F := F)) V10 (Proc.devRef .tc main_v8) = Read.val_main_v8 (F := F) x0
    ∧ after (ops1 (F := F)) V10 (Proc.devRef .tc main_v9) = Read.val_main_v9 (F := F) x0
    ∧ after (ops1 (F := F)) V10 (Proc.devRef .tc main_v10) = Read.val_main_v10 (F := F) x0
    ∧ after (ops1 (F := F)) V10 (Proc.devRef .tc main_arg0) = x0
    ∧ after (ops1 (F := F)) V10 (Proc.devRef .tc main_arg2) = x2
    ∧ after (ops1 (F := F)) V10 (Proc.devRef .tc main_arg3) = x3 := by
  unfold ops1
  -- operation 10: main_call2_c
  rw [after_cons]
  generalize hV : HloOp.result _ V10 = V11
  have f11_main_call2_c : V11 (Proc.devRef .tc main_call2_c) = Read.val_main_call2_c (F := F) := by
    rw [← hV]; refine (nullary_result _ _ _ _).trans ?_; unfold Read.val_main_call2_c
    rfl
  have f11_main_v3 : V11 (Proc.devRef .tc main_v3) = Read.val_main_v3 (F := F) x0 := by
    rw [← hV]; simp (disch := decide) only [nullary_result_ne', unary_result_ne', binary_result_ne', ternary_result_ne', reshape_result_ne', nary_result_ne']; exact f10_main_v3
  have f11_main_v4 : V11 (Proc.devRef .tc main_v4) = Read.val_main_v4 (F := F) x1 x4 x5 := by
    rw [← hV]; simp (disch := decide) only [nullary_result_ne', unary_result_ne', binary_result_ne', ternary_result_ne', reshape_result_ne', nary_result_ne']; exact f10_main_v4
  have f11_main_c_1 : V11 (Proc.devRef .tc main_c_1) = Read.val_main_c_1 (F := F) := by
    rw [← hV]; simp (disch := decide) only [nullary_result_ne', unary_result_ne', binary_result_ne', ternary_result_ne', reshape_result_ne', nary_result_ne']; exact f10_main_c_1
  have f11_main_arg0 : V11 (Proc.devRef .tc main_arg0) = x0 := by
    rw [← hV]; simp (disch := decide) only [nullary_result_ne', unary_result_ne', binary_result_ne', ternary_result_ne', reshape_result_ne', nary_result_ne']; exact f10_main_arg0
  have f11_main_arg2 : V11 (Proc.devRef .tc main_arg2) = x2 := by
    rw [← hV]; simp (disch := decide) only [nullary_result_ne', unary_result_ne', binary_result_ne', ternary_result_ne', reshape_result_ne', nary_result_ne']; exact f10_main_arg2
  have f11_main_arg3 : V11 (Proc.devRef .tc main_arg3) = x3 := by
    rw [← hV]; simp (disch := decide) only [nullary_result_ne', unary_result_ne', binary_result_ne', ternary_result_ne', reshape_result_ne', nary_result_ne']; exact f10_main_arg3
  clear hV f10_main_v3 f10_main_v4 f10_main_c_1 f10_main_arg0 f10_main_arg2 f10_main_arg3 V10
  -- operation 11: main_call2_v0
  rw [after_cons]
  generalize hV : HloOp.result _ V11 = V12
  have f12_main_call2_v0 : V12 (Proc.devRef .tc main_call2_v0) = Read.val_main_call2_v0 (F := F) := by
    rw [← hV]; refine (unary_result _ _ _ _ _ _).trans ?_; unfold Read.val_main_call2_v0
    rw [← f11_main_call2_c]
    all_goals rfl
  have f12_main_v3 : V12 (Proc.devRef .tc main_v3) = Read.val_main_v3 (F := F) x0 := by
    rw [← hV]; simp (disch := decide) only [nullary_result_ne', unary_result_ne', binary_result_ne', ternary_result_ne', reshape_result_ne', nary_result_ne']; exact f11_main_v3
  have f12_main_v4 : V12 (Proc.devRef .tc main_v4) = Read.val_main_v4 (F := F) x1 x4 x5 := by
    rw [← hV]; simp (disch := decide) only [nullary_result_ne', unary_result_ne', binary_result_ne', ternary_result_ne', reshape_result_ne', nary_result_ne']; exact f11_main_v4
  have f12_main_c_1 : V12 (Proc.devRef .tc main_c_1) = Read.val_main_c_1 (F := F) := by
    rw [← hV]; simp (disch := decide) only [nullary_result_ne', unary_result_ne', binary_result_ne', ternary_result_ne', reshape_result_ne', nary_result_ne']; exact f11_main_c_1
  have f12_main_arg0 : V12 (Proc.devRef .tc main_arg0) = x0 := by
    rw [← hV]; simp (disch := decide) only [nullary_result_ne', unary_result_ne', binary_result_ne', ternary_result_ne', reshape_result_ne', nary_result_ne']; exact f11_main_arg0
  have f12_main_arg2 : V12 (Proc.devRef .tc main_arg2) = x2 := by
    rw [← hV]; simp (disch := decide) only [nullary_result_ne', unary_result_ne', binary_result_ne', ternary_result_ne', reshape_result_ne', nary_result_ne']; exact f11_main_arg2
  have f12_main_arg3 : V12 (Proc.devRef .tc main_arg3) = x3 := by
    rw [← hV]; simp (disch := decide) only [nullary_result_ne', unary_result_ne', binary_result_ne', ternary_result_ne', reshape_result_ne', nary_result_ne']; exact f11_main_arg3
  clear hV f11_main_v3 f11_main_v4 f11_main_c_1 f11_main_call2_c f11_main_arg0 f11_main_arg2 f11_main_arg3 V11
  -- operation 12: main_call2_v1
  rw [after_cons]
  generalize hV : HloOp.result _ V12 = V13
  have f13_main_call2_v1 : V13 (Proc.devRef .tc main_call2_v1) = Read.val_main_call2_v1 (F := F) := by
    rw [← hV]; refine (binary_result _ _ _ _ _ _ _ _).trans ?_; unfold Read.val_main_call2_v1
    rw [← f12_main_c_1, ← f12_main_call2_v0]
    all_goals rfl
  have f13_main_v3 : V13 (Proc.devRef .tc main_v3) = Read.val_main_v3 (F := F) x0 := by
    rw [← hV]; simp (disch := decide) only [nullary_result_ne', unary_result_ne', binary_result_ne', ternary_result_ne', reshape_result_ne', nary_result_ne']; exact f12_main_v3
  have f13_main_v4 : V13 (Proc.devRef .tc main_v4) = Read.val_main_v4 (F := F) x1 x4 x5 := by
    rw [← hV]; simp (disch := decide) only [nullary_result_ne', unary_result_ne', binary_result_ne', ternary_result_ne', reshape_result_ne', nary_result_ne']; exact f12_main_v4
  have f13_main_arg0 : V13 (Proc.devRef .tc main_arg0) = x0 := by
    rw [← hV]; simp (disch := decide) only [nullary_result_ne', unary_result_ne', binary_result_ne', ternary_result_ne', reshape_result_ne', nary_result_ne']; exact f12_main_arg0
  have f13_main_arg2 : V13 (Proc.devRef .tc main_arg2) = x2 := by
    rw [← hV]; simp (disch := decide) only [nullary_result_ne', unary_result_ne', binary_result_ne', ternary_result_ne', reshape_result_ne', nary_result_ne']; exact f12_main_arg2
  have f13_main_arg3 : V13 (Proc.devRef .tc main_arg3) = x3 := by
    rw [← hV]; simp (disch := decide) only [nullary_result_ne', unary_result_ne', binary_result_ne', ternary_result_ne', reshape_result_ne', nary_result_ne']; exact f12_main_arg3
  clear hV f12_main_v3 f12_main_v4 f12_main_c_1 f12_main_call2_v0 f12_main_arg0 f12_main_arg2 f12_main_arg3 V12
  -- operation 13: main_call2_v2
  rw [after_cons]
  generalize hV : HloOp.result _ V13 = V14
  have f14_main_call2_v2 : V14 (Proc.devRef .tc main_call2_v2) = Read.val_main_call2_v2 (F := F) := by
    rw [← hV]; refine (unary_result _ _ _ _ _ _).trans ?_; unfold Read.val_main_call2_v2
    rw [← f13_main_call2_v1]
    all_goals rfl
  have f14_main_v3 : V14 (Proc.devRef .tc main_v3) = Read.val_main_v3 (F := F) x0 := by
    rw [← hV]; simp (disch := decide) only [nullary_result_ne', unary_result_ne', binary_result_ne', ternary_result_ne', reshape_result_ne', nary_result_ne']; exact f13_main_v3
  have f14_main_v4 : V14 (Proc.devRef .tc main_v4) = Read.val_main_v4 (F := F) x1 x4 x5 := by
    rw [← hV]; simp (disch := decide) only [nullary_result_ne', unary_result_ne', binary_result_ne', ternary_result_ne', reshape_result_ne', nary_result_ne']; exact f13_main_v4
  have f14_main_arg0 : V14 (Proc.devRef .tc main_arg0) = x0 := by
    rw [← hV]; simp (disch := decide) only [nullary_result_ne', unary_result_ne', binary_result_ne', ternary_result_ne', reshape_result_ne', nary_result_ne']; exact f13_main_arg0
  have f14_main_arg2 : V14 (Proc.devRef .tc main_arg2) = x2 := by
    rw [← hV]; simp (disch := decide) only [nullary_result_ne', unary_result_ne', binary_result_ne', ternary_result_ne', reshape_result_ne', nary_result_ne']; exact f13_main_arg2
  have f14_main_arg3 : V14 (Proc.devRef .tc main_arg3) = x3 := by
    rw [← hV]; simp (disch := decide) only [nullary_result_ne', unary_result_ne', binary_result_ne', ternary_result_ne', reshape_result_ne', nary_result_ne']; exact f13_main_arg3
  clear hV f13_main_v3 f13_main_v4 f13_main_call2_v1 f13_main_arg0 f13_main_arg2 f13_main_arg3 V13
  -- operation 14: main_v5
  rw [after_cons]
  generalize hV : HloOp.result _ V14 = V15
  have f15_main_v5 : V15 (Proc.devRef .tc main_v5) = Read.val_main_v5 (F := F) x2 := by
    rw [← hV]; refine (binary_result _ _ _ _ _ _ _ _).trans ?_; unfold Read.val_main_v5
    rw [← f14_main_call2_v2, ← f14_main_arg2]
    all_goals rfl
  have f15_main_v3 : V15 (Proc.devRef .tc main_v3) = Read.val_main_v3 (F := F) x0 := by
    rw [← hV]; simp (disch := decide) only [nullary_result_ne', unary_result_ne', binary_result_ne', ternary_result_ne', reshape_result_ne', nary_result_ne']; exact f14_main_v3
  have f15_main_v4 : V15 (Proc.devRef .tc main_v4) = Read.val_main_v4 (F := F) x1 x4 x5 := by
    rw [← hV]; simp (disch := decide) only [nullary_result_ne', unary_result_ne', binary_result_ne', ternary_result_ne', reshape_result_ne', nary_result_ne']; exact f14_main_v4
  have f15_main_arg0 : V15 (Proc.devRef .tc main_arg0) = x0 := by
    rw [← hV]; simp (disch := decide) only [nullary_result_ne', unary_result_ne', binary_result_ne', ternary_result_ne', reshape_result_ne', nary_result_ne']; exact f14_main_arg0
  have f15_main_arg2 : V15 (Proc.devRef .tc main_arg2) = x2 := by
    rw [← hV]; simp (disch := decide) only [nullary_result_ne', unary_result_ne', binary_result_ne', ternary_result_ne', reshape_result_ne', nary_result_ne']; exact f14_main_arg2
  have f15_main_arg3 : V15 (Proc.devRef .tc main_arg3) = x3 := by
    rw [← hV]; simp (disch := decide) only [nullary_result_ne', unary_result_ne', binary_result_ne', ternary_result_ne', reshape_result_ne', nary_result_ne']; exact f14_main_arg3
  clear hV f14_main_v3 f14_main_v4 f14_main_call2_v2 f14_main_arg0 f14_main_arg2 f14_main_arg3 V14
  -- operation 15: main_v6
  rw [after_cons]
  generalize hV : HloOp.result _ V15 = V16
  have f16_main_v6 : V16 (Proc.devRef .tc main_v6) = Read.val_main_v6 (F := F) x0 := by
    rw [← hV]; refine (unary_result _ _ _ _ _ _).trans ?_; unfold Read.val_main_v6
    rw [← f15_main_v3]
    all_goals rfl
  have f16_main_v3 : V16 (Proc.devRef .tc main_v3) = Read.val_main_v3 (F := F) x0 := by
    rw [← hV]; simp (disch := decide) only [nullary_result_ne', unary_result_ne', binary_result_ne', ternary_result_ne', reshape_result_ne', nary_result_ne']; exact f15_main_v3
  have f16_main_v4 : V16 (Proc.devRef .tc main_v4) = Read.val_main_v4 (F := F) x1 x4 x5 := by
    rw [← hV]; simp (disch := decide) only [nullary_result_ne', unary_result_ne', binary_result_ne', ternary_result_ne', reshape_result_ne', nary_result_ne']; exact f15_main_v4
  have f16_main_v5 : V16 (Proc.devRef .tc main_v5) = Read.val_main_v5 (F := F) x2 := by
    rw [← hV]; simp (disch := decide) only [nullary_result_ne', unary_result_ne', binary_result_ne', ternary_result_ne', reshape_result_ne', nary_result_ne']; exact f15_main_v5
  have f16_main_arg0 : V16 (Proc.devRef .tc main_arg0) = x0 := by
    rw [← hV]; simp (disch := decide) only [nullary_result_ne', unary_result_ne', binary_result_ne', ternary_result_ne', reshape_result_ne', nary_result_ne']; exact f15_main_arg0
  have f16_main_arg2 : V16 (Proc.devRef .tc main_arg2) = x2 := by
    rw [← hV]; simp (disch := decide) only [nullary_result_ne', unary_result_ne', binary_result_ne', ternary_result_ne', reshape_result_ne', nary_result_ne']; exact f15_main_arg2
  have f16_main_arg3 : V16 (Proc.devRef .tc main_arg3) = x3 := by
    rw [← hV]; simp (disch := decide) only [nullary_result_ne', unary_result_ne', binary_result_ne', ternary_result_ne', reshape_result_ne', nary_result_ne']; exact f15_main_arg3
  clear hV f15_main_v3 f15_main_v4 f15_main_v5 f15_main_arg0 f15_main_arg2 f15_main_arg3 V15
  -- operation 16: main_v7
  rw [after_cons]
  generalize hV : HloOp.result _ V16 = V17
  have f17_main_v7 : V17 (Proc.devRef .tc main_v7) = Read.val_main_v7 (F := F) x0 := by
    rw [← hV]; refine (unary_result _ _ _ _ _ _).trans ?_; unfold Read.val_main_v7
    rw [← f16_main_v3]
    all_goals rfl
  have f17_main_v3 : V17 (Proc.devRef .tc main_v3) = Read.val_main_v3 (F := F) x0 := by
    rw [← hV]; simp (disch := decide) only [nullary_result_ne', unary_result_ne', binary_result_ne', ternary_result_ne', reshape_result_ne', nary_result_ne']; exact f16_main_v3
  have f17_main_v4 : V17 (Proc.devRef .tc main_v4) = Read.val_main_v4 (F := F) x1 x4 x5 := by
    rw [← hV]; simp (disch := decide) only [nullary_result_ne', unary_result_ne', binary_result_ne', ternary_result_ne', reshape_result_ne', nary_result_ne']; exact f16_main_v4
  have f17_main_v5 : V17 (Proc.devRef .tc main_v5) = Read.val_main_v5 (F := F) x2 := by
    rw [← hV]; simp (disch := decide) only [nullary_result_ne', unary_result_ne', binary_result_ne', ternary_result_ne', reshape_result_ne', nary_result_ne']; exact f16_main_v5
  have f17_main_v6 : V17 (Proc.devRef .tc main_v6) = Read.val_main_v6 (F := F) x0 := by
    rw [← hV]; simp (disch := decide) only [nullary_result_ne', unary_result_ne', binary_result_ne', ternary_result_ne', reshape_result_ne', nary_result_ne']; exact f16_main_v6
  have f17_main_arg0 : V17 (Proc.devRef .tc main_arg0) = x0 := by
    rw [← hV]; simp (disch := decide) only [nullary_result_ne', unary_result_ne', binary_result_ne', ternary_result_ne', reshape_result_ne', nary_result_ne']; exact f16_main_arg0
  have f17_main_arg2 : V17 (Proc.devRef .tc main_arg2) = x2 := by
    rw [← hV]; simp (disch := decide) only [nullary_result_ne', unary_result_ne', binary_result_ne', ternary_result_ne', reshape_result_ne', nary_result_ne']; exact f16_main_arg2
  have f17_main_arg3 : V17 (Proc.devRef .tc main_arg3) = x3 := by
    rw [← hV]; simp (disch := decide) only [nullary_result_ne', unary_result_ne', binary_result_ne', ternary_result_ne', reshape_result_ne', nary_result_ne']; exact f16_main_arg3
  clear hV f16_main_v3 f16_main_v4 f16_main_v5 f16_main_v6 f16_main_arg0 f16_main_arg2 f16_main_arg3 V16
  -- operation 17: main_v8
  rw [after_cons]
  generalize hV : HloOp.result _ V17 = V18
  have f18_main_v8 : V18 (Proc.devRef .tc main_v8) = Read.val_main_v8 (F := F) x0 := by
    rw [← hV]; refine (unary_result _ _ _ _ _ _).trans ?_; unfold Read.val_main_v8
    rw [← f17_main_v3]
    all_goals rfl
  have f18_main_v3 : V18 (Proc.devRef .tc main_v3) = Read.val_main_v3 (F := F) x0 := by
    rw [← hV]; simp (disch := decide) only [nullary_result_ne', unary_result_ne', binary_result_ne', ternary_result_ne', reshape_result_ne', nary_result_ne']; exact f17_main_v3
  have f18_main_v4 : V18 (Proc.devRef .tc main_v4) = Read.val_main_v4 (F := F) x1 x4 x5 := by
    rw [← hV]; simp (disch := decide) only [nullary_result_ne', unary_result_ne', binary_result_ne', ternary_result_ne', reshape_result_ne', nary_result_ne']; exact f17_main_v4
  have f18_main_v5 : V18 (Proc.devRef .tc main_v5) = Read.val_main_v5 (F := F) x2 := by
    rw [← hV]; simp (disch := decide) only [nullary_result_ne', unary_result_ne', binary_result_ne', ternary_result_ne', reshape_result_ne', nary_result_ne']; exact f17_main_v5
  have f18_main_v6 : V18 (Proc.devRef .tc main_v6) = Read.val_main_v6 (F := F) x0 := by
    rw [← hV]; simp (disch := decide) only [nullary_result_ne', unary_result_ne', binary_result_ne', ternary_result_ne', reshape_result_ne', nary_result_ne']; exact f17_main_v6
  have f18_main_v7 : V18 (Proc.devRef .tc main_v7) = Read.val_main_v7 (F := F) x0 := by
    rw [← hV]; simp (disch := decide) only [nullary_result_ne', unary_result_ne', binary_result_ne', ternary_result_ne', reshape_result_ne', nary_result_ne']; exact f17_main_v7
  have f18_main_arg0 : V18 (Proc.devRef .tc main_arg0) = x0 := by
    rw [← hV]; simp (disch := decide) only [nullary_result_ne', unary_result_ne', binary_result_ne', ternary_result_ne', reshape_result_ne', nary_result_ne']; exact f17_main_arg0
  have f18_main_arg2 : V18 (Proc.devRef .tc main_arg2) = x2 := by
    rw [← hV]; simp (disch := decide) only [nullary_result_ne', unary_result_ne', binary_result_ne', ternary_result_ne', reshape_result_ne', nary_result_ne']; exact f17_main_arg2
  have f18_main_arg3 : V18 (Proc.devRef .tc main_arg3) = x3 := by
    rw [← hV]; simp (disch := decide) only [nullary_result_ne', unary_result_ne', binary_result_ne', ternary_result_ne', reshape_result_ne', nary_result_ne']; exact f17_main_arg3
  clear hV f17_main_v3 f17_main_v4 f17_main_v5 f17_main_v6 f17_main_v7 f17_main_arg0 f17_main_arg2 f17_main_arg3 V17
  -- operation 18: main_v9
  rw [after_cons]
  generalize hV : HloOp.result _ V18 = V19
  have f19_main_v9 : V19 (Proc.devRef .tc main_v9) = Read.val_main_v9 (F := F) x0 := by
    rw [← hV]; refine (unary_result _ _ _ _ _ _).trans ?_; unfold Read.val_main_v9
    rw [← f18_main_v3]
    all_goals rfl
  have f19_main_v3 : V19 (Proc.devRef .tc main_v3) = Read.val_main_v3 (F := F) x0 := by
    rw [← hV]; simp (disch := decide) only [nullary_result_ne', unary_result_ne', binary_result_ne', ternary_result_ne', reshape_result_ne', nary_result_ne']; exact f18_main_v3
  have f19_main_v4 : V19 (Proc.devRef .tc main_v4) = Read.val_main_v4 (F := F) x1 x4 x5 := by
    rw [← hV]; simp (disch := decide) only [nullary_result_ne', unary_result_ne', binary_result_ne', ternary_result_ne', reshape_result_ne', nary_result_ne']; exact f18_main_v4
  have f19_main_v5 : V19 (Proc.devRef .tc main_v5) = Read.val_main_v5 (F := F) x2 := by
    rw [← hV]; simp (disch := decide) only [nullary_result_ne', unary_result_ne', binary_result_ne', ternary_result_ne', reshape_result_ne', nary_result_ne']; exact f18_main_v5
  have f19_main_v6 : V19 (Proc.devRef .tc main_v6) = Read.val_main_v6 (F := F) x0 := by
    rw [← hV]; simp (disch := decide) only [nullary_result_ne', unary_result_ne', binary_result_ne', ternary_result_ne', reshape_result_ne', nary_result_ne']; exact f18_main_v6
  have f19_main_v7 : V19 (Proc.devRef .tc main_v7) = Read.val_main_v7 (F := F) x0 := by
    rw [← hV]; simp (disch := decide) only [nullary_result_ne', unary_result_ne', binary_result_ne', ternary_result_ne', reshape_result_ne', nary_result_ne']; exact f18_main_v7
  have f19_main_v8 : V19 (Proc.devRef .tc main_v8) = Read.val_main_v8 (F := F) x0 := by
    rw [← hV]; simp (disch := decide) only [nullary_result_ne', unary_result_ne', binary_result_ne', ternary_result_ne', reshape_result_ne', nary_result_ne']; exact f18_main_v8
  have f19_main_arg0 : V19 (Proc.devRef .tc main_arg0) = x0 := by
    rw [← hV]; simp (disch := decide) only [nullary_result_ne', unary_result_ne', binary_result_ne', ternary_result_ne', reshape_result_ne', nary_result_ne']; exact f18_main_arg0
  have f19_main_arg2 : V19 (Proc.devRef .tc main_arg2) = x2 := by
    rw [← hV]; simp (disch := decide) only [nullary_result_ne', unary_result_ne', binary_result_ne', ternary_result_ne', reshape_result_ne', nary_result_ne']; exact f18_main_arg2
  have f19_main_arg3 : V19 (Proc.devRef .tc main_arg3) = x3 := by
    rw [← hV]; simp (disch := decide) only [nullary_result_ne', unary_result_ne', binary_result_ne', ternary_result_ne', reshape_result_ne', nary_result_ne']; exact f18_main_arg3
  clear hV f18_main_v3 f18_main_v4 f18_main_v5 f18_main_v6 f18_main_v7 f18_main_v8 f18_main_arg0 f18_main_arg2 f18_main_arg3 V18
  -- operation 19: main_v10
  rw [after_cons]
  generalize hV : HloOp.result _ V19 = V20
  have f20_main_v10 : V20 (Proc.devRef .tc main_v10) = Read.val_main_v10 (F := F) x0 := by
    rw [← hV]; refine (unary_result _ _ _ _ _ _).trans ?_; unfold Read.val_main_v10
    rw [← f19_main_v3]
    all_goals rfl
  have f20_main_v3 : V20 (Proc.devRef .tc main_v3) = Read.val_main_v3 (F := F) x0 := by
    rw [← hV]; simp (disch := decide) only [nullary_result_ne', unary_result_ne', binary_result_ne', ternary_result_ne', reshape_result_ne', nary_result_ne']; exact f19_main_v3
  have f20_main_v4 : V20 (Proc.devRef .tc main_v4) = Read.val_main_v4 (F := F) x1 x4 x5 := by
    rw [← hV]; simp (disch := decide) only [nullary_result_ne', unary_result_ne', binary_result_ne', ternary_result_ne', reshape_result_ne', nary_result_ne']; exact f19_main_v4
  have f20_main_v5 : V20 (Proc.devRef .tc main_v5) = Read.val_main_v5 (F := F) x2 := by
    rw [← hV]; simp (disch := decide) only [nullary_result_ne', unary_result_ne', binary_result_ne', ternary_result_ne', reshape_result_ne', nary_result_ne']; exact f19_main_v5
  have f20_main_v6 : V20 (Proc.devRef .tc main_v6) = Read.val_main_v6 (F := F) x0 := by
    rw [← hV]; simp (disch := decide) only [nullary_result_ne', unary_result_ne', binary_result_ne', ternary_result_ne', reshape_result_ne', nary_result_ne']; exact f19_main_v6
  have f20_main_v7 : V20 (Proc.devRef .tc main_v7) = Read.val_main_v7 (F := F) x0 := by
    rw [← hV]; simp (disch := decide) only [nullary_result_ne', unary_result_ne', binary_result_ne', ternary_result_ne', reshape_result_ne', nary_result_ne']; exact f19_main_v7
  have f20_main_v8 : V20 (Proc.devRef .tc main_v8) = Read.val_main_v8 (F := F) x0 := by
    rw [← hV]; simp (disch := decide) only [nullary_result_ne', unary_result_ne', binary_result_ne', ternary_result_ne', reshape_result_ne', nary_result_ne']; exact f19_main_v8
  have f20_main_v9 : V20 (Proc.devRef .tc main_v9) = Read.val_main_v9 (F := F) x0 := by
    rw [← hV]; simp (disch := decide) only [nullary_result_ne', unary_result_ne', binary_result_ne', ternary_result_ne', reshape_result_ne', nary_result_ne']; exact f19_main_v9
  have f20_main_arg0 : V20 (Proc.devRef .tc main_arg0) = x0 := by
    rw [← hV]; simp (disch := decide) only [nullary_result_ne', unary_result_ne', binary_result_ne', ternary_result_ne', reshape_result_ne', nary_result_ne']; exact f19_main_arg0
  have f20_main_arg2 : V20 (Proc.devRef .tc main_arg2) = x2 := by
    rw [← hV]; simp (disch := decide) only [nullary_result_ne', unary_result_ne', binary_result_ne', ternary_result_ne', reshape_result_ne', nary_result_ne']; exact f19_main_arg2
  have f20_main_arg3 : V20 (Proc.devRef .tc main_arg3) = x3 := by
    rw [← hV]; simp (disch := decide) only [nullary_result_ne', unary_result_ne', binary_result_ne', ternary_result_ne', reshape_result_ne', nary_result_ne']; exact f19_main_arg3
  clear hV f19_main_v3 f19_main_v4 f19_main_v5 f19_main_v6 f19_main_v7 f19_main_v8 f19_main_v9 f19_main_arg0 f19_main_arg2 f19_main_arg3 V19
  exact ⟨f20_main_v3, f20_main_v4, f20_main_v5, f20_main_v6, f20_main_v7, f20_main_v8, f20_main_v9, f20_main_v10, f20_main_arg0, f20_main_arg2, f20_main_arg3⟩

set_option maxRecDepth 16384 in
set_option maxHeartbeats 0 in
/-- Operations 20 … 29: from contents at which the buffers still read hold their stages, to contents at which the
    buffers read later hold theirs. -/
theorem stages2 (V20 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f20_main_v3 : V20 (Proc.devRef .tc main_v3) = Read.val_main_v3 (F := F) x0)
    (f20_main_v4 : V20 (Proc.devRef .tc main_v4) = Read.val_main_v4 (F := F) x1 x4 x5)
    (f20_main_v5 : V20 (Proc.devRef .tc main_v5) = Read.val_main_v5 (F := F) x2)
    (f20_main_v6 : V20 (Proc.devRef .tc main_v6) = Read.val_main_v6 (F := F) x0)
    (f20_main_v7 : V20 (Proc.devRef .tc main_v7) = Read.val_main_v7 (F := F) x0)
    (f20_main_v8 : V20 (Proc.devRef .tc main_v8) = Read.val_main_v8 (F := F) x0)
    (f20_main_v9 : V20 (Proc.devRef .tc main_v9) = Read.val_main_v9 (F := F) x0)
    (f20_main_v10 : V20 (Proc.devRef .tc main_v10) = Read.val_main_v10 (F := F) x0)
    (f20_main_arg0 : V20 (Proc.devRef .tc main_arg0) = x0)
    (f20_main_arg2 : V20 (Proc.devRef .tc main_arg2) = x2)
    (f20_main_arg3 : V20 (Proc.devRef .tc main_arg3) = x3) :
    after (ops2 (F := F)) V20 (Proc.devRef .tc main_v4) = Read.val_main_v4 (F := F) x1 x4 x5
    ∧ after (ops2 (F := F)) V20 (Proc.devRef .tc main_v5) = Read.val_main_v5 (F := F) x2
    ∧ after (ops2 (F := F)) V20 (Proc.devRef .tc main_v12) = Read.val_main_v12 (F := F) x0
    ∧ after (ops2 (F := F)) V20 (Proc.devRef .tc main_v13) = Read.val_main_v13 (F := F) x0
    ∧ after (ops2 (F := F)) V20 (Proc.devRef .tc main_v14) = Read.val_main_v14 (F := F) x0
    ∧ after (ops2 (F := F)) V20 (Proc.devRef .tc main_v15) = Read.val_main_v15 (F := F) x0
    ∧ after (ops2 (F := F)) V20 (Proc.devRef .tc main_v16) = Read.val_main_v16 (F := F) x0
    ∧ after (ops2 (F := F)) V20 (Proc.devRef .tc main_v17) = Read.val_main_v17 (F := F) x0
    ∧ after (ops2 (F := F)) V20 (Proc.devRef .tc main_v18) = Read.val_main_v18 (F := F) x0
    ∧ after (ops2 (F := F)) V20 (Proc.devRef .tc main_v19) = Read.val_main_v19 (F := F) x0
    ∧ after (ops2 (F := F)) V20 (Proc.devRef .tc main_v20) = Read.val_main_v20 (F := F) x0
    ∧ after (ops2 (F := F)) V20 (Proc.devRef .tc main_arg0) = x0
    ∧ after (ops2 (F := F)) V20 (Proc.devRef .tc main_arg2) = x2
    ∧ after (ops2 (F := F)) V20 (Proc.devRef .tc main_arg3) = x3 := by
  unfold ops2
  -- operation 20: main_v11
  rw [after_cons]
  generalize hV : HloOp.result _ V20 = V21
  have f21_main_v11 : V21 (Proc.devRef .tc main_v11) = Read.val_main_v11 (F := F) x0 := by
    rw [← hV]; refine (unary_result _ _ _ _ _ _).trans ?_; unfold Read.val_main_v11
    rw [← f20_main_v3]
    all_goals rfl
  have f21_main_v3 : V21 (Proc.devRef .tc main_v3) = Read.val_main_v3 (F := F) x0 := by
    rw [← hV]; simp (disch := decide) only [nullary_result_ne', unary_result_ne', binary_result_ne', ternary_result_ne', reshape_result_ne', nary_result_ne']; exact f20_main_v3
  have f21_main_v4 : V21 (Proc.devRef .tc main_v4) = Read.val_main_v4 (F := F) x1 x4 x5 := by
    rw [← hV]; simp (disch := decide) only [nullary_result_ne', unary_result_ne', binary_result_ne', ternary_result_ne', reshape_result_ne', nary_result_ne']; exact f20_main_v4
  have f21_main_v5 : V21 (Proc.devRef .tc main_v5) = Read.val_main_v5 (F := F) x2 := by
    rw [← hV]; simp (disch := decide) only [nullary_result_ne', unary_result_ne', binary_result_ne', ternary_result_ne', reshape_result_ne', nary_result_ne']; exact f20_main_v5
  have f21_main_v6 : V21 (Proc.devRef .tc main_v6) = Read.val_main_v6 (F := F) x0 := by
    rw [← hV]; simp (disch := decide) only [nullary_result_ne', unary_result_ne', binary_result_ne', ternary_result_ne', reshape_result_ne', nary_result_ne']; exact f20_main_v6
  have f21_main_v7 : V21 (Proc.devRef .tc main_v7) = Read.val_main_v7 (F := F) x0 := by
    rw [← hV]; simp (disch := decide) only [nullary_result_ne', unary_result_ne', binary_result_ne', ternary_result_ne', reshape_result_ne', nary_result_ne']; exact f20_main_v7
  have f21_main_v8 : V21 (Proc.devRef .tc main_v8) = Read.val_main_v8 (F := F) x0 := by
    rw [← hV]; simp (disch := decide) only [nullary_result_ne', unary_result_ne', binary_result_ne', ternary_result_ne', reshape_result_ne', nary_result_ne']; exact f20_main_v8
  have f21_main_v9 : V21 (Proc.devRef .tc main_v9) = Read.val_main_v9 (F := F) x0 := by
    rw [← hV]; simp (disch := decide) only [nullary_result_ne', unary_result_ne', binary_result_ne', ternary_result_ne', reshape_result_ne', nary_result_ne']; exact f20_main_v9
  have f21_main_v10 : V21 (Proc.devRef .tc main_v10) = Read.val_main_v10 (F := F) x0 := by
    rw [← hV]; simp (disch := decide) only [nullary_result_ne', unary_result_ne', binary_result_ne', ternary_result_ne', reshape_result_ne', nary_result_ne']; exact f20_main_v10
  have f21_main_arg0 : V21 (Proc.devRef .tc main_arg0) = x0 := by
    rw [← hV]; simp (disch := decide) only [nullary_result_ne', unary_result_ne', binary_result_ne', ternary_result_ne', reshape_result_ne', nary_result_ne']; exact f20_main_arg0
  have f21_main_arg2 : V21 (Proc.devRef .tc main_arg2) = x2 := by
    rw [← hV]; simp (disch := decide) only [nullary_result_ne', unary_result_ne', binary_result_ne', ternary_result_ne', reshape_result_ne', nary_result_ne']; exact f20_main_arg2
  have f21_main_arg3 : V21 (Proc.devRef .tc main_arg3) = x3 := by
    rw [← hV]; simp (disch := decide) only [nullary_result_ne', unary_result_ne', binary_result_ne', ternary_result_ne', reshape_result_ne', nary_result_ne']; exact f20_main_arg3
  clear hV f20_main_v3 f20_main_v4 f20_main_v5 f20_main_v6 f20_main_v7 f20_main_v8 f20_main_v9 f20_main_v10 f20_main_arg0 f20_main_arg2 f20_main_arg3 V20
  -- operation 21: main_v12
  rw [after_cons]
  generalize hV : HloOp.result _ V21 = V22
  have f22_main_v12 : V22 (Proc.devRef .tc main_v12) = Read.val_main_v12 (F := F) x0 := by
    rw [← hV]; refine (unary_result _ _ _ _ _ _).trans ?_; unfold Read.val_main_v12
    rw [← f21_main_v3]
    all_goals rfl
  have f22_main_v3 : V22 (Proc.devRef .tc main_v3) = Read.val_main_v3 (F := F) x0 := by
    rw [← hV]; simp (disch := decide) only [nullary_result_ne', unary_result_ne', binary_result_ne', ternary_result_ne', reshape_result_ne', nary_result_ne']; exact f21_main_v3
  have f22_main_v4 : V22 (Proc.devRef .tc main_v4) = Read.val_main_v4 (F := F) x1 x4 x5 := by
    rw [← hV]; simp (disch := decide) only [nullary_result_ne', unary_result_ne', binary_result_ne', ternary_result_ne', reshape_result_ne', nary_result_ne']; exact f21_main_v4
  have f22_main_v5 : V22 (Proc.devRef .tc main_v5) = Read.val_main_v5 (F := F) x2 := by
    rw [← hV]; simp (disch := decide) only [nullary_result_ne', unary_result_ne', binary_result_ne', ternary_result_ne', reshape_result_ne', nary_result_ne']; exact f21_main_v5
  have f22_main_v6 : V22 (Proc.devRef .tc main_v6) = Read.val_main_v6 (F := F) x0 := by
    rw [← hV]; simp (disch := decide) only [nullary_result_ne', unary_result_ne', binary_result_ne', ternary_result_ne', reshape_result_ne', nary_result_ne']; exact f21_main_v6
  have f22_main_v7 : V22 (Proc.devRef .tc main_v7) = Read.val_main_v7 (F := F) x0 := by
    rw [← hV]; simp (disch := decide) only [nullary_result_ne', unary_result_ne', binary_result_ne', ternary_result_ne', reshape_result_ne', nary_result_ne']; exact f21_main_v7
  have f22_main_v8 : V22 (Proc.devRef .tc main_v8) = Read.val_main_v8 (F := F) x0 := by
    rw [← hV]; simp (disch := decide) only [nullary_result_ne', unary_result_ne', binary_result_ne', ternary_result_ne', reshape_result_ne', nary_result_ne']; exact f21_main_v8
  have f22_main_v9 : V22 (Proc.devRef .tc main_v9) = Read.val_main_v9 (F := F) x0 := by
    rw [← hV]; simp (disch := decide) only [nullary_result_ne', unary_result_ne', binary_result_ne', ternary_result_ne', reshape_result_ne', nary_result_ne']; exact f21_main_v9
  have f22_main_v10 : V22 (Proc.devRef .tc main_v10) = Read.val_main_v10 (F := F) x0 := by
    rw [← hV]; simp (disch := decide) only [nullary_result_ne', unary_result_ne', binary_result_ne', ternary_result_ne', reshape_result_ne', nary_result_ne']; exact f21_main_v10
  have f22_main_v11 : V22 (Proc.devRef .tc main_v11) = Read.val_main_v11 (F := F) x0 := by
    rw [← hV]; simp (disch := decide) only [nullary_result_ne', unary_result_ne', binary_result_ne', ternary_result_ne', reshape_result_ne', nary_result_ne']; exact f21_main_v11
  have f22_main_arg0 : V22 (Proc.devRef .tc main_arg0) = x0 := by
    rw [← hV]; simp (disch := decide) only [nullary_result_ne', unary_result_ne', binary_result_ne', ternary_result_ne', reshape_result_ne', nary_result_ne']; exact f21_main_arg0
  have f22_main_arg2 : V22 (Proc.devRef .tc main_arg2) = x2 := by
    rw [← hV]; simp (disch := decide) only [nullary_result_ne', unary_result_ne', binary_result_ne', ternary_result_ne', reshape_result_ne', nary_result_ne']; exact f21_main_arg2
  have f22_main_arg3 : V22 (Proc.devRef .tc main_arg3) = x3 := by
    rw [← hV]; simp (disch := decide) only [nullary_result_ne', unary_result_ne', binary_result_ne', ternary_result_ne', reshape_result_ne', nary_result_ne']; exact f21_main_arg3
  clear hV f21_main_v3 f21_main_v4 f21_main_v5 f21_main_v6 f21_main_v7 f21_main_v8 f21_main_v9 f21_main_v10 f21_main_v11 f21_main_arg0 f21_main_arg2 f21_main_arg3 V21
  -- operation 22: main_v13
  rw [after_cons]
  generalize hV : HloOp.result _ V22 = V23
  have f23_main_v13 : V23 (Proc.devRef .tc main_v13) = Read.val_main_v13 (F := F) x0 := by
    rw [← hV]; refine (unary_result _ _ _ _ _ _).trans ?_; unfold Read.val_main_v13
    rw [← f22_main_v3]
    all_goals rfl
  have f23_main_v3 : V23 (Proc.devRef .tc main_v3) = Read.val_main_v3 (F := F) x0 := by
    rw [← hV]; simp (disch := decide) only [nullary_result_ne', unary_result_ne', binary_result_ne', ternary_result_ne', reshape_result_ne', nary_result_ne']; exact f22_main_v3
  have f23_main_v4 : V23 (Proc.devRef .tc main_v4) = Read.val_main_v4 (F := F) x1 x4 x5 := by
    rw [← hV]; simp (disch := decide) only [nullary_result_ne', unary_result_ne', binary_result_ne', ternary_result_ne', reshape_result_ne', nary_result_ne']; exact f22_main_v4
  have f23_main_v5 : V23 (Proc.devRef .tc main_v5) = Read.val_main_v5 (F := F) x2 := by
    rw [← hV]; simp (disch := decide) only [nullary_result_ne', unary_result_ne', binary_result_ne', ternary_result_ne', reshape_result_ne', nary_result_ne']; exact f22_main_v5
  have f23_main_v6 : V23 (Proc.devRef .tc main_v6) = Read.val_main_v6 (F := F) x0 := by
    rw [← hV]; simp (disch := decide) only [nullary_result_ne', unary_result_ne', binary_result_ne', ternary_result_ne', reshape_result_ne', nary_result_ne']; exact f22_main_v6
  have f23_main_v7 : V23 (Proc.devRef .tc main_v7) = Read.val_main_v7 (F := F) x0 := by
    rw [← hV]; simp (disch := decide) only [nullary_result_ne', unary_result_ne', binary_result_ne', ternary_result_ne', reshape_result_ne', nary_result_ne']; exact f22_main_v7
  have f23_main_v8 : V23 (Proc.devRef .tc main_v8) = Read.val_main_v8 (F := F) x0 := by
    rw [← hV]; simp (disch := decide) only [nullary_result_ne', unary_result_ne', binary_result_ne', ternary_result_ne', reshape_result_ne', nary_result_ne']; exact f22_main_v8
  have f23_main_v9 : V23 (Proc.devRef .tc main_v9) = Read.val_main_v9 (F := F) x0 := by
    rw [← hV]; simp (disch := decide) only [nullary_result_ne', unary_result_ne', binary_result_ne', ternary_result_ne', reshape_result_ne', nary_result_ne']; exact f22_main_v9
  have f23_main_v10 : V23 (Proc.devRef .tc main_v10) = Read.val_main_v10 (F := F) x0 := by
    rw [← hV]; simp (disch := decide) only [nullary_result_ne', unary_result_ne', binary_result_ne', ternary_result_ne', reshape_result_ne', nary_result_ne']; exact f22_main_v10
  have f23_main_v11 : V23 (Proc.devRef .tc main_v11) = Read.val_main_v11 (F := F) x0 := by
    rw [← hV]; simp (disch := decide) only [nullary_result_ne', unary_result_ne', binary_result_ne', ternary_result_ne', reshape_result_ne', nary_result_ne']; exact f22_main_v11
  have f23_main_v12 : V23 (Proc.devRef .tc main_v12) = Read.val_main_v12 (F := F) x0 := by
    rw [← hV]; simp (disch := decide) only [nullary_result_ne', unary_result_ne', binary_result_ne', ternary_result_ne', reshape_result_ne', nary_result_ne']; exact f22_main_v12
  have f23_main_arg0 : V23 (Proc.devRef .tc main_arg0) = x0 := by
    rw [← hV]; simp (disch := decide) only [nullary_result_ne', unary_result_ne', binary_result_ne', ternary_result_ne', reshape_result_ne', nary_result_ne']; exact f22_main_arg0
  have f23_main_arg2 : V23 (Proc.devRef .tc main_arg2) = x2 := by
    rw [← hV]; simp (disch := decide) only [nullary_result_ne', unary_result_ne', binary_result_ne', ternary_result_ne', reshape_result_ne', nary_result_ne']; exact f22_main_arg2
  have f23_main_arg3 : V23 (Proc.devRef .tc main_arg3) = x3 := by
    rw [← hV]; simp (disch := decide) only [nullary_result_ne', unary_result_ne', binary_result_ne', ternary_result_ne', reshape_result_ne', nary_result_ne']; exact f22_main_arg3
  clear hV f22_main_v3 f22_main_v4 f22_main_v5 f22_main_v6 f22_main_v7 f22_main_v8 f22_main_v9 f22_main_v10 f22_main_v11 f22_main_v12 f22_main_arg0 f22_main_arg2 f22_main_arg3 V22
  -- operation 23: main_v14
  rw [after_cons]
  generalize hV : HloOp.result _ V23 = V24
  have f24_main_v14 : V24 (Proc.devRef .tc main_v14) = Read.val_main_v14 (F := F) x0 := by
    rw [← hV]; refine (unary_result _ _ _ _ _ _).trans ?_; unfold Read.val_main_v14
    rw [← f23_main_v3]
    all_goals rfl
  have f24_main_v4 : V24 (Proc.devRef .tc main_v4) = Read.val_main_v4 (F := F) x1 x4 x5 := by
    rw [← hV]; simp (disch := decide) only [nullary_result_ne', unary_result_ne', binary_result_ne', ternary_result_ne', reshape_result_ne', nary_result_ne']; exact f23_main_v4
  have f24_main_v5 : V24 (Proc.devRef .tc main_v5) = Read.val_main_v5 (F := F) x2 := by
    rw [← hV]; simp (disch := decide) only [nullary_result_ne', unary_result_ne', binary_result_ne', ternary_result_ne', reshape_result_ne', nary_result_ne']; exact f23_main_v5
  have f24_main_v6 : V24 (Proc.devRef .tc main_v6) = Read.val_main_v6 (F := F) x0 := by
    rw [← hV]; simp (disch := decide) only [nullary_result_ne', unary_result_ne', binary_result_ne', ternary_result_ne', reshape_result_ne', nary_result_ne']; exact f23_main_v6
  have f24_main_v7 : V24 (Proc.devRef .tc main_v7) = Read.val_main_v7 (F := F) x0 := by
    rw [← hV]; simp (disch := decide) only [nullary_result_ne', unary_result_ne', binary_result_ne', ternary_result_ne', reshape_result_ne', nary_result_ne']; exact f23_main_v7
  have f24_main_v8 : V24 (Proc.devRef .tc main_v8) = Read.val_main_v8 (F := F) x0 := by
    rw [← hV]; simp (disch := decide) only [nullary_result_ne', unary_result_ne', binary_result_ne', ternary_result_ne', reshape_result_ne', nary_result_ne']; exact f23_main_v8
  have f24_main_v9 : V24 (Proc.devRef .tc main_v9) = Read.val_main_v9 (F := F) x0 := by
    rw [← hV]; simp (disch := decide) only [nullary_result_ne', unary_result_ne', binary_result_ne', ternary_result_ne', reshape_result_ne', nary_result_ne']; exact f23_main_v9
  have f24_main_v10 : V24 (Proc.devRef .tc main_v10) = Read.val_main_v10 (F := F) x0 := by
    rw [← hV]; simp (disch := decide) only [nullary_result_ne', unary_result_ne', binary_result_ne', ternary_result_ne', reshape_result_ne', nary_result_ne']; exact f23_main_v10
  have f24_main_v11 : V24 (Proc.devRef .tc main_v11) = Read.val_main_v11 (F := F) x0 := by
    rw [← hV]; simp (disch := decide) only [nullary_result_ne', unary_result_ne', binary_result_ne', ternary_result_ne', reshape_result_ne', nary_result_ne']; exact f23_main_v11
  have f24_main_v12 : V24 (Proc.devRef .tc main_v12) = Read.val_main_v12 (F := F) x0 := by
    rw [← hV]; simp (disch := decide) only [nullary_result_ne', unary_result_ne', binary_result_ne', ternary_result_ne', reshape_result_ne', nary_result_ne']; exact f23_main_v12
  have f24_main_v13 : V24 (Proc.devRef .tc main_v13) = Read.val_main_v13 (F := F) x0 := by
    rw [← hV]; simp (disch := decide) only [nullary_result_ne', unary_result_ne', binary_result_ne', ternary_result_ne', reshape_result_ne', nary_result_ne']; exact f23_main_v13
  have f24_main_arg0 : V24 (Proc.devRef .tc main_arg0) = x0 := by
    rw [← hV]; simp (disch := decide) only [nullary_result_ne', unary_result_ne', binary_result_ne', ternary_result_ne', reshape_result_ne', nary_result_ne']; exact f23_main_arg0
  have f24_main_arg2 : V24 (Proc.devRef .tc main_arg2) = x2 := by
    rw [← hV]; simp (disch := decide) only [nullary_result_ne', unary_result_ne', binary_result_ne', ternary_result_ne', reshape_result_ne', nary_result_ne']; exact f23_main_arg2
  have f24_main_arg3 : V24 (Proc.devRef .tc main_arg3) = x3 := by
    rw [← hV]; simp (disch := decide) only [nullary_result_ne', unary_result_ne', binary_result_ne', ternary_result_ne', reshape_result_ne', nary_result_ne']; exact f23_main_arg3
  clear hV f23_main_v3 f23_main_v4 f23_main_v5 f23_main_v6 f23_main_v7 f23_main_v8 f23_main_v9 f23_main_v10 f23_main_v11 f23_main_v12 f23_main_v13 f23_main_arg0 f23_main_arg2 f23_main_arg3 V23
  -- operation 24: main_v15
  rw [after_cons]
  generalize hV : HloOp.result _ V24 = V25
  have f25_main_v15 : V25 (Proc.devRef .tc main_v15) = Read.val_main_v15 (F := F) x0 := by
    rw [← hV]; refine (unary_result _ _ _ _ _ _).trans ?_; unfold Read.val_main_v15
    rw [← f24_main_v6]
    all_goals rfl
  have f25_main_v4 : V25 (Proc.devRef .tc main_v4) = Read.val_main_v4 (F := F) x1 x4 x5 := by
    rw [← hV]; simp (disch := decide) only [nullary_result_ne', unary_result_ne', binary_result_ne', ternary_result_ne', reshape_result_ne', nary_result_ne']; exact f24_main_v4
  have f25_main_v5 : V25 (Proc.devRef .tc main_v5) = Read.val_main_v5 (F := F) x2 := by
    rw [← hV]; simp (disch := decide) only [nullary_result_ne', unary_result_ne', binary_result_ne', ternary_result_ne', reshape_result_ne', nary_result_ne']; exact f24_main_v5
  have f25_main_v7 : V25 (Proc.devRef .tc main_v7) = Read.val_main_v7 (F := F) x0 := by
    rw [← hV]; simp (disch := decide) only [nullary_result_ne', unary_result_ne', binary_result_ne', ternary_result_ne', reshape_result_ne', nary_result_ne']; exact f24_main_v7
  have f25_main_v8 : V25 (Proc.devRef .tc main_v8) = Read.val_main_v8 (F := F) x0 := by
    rw [← hV]; simp (disch := decide) only [nullary_result_ne', unary_result_ne', binary_result_ne', ternary_result_ne', reshape_result_ne', nary_result_ne']; exact f24_main_v8
  have f25_main_v9 : V25 (Proc.devRef .tc main_v9) = Read.val_main_v9 (F := F) x0 := by
    rw [← hV]; simp (disch := decide) only [nullary_result_ne', unary_result_ne', binary_result_ne', ternary_result_ne', reshape_result_ne', nary_result_ne']; exact f24_main_v9
  have f25_main_v10 : V25 (Proc.devRef .tc main_v10) = Read.val_main_v10 (F := F) x0 := by
    rw [← hV]; simp (disch := decide) only [nullary_result_ne', unary_result_ne', binary_result_ne', ternary_result_ne', reshape_result_ne', nary_result_ne']; exact f24_main_v10
  have f25_main_v11 : V25 (Proc.devRef .tc main_v11) = Read.val_main_v11 (F := F) x0 := by
    rw [← hV]; simp (disch := decide) only [nullary_result_ne', unary_result_ne', binary_result_ne', ternary_result_ne', reshape_result_ne', nary_result_ne']; exact f24_main_v11
  have f25_main_v12 : V25 (Proc.devRef .tc main_v12) = Read.val_main_v12 (F := F) x0 := by
    rw [← hV]; simp (disch := decide) only [nullary_result_ne', unary_result_ne', binary_result_ne', ternary_result_ne', reshape_result_ne', nary_result_ne']; exact f24_main_v12
  have f25_main_v13 : V25 (Proc.devRef .tc main_v13) = Read.val_main_v13 (F := F) x0 := by
    rw [← hV]; simp (disch := decide) only [nullary_result_ne', unary_result_ne', binary_result_ne', ternary_result_ne', reshape_result_ne', nary_result_ne']; exact f24_main_v13
  have f25_main_v14 : V25 (Proc.devRef .tc main_v14) = Read.val_main_v14 (F := F) x0 := by
    rw [← hV]; simp (disch := decide) only [nullary_result_ne', unary_result_ne', binary_result_ne', ternary_result_ne', reshape_result_ne', nary_result_ne']; exact f24_main_v14
  have f25_main_arg0 : V25 (Proc.devRef .tc main_arg0) = x0 := by
    rw [← hV]; simp (disch := decide) only [nullary_result_ne', unary_result_ne', binary_result_ne', ternary_result_ne', reshape_result_ne', nary_result_ne']; exact f24_main_arg0
  have f25_main_arg2 : V25 (Proc.devRef .tc main_arg2) = x2 := by
    rw [← hV]; simp (disch := decide) only [nullary_result_ne', unary_result_ne', binary_result_ne', ternary_result_ne', reshape_result_ne', nary_result_ne']; exact f24_main_arg2
  have f25_main_arg3 : V25 (Proc.devRef .tc main_arg3) = x3 := by
    rw [← hV]; simp (disch := decide) only [nullary_result_ne', unary_result_ne', binary_result_ne', ternary_result_ne', reshape_result_ne', nary_result_ne']; exact f24_main_arg3
  clear hV f24_main_v4 f24_main_v5 f24_main_v6 f24_main_v7 f24_main_v8 f24_main_v9 f24_main_v10 f24_main_v11 f24_main_v12 f24_main_v13 f24_main_v14 f24_main_arg0 f24_main_arg2 f24_main_arg3 V24
  -- operation 25: main_v16
  rw [after_cons]
  generalize hV : HloOp.result _ V25 = V26
  have f26_main_v16 : V26 (Proc.devRef .tc main_v16) = Read.val_main_v16 (F := F) x0 := by
    rw [← hV]; refine (unary_result _ _ _ _ _ _).trans ?_; unfold Read.val_main_v16
    rw [← f25_main_v7]
    all_goals rfl
  have f26_main_v4 : V26 (Proc.devRef .tc main_v4) = Read.val_main_v4 (F := F) x1 x4 x5 := by
    rw [← hV]; simp (disch := decide) only [nullary_result_ne', unary_result_ne', binary_result_ne', ternary_result_ne', reshape_result_ne', nary_result_ne']; exact f25_main_v4
  have f26_main_v5 : V26 (Proc.devRef .tc main_v5) = Read.val_main_v5 (F := F) x2 := by
    rw [← hV]; simp (disch := decide) only [nullary_result_ne', unary_result_ne', binary_result_ne', ternary_result_ne', reshape_result_ne', nary_result_ne']; exact f25_main_v5
  have f26_main_v8 : V26 (Proc.devRef .tc main_v8) = Read.val_main_v8 (F := F) x0 := by
    rw [← hV]; simp (disch := decide) only [nullary_result_ne', unary_result_ne', binary_result_ne', ternary_result_ne', reshape_result_ne', nary_result_ne']; exact f25_main_v8
  have f26_main_v9 : V26 (Proc.devRef .tc main_v9) = Read.val_main_v9 (F := F) x0 := by
    rw [← hV]; simp (disch := decide) only [nullary_result_ne', unary_result_ne', binary_result_ne', ternary_result_ne', reshape_result_ne', nary_result_ne']; exact f25_main_v9
  have f26_main_v10 : V26 (Proc.devRef .tc main_v10) = Read.val_main_v10 (F := F) x0 := by
    rw [← hV]; simp (disch := decide) only [nullary_result_ne', unary_result_ne', binary_result_ne', ternary_result_ne', reshape_result_ne', nary_result_ne']; exact f25_main_v10
  have f26_main_v11 : V26 (Proc.devRef .tc main_v11) = Read.val_main_v11 (F := F) x0 := by
    rw [← hV]; simp (disch := decide) only [nullary_result_ne', unary_result_ne', binary_result_ne', ternary_result_ne', reshape_result_ne', nary_result_ne']; exact f25_main_v11
  have f26_main_v12 : V26 (Proc.devRef .tc main_v12) = Read.val_main_v12 (F := F) x0 := by
    rw [← hV]; simp (disch := decide) only [nullary_result_ne', unary_result_ne', binary_result_ne', ternary_result_ne', reshape_result_ne', nary_result_ne']; exact f25_main_v12
  have f26_main_v13 : V26 (Proc.devRef .tc main_v13) = Read.val_main_v13 (F := F) x0 := by
    rw [← hV]; simp (disch := decide) only [nullary_result_ne', unary_result_ne', binary_result_ne', ternary_result_ne', reshape_result_ne', nary_result_ne']; exact f25_main_v13
  have f26_main_v14 : V26 (Proc.devRef .tc main_v14) = Read.val_main_v14 (F := F) x0 := by
    rw [← hV]; simp (disch := decide) only [nullary_result_ne', unary_result_ne', binary_result_ne', ternary_result_ne', reshape_result_ne', nary_result_ne']; exact f25_main_v14
  have f26_main_v15 : V26 (Proc.devRef .tc main_v15) = Read.val_main_v15 (F := F) x0 := by
    rw [← hV]; simp (disch := decide) only [nullary_result_ne', unary_result_ne', binary_result_ne', ternary_result_ne', reshape_result_ne', nary_result_ne']; exact f25_main_v15
  have f26_main_arg0 : V26 (Proc.devRef .tc main_arg0) = x0 := by
    rw [← hV]; simp (disch := decide) only [nullary_result_ne', unary_result_ne', binary_result_ne', ternary_result_ne', reshape_result_ne', nary_result_ne']; exact f25_main_arg0
  have f26_main_arg2 : V26 (Proc.devRef .tc main_arg2) = x2 := by
    rw [← hV]; simp (disch := decide) only [nullary_result_ne', unary_result_ne', binary_result_ne', ternary_result_ne', reshape_result_ne', nary_result_ne']; exact f25_main_arg2
  have f26_main_arg3 : V26 (Proc.devRef .tc main_arg3) = x3 := by
    rw [← hV]; simp (disch := decide) only [nullary_result_ne', unary_result_ne', binary_result_ne', ternary_result_ne', reshape_result_ne', nary_result_ne']; exact f25_main_arg3
  clear hV f25_main_v4 f25_main_v5 f25_main_v7 f25_main_v8 f25_main_v9 f25_main_v10 f25_main_v11 f25_main_v12 f25_main_v13 f25_main_v14 f25_main_v15 f25_main_arg0 f25_main_arg2 f25_main_arg3 V25
  -- operation 26: main_v17
  rw [after_cons]
  generalize hV : HloOp.result _ V26 = V27
  have f27_main_v17 : V27 (Proc.devRef .tc main_v17) = Read.val_main_v17 (F := F) x0 := by
    rw [← hV]; refine (unary_result _ _ _ _ _ _).trans ?_; unfold Read.val_main_v17
    rw [← f26_main_v8]
    all_goals rfl
  have f27_main_v4 : V27 (Proc.devRef .tc main_v4) = Read.val_main_v4 (F := F) x1 x4 x5 := by
    rw [← hV]; simp (disch := decide) only [nullary_result_ne', unary_result_ne', binary_result_ne', ternary_result_ne', reshape_result_ne', nary_result_ne']; exact f26_main_v4
  have f27_main_v5 : V27 (Proc.devRef .tc main_v5) = Read.val_main_v5 (F := F) x2 := by
    rw [← hV]; simp (disch := decide) only [nullary_result_ne', unary_result_ne', binary_result_ne', ternary_result_ne', reshape_result_ne', nary_result_ne']; exact f26_main_v5
  have f27_main_v9 : V27 (Proc.devRef .tc main_v9) = Read.val_main_v9 (F := F) x0 := by
    rw [← hV]; simp (disch := decide) only [nullary_result_ne', unary_result_ne', binary_result_ne', ternary_result_ne', reshape_result_ne', nary_result_ne']; exact f26_main_v9
  have f27_main_v10 : V27 (Proc.devRef .tc main_v10) = Read.val_main_v10 (F := F) x0 := by
    rw [← hV]; simp (disch := decide) only [nullary_result_ne', unary_result_ne', binary_result_ne', ternary_result_ne', reshape_result_ne', nary_result_ne']; exact f26_main_v10
  have f27_main_v11 : V27 (Proc.devRef .tc main_v11) = Read.val_main_v11 (F := F) x0 := by
    rw [← hV]; simp (disch := decide) only [nullary_result_ne', unary_result_ne', binary_result_ne', ternary_result_ne', reshape_result_ne', nary_result_ne']; exact f26_main_v11
  have f27_main_v12 : V27 (Proc.devRef .tc main_v12) = Read.val_main_v12 (F := F) x0 := by
    rw [← hV]; simp (disch := decide) only [nullary_result_ne', unary_result_ne', binary_result_ne', ternary_result_ne', reshape_result_ne', nary_result_ne']; exact f26_main_v12
  have f27_main_v13 : V27 (Proc.devRef .tc main_v13) = Read.val_main_v13 (F := F) x0 := by
    rw [← hV]; simp (disch := decide) only [nullary_result_ne', unary_result_ne', binary_result_ne', ternary_result_ne', reshape_result_ne', nary_result_ne']; exact f26_main_v13
  have f27_main_v14 : V27 (Proc.devRef .tc main_v14) = Read.val_main_v14 (F := F) x0 := by
    rw [← hV]; simp (disch := decide) only [nullary_result_ne', unary_result_ne', binary_result_ne', ternary_result_ne', reshape_result_ne', nary_result_ne']; exact f26_main_v14
  have f27_main_v15 : V27 (Proc.devRef .tc main_v15) = Read.val_main_v15 (F := F) x0 := by
    rw [← hV]; simp (disch := decide) only [nullary_result_ne', unary_result_ne', binary_result_ne', ternary_result_ne', reshape_result_ne', nary_result_ne']; exact f26_main_v15
  have f27_main_v16 : V27 (Proc.devRef .tc main_v16) = Read.val_main_v16 (F := F) x0 := by
    rw [← hV]; simp (disch := decide) only [nullary_result_ne', unary_result_ne', binary_result_ne', ternary_result_ne', reshape_result_ne', nary_result_ne']; exact f26_main_v16
  have f27_main_arg0 : V27 (Proc.devRef .tc main_arg0) = x0 := by
    rw [← hV]; simp (disch := decide) only [nullary_result_ne', unary_result_ne', binary_result_ne', ternary_result_ne', reshape_result_ne', nary_result_ne']; exact f26_main_arg0
  have f27_main_arg2 : V27 (Proc.devRef .tc main_arg2) = x2 := by
    rw [← hV]; simp (disch := decide) only [nullary_result_ne', unary_result_ne', binary_result_ne', ternary_result_ne', reshape_result_ne', nary_result_ne']; exact f26_main_arg2
  have f27_main_arg3 : V27 (Proc.devRef .tc main_arg3) = x3 := by
    rw [← hV]; simp (disch := decide) only [nullary_result_ne', unary_result_ne', binary_result_ne', ternary_result_ne', reshape_result_ne', nary_result_ne']; exact f26_main_arg3
  clear hV f26_main_v4 f26_main_v5 f26_main_v8 f26_main_v9 f26_main_v10 f26_main_v11 f26_main_v12 f26_main_v13 f26_main_v14 f26_main_v15 f26_main_v16 f26_main_arg0 f26_main_arg2 f26_main_arg3 V26
  -- operation 27: main_v18
  rw [after_cons]
  generalize hV : HloOp.result _ V27 = V28
  have f28_main_v18 : V28 (Proc.devRef .tc main_v18) = Read.val_main_v18 (F := F) x0 := by
    rw [← hV]; refine (unary_result _ _ _ _ _ _).trans ?_; unfold Read.val_main_v18
    rw [← f27_main_v9]
    all_goals rfl
  have f28_main_v4 : V28 (Proc.devRef .tc main_v4) = Read.val_main_v4 (F := F) x1 x4 x5 := by
    rw [← hV]; simp (disch := decide) only [nullary_result_ne', unary_result_ne', binary_result_ne', ternary_result_ne', reshape_result_ne', nary_result_ne']; exact f27_main_v4
  have f28_main_v5 : V28 (Proc.devRef .tc main_v5) = Read.val_main_v5 (F := F) x2 := by
    rw [← hV]; simp (disch := decide) only [nullary_result_ne', unary_result_ne', binary_result_ne', ternary_result_ne', reshape_result_ne', nary_result_ne']; exact f27_main_v5
  have f28_main_v10 : V28 (Proc.devRef .tc main_v10) = Read.val_main_v10 (F := F) x0 := by
    rw [← hV]; simp (disch := decide) only [nullary_result_ne', unary_result_ne', binary_result_ne', ternary_result_ne', reshape_result_ne', nary_result_ne']; exact f27_main_v10
  have f28_main_v11 : V28 (Proc.devRef .tc main_v11) = Read.val_main_v11 (F := F) x0 := by
    rw [← hV]; simp (disch := decide) only [nullary_result_ne', unary_result_ne', binary_result_ne', ternary_result_ne', reshape_result_ne', nary_result_ne']; exact f27_main_v11
  have f28_main_v12 : V28 (Proc.devRef .tc main_v12) = Read.val_main_v12 (F := F) x0 := by
    rw [← hV]; simp (disch := decide) only [nullary_result_ne', unary_result_ne', binary_result_ne', ternary_result_ne', reshape_result_ne', nary_result_ne']; exact f27_main_v12
  have f28_main_v13 : V28 (Proc.devRef .tc main_v13) = Read.val_main_v13 (F := F) x0 := by
    rw [← hV]; simp (disch := decide) only [nullary_result_ne', unary_result_ne', binary_result_ne', ternary_result_ne', reshape_result_ne', nary_result_ne']; exact f27_main_v13
  have f28_main_v14 : V28 (Proc.devRef .tc main_v14) = Read.val_main_v14 (F := F) x0 := by
    rw [← hV]; simp (disch := decide) only [nullary_result_ne', unary_result_ne', binary_result_ne', ternary_result_ne', reshape_result_ne', nary_result_ne']; exact f27_main_v14
  have f28_main_v15 : V28 (Proc.devRef .tc main_v15) = Read.val_main_v15 (F := F) x0 := by
    rw [← hV]; simp (disch := decide) only [nullary_result_ne', unary_result_ne', binary_result_ne', ternary_result_ne', reshape_result_ne', nary_result_ne']; exact f27_main_v15
  have f28_main_v16 : V28 (Proc.devRef .tc main_v16) = Read.val_main_v16 (F := F) x0 := by
    rw [← hV]; simp (disch := decide) only [nullary_result_ne', unary_result_ne', binary_result_ne', ternary_result_ne', reshape_result_ne', nary_result_ne']; exact f27_main_v16
  have f28_main_v17 : V28 (Proc.devRef .tc main_v17) = Read.val_main_v17 (F := F) x0 := by
    rw [← hV]; simp (disch := decide) only [nullary_result_ne', unary_result_ne', binary_result_ne', ternary_result_ne', reshape_result_ne', nary_result_ne']; exact f27_main_v17
  have f28_main_arg0 : V28 (Proc.devRef .tc main_arg0) = x0 := by
    rw [← hV]; simp (disch := decide) only [nullary_result_ne', unary_result_ne', binary_result_ne', ternary_result_ne', reshape_result_ne', nary_result_ne']; exact f27_main_arg0
  have f28_main_arg2 : V28 (Proc.devRef .tc main_arg2) = x2 := by
    rw [← hV]; simp (disch := decide) only [nullary_result_ne', unary_result_ne', binary_result_ne', ternary_result_ne', reshape_result_ne', nary_result_ne']; exact f27_main_arg2
  have f28_main_arg3 : V28 (Proc.devRef .tc main_arg3) = x3 := by
    rw [← hV]; simp (disch := decide) only [nullary_result_ne', unary_result_ne', binary_result_ne', ternary_result_ne', reshape_result_ne', nary_result_ne']; exact f27_main_arg3
  clear hV f27_main_v4 f27_main_v5 f27_main_v9 f27_main_v10 f27_main_v11 f27_main_v12 f27_main_v13 f27_main_v14 f27_main_v15 f27_main_v16 f27_main_v17 f27_main_arg0 f27_main_arg2 f27_main_arg3 V27
  -- operation 28: main_v19
  rw [after_cons]
  generalize hV : HloOp.result _ V28 = V29
  have f29_main_v19 : V29 (Proc.devRef .tc main_v19) = Read.val_main_v19 (F := F) x0 := by
    rw [← hV]; refine (unary_result _ _ _ _ _ _).trans ?_; unfold Read.val_main_v19
    rw [← f28_main_v10]
    all_goals rfl
  have f29_main_v4 : V29 (Proc.devRef .tc main_v4) = Read.val_main_v4 (F := F) x1 x4 x5 := by
    rw [← hV]; simp (disch := decide) only [nullary_result_ne', unary_result_ne', binary_result_ne', ternary_result_ne', reshape_result_ne', nary_result_ne']; exact f28_main_v4
  have f29_main_v5 : V29 (Proc.devRef .tc main_v5) = Read.val_main_v5 (F := F) x2 := by
    rw [← hV]; simp (disch := decide) only [nullary_result_ne', unary_result_ne', binary_result_ne', ternary_result_ne', reshape_result_ne', nary_result_ne']; exact f28_main_v5
  have f29_main_v11 : V29 (Proc.devRef .tc main_v11) = Read.val_main_v11 (F := F) x0 := by
    rw [← hV]; simp (disch := decide) only [nullary_result_ne', unary_result_ne', binary_result_ne', ternary_result_ne', reshape_result_ne', nary_result_ne']; exact f28_main_v11
  have f29_main_v12 : V29 (Proc.devRef .tc main_v12) = Read.val_main_v12 (F := F) x0 := by
    rw [← hV]; simp (disch := decide) only [nullary_result_ne', unary_result_ne', binary_result_ne', ternary_result_ne', reshape_result_ne', nary_result_ne']; exact f28_main_v12
  have f29_main_v13 : V29 (Proc.devRef .tc main_v13) = Read.val_main_v13 (F := F) x0 := by
    rw [← hV]; simp (disch := decide) only [nullary_result_ne', unary_result_ne', binary_result_ne', ternary_result_ne', reshape_result_ne', nary_result_ne']; exact f28_main_v13
  have f29_main_v14 : V29 (Proc.devRef .tc main_v14) = Read.val_main_v14 (F := F) x0 := by
    rw [← hV]; simp (disch := decide) only [nullary_result_ne', unary_result_ne', binary_result_ne', ternary_result_ne', reshape_result_ne', nary_result_ne']; exact f28_main_v14
  have f29_main_v15 : V29 (Proc.devRef .tc main_v15) = Read.val_main_v15 (F := F) x0 := by
    rw [← hV]; simp (disch := decide) only [nullary_result_ne', unary_result_ne', binary_result_ne', ternary_result_ne', reshape_result_ne', nary_result_ne']; exact f28_main_v15
  have f29_main_v16 : V29 (Proc.devRef .tc main_v16) = Read.val_main_v16 (F := F) x0 := by
    rw [← hV]; simp (disch := decide) only [nullary_result_ne', unary_result_ne', binary_result_ne', ternary_result_ne', reshape_result_ne', nary_result_ne']; exact f28_main_v16
  have f29_main_v17 : V29 (Proc.devRef .tc main_v17) = Read.val_main_v17 (F := F) x0 := by
    rw [← hV]; simp (disch := decide) only [nullary_result_ne', unary_result_ne', binary_result_ne', ternary_result_ne', reshape_result_ne', nary_result_ne']; exact f28_main_v17
  have f29_main_v18 : V29 (Proc.devRef .tc main_v18) = Read.val_main_v18 (F := F) x0 := by
    rw [← hV]; simp (disch := decide) only [nullary_result_ne', unary_result_ne', binary_result_ne', ternary_result_ne', reshape_result_ne', nary_result_ne']; exact f28_main_v18
  have f29_main_arg0 : V29 (Proc.devRef .tc main_arg0) = x0 := by
    rw [← hV]; simp (disch := decide) only [nullary_result_ne', unary_result_ne', binary_result_ne', ternary_result_ne', reshape_result_ne', nary_result_ne']; exact f28_main_arg0
  have f29_main_arg2 : V29 (Proc.devRef .tc main_arg2) = x2 := by
    rw [← hV]; simp (disch := decide) only [nullary_result_ne', unary_result_ne', binary_result_ne', ternary_result_ne', reshape_result_ne', nary_result_ne']; exact f28_main_arg2
  have f29_main_arg3 : V29 (Proc.devRef .tc main_arg3) = x3 := by
    rw [← hV]; simp (disch := decide) only [nullary_result_ne', unary_result_ne', binary_result_ne', ternary_result_ne', reshape_result_ne', nary_result_ne']; exact f28_main_arg3
  clear hV f28_main_v4 f28_main_v5 f28_main_v10 f28_main_v11 f28_main_v12 f28_main_v13 f28_main_v14 f28_main_v15 f28_main_v16 f28_main_v17 f28_main_v18 f28_main_arg0 f28_main_arg2 f28_main_arg3 V28
  -- operation 29: main_v20
  rw [after_cons]
  generalize hV : HloOp.result _ V29 = V30
  have f30_main_v20 : V30 (Proc.devRef .tc main_v20) = Read.val_main_v20 (F := F) x0 := by
    rw [← hV]; refine (unary_result _ _ _ _ _ _).trans ?_; unfold Read.val_main_v20
    rw [← f29_main_v11]
    all_goals rfl
  have f30_main_v4 : V30 (Proc.devRef .tc main_v4) = Read.val_main_v4 (F := F) x1 x4 x5 := by
    rw [← hV]; simp (disch := decide) only [nullary_result_ne', unary_result_ne', binary_result_ne', ternary_result_ne', reshape_result_ne', nary_result_ne']; exact f29_main_v4
  have f30_main_v5 : V30 (Proc.devRef .tc main_v5) = Read.val_main_v5 (F := F) x2 := by
    rw [← hV]; simp (disch := decide) only [nullary_result_ne', unary_result_ne', binary_result_ne', ternary_result_ne', reshape_result_ne', nary_result_ne']; exact f29_main_v5
  have f30_main_v12 : V30 (Proc.devRef .tc main_v12) = Read.val_main_v12 (F := F) x0 := by
    rw [← hV]; simp (disch := decide) only [nullary_result_ne', unary_result_ne', binary_result_ne', ternary_result_ne', reshape_result_ne', nary_result_ne']; exact f29_main_v12
  have f30_main_v13 : V30 (Proc.devRef .tc main_v13) = Read.val_main_v13 (F := F) x0 := by
    rw [← hV]; simp (disch := decide) only [nullary_result_ne', unary_result_ne', binary_result_ne', ternary_result_ne', reshape_result_ne', nary_result_ne']; exact f29_main_v13
  have f30_main_v14 : V30 (Proc.devRef .tc main_v14) = Read.val_main_v14 (F := F) x0 := by
    rw [← hV]; simp (disch := decide) only [nullary_result_ne', unary_result_ne', binary_result_ne', ternary_result_ne', reshape_result_ne', nary_result_ne']; exact f29_main_v14
  have f30_main_v15 : V30 (Proc.devRef .tc main_v15) = Read.val_main_v15 (F := F) x0 := by
    rw [← hV]; simp (disch := decide) only [nullary_result_ne', unary_result_ne', binary_result_ne', ternary_result_ne', reshape_result_ne', nary_result_ne']; exact f29_main_v15
  have f30_main_v16 : V30 (Proc.devRef .tc main_v16) = Read.val_main_v16 (F := F) x0 := by
    rw [← hV]; simp (disch := decide) only [nullary_result_ne', unary_result_ne', binary_result_ne', ternary_result_ne', reshape_result_ne', nary_result_ne']; exact f29_main_v16
  have f30_main_v17 : V30 (Proc.devRef .tc main_v17) = Read.val_main_v17 (F := F) x0 := by
    rw [← hV]; simp (disch := decide) only [nullary_result_ne', unary_result_ne', binary_result_ne', ternary_result_ne', reshape_result_ne', nary_result_ne']; exact f29_main_v17
  have f30_main_v18 : V30 (Proc.devRef .tc main_v18) = Read.val_main_v18 (F := F) x0 := by
    rw [← hV]; simp (disch := decide) only [nullary_result_ne', unary_result_ne', binary_result_ne', ternary_result_ne', reshape_result_ne', nary_result_ne']; exact f29_main_v18
  have f30_main_v19 : V30 (Proc.devRef .tc main_v19) = Read.val_main_v19 (F := F) x0 := by
    rw [← hV]; simp (disch := decide) only [nullary_result_ne', unary_result_ne', binary_result_ne', ternary_result_ne', reshape_result_ne', nary_result_ne']; exact f29_main_v19
  have f30_main_arg0 : V30 (Proc.devRef .tc main_arg0) = x0 := by
    rw [← hV]; simp (disch := decide) only [nullary_result_ne', unary_result_ne', binary_result_ne', ternary_result_ne', reshape_result_ne', nary_result_ne']; exact f29_main_arg0
  have f30_main_arg2 : V30 (Proc.devRef .tc main_arg2) = x2 := by
    rw [← hV]; simp (disch := decide) only [nullary_result_ne', unary_result_ne', binary_result_ne', ternary_result_ne', reshape_result_ne', nary_result_ne']; exact f29_main_arg2
  have f30_main_arg3 : V30 (Proc.devRef .tc main_arg3) = x3 := by
    rw [← hV]; simp (disch := decide) only [nullary_result_ne', unary_result_ne', binary_result_ne', ternary_result_ne', reshape_result_ne', nary_result_ne']; exact f29_main_arg3
  clear hV f29_main_v4 f29_main_v5 f29_main_v11 f29_main_v12 f29_main_v13 f29_main_v14 f29_main_v15 f29_main_v16 f29_main_v17 f29_main_v18 f29_main_v19 f29_main_arg0 f29_main_arg2 f29_main_arg3 V29
  exact ⟨f30_main_v4, f30_main_v5, f30_main_v12, f30_main_v13, f30_main_v14, f30_main_v15, f30_main_v16, f30_main_v17, f30_main_v18, f30_main_v19, f30_main_v20, f30_main_arg0, f30_main_arg2, f30_main_arg3⟩

set_option maxRecDepth 16384 in
set_option maxHeartbeats 0 in
/-- Operations 30 … 39: from contents at which the buffers still read hold their stages, to contents at which the
    buffers read later hold theirs. -/
theorem stages3 (V30 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f30_main_v4 : V30 (Proc.devRef .tc main_v4) = Read.val_main_v4 (F := F) x1 x4 x5)
    (f30_main_v5 : V30 (Proc.devRef .tc main_v5) = Read.val_main_v5 (F := F) x2)
    (f30_main_v12 : V30 (Proc.devRef .tc main_v12) = Read.val_main_v12 (F := F) x0)
    (f30_main_v13 : V30 (Proc.devRef .tc main_v13) = Read.val_main_v13 (F := F) x0)
    (f30_main_v14 : V30 (Proc.devRef .tc main_v14) = Read.val_main_v14 (F := F) x0)
    (f30_main_v15 : V30 (Proc.devRef .tc main_v15) = Read.val_main_v15 (F := F) x0)
    (f30_main_v16 : V30 (Proc.devRef .tc main_v16) = Read.val_main_v16 (F := F) x0)
    (f30_main_v17 : V30 (Proc.devRef .tc main_v17) = Read.val_main_v17 (F := F) x0)
    (f30_main_v18 : V30 (Proc.devRef .tc main_v18) = Read.val_main_v18 (F := F) x0)
    (f30_main_v19 : V30 (Proc.devRef .tc main_v19) = Read.val_main_v19 (F := F) x0)
    (f30_main_v20 : V30 (Proc.devRef .tc main_v20) = Read.val_main_v20 (F := F) x0)
    (f30_main_arg0 : V30 (Proc.devRef .tc main_arg0) = x0)
    (f30_main_arg2 : V30 (Proc.devRef .tc main_arg2) = x2)
    (f30_main_arg3 : V30 (Proc.devRef .tc main_arg3) = x3) :
    after (ops3 (F := F)) V30 (Proc.devRef .tc main_v4) = Read.val_main_v4 (F := F) x1 x4 x5
    ∧ after (ops3 (F := F)) V30 (Proc.devRef .tc main_v5) = Read.val_main_v5 (F := F) x2
    ∧ after (ops3 (F := F)) V30 (Proc.devRef .tc main_v24) = Read.val_main_v24 (F := F) x0
    ∧ after (ops3 (F := F)) V30 (Proc.devRef .tc main_v25) = Read.val_main_v25 (F := F) x1 x4 x5
    ∧ after (ops3 (F := F)) V30 (Proc.devRef .tc main_v26) = Read.val_main_v26 (F := F) x1 x4 x5
    ∧ after (ops3 (F := F)) V30 (Proc.devRef .tc main_v27) = Read.val_main_v27 (F := F) x1 x4 x5
    ∧ after (ops3 (F := F)) V30 (Proc.devRef .tc main_v28) = Read.val_main_v28 (F := F) x1 x4 x5
    ∧ after (ops3 (F := F)) V30 (Proc.devRef .tc main_v29) = Read.val_main_v29 (F := F) x1 x4 x5
    ∧ after (ops3 (F := F)) V30 (Proc.devRef .tc main_v30) = Read.val_main_v30 (F := F) x1 x4 x5
    ∧ after (ops3 (F := F)) V30 (Proc.devRef .tc main_arg0) = x0
    ∧ after (ops3 (F := F)) V30 (Proc.devRef .tc main_arg2) = x2
    ∧ after (ops3 (F := F)) V30 (Proc.devRef .tc main_arg3) = x3 := by
  unfold ops3
  -- operation 30: main_v21
  rw [after_cons]
  generalize hV : HloOp.result _ V30 = V31
  have f31_main_v21 : V31 (Proc.devRef .tc main_v21) = Read.val_main_v21 (F := F) x0 := by
    rw [← hV]; refine (unary_result _ _ _ _ _ _).trans ?_; unfold Read.val_main_v21
    rw [← f30_main_v12]
    all_goals rfl
  have f31_main_v4 : V31 (Proc.devRef .tc main_v4) = Read.val_main_v4 (F := F) x1 x4 x5 := by
    rw [← hV]; simp (disch := decide) only [nullary_result_ne', unary_result_ne', binary_result_ne', ternary_result_ne', reshape_result_ne', nary_result_ne']; exact f30_main_v4
  have f31_main_v5 : V31 (Proc.devRef .tc main_v5) = Read.val_main_v5 (F := F) x2 := by
    rw [← hV]; simp (disch := decide) only [nullary_result_ne', unary_result_ne', binary_result_ne', ternary_result_ne', reshape_result_ne', nary_result_ne']; exact f30_main_v5
  have f31_main_v13 : V31 (Proc.devRef .tc main_v13) = Read.val_main_v13 (F := F) x0 := by
    rw [← hV]; simp (disch := decide) only [nullary_result_ne', unary_result_ne', binary_result_ne', ternary_result_ne', reshape_result_ne', nary_result_ne']; exact f30_main_v13
  have f31_main_v14 : V31 (Proc.devRef .tc main_v14) = Read.val_main_v14 (F := F) x0 := by
    rw [← hV]; simp (disch := decide) only [nullary_result_ne', unary_result_ne', binary_result_ne', ternary_result_ne', reshape_result_ne', nary_result_ne']; exact f30_main_v14
  have f31_main_v15 : V31 (Proc.devRef .tc main_v15) = Read.val_main_v15 (F := F) x0 := by
    rw [← hV]; simp (disch := decide) only [nullary_result_ne', unary_result_ne', binary_result_ne', ternary_result_ne', reshape_result_ne', nary_result_ne']; exact f30_main_v15
  have f31_main_v16 : V31 (Proc.devRef .tc main_v16) = Read.val_main_v16 (F := F) x0 := by
    rw [← hV]; simp (disch := decide) only [nullary_result_ne', unary_result_ne', binary_result_ne', ternary_result_ne', reshape_result_ne', nary_result_ne']; exact f30_main_v16
  have f31_main_v17 : V31 (Proc.devRef .tc main_v17) = Read.val_main_v17 (F := F) x0 := by
    rw [← hV]; simp (disch := decide) only [nullary_result_ne', unary_result_ne', binary_result_ne', ternary_result_ne', reshape_result_ne', nary_result_ne']; exact f30_main_v17
  have f31_main_v18 : V31 (Proc.devRef .tc main_v18) = Read.val_main_v18 (F := F) x0 := by
    rw [← hV]; simp (disch := decide) only [nullary_result_ne', unary_result_ne', binary_result_ne', ternary_result_ne', reshape_result_ne', nary_result_ne']; exact f30_main_v18
  have f31_main_v19 : V31 (Proc.devRef .tc main_v19) = Read.val_main_v19 (F := F) x0 := by
    rw [← hV]; simp (disch := decide) only [nullary_result_ne', unary_result_ne', binary_result_ne', ternary_result_ne', reshape_result_ne', nary_result_ne']; exact f30_main_v19
  have f31_main_v20 : V31 (Proc.devRef .tc main_v20) = Read.val_main_v20 (F := F) x0 := by
    rw [← hV]; simp (disch := decide) only [nullary_result_ne', unary_result_ne', binary_result_ne', ternary_result_ne', reshape_result_ne', nary_result_ne']; exact f30_main_v20
  have f31_main_arg0 : V31 (Proc.devRef .tc main_arg0) = x0 := by
    rw [← hV]; simp (disch := decide) only [nullary_result_ne', unary_result_ne', binary_result_ne', ternary_result_ne', reshape_result_ne', nary_result_ne']; exact f30_main_arg0
  have f31_main_arg2 : V31 (Proc.devRef .tc main_arg2) = x2 := by
    rw [← hV]; simp (disch := decide) only [nullary_result_ne', unary_result_ne', binary_result_ne', ternary_result_ne', reshape_result_ne', nary_result_ne']; exact f30_main_arg2
  have f31_main_arg3 : V31 (Proc.devRef .tc main_arg3) = x3 := by
    rw [← hV]; simp (disch := decide) only [nullary_result_ne', unary_result_ne', binary_result_ne', ternary_result_ne', reshape_result_ne', nary_result_ne']; exact f30_main_arg3
  clear hV f30_main_v4 f30_main_v5 f30_main_v12 f30_main_v13 f30_main_v14 f30_main_v15 f30_main_v16 f30_main_v17 f30_main_v18 f30_main_v19 f30_main_v20 f30_main_arg0 f30_main_arg2 f30_main_arg3 V30
  -- operation 31: main_v22
  rw [after_cons]
  generalize hV : HloOp.result _ V31 = V32
  have f32_main_v22 : V32 (Proc.devRef .tc main_v22) = Read.val_main_v22 (F := F) x0 := by
    rw [← hV]; refine (unary_result _ _ _ _ _ _).trans ?_; unfold Read.val_main_v22
    rw [← f31_main_v13]
    all_goals rfl
  have f32_main_v4 : V32 (Proc.devRef .tc main_v4) = Read.val_main_v4 (F := F) x1 x4 x5 := by
    rw [← hV]; simp (disch := decide) only [nullary_result_ne', unary_result_ne', binary_result_ne', ternary_result_ne', reshape_result_ne', nary_result_ne']; exact f31_main_v4
  have f32_main_v5 : V32 (Proc.devRef .tc main_v5) = Read.val_main_v5 (F := F) x2 := by
    rw [← hV]; simp (disch := decide) only [nullary_result_ne', unary_result_ne', binary_result_ne', ternary_result_ne', reshape_result_ne', nary_result_ne']; exact f31_main_v5
  have f32_main_v14 : V32 (Proc.devRef .tc main_v14) = Read.val_main_v14 (F := F) x0 := by
    rw [← hV]; simp (disch := decide) only [nullary_result_ne', unary_result_ne', binary_result_ne', ternary_result_ne', reshape_result_ne', nary_result_ne']; exact f31_main_v14
  have f32_main_v15 : V32 (Proc.devRef .tc main_v15) = Read.val_main_v15 (F := F) x0 := by
    rw [← hV]; simp (disch := decide) only [nullary_result_ne', unary_result_ne', binary_result_ne', ternary_result_ne', reshape_result_ne', nary_result_ne']; exact f31_main_v15
  have f32_main_v16 : V32 (Proc.devRef .tc main_v16) = Read.val_main_v16 (F := F) x0 := by
    rw [← hV]; simp (disch := decide) only [nullary_result_ne', unary_result_ne', binary_result_ne', ternary_result_ne', reshape_result_ne', nary_result_ne']; exact f31_main_v16
  have f32_main_v17 : V32 (Proc.devRef .tc main_v17) = Read.val_main_v17 (F := F) x0 := by
    rw [← hV]; simp (disch := decide) only [nullary_result_ne', unary_result_ne', binary_result_ne', ternary_result_ne', reshape_result_ne', nary_result_ne']; exact f31_main_v17
  have f32_main_v18 : V32 (Proc.devRef .tc main_v18) = Read.val_main_v18 (F := F) x0 := by
    rw [← hV]; simp (disch := decide) only [nullary_result_ne', unary_result_ne', binary_result_ne', ternary_result_ne', reshape_result_ne', nary_result_ne']; exact f31_main_v18
  have f32_main_v19 : V32 (Proc.devRef .tc main_v19) = Read.val_main_v19 (F := F) x0 := by
    rw [← hV]; simp (disch := decide) only [nullary_result_ne', unary_result_ne', binary_result_ne', ternary_result_ne', reshape_result_ne', nary_result_ne']; exact f31_main_v19
  have f32_main_v20 : V32 (Proc.devRef .tc main_v20) = Read.val_main_v20 (F := F) x0 := by
    rw [← hV]; simp (disch := decide) only [nullary_result_ne', unary_result_ne', binary_result_ne', ternary_result_ne', reshape_result_ne', nary_result_ne']; exact f31_main_v20
  have f32_main_v21 : V32 (Proc.devRef .tc main_v21) = Read.val_main_v21 (F := F) x0 := by
    rw [← hV]; simp (disch := decide) only [nullary_result_ne', unary_result_ne', binary_result_ne', ternary_result_ne', reshape_result_ne', nary_result_ne']; exact f31_main_v21
  have f32_main_arg0 : V32 (Proc.devRef .tc main_arg0) = x0 := by
    rw [← hV]; simp (disch := decide) only [nullary_result_ne', unary_result_ne', binary_result_ne', ternary_result_ne', reshape_result_ne', nary_result_ne']; exact f31_main_arg0
  have f32_main_arg2 : V32 (Proc.devRef .tc main_arg2) = x2 := by
    rw [← hV]; simp (disch := decide) only [nullary_result_ne', unary_result_ne', binary_result_ne', ternary_result_ne', reshape_result_ne', nary_result_ne']; exact f31_main_arg2
  have f32_main_arg3 : V32 (Proc.devRef .tc main_arg3) = x3 := by
    rw [← hV]; simp (disch := decide) only [nullary_result_ne', unary_result_ne', binary_result_ne', ternary_result_ne', reshape_result_ne', nary_result_ne']; exact f31_main_arg3
  clear hV f31_main_v4 f31_main_v5 f31_main_v13 f31_main_v14 f31_main_v15 f31_main_v16 f31_main_v17 f31_main_v18 f31_main_v19 f31_main_v20 f31_main_v21 f31_main_arg0 f31_main_arg2 f31_main_arg3 V31
  -- operation 32: main_v23
  rw [after_cons]
  generalize hV : HloOp.result _ V32 = V33
  have f33_main_v23 : V33 (Proc.devRef .tc main_v23) = Read.val_main_v23 (F := F) x0 := by
    rw [← hV]; refine (unary_result _ _ _ _ _ _).trans ?_; unfold Read.val_main_v23
    rw [← f32_main_v14]
    all_goals rfl
  have f33_main_v4 : V33 (Proc.devRef .tc main_v4) = Read.val_main_v4 (F := F) x1 x4 x5 := by
    rw [← hV]; simp (disch := decide) only [nullary_result_ne', unary_result_ne', binary_result_ne', ternary_result_ne', reshape_result_ne', nary_result_ne']; exact f32_main_v4
  have f33_main_v5 : V33 (Proc.devRef .tc main_v5) = Read.val_main_v5 (F := F) x2 := by
    rw [← hV]; simp (disch := decide) only [nullary_result_ne', unary_result_ne', binary_result_ne', ternary_result_ne', reshape_result_ne', nary_result_ne']; exact f32_main_v5
  have f33_main_v15 : V33 (Proc.devRef .tc main_v15) = Read.val_main_v15 (F := F) x0 := by
    rw [← hV]; simp (disch := decide) only [nullary_result_ne', unary_result_ne', binary_result_ne', ternary_result_ne', reshape_result_ne', nary_result_ne']; exact f32_main_v15
  have f33_main_v16 : V33 (Proc.devRef .tc main_v16) = Read.val_main_v16 (F := F) x0 := by
    rw [← hV]; simp (disch := decide) only [nullary_result_ne', unary_result_ne', binary_result_ne', ternary_result_ne', reshape_result_ne', nary_result_ne']; exact f32_main_v16
  have f33_main_v17 : V33 (Proc.devRef .tc main_v17) = Read.val_main_v17 (F := F) x0 := by
    rw [← hV]; simp (disch := decide) only [nullary_result_ne', unary_result_ne', binary_result_ne', ternary_result_ne', reshape_result_ne', nary_result_ne']; exact f32_main_v17
  have f33_main_v18 : V33 (Proc.devRef .tc main_v18) = Read.val_main_v18 (F := F) x0 := by
    rw [← hV]; simp (disch := decide) only [nullary_result_ne', unary_result_ne', binary_result_ne', ternary_result_ne', reshape_result_ne', nary_result_ne']; exact f32_main_v18
  have f33_main_v19 : V33 (Proc.devRef .tc main_v19) = Read.val_main_v19 (F := F) x0 := by
    rw [← hV]; simp (disch := decide) only [nullary_result_ne', unary_result_ne', binary_result_ne', ternary_result_ne', reshape_result_ne', nary_result_ne']; exact f32_main_v19
  have f33_main_v20 : V33 (Proc.devRef .tc main_v20) = Read.val_main_v20 (F := F) x0 := by
    rw [← hV]; simp (disch := decide) only [nullary_result_ne', unary_result_ne', binary_result_ne', ternary_result_ne', reshape_result_ne', nary_result_ne']; exact f32_main_v20
  have f33_main_v21 : V33 (Proc.devRef .tc main_v21) = Read.val_main_v21 (F := F) x0 := by
    rw [← hV]; simp (disch := decide) only [nullary_result_ne', unary_result_ne', binary_result_ne', ternary_result_ne', reshape_result_ne', nary_result_ne']; exact f32_main_v21
  have f33_main_v22 : V33 (Proc.devRef .tc main_v22) = Read.val_main_v22 (F := F) x0 := by
    rw [← hV]; simp (disch := decide) only [nullary_result_ne', unary_result_ne', binary_result_ne', ternary_result_ne', reshape_result_ne', nary_result_ne']; exact f32_main_v22
  have f33_main_arg0 : V33 (Proc.devRef .tc main_arg0) = x0 := by
    rw [← hV]; simp (disch := decide) only [nullary_result_ne', unary_result_ne', binary_result_ne', ternary_result_ne', reshape_result_ne', nary_result_ne']; exact f32_main_arg0
  have f33_main_arg2 : V33 (Proc.devRef .tc main_arg2) = x2 := by
    rw [← hV]; simp (disch := decide) only [nullary_result_ne', unary_result_ne', binary_result_ne', ternary_result_ne', reshape_result_ne', nary_result_ne']; exact f32_main_arg2
  have f33_main_arg3 : V33 (Proc.devRef .tc main_arg3) = x3 := by
    rw [← hV]; simp (disch := decide) only [nullary_result_ne', unary_result_ne', binary_result_ne', ternary_result_ne', reshape_result_ne', nary_result_ne']; exact f32_main_arg3
  clear hV f32_main_v4 f32_main_v5 f32_main_v14 f32_main_v15 f32_main_v16 f32_main_v17 f32_main_v18 f32_main_v19 f32_main_v20 f32_main_v21 f32_main_v22 f32_main_arg0 f32_main_arg2 f32_main_arg3 V32
  -- operation 33: main_v24
  rw [after_cons]
  generalize hV : HloOp.result _ V33 = V34
  have f34_main_v24 : V34 (Proc.devRef .tc main_v24) = Read.val_main_v24 (F := F) x0 := by
    rw [← hV]; refine (nary_result _ _ _ _ _ _).trans ?_; unfold Read.val_main_v24
    rw [← f33_main_v15, ← f33_main_v16, ← f33_main_v17, ← f33_main_v18, ← f33_main_v19, ← f33_main_v20, ← f33_main_v21, ← f33_main_v22, ← f33_main_v23]
    all_goals rfl
  have f34_main_v4 : V34 (Proc.devRef .tc main_v4) = Read.val_main_v4 (F := F) x1 x4 x5 := by
    rw [← hV]; simp (disch := decide) only [nullary_result_ne', unary_result_ne', binary_result_ne', ternary_result_ne', reshape_result_ne', nary_result_ne']; exact f33_main_v4
  have f34_main_v5 : V34 (Proc.devRef .tc main_v5) = Read.val_main_v5 (F := F) x2 := by
    rw [← hV]; simp (disch := decide) only [nullary_result_ne', unary_result_ne', binary_result_ne', ternary_result_ne', reshape_result_ne', nary_result_ne']; exact f33_main_v5
  have f34_main_arg0 : V34 (Proc.devRef .tc main_arg0) = x0 := by
    rw [← hV]; simp (disch := decide) only [nullary_result_ne', unary_result_ne', binary_result_ne', ternary_result_ne', reshape_result_ne', nary_result_ne']; exact f33_main_arg0
  have f34_main_arg2 : V34 (Proc.devRef .tc main_arg2) = x2 := by
    rw [← hV]; simp (disch := decide) only [nullary_result_ne', unary_result_ne', binary_result_ne', ternary_result_ne', reshape_result_ne', nary_result_ne']; exact f33_main_arg2
  have f34_main_arg3 : V34 (Proc.devRef .tc main_arg3) = x3 := by
    rw [← hV]; simp (disch := decide) only [nullary_result_ne', unary_result_ne', binary_result_ne', ternary_result_ne', reshape_result_ne', nary_result_ne']; exact f33_main_arg3
  clear hV f33_main_v4 f33_main_v5 f33_main_v15 f33_main_v16 f33_main_v17 f33_main_v18 f33_main_v19 f33_main_v20 f33_main_v21 f33_main_v22 f33_main_v23 f33_main_arg0 f33_main_arg2 f33_main_arg3 V33
  -- operation 34: main_v25
  rw [after_cons]
  generalize hV : HloOp.result _ V34 = V35
  have f35_main_v25 : V35 (Proc.devRef .tc main_v25) = Read.val_main_v25 (F := F) x1 x4 x5 := by
    rw [← hV]; refine (unary_result _ _ _ _ _ _).trans ?_; unfold Read.val_main_v25
    rw [← f34_main_v4]
    all_goals rfl
  have f35_main_v4 : V35 (Proc.devRef .tc main_v4) = Read.val_main_v4 (F := F) x1 x4 x5 := by
    rw [← hV]; simp (disch := decide) only [nullary_result_ne', unary_result_ne', binary_result_ne', ternary_result_ne', reshape_result_ne', nary_result_ne']; exact f34_main_v4
  have f35_main_v5 : V35 (Proc.devRef .tc main_v5) = Read.val_main_v5 (F := F) x2 := by
    rw [← hV]; simp (disch := decide) only [nullary_result_ne', unary_result_ne', binary_result_ne', ternary_result_ne', reshape_result_ne', nary_result_ne']; exact f34_main_v5
  have f35_main_v24 : V35 (Proc.devRef .tc main_v24) = Read.val_main_v24 (F := F) x0 := by
    rw [← hV]; simp (disch := decide) only [nullary_result_ne', unary_result_ne', binary_result_ne', ternary_result_ne', reshape_result_ne', nary_result_ne']; exact f34_main_v24
  have f35_main_arg0 : V35 (Proc.devRef .tc main_arg0) = x0 := by
    rw [← hV]; simp (disch := decide) only [nullary_result_ne', unary_result_ne', binary_result_ne', ternary_result_ne', reshape_result_ne', nary_result_ne']; exact f34_main_arg0
  have f35_main_arg2 : V35 (Proc.devRef .tc main_arg2) = x2 := by
    rw [← hV]; simp (disch := decide) only [nullary_result_ne', unary_result_ne', binary_result_ne', ternary_result_ne', reshape_result_ne', nary_result_ne']; exact f34_main_arg2
  have f35_main_arg3 : V35 (Proc.devRef .tc main_arg3) = x3 := by
    rw [← hV]; simp (disch := decide) only [nullary_result_ne', unary_result_ne', binary_result_ne', ternary_result_ne', reshape_result_ne', nary_result_ne']; exact f34_main_arg3
  clear hV f34_main_v4 f34_main_v5 f34_main_v24 f34_main_arg0 f34_main_arg2 f34_main_arg3 V34
  -- operation 35: main_v26
  rw [after_cons]
  generalize hV : HloOp.result _ V35 = V36
  have f36_main_v26 : V36 (Proc.devRef .tc main_v26) = Read.val_main_v26 (F := F) x1 x4 x5 := by
    rw [← hV]; refine (unary_result _ _ _ _ _ _).trans ?_; unfold Read.val_main_v26
    rw [← f35_main_v4]
    all_goals rfl
  have f36_main_v4 : V36 (Proc.devRef .tc main_v4) = Read.val_main_v4 (F := F) x1 x4 x5 := by
    rw [← hV]; simp (disch := decide) only [nullary_result_ne', unary_result_ne', binary_result_ne', ternary_result_ne', reshape_result_ne', nary_result_ne']; exact f35_main_v4
  have f36_main_v5 : V36 (Proc.devRef .tc main_v5) = Read.val_main_v5 (F := F) x2 := by
    rw [← hV]; simp (disch := decide) only [nullary_result_ne', unary_result_ne', binary_result_ne', ternary_result_ne', reshape_result_ne', nary_result_ne']; exact f35_main_v5
  have f36_main_v24 : V36 (Proc.devRef .tc main_v24) = Read.val_main_v24 (F := F) x0 := by
    rw [← hV]; simp (disch := decide) only [nullary_result_ne', unary_result_ne', binary_result_ne', ternary_result_ne', reshape_result_ne', nary_result_ne']; exact f35_main_v24
  have f36_main_v25 : V36 (Proc.devRef .tc main_v25) = Read.val_main_v25 (F := F) x1 x4 x5 := by
    rw [← hV]; simp (disch := decide) only [nullary_result_ne', unary_result_ne', binary_result_ne', ternary_result_ne', reshape_result_ne', nary_result_ne']; exact f35_main_v25
  have f36_main_arg0 : V36 (Proc.devRef .tc main_arg0) = x0 := by
    rw [← hV]; simp (disch := decide) only [nullary_result_ne', unary_result_ne', binary_result_ne', ternary_result_ne', reshape_result_ne', nary_result_ne']; exact f35_main_arg0
  have f36_main_arg2 : V36 (Proc.devRef .tc main_arg2) = x2 := by
    rw [← hV]; simp (disch := decide) only [nullary_result_ne', unary_result_ne', binary_result_ne', ternary_result_ne', reshape_result_ne', nary_result_ne']; exact f35_main_arg2
  have f36_main_arg3 : V36 (Proc.devRef .tc main_arg3) = x3 := by
    rw [← hV]; simp (disch := decide) only [nullary_result_ne', unary_result_ne', binary_result_ne', ternary_result_ne', reshape_result_ne', nary_result_ne']; exact f35_main_arg3
  clear hV f35_main_v4 f35_main_v5 f35_main_v24 f35_main_v25 f35_main_arg0 f35_main_arg2 f35_main_arg3 V35
  -- operation 36: main_v27
  rw [after_cons]
  generalize hV : HloOp.result _ V36 = V37
  have f37_main_v27 : V37 (Proc.devRef .tc main_v27) = Read.val_main_v27 (F := F) x1 x4 x5 := by
    rw [← hV]; refine (unary_result _ _ _ _ _ _).trans ?_; unfold Read.val_main_v27
    rw [← f36_main_v4]
    all_goals rfl
  have f37_main_v4 : V37 (Proc.devRef .tc main_v4) = Read.val_main_v4 (F := F) x1 x4 x5 := by
    rw [← hV]; simp (disch := decide) only [nullary_result_ne', unary_result_ne', binary_result_ne', ternary_result_ne', reshape_result_ne', nary_result_ne']; exact f36_main_v4
  have f37_main_v5 : V37 (Proc.devRef .tc main_v5) = Read.val_main_v5 (F := F) x2 := by
    rw [← hV]; simp (disch := decide) only [nullary_result_ne', unary_result_ne', binary_result_ne', ternary_result_ne', reshape_result_ne', nary_result_ne']; exact f36_main_v5
  have f37_main_v24 : V37 (Proc.devRef .tc main_v24) = Read.val_main_v24 (F := F) x0 := by
    rw [← hV]; simp (disch := decide) only [nullary_result_ne', unary_result_ne', binary_result_ne', ternary_result_ne', reshape_result_ne', nary_result_ne']; exact f36_main_v24
  have f37_main_v25 : V37 (Proc.devRef .tc main_v25) = Read.val_main_v25 (F := F) x1 x4 x5 := by
    rw [← hV]; simp (disch := decide) only [nullary_result_ne', unary_result_ne', binary_result_ne', ternary_result_ne', reshape_result_ne', nary_result_ne']; exact f36_main_v25
  have f37_main_v26 : V37 (Proc.devRef .tc main_v26) = Read.val_main_v26 (F := F) x1 x4 x5 := by
    rw [← hV]; simp (disch := decide) only [nullary_result_ne', unary_result_ne', binary_result_ne', ternary_result_ne', reshape_result_ne', nary_result_ne']; exact f36_main_v26
  have f37_main_arg0 : V37 (Proc.devRef .tc main_arg0) = x0 := by
    rw [← hV]; simp (disch := decide) only [nullary_result_ne', unary_result_ne', binary_result_ne', ternary_result_ne', reshape_result_ne', nary_result_ne']; exact f36_main_arg0
  have f37_main_arg2 : V37 (Proc.devRef .tc main_arg2) = x2 := by
    rw [← hV]; simp (disch := decide) only [nullary_result_ne', unary_result_ne', binary_result_ne', ternary_result_ne', reshape_result_ne', nary_result_ne']; exact f36_main_arg2
  have f37_main_arg3 : V37 (Proc.devRef .tc main_arg3) = x3 := by
    rw [← hV]; simp (disch := decide) only [nullary_result_ne', unary_result_ne', binary_result_ne', ternary_result_ne', reshape_result_ne', nary_result_ne']; exact f36_main_arg3
  clear hV f36_main_v4 f36_main_v5 f36_main_v24 f36_main_v25 f36_main_v26 f36_main_arg0 f36_main_arg2 f36_main_arg3 V36
  -- operation 37: main_v28
  rw [after_cons]
  generalize hV : HloOp.result _ V37 = V38
  have f38_main_v28 : V38 (Proc.devRef .tc main_v28) = Read.val_main_v28 (F := F) x1 x4 x5 := by
    rw [← hV]; refine (unary_result _ _ _ _ _ _).trans ?_; unfold Read.val_main_v28
    rw [← f37_main_v4]
    all_goals rfl
  have f38_main_v4 : V38 (Proc.devRef .tc main_v4) = Read.val_main_v4 (F := F) x1 x4 x5 := by
    rw [← hV]; simp (disch := decide) only [nullary_result_ne', unary_result_ne', binary_result_ne', ternary_result_ne', reshape_result_ne', nary_result_ne']; exact f37_main_v4
  have f38_main_v5 : V38 (Proc.devRef .tc main_v5) = Read.val_main_v5 (F := F) x2 := by
    rw [← hV]; simp (disch := decide) only [nullary_result_ne', unary_result_ne', binary_result_ne', ternary_result_ne', reshape_result_ne', nary_result_ne']; exact f37_main_v5
  have f38_main_v24 : V38 (Proc.devRef .tc main_v24) = Read.val_main_v24 (F := F) x0 := by
    rw [← hV]; simp (disch := decide) only [nullary_result_ne', unary_result_ne', binary_result_ne', ternary_result_ne', reshape_result_ne', nary_result_ne']; exact f37_main_v24
  have f38_main_v25 : V38 (Proc.devRef .tc main_v25) = Read.val_main_v25 (F := F) x1 x4 x5 := by
    rw [← hV]; simp (disch := decide) only [nullary_result_ne', unary_result_ne', binary_result_ne', ternary_result_ne', reshape_result_ne', nary_result_ne']; exact f37_main_v25
  have f38_main_v26 : V38 (Proc.devRef .tc main_v26) = Read.val_main_v26 (F := F) x1 x4 x5 := by
    rw [← hV]; simp (disch := decide) only [nullary_result_ne', unary_result_ne', binary_result_ne', ternary_result_ne', reshape_result_ne', nary_result_ne']; exact f37_main_v26
  have f38_main_v27 : V38 (Proc.devRef .tc main_v27) = Read.val_main_v27 (F := F) x1 x4 x5 := by
    rw [← hV]; simp (disch := decide) only [nullary_result_ne', unary_result_ne', binary_result_ne', ternary_result_ne', reshape_result_ne', nary_result_ne']; exact f37_main_v27
  have f38_main_arg0 : V38 (Proc.devRef .tc main_arg0) = x0 := by
    rw [← hV]; simp (disch := decide) only [nullary_result_ne', unary_result_ne', binary_result_ne', ternary_result_ne', reshape_result_ne', nary_result_ne']; exact f37_main_arg0
  have f38_main_arg2 : V38 (Proc.devRef .tc main_arg2) = x2 := by
    rw [← hV]; simp (disch := decide) only [nullary_result_ne', unary_result_ne', binary_result_ne', ternary_result_ne', reshape_result_ne', nary_result_ne']; exact f37_main_arg2
  have f38_main_arg3 : V38 (Proc.devRef .tc main_arg3) = x3 := by
    rw [← hV]; simp (disch := decide) only [nullary_result_ne', unary_result_ne', binary_result_ne', ternary_result_ne', reshape_result_ne', nary_result_ne']; exact f37_main_arg3
  clear hV f37_main_v4 f37_main_v5 f37_main_v24 f37_main_v25 f37_main_v26 f37_main_v27 f37_main_arg0 f37_main_arg2 f37_main_arg3 V37
  -- operation 38: main_v29
  rw [after_cons]
  generalize hV : HloOp.result _ V38 = V39
  have f39_main_v29 : V39 (Proc.devRef .tc main_v29) = Read.val_main_v29 (F := F) x1 x4 x5 := by
    rw [← hV]; refine (unary_result _ _ _ _ _ _).trans ?_; unfold Read.val_main_v29
    rw [← f38_main_v4]
    all_goals rfl
  have f39_main_v4 : V39 (Proc.devRef .tc main_v4) = Read.val_main_v4 (F := F) x1 x4 x5 := by
    rw [← hV]; simp (disch := decide) only [nullary_result_ne', unary_result_ne', binary_result_ne', ternary_result_ne', reshape_result_ne', nary_result_ne']; exact f38_main_v4
  have f39_main_v5 : V39 (Proc.devRef .tc main_v5) = Read.val_main_v5 (F := F) x2 := by
    rw [← hV]; simp (disch := decide) only [nullary_result_ne', unary_result_ne', binary_result_ne', ternary_result_ne', reshape_result_ne', nary_result_ne']; exact f38_main_v5
  have f39_main_v24 : V39 (Proc.devRef .tc main_v24) = Read.val_main_v24 (F := F) x0 := by
    rw [← hV]; simp (disch := decide) only [nullary_result_ne', unary_result_ne', binary_result_ne', ternary_result_ne', reshape_result_ne', nary_result_ne']; exact f38_main_v24
  have f39_main_v25 : V39 (Proc.devRef .tc main_v25) = Read.val_main_v25 (F := F) x1 x4 x5 := by
    rw [← hV]; simp (disch := decide) only [nullary_result_ne', unary_result_ne', binary_result_ne', ternary_result_ne', reshape_result_ne', nary_result_ne']; exact f38_main_v25
  have f39_main_v26 : V39 (Proc.devRef .tc main_v26) = Read.val_main_v26 (F := F) x1 x4 x5 := by
    rw [← hV]; simp (disch := decide) only [nullary_result_ne', unary_result_ne', binary_result_ne', ternary_result_ne', reshape_result_ne', nary_result_ne']; exact f38_main_v26
  have f39_main_v27 : V39 (Proc.devRef .tc main_v27) = Read.val_main_v27 (F := F) x1 x4 x5 := by
    rw [← hV]; simp (disch := decide) only [nullary_result_ne', unary_result_ne', binary_result_ne', ternary_result_ne', reshape_result_ne', nary_result_ne']; exact f38_main_v27
  have f39_main_v28 : V39 (Proc.devRef .tc main_v28) = Read.val_main_v28 (F := F) x1 x4 x5 := by
    rw [← hV]; simp (disch := decide) only [nullary_result_ne', unary_result_ne', binary_result_ne', ternary_result_ne', reshape_result_ne', nary_result_ne']; exact f38_main_v28
  have f39_main_arg0 : V39 (Proc.devRef .tc main_arg0) = x0 := by
    rw [← hV]; simp (disch := decide) only [nullary_result_ne', unary_result_ne', binary_result_ne', ternary_result_ne', reshape_result_ne', nary_result_ne']; exact f38_main_arg0
  have f39_main_arg2 : V39 (Proc.devRef .tc main_arg2) = x2 := by
    rw [← hV]; simp (disch := decide) only [nullary_result_ne', unary_result_ne', binary_result_ne', ternary_result_ne', reshape_result_ne', nary_result_ne']; exact f38_main_arg2
  have f39_main_arg3 : V39 (Proc.devRef .tc main_arg3) = x3 := by
    rw [← hV]; simp (disch := decide) only [nullary_result_ne', unary_result_ne', binary_result_ne', ternary_result_ne', reshape_result_ne', nary_result_ne']; exact f38_main_arg3
  clear hV f38_main_v4 f38_main_v5 f38_main_v24 f38_main_v25 f38_main_v26 f38_main_v27 f38_main_v28 f38_main_arg0 f38_main_arg2 f38_main_arg3 V38
  -- operation 39: main_v30
  rw [after_cons]
  generalize hV : HloOp.result _ V39 = V40
  have f40_main_v30 : V40 (Proc.devRef .tc main_v30) = Read.val_main_v30 (F := F) x1 x4 x5 := by
    rw [← hV]; refine (unary_result _ _ _ _ _ _).trans ?_; unfold Read.val_main_v30
    rw [← f39_main_v4]
    all_goals rfl
  have f40_main_v4 : V40 (Proc.devRef .tc main_v4) = Read.val_main_v4 (F := F) x1 x4 x5 := by
    rw [← hV]; simp (disch := decide) only [nullary_result_ne', unary_result_ne', binary_result_ne', ternary_result_ne', reshape_result_ne', nary_result_ne']; exact f39_main_v4
  have f40_main_v5 : V40 (Proc.devRef .tc main_v5) = Read.val_main_v5 (F := F) x2 := by
    rw [← hV]; simp (disch := decide) only [nullary_result_ne', unary_result_ne', binary_result_ne', ternary_result_ne', reshape_result_ne', nary_result_ne']; exact f39_main_v5
  have f40_main_v24 : V40 (Proc.devRef .tc main_v24) = Read.val_main_v24 (F := F) x0 := by
    rw [← hV]; simp (disch := decide) only [nullary_result_ne', unary_result_ne', binary_result_ne', ternary_result_ne', reshape_result_ne', nary_result_ne']; exact f39_main_v24
  have f40_main_v25 : V40 (Proc.devRef .tc main_v25) = Read.val_main_v25 (F := F) x1 x4 x5 := by
    rw [← hV]; simp (disch := decide) only [nullary_result_ne', unary_result_ne', binary_result_ne', ternary_result_ne', reshape_result_ne', nary_result_ne']; exact f39_main_v25
  have f40_main_v26 : V40 (Proc.devRef .tc main_v26) = Read.val_main_v26 (F := F) x1 x4 x5 := by
    rw [← hV]; simp (disch := decide) only [nullary_result_ne', unary_result_ne', binary_result_ne', ternary_result_ne', reshape_result_ne', nary_result_ne']; exact f39_main_v26
  have f40_main_v27 : V40 (Proc.devRef .tc main_v27) = Read.val_main_v27 (F := F) x1 x4 x5 := by
    rw [← hV]; simp (disch := decide) only [nullary_result_ne', unary_result_ne', binary_result_ne', ternary_result_ne', reshape_result_ne', nary_result_ne']; exact f39_main_v27
  have f40_main_v28 : V40 (Proc.devRef .tc main_v28) = Read.val_main_v28 (F := F) x1 x4 x5 := by
    rw [← hV]; simp (disch := decide) only [nullary_result_ne', unary_result_ne', binary_result_ne', ternary_result_ne', reshape_result_ne', nary_result_ne']; exact f39_main_v28
  have f40_main_v29 : V40 (Proc.devRef .tc main_v29) = Read.val_main_v29 (F := F) x1 x4 x5 := by
    rw [← hV]; simp (disch := decide) only [nullary_result_ne', unary_result_ne', binary_result_ne', ternary_result_ne', reshape_result_ne', nary_result_ne']; exact f39_main_v29
  have f40_main_arg0 : V40 (Proc.devRef .tc main_arg0) = x0 := by
    rw [← hV]; simp (disch := decide) only [nullary_result_ne', unary_result_ne', binary_result_ne', ternary_result_ne', reshape_result_ne', nary_result_ne']; exact f39_main_arg0
  have f40_main_arg2 : V40 (Proc.devRef .tc main_arg2) = x2 := by
    rw [← hV]; simp (disch := decide) only [nullary_result_ne', unary_result_ne', binary_result_ne', ternary_result_ne', reshape_result_ne', nary_result_ne']; exact f39_main_arg2
  have f40_main_arg3 : V40 (Proc.devRef .tc main_arg3) = x3 := by
    rw [← hV]; simp (disch := decide) only [nullary_result_ne', unary_result_ne', binary_result_ne', ternary_result_ne', reshape_result_ne', nary_result_ne']; exact f39_main_arg3
  clear hV f39_main_v4 f39_main_v5 f39_main_v24 f39_main_v25 f39_main_v26 f39_main_v27 f39_main_v28 f39_main_v29 f39_main_arg0 f39_main_arg2 f39_main_arg3 V39
  exact ⟨f40_main_v4, f40_main_v5, f40_main_v24, f40_main_v25, f40_main_v26, f40_main_v27, f40_main_v28, f40_main_v29, f40_main_v30, f40_main_arg0, f40_main_arg2, f40_main_arg3⟩

end Cert.ReferenceIdeal.RefRun

end
-- ==== Proof.RefAfter1.lean ====
/-
  The reference program's host operations run forward, one at a time, a sublist of ten at a time.

  Each operation rewrites the buffer it writes and leaves every other buffer alone. After each operation the proof
  keeps, for exactly the buffers a later operation still reads, the equation "this buffer holds its stage" — the stage
  `val_<buffer>` being the operation's function applied to the stages of its operands, so one unfolding of the stage's
  definition and the equations of the operands close each step. The composed, tree-expanded term of the arguments is
  never formed.
  This module: operations 40 … 79.
-/
import proofs.«104800_j57621281243745_2_alg».proof.Proof.RefOps
import proofs.«104800_j57621281243745_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 0 in
/-- Operations 40 … 49: from contents at which the buffers still read hold their stages, to contents at which the
    buffers read later hold theirs. -/
theorem stages4 (V40 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f40_main_v4 : V40 (Proc.devRef .tc main_v4) = Read.val_main_v4 (F := F) x1 x4 x5)
    (f40_main_v5 : V40 (Proc.devRef .tc main_v5) = Read.val_main_v5 (F := F) x2)
    (f40_main_v24 : V40 (Proc.devRef .tc main_v24) = Read.val_main_v24 (F := F) x0)
    (f40_main_v25 : V40 (Proc.devRef .tc main_v25) = Read.val_main_v25 (F := F) x1 x4 x5)
    (f40_main_v26 : V40 (Proc.devRef .tc main_v26) = Read.val_main_v26 (F := F) x1 x4 x5)
    (f40_main_v27 : V40 (Proc.devRef .tc main_v27) = Read.val_main_v27 (F := F) x1 x4 x5)
    (f40_main_v28 : V40 (Proc.devRef .tc main_v28) = Read.val_main_v28 (F := F) x1 x4 x5)
    (f40_main_v29 : V40 (Proc.devRef .tc main_v29) = Read.val_main_v29 (F := F) x1 x4 x5)
    (f40_main_v30 : V40 (Proc.devRef .tc main_v30) = Read.val_main_v30 (F := F) x1 x4 x5)
    (f40_main_arg0 : V40 (Proc.devRef .tc main_arg0) = x0)
    (f40_main_arg2 : V40 (Proc.devRef .tc main_arg2) = x2)
    (f40_main_arg3 : V40 (Proc.devRef .tc main_arg3) = x3) :
    after (ops4 (F := F)) V40 (Proc.devRef .tc main_v5) = Read.val_main_v5 (F := F) x2
    ∧ after (ops4 (F := F)) V40 (Proc.devRef .tc main_v24) = Read.val_main_v24 (F := F) x0
    ∧ after (ops4 (F := F)) V40 (Proc.devRef .tc main_v32) = Read.val_main_v32 (F := F) x1 x4 x5
    ∧ after (ops4 (F := F)) V40 (Proc.devRef .tc main_v33) = Read.val_main_v33 (F := F) x1 x4 x5
    ∧ after (ops4 (F := F)) V40 (Proc.devRef .tc main_v34) = Read.val_main_v34 (F := F) x1 x4 x5
    ∧ after (ops4 (F := F)) V40 (Proc.devRef .tc main_v35) = Read.val_main_v35 (F := F) x1 x4 x5
    ∧ after (ops4 (F := F)) V40 (Proc.devRef .tc main_v36) = Read.val_main_v36 (F := F) x1 x4 x5
    ∧ after (ops4 (F := F)) V40 (Proc.devRef .tc main_v37) = Read.val_main_v37 (F := F) x1 x4 x5
    ∧ after (ops4 (F := F)) V40 (Proc.devRef .tc main_v38) = Read.val_main_v38 (F := F) x1 x4 x5
    ∧ after (ops4 (F := F)) V40 (Proc.devRef .tc main_v39) = Read.val_main_v39 (F := F) x1 x4 x5
    ∧ after (ops4 (F := F)) V40 (Proc.devRef .tc main_v40) = Read.val_main_v40 (F := F) x1 x4 x5
    ∧ after (ops4 (F := F)) V40 (Proc.devRef .tc main_arg0) = x0
    ∧ after (ops4 (F := F)) V40 (Proc.devRef .tc main_arg2) = x2
    ∧ after (ops4 (F := F)) V40 (Proc.devRef .tc main_arg3) = x3 := by
  unfold ops4
  -- operation 40: main_v31
  rw [after_cons]
  generalize hV : HloOp.result _ V40 = V41
  have f41_main_v31 : V41 (Proc.devRef .tc main_v31) = Read.val_main_v31 (F := F) x1 x4 x5 := by
    rw [← hV]; refine (unary_result _ _ _ _ _ _).trans ?_; unfold Read.val_main_v31
    rw [← f40_main_v4]
    all_goals rfl
  have f41_main_v4 : V41 (Proc.devRef .tc main_v4) = Read.val_main_v4 (F := F) x1 x4 x5 := by
    rw [← hV]; simp (disch := decide) only [nullary_result_ne', unary_result_ne', binary_result_ne', ternary_result_ne', reshape_result_ne', nary_result_ne']; exact f40_main_v4
  have f41_main_v5 : V41 (Proc.devRef .tc main_v5) = Read.val_main_v5 (F := F) x2 := by
    rw [← hV]; simp (disch := decide) only [nullary_result_ne', unary_result_ne', binary_result_ne', ternary_result_ne', reshape_result_ne', nary_result_ne']; exact f40_main_v5
  have f41_main_v24 : V41 (Proc.devRef .tc main_v24) = Read.val_main_v24 (F := F) x0 := by
    rw [← hV]; simp (disch := decide) only [nullary_result_ne', unary_result_ne', binary_result_ne', ternary_result_ne', reshape_result_ne', nary_result_ne']; exact f40_main_v24
  have f41_main_v25 : V41 (Proc.devRef .tc main_v25) = Read.val_main_v25 (F := F) x1 x4 x5 := by
    rw [← hV]; simp (disch := decide) only [nullary_result_ne', unary_result_ne', binary_result_ne', ternary_result_ne', reshape_result_ne', nary_result_ne']; exact f40_main_v25
  have f41_main_v26 : V41 (Proc.devRef .tc main_v26) = Read.val_main_v26 (F := F) x1 x4 x5 := by
    rw [← hV]; simp (disch := decide) only [nullary_result_ne', unary_result_ne', binary_result_ne', ternary_result_ne', reshape_result_ne', nary_result_ne']; exact f40_main_v26
  have f41_main_v27 : V41 (Proc.devRef .tc main_v27) = Read.val_main_v27 (F := F) x1 x4 x5 := by
    rw [← hV]; simp (disch := decide) only [nullary_result_ne', unary_result_ne', binary_result_ne', ternary_result_ne', reshape_result_ne', nary_result_ne']; exact f40_main_v27
  have f41_main_v28 : V41 (Proc.devRef .tc main_v28) = Read.val_main_v28 (F := F) x1 x4 x5 := by
    rw [← hV]; simp (disch := decide) only [nullary_result_ne', unary_result_ne', binary_result_ne', ternary_result_ne', reshape_result_ne', nary_result_ne']; exact f40_main_v28
  have f41_main_v29 : V41 (Proc.devRef .tc main_v29) = Read.val_main_v29 (F := F) x1 x4 x5 := by
    rw [← hV]; simp (disch := decide) only [nullary_result_ne', unary_result_ne', binary_result_ne', ternary_result_ne', reshape_result_ne', nary_result_ne']; exact f40_main_v29
  have f41_main_v30 : V41 (Proc.devRef .tc main_v30) = Read.val_main_v30 (F := F) x1 x4 x5 := by
    rw [← hV]; simp (disch := decide) only [nullary_result_ne', unary_result_ne', binary_result_ne', ternary_result_ne', reshape_result_ne', nary_result_ne']; exact f40_main_v30
  have f41_main_arg0 : V41 (Proc.devRef .tc main_arg0) = x0 := by
    rw [← hV]; simp (disch := decide) only [nullary_result_ne', unary_result_ne', binary_result_ne', ternary_result_ne', reshape_result_ne', nary_result_ne']; exact f40_main_arg0
  have f41_main_arg2 : V41 (Proc.devRef .tc main_arg2) = x2 := by
    rw [← hV]; simp (disch := decide) only [nullary_result_ne', unary_result_ne', binary_result_ne', ternary_result_ne', reshape_result_ne', nary_result_ne']; exact f40_main_arg2
  have f41_main_arg3 : V41 (Proc.devRef .tc main_arg3) = x3 := by
    rw [← hV]; simp (disch := decide) only [nullary_result_ne', unary_result_ne', binary_result_ne', ternary_result_ne', reshape_result_ne', nary_result_ne']; exact f40_main_arg3
  clear hV f40_main_v4 f40_main_v5 f40_main_v24 f40_main_v25 f40_main_v26 f40_main_v27 f40_main_v28 f40_main_v29 f40_main_v30 f40_main_arg0 f40_main_arg2 f40_main_arg3 V40
  -- operation 41: main_v32
  rw [after_cons]
  generalize hV : HloOp.result _ V41 = V42
  have f42_main_v32 : V42 (Proc.devRef .tc main_v32) = Read.val_main_v32 (F := F) x1 x4 x5 := by
    rw [← hV]; refine (unary_result _ _ _ _ _ _).trans ?_; unfold Read.val_main_v32
    rw [← f41_main_v4]
    all_goals rfl
  have f42_main_v4 : V42 (Proc.devRef .tc main_v4) = Read.val_main_v4 (F := F) x1 x4 x5 := by
    rw [← hV]; simp (disch := decide) only [nullary_result_ne', unary_result_ne', binary_result_ne', ternary_result_ne', reshape_result_ne', nary_result_ne']; exact f41_main_v4
  have f42_main_v5 : V42 (Proc.devRef .tc main_v5) = Read.val_main_v5 (F := F) x2 := by
    rw [← hV]; simp (disch := decide) only [nullary_result_ne', unary_result_ne', binary_result_ne', ternary_result_ne', reshape_result_ne', nary_result_ne']; exact f41_main_v5
  have f42_main_v24 : V42 (Proc.devRef .tc main_v24) = Read.val_main_v24 (F := F) x0 := by
    rw [← hV]; simp (disch := decide) only [nullary_result_ne', unary_result_ne', binary_result_ne', ternary_result_ne', reshape_result_ne', nary_result_ne']; exact f41_main_v24
  have f42_main_v25 : V42 (Proc.devRef .tc main_v25) = Read.val_main_v25 (F := F) x1 x4 x5 := by
    rw [← hV]; simp (disch := decide) only [nullary_result_ne', unary_result_ne', binary_result_ne', ternary_result_ne', reshape_result_ne', nary_result_ne']; exact f41_main_v25
  have f42_main_v26 : V42 (Proc.devRef .tc main_v26) = Read.val_main_v26 (F := F) x1 x4 x5 := by
    rw [← hV]; simp (disch := decide) only [nullary_result_ne', unary_result_ne', binary_result_ne', ternary_result_ne', reshape_result_ne', nary_result_ne']; exact f41_main_v26
  have f42_main_v27 : V42 (Proc.devRef .tc main_v27) = Read.val_main_v27 (F := F) x1 x4 x5 := by
    rw [← hV]; simp (disch := decide) only [nullary_result_ne', unary_result_ne', binary_result_ne', ternary_result_ne', reshape_result_ne', nary_result_ne']; exact f41_main_v27
  have f42_main_v28 : V42 (Proc.devRef .tc main_v28) = Read.val_main_v28 (F := F) x1 x4 x5 := by
    rw [← hV]; simp (disch := decide) only [nullary_result_ne', unary_result_ne', binary_result_ne', ternary_result_ne', reshape_result_ne', nary_result_ne']; exact f41_main_v28
  have f42_main_v29 : V42 (Proc.devRef .tc main_v29) = Read.val_main_v29 (F := F) x1 x4 x5 := by
    rw [← hV]; simp (disch := decide) only [nullary_result_ne', unary_result_ne', binary_result_ne', ternary_result_ne', reshape_result_ne', nary_result_ne']; exact f41_main_v29
  have f42_main_v30 : V42 (Proc.devRef .tc main_v30) = Read.val_main_v30 (F := F) x1 x4 x5 := by
    rw [← hV]; simp (disch := decide) only [nullary_result_ne', unary_result_ne', binary_result_ne', ternary_result_ne', reshape_result_ne', nary_result_ne']; exact f41_main_v30
  have f42_main_v31 : V42 (Proc.devRef .tc main_v31) = Read.val_main_v31 (F := F) x1 x4 x5 := by
    rw [← hV]; simp (disch := decide) only [nullary_result_ne', unary_result_ne', binary_result_ne', ternary_result_ne', reshape_result_ne', nary_result_ne']; exact f41_main_v31
  have f42_main_arg0 : V42 (Proc.devRef .tc main_arg0) = x0 := by
    rw [← hV]; simp (disch := decide) only [nullary_result_ne', unary_result_ne', binary_result_ne', ternary_result_ne', reshape_result_ne', nary_result_ne']; exact f41_main_arg0
  have f42_main_arg2 : V42 (Proc.devRef .tc main_arg2) = x2 := by
    rw [← hV]; simp (disch := decide) only [nullary_result_ne', unary_result_ne', binary_result_ne', ternary_result_ne', reshape_result_ne', nary_result_ne']; exact f41_main_arg2
  have f42_main_arg3 : V42 (Proc.devRef .tc main_arg3) = x3 := by
    rw [← hV]; simp (disch := decide) only [nullary_result_ne', unary_result_ne', binary_result_ne', ternary_result_ne', reshape_result_ne', nary_result_ne']; exact f41_main_arg3
  clear hV f41_main_v4 f41_main_v5 f41_main_v24 f41_main_v25 f41_main_v26 f41_main_v27 f41_main_v28 f41_main_v29 f41_main_v30 f41_main_v31 f41_main_arg0 f41_main_arg2 f41_main_arg3 V41
  -- operation 42: main_v33
  rw [after_cons]
  generalize hV : HloOp.result _ V42 = V43
  have f43_main_v33 : V43 (Proc.devRef .tc main_v33) = Read.val_main_v33 (F := F) x1 x4 x5 := by
    rw [← hV]; refine (unary_result _ _ _ _ _ _).trans ?_; unfold Read.val_main_v33
    rw [← f42_main_v4]
    all_goals rfl
  have f43_main_v5 : V43 (Proc.devRef .tc main_v5) = Read.val_main_v5 (F := F) x2 := by
    rw [← hV]; simp (disch := decide) only [nullary_result_ne', unary_result_ne', binary_result_ne', ternary_result_ne', reshape_result_ne', nary_result_ne']; exact f42_main_v5
  have f43_main_v24 : V43 (Proc.devRef .tc main_v24) = Read.val_main_v24 (F := F) x0 := by
    rw [← hV]; simp (disch := decide) only [nullary_result_ne', unary_result_ne', binary_result_ne', ternary_result_ne', reshape_result_ne', nary_result_ne']; exact f42_main_v24
  have f43_main_v25 : V43 (Proc.devRef .tc main_v25) = Read.val_main_v25 (F := F) x1 x4 x5 := by
    rw [← hV]; simp (disch := decide) only [nullary_result_ne', unary_result_ne', binary_result_ne', ternary_result_ne', reshape_result_ne', nary_result_ne']; exact f42_main_v25
  have f43_main_v26 : V43 (Proc.devRef .tc main_v26) = Read.val_main_v26 (F := F) x1 x4 x5 := by
    rw [← hV]; simp (disch := decide) only [nullary_result_ne', unary_result_ne', binary_result_ne', ternary_result_ne', reshape_result_ne', nary_result_ne']; exact f42_main_v26
  have f43_main_v27 : V43 (Proc.devRef .tc main_v27) = Read.val_main_v27 (F := F) x1 x4 x5 := by
    rw [← hV]; simp (disch := decide) only [nullary_result_ne', unary_result_ne', binary_result_ne', ternary_result_ne', reshape_result_ne', nary_result_ne']; exact f42_main_v27
  have f43_main_v28 : V43 (Proc.devRef .tc main_v28) = Read.val_main_v28 (F := F) x1 x4 x5 := by
    rw [← hV]; simp (disch := decide) only [nullary_result_ne', unary_result_ne', binary_result_ne', ternary_result_ne', reshape_result_ne', nary_result_ne']; exact f42_main_v28
  have f43_main_v29 : V43 (Proc.devRef .tc main_v29) = Read.val_main_v29 (F := F) x1 x4 x5 := by
    rw [← hV]; simp (disch := decide) only [nullary_result_ne', unary_result_ne', binary_result_ne', ternary_result_ne', reshape_result_ne', nary_result_ne']; exact f42_main_v29
  have f43_main_v30 : V43 (Proc.devRef .tc main_v30) = Read.val_main_v30 (F := F) x1 x4 x5 := by
    rw [← hV]; simp (disch := decide) only [nullary_result_ne', unary_result_ne', binary_result_ne', ternary_result_ne', reshape_result_ne', nary_result_ne']; exact f42_main_v30
  have f43_main_v31 : V43 (Proc.devRef .tc main_v31) = Read.val_main_v31 (F := F) x1 x4 x5 := by
    rw [← hV]; simp (disch := decide) only [nullary_result_ne', unary_result_ne', binary_result_ne', ternary_result_ne', reshape_result_ne', nary_result_ne']; exact f42_main_v31
  have f43_main_v32 : V43 (Proc.devRef .tc main_v32) = Read.val_main_v32 (F := F) x1 x4 x5 := by
    rw [← hV]; simp (disch := decide) only [nullary_result_ne', unary_result_ne', binary_result_ne', ternary_result_ne', reshape_result_ne', nary_result_ne']; exact f42_main_v32
  have f43_main_arg0 : V43 (Proc.devRef .tc main_arg0) = x0 := by
    rw [← hV]; simp (disch := decide) only [nullary_result_ne', unary_result_ne', binary_result_ne', ternary_result_ne', reshape_result_ne', nary_result_ne']; exact f42_main_arg0
  have f43_main_arg2 : V43 (Proc.devRef .tc main_arg2) = x2 := by
    rw [← hV]; simp (disch := decide) only [nullary_result_ne', unary_result_ne', binary_result_ne', ternary_result_ne', reshape_result_ne', nary_result_ne']; exact f42_main_arg2
  have f43_main_arg3 : V43 (Proc.devRef .tc main_arg3) = x3 := by
    rw [← hV]; simp (disch := decide) only [nullary_result_ne', unary_result_ne', binary_result_ne', ternary_result_ne', reshape_result_ne', nary_result_ne']; exact f42_main_arg3
  clear hV f42_main_v4 f42_main_v5 f42_main_v24 f42_main_v25 f42_main_v26 f42_main_v27 f42_main_v28 f42_main_v29 f42_main_v30 f42_main_v31 f42_main_v32 f42_main_arg0 f42_main_arg2 f42_main_arg3 V42
  -- operation 43: main_v34
  rw [after_cons]
  generalize hV : HloOp.result _ V43 = V44
  have f44_main_v34 : V44 (Proc.devRef .tc main_v34) = Read.val_main_v34 (F := F) x1 x4 x5 := by
    rw [← hV]; refine (unary_result _ _ _ _ _ _).trans ?_; unfold Read.val_main_v34
    rw [← f43_main_v25]
    all_goals rfl
  have f44_main_v5 : V44 (Proc.devRef .tc main_v5) = Read.val_main_v5 (F := F) x2 := by
    rw [← hV]; simp (disch := decide) only [nullary_result_ne', unary_result_ne', binary_result_ne', ternary_result_ne', reshape_result_ne', nary_result_ne']; exact f43_main_v5
  have f44_main_v24 : V44 (Proc.devRef .tc main_v24) = Read.val_main_v24 (F := F) x0 := by
    rw [← hV]; simp (disch := decide) only [nullary_result_ne', unary_result_ne', binary_result_ne', ternary_result_ne', reshape_result_ne', nary_result_ne']; exact f43_main_v24
  have f44_main_v26 : V44 (Proc.devRef .tc main_v26) = Read.val_main_v26 (F := F) x1 x4 x5 := by
    rw [← hV]; simp (disch := decide) only [nullary_result_ne', unary_result_ne', binary_result_ne', ternary_result_ne', reshape_result_ne', nary_result_ne']; exact f43_main_v26
  have f44_main_v27 : V44 (Proc.devRef .tc main_v27) = Read.val_main_v27 (F := F) x1 x4 x5 := by
    rw [← hV]; simp (disch := decide) only [nullary_result_ne', unary_result_ne', binary_result_ne', ternary_result_ne', reshape_result_ne', nary_result_ne']; exact f43_main_v27
  have f44_main_v28 : V44 (Proc.devRef .tc main_v28) = Read.val_main_v28 (F := F) x1 x4 x5 := by
    rw [← hV]; simp (disch := decide) only [nullary_result_ne', unary_result_ne', binary_result_ne', ternary_result_ne', reshape_result_ne', nary_result_ne']; exact f43_main_v28
  have f44_main_v29 : V44 (Proc.devRef .tc main_v29) = Read.val_main_v29 (F := F) x1 x4 x5 := by
    rw [← hV]; simp (disch := decide) only [nullary_result_ne', unary_result_ne', binary_result_ne', ternary_result_ne', reshape_result_ne', nary_result_ne']; exact f43_main_v29
  have f44_main_v30 : V44 (Proc.devRef .tc main_v30) = Read.val_main_v30 (F := F) x1 x4 x5 := by
    rw [← hV]; simp (disch := decide) only [nullary_result_ne', unary_result_ne', binary_result_ne', ternary_result_ne', reshape_result_ne', nary_result_ne']; exact f43_main_v30
  have f44_main_v31 : V44 (Proc.devRef .tc main_v31) = Read.val_main_v31 (F := F) x1 x4 x5 := by
    rw [← hV]; simp (disch := decide) only [nullary_result_ne', unary_result_ne', binary_result_ne', ternary_result_ne', reshape_result_ne', nary_result_ne']; exact f43_main_v31
  have f44_main_v32 : V44 (Proc.devRef .tc main_v32) = Read.val_main_v32 (F := F) x1 x4 x5 := by
    rw [← hV]; simp (disch := decide) only [nullary_result_ne', unary_result_ne', binary_result_ne', ternary_result_ne', reshape_result_ne', nary_result_ne']; exact f43_main_v32
  have f44_main_v33 : V44 (Proc.devRef .tc main_v33) = Read.val_main_v33 (F := F) x1 x4 x5 := by
    rw [← hV]; simp (disch := decide) only [nullary_result_ne', unary_result_ne', binary_result_ne', ternary_result_ne', reshape_result_ne', nary_result_ne']; exact f43_main_v33
  have f44_main_arg0 : V44 (Proc.devRef .tc main_arg0) = x0 := by
    rw [← hV]; simp (disch := decide) only [nullary_result_ne', unary_result_ne', binary_result_ne', ternary_result_ne', reshape_result_ne', nary_result_ne']; exact f43_main_arg0
  have f44_main_arg2 : V44 (Proc.devRef .tc main_arg2) = x2 := by
    rw [← hV]; simp (disch := decide) only [nullary_result_ne', unary_result_ne', binary_result_ne', ternary_result_ne', reshape_result_ne', nary_result_ne']; exact f43_main_arg2
  have f44_main_arg3 : V44 (Proc.devRef .tc main_arg3) = x3 := by
    rw [← hV]; simp (disch := decide) only [nullary_result_ne', unary_result_ne', binary_result_ne', ternary_result_ne', reshape_result_ne', nary_result_ne']; exact f43_main_arg3
  clear hV f43_main_v5 f43_main_v24 f43_main_v25 f43_main_v26 f43_main_v27 f43_main_v28 f43_main_v29 f43_main_v30 f43_main_v31 f43_main_v32 f43_main_v33 f43_main_arg0 f43_main_arg2 f43_main_arg3 V43
  -- operation 44: main_v35
  rw [after_cons]
  generalize hV : HloOp.result _ V44 = V45
  have f45_main_v35 : V45 (Proc.devRef .tc main_v35) = Read.val_main_v35 (F := F) x1 x4 x5 := by
    rw [← hV]; refine (unary_result _ _ _ _ _ _).trans ?_; unfold Read.val_main_v35
    rw [← f44_main_v26]
    all_goals rfl
  have f45_main_v5 : V45 (Proc.devRef .tc main_v5) = Read.val_main_v5 (F := F) x2 := by
    rw [← hV]; simp (disch := decide) only [nullary_result_ne', unary_result_ne', binary_result_ne', ternary_result_ne', reshape_result_ne', nary_result_ne']; exact f44_main_v5
  have f45_main_v24 : V45 (Proc.devRef .tc main_v24) = Read.val_main_v24 (F := F) x0 := by
    rw [← hV]; simp (disch := decide) only [nullary_result_ne', unary_result_ne', binary_result_ne', ternary_result_ne', reshape_result_ne', nary_result_ne']; exact f44_main_v24
  have f45_main_v27 : V45 (Proc.devRef .tc main_v27) = Read.val_main_v27 (F := F) x1 x4 x5 := by
    rw [← hV]; simp (disch := decide) only [nullary_result_ne', unary_result_ne', binary_result_ne', ternary_result_ne', reshape_result_ne', nary_result_ne']; exact f44_main_v27
  have f45_main_v28 : V45 (Proc.devRef .tc main_v28) = Read.val_main_v28 (F := F) x1 x4 x5 := by
    rw [← hV]; simp (disch := decide) only [nullary_result_ne', unary_result_ne', binary_result_ne', ternary_result_ne', reshape_result_ne', nary_result_ne']; exact f44_main_v28
  have f45_main_v29 : V45 (Proc.devRef .tc main_v29) = Read.val_main_v29 (F := F) x1 x4 x5 := by
    rw [← hV]; simp (disch := decide) only [nullary_result_ne', unary_result_ne', binary_result_ne', ternary_result_ne', reshape_result_ne', nary_result_ne']; exact f44_main_v29
  have f45_main_v30 : V45 (Proc.devRef .tc main_v30) = Read.val_main_v30 (F := F) x1 x4 x5 := by
    rw [← hV]; simp (disch := decide) only [nullary_result_ne', unary_result_ne', binary_result_ne', ternary_result_ne', reshape_result_ne', nary_result_ne']; exact f44_main_v30
  have f45_main_v31 : V45 (Proc.devRef .tc main_v31) = Read.val_main_v31 (F := F) x1 x4 x5 := by
    rw [← hV]; simp (disch := decide) only [nullary_result_ne', unary_result_ne', binary_result_ne', ternary_result_ne', reshape_result_ne', nary_result_ne']; exact f44_main_v31
  have f45_main_v32 : V45 (Proc.devRef .tc main_v32) = Read.val_main_v32 (F := F) x1 x4 x5 := by
    rw [← hV]; simp (disch := decide) only [nullary_result_ne', unary_result_ne', binary_result_ne', ternary_result_ne', reshape_result_ne', nary_result_ne']; exact f44_main_v32
  have f45_main_v33 : V45 (Proc.devRef .tc main_v33) = Read.val_main_v33 (F := F) x1 x4 x5 := by
    rw [← hV]; simp (disch := decide) only [nullary_result_ne', unary_result_ne', binary_result_ne', ternary_result_ne', reshape_result_ne', nary_result_ne']; exact f44_main_v33
  have f45_main_v34 : V45 (Proc.devRef .tc main_v34) = Read.val_main_v34 (F := F) x1 x4 x5 := by
    rw [← hV]; simp (disch := decide) only [nullary_result_ne', unary_result_ne', binary_result_ne', ternary_result_ne', reshape_result_ne', nary_result_ne']; exact f44_main_v34
  have f45_main_arg0 : V45 (Proc.devRef .tc main_arg0) = x0 := by
    rw [← hV]; simp (disch := decide) only [nullary_result_ne', unary_result_ne', binary_result_ne', ternary_result_ne', reshape_result_ne', nary_result_ne']; exact f44_main_arg0
  have f45_main_arg2 : V45 (Proc.devRef .tc main_arg2) = x2 := by
    rw [← hV]; simp (disch := decide) only [nullary_result_ne', unary_result_ne', binary_result_ne', ternary_result_ne', reshape_result_ne', nary_result_ne']; exact f44_main_arg2
  have f45_main_arg3 : V45 (Proc.devRef .tc main_arg3) = x3 := by
    rw [← hV]; simp (disch := decide) only [nullary_result_ne', unary_result_ne', binary_result_ne', ternary_result_ne', reshape_result_ne', nary_result_ne']; exact f44_main_arg3
  clear hV f44_main_v5 f44_main_v24 f44_main_v26 f44_main_v27 f44_main_v28 f44_main_v29 f44_main_v30 f44_main_v31 f44_main_v32 f44_main_v33 f44_main_v34 f44_main_arg0 f44_main_arg2 f44_main_arg3 V44
  -- operation 45: main_v36
  rw [after_cons]
  generalize hV : HloOp.result _ V45 = V46
  have f46_main_v36 : V46 (Proc.devRef .tc main_v36) = Read.val_main_v36 (F := F) x1 x4 x5 := by
    rw [← hV]; refine (unary_result _ _ _ _ _ _).trans ?_; unfold Read.val_main_v36
    rw [← f45_main_v27]
    all_goals rfl
  have f46_main_v5 : V46 (Proc.devRef .tc main_v5) = Read.val_main_v5 (F := F) x2 := by
    rw [← hV]; simp (disch := decide) only [nullary_result_ne', unary_result_ne', binary_result_ne', ternary_result_ne', reshape_result_ne', nary_result_ne']; exact f45_main_v5
  have f46_main_v24 : V46 (Proc.devRef .tc main_v24) = Read.val_main_v24 (F := F) x0 := by
    rw [← hV]; simp (disch := decide) only [nullary_result_ne', unary_result_ne', binary_result_ne', ternary_result_ne', reshape_result_ne', nary_result_ne']; exact f45_main_v24
  have f46_main_v28 : V46 (Proc.devRef .tc main_v28) = Read.val_main_v28 (F := F) x1 x4 x5 := by
    rw [← hV]; simp (disch := decide) only [nullary_result_ne', unary_result_ne', binary_result_ne', ternary_result_ne', reshape_result_ne', nary_result_ne']; exact f45_main_v28
  have f46_main_v29 : V46 (Proc.devRef .tc main_v29) = Read.val_main_v29 (F := F) x1 x4 x5 := by
    rw [← hV]; simp (disch := decide) only [nullary_result_ne', unary_result_ne', binary_result_ne', ternary_result_ne', reshape_result_ne', nary_result_ne']; exact f45_main_v29
  have f46_main_v30 : V46 (Proc.devRef .tc main_v30) = Read.val_main_v30 (F := F) x1 x4 x5 := by
    rw [← hV]; simp (disch := decide) only [nullary_result_ne', unary_result_ne', binary_result_ne', ternary_result_ne', reshape_result_ne', nary_result_ne']; exact f45_main_v30
  have f46_main_v31 : V46 (Proc.devRef .tc main_v31) = Read.val_main_v31 (F := F) x1 x4 x5 := by
    rw [← hV]; simp (disch := decide) only [nullary_result_ne', unary_result_ne', binary_result_ne', ternary_result_ne', reshape_result_ne', nary_result_ne']; exact f45_main_v31
  have f46_main_v32 : V46 (Proc.devRef .tc main_v32) = Read.val_main_v32 (F := F) x1 x4 x5 := by
    rw [← hV]; simp (disch := decide) only [nullary_result_ne', unary_result_ne', binary_result_ne', ternary_result_ne', reshape_result_ne', nary_result_ne']; exact f45_main_v32
  have f46_main_v33 : V46 (Proc.devRef .tc main_v33) = Read.val_main_v33 (F := F) x1 x4 x5 := by
    rw [← hV]; simp (disch := decide) only [nullary_result_ne', unary_result_ne', binary_result_ne', ternary_result_ne', reshape_result_ne', nary_result_ne']; exact f45_main_v33
  have f46_main_v34 : V46 (Proc.devRef .tc main_v34) = Read.val_main_v34 (F := F) x1 x4 x5 := by
    rw [← hV]; simp (disch := decide) only [nullary_result_ne', unary_result_ne', binary_result_ne', ternary_result_ne', reshape_result_ne', nary_result_ne']; exact f45_main_v34
  have f46_main_v35 : V46 (Proc.devRef .tc main_v35) = Read.val_main_v35 (F := F) x1 x4 x5 := by
    rw [← hV]; simp (disch := decide) only [nullary_result_ne', unary_result_ne', binary_result_ne', ternary_result_ne', reshape_result_ne', nary_result_ne']; exact f45_main_v35
  have f46_main_arg0 : V46 (Proc.devRef .tc main_arg0) = x0 := by
    rw [← hV]; simp (disch := decide) only [nullary_result_ne', unary_result_ne', binary_result_ne', ternary_result_ne', reshape_result_ne', nary_result_ne']; exact f45_main_arg0
  have f46_main_arg2 : V46 (Proc.devRef .tc main_arg2) = x2 := by
    rw [← hV]; simp (disch := decide) only [nullary_result_ne', unary_result_ne', binary_result_ne', ternary_result_ne', reshape_result_ne', nary_result_ne']; exact f45_main_arg2
  have f46_main_arg3 : V46 (Proc.devRef .tc main_arg3) = x3 := by
    rw [← hV]; simp (disch := decide) only [nullary_result_ne', unary_result_ne', binary_result_ne', ternary_result_ne', reshape_result_ne', nary_result_ne']; exact f45_main_arg3
  clear hV f45_main_v5 f45_main_v24 f45_main_v27 f45_main_v28 f45_main_v29 f45_main_v30 f45_main_v31 f45_main_v32 f45_main_v33 f45_main_v34 f45_main_v35 f45_main_arg0 f45_main_arg2 f45_main_arg3 V45
  -- operation 46: main_v37
  rw [after_cons]
  generalize hV : HloOp.result _ V46 = V47
  have f47_main_v37 : V47 (Proc.devRef .tc main_v37) = Read.val_main_v37 (F := F) x1 x4 x5 := by
    rw [← hV]; refine (unary_result _ _ _ _ _ _).trans ?_; unfold Read.val_main_v37
    rw [← f46_main_v28]
    all_goals rfl
  have f47_main_v5 : V47 (Proc.devRef .tc main_v5) = Read.val_main_v5 (F := F) x2 := by
    rw [← hV]; simp (disch := decide) only [nullary_result_ne', unary_result_ne', binary_result_ne', ternary_result_ne', reshape_result_ne', nary_result_ne']; exact f46_main_v5
  have f47_main_v24 : V47 (Proc.devRef .tc main_v24) = Read.val_main_v24 (F := F) x0 := by
    rw [← hV]; simp (disch := decide) only [nullary_result_ne', unary_result_ne', binary_result_ne', ternary_result_ne', reshape_result_ne', nary_result_ne']; exact f46_main_v24
  have f47_main_v29 : V47 (Proc.devRef .tc main_v29) = Read.val_main_v29 (F := F) x1 x4 x5 := by
    rw [← hV]; simp (disch := decide) only [nullary_result_ne', unary_result_ne', binary_result_ne', ternary_result_ne', reshape_result_ne', nary_result_ne']; exact f46_main_v29
  have f47_main_v30 : V47 (Proc.devRef .tc main_v30) = Read.val_main_v30 (F := F) x1 x4 x5 := by
    rw [← hV]; simp (disch := decide) only [nullary_result_ne', unary_result_ne', binary_result_ne', ternary_result_ne', reshape_result_ne', nary_result_ne']; exact f46_main_v30
  have f47_main_v31 : V47 (Proc.devRef .tc main_v31) = Read.val_main_v31 (F := F) x1 x4 x5 := by
    rw [← hV]; simp (disch := decide) only [nullary_result_ne', unary_result_ne', binary_result_ne', ternary_result_ne', reshape_result_ne', nary_result_ne']; exact f46_main_v31
  have f47_main_v32 : V47 (Proc.devRef .tc main_v32) = Read.val_main_v32 (F := F) x1 x4 x5 := by
    rw [← hV]; simp (disch := decide) only [nullary_result_ne', unary_result_ne', binary_result_ne', ternary_result_ne', reshape_result_ne', nary_result_ne']; exact f46_main_v32
  have f47_main_v33 : V47 (Proc.devRef .tc main_v33) = Read.val_main_v33 (F := F) x1 x4 x5 := by
    rw [← hV]; simp (disch := decide) only [nullary_result_ne', unary_result_ne', binary_result_ne', ternary_result_ne', reshape_result_ne', nary_result_ne']; exact f46_main_v33
  have f47_main_v34 : V47 (Proc.devRef .tc main_v34) = Read.val_main_v34 (F := F) x1 x4 x5 := by
    rw [← hV]; simp (disch := decide) only [nullary_result_ne', unary_result_ne', binary_result_ne', ternary_result_ne', reshape_result_ne', nary_result_ne']; exact f46_main_v34
  have f47_main_v35 : V47 (Proc.devRef .tc main_v35) = Read.val_main_v35 (F := F) x1 x4 x5 := by
    rw [← hV]; simp (disch := decide) only [nullary_result_ne', unary_result_ne', binary_result_ne', ternary_result_ne', reshape_result_ne', nary_result_ne']; exact f46_main_v35
  have f47_main_v36 : V47 (Proc.devRef .tc main_v36) = Read.val_main_v36 (F := F) x1 x4 x5 := by
    rw [← hV]; simp (disch := decide) only [nullary_result_ne', unary_result_ne', binary_result_ne', ternary_result_ne', reshape_result_ne', nary_result_ne']; exact f46_main_v36
  have f47_main_arg0 : V47 (Proc.devRef .tc main_arg0) = x0 := by
    rw [← hV]; simp (disch := decide) only [nullary_result_ne', unary_result_ne', binary_result_ne', ternary_result_ne', reshape_result_ne', nary_result_ne']; exact f46_main_arg0
  have f47_main_arg2 : V47 (Proc.devRef .tc main_arg2) = x2 := by
    rw [← hV]; simp (disch := decide) only [nullary_result_ne', unary_result_ne', binary_result_ne', ternary_result_ne', reshape_result_ne', nary_result_ne']; exact f46_main_arg2
  have f47_main_arg3 : V47 (Proc.devRef .tc main_arg3) = x3 := by
    rw [← hV]; simp (disch := decide) only [nullary_result_ne', unary_result_ne', binary_result_ne', ternary_result_ne', reshape_result_ne', nary_result_ne']; exact f46_main_arg3
  clear hV f46_main_v5 f46_main_v24 f46_main_v28 f46_main_v29 f46_main_v30 f46_main_v31 f46_main_v32 f46_main_v33 f46_main_v34 f46_main_v35 f46_main_v36 f46_main_arg0 f46_main_arg2 f46_main_arg3 V46
  -- operation 47: main_v38
  rw [after_cons]
  generalize hV : HloOp.result _ V47 = V48
  have f48_main_v38 : V48 (Proc.devRef .tc main_v38) = Read.val_main_v38 (F := F) x1 x4 x5 := by
    rw [← hV]; refine (unary_result _ _ _ _ _ _).trans ?_; unfold Read.val_main_v38
    rw [← f47_main_v29]
    all_goals rfl
  have f48_main_v5 : V48 (Proc.devRef .tc main_v5) = Read.val_main_v5 (F := F) x2 := by
    rw [← hV]; simp (disch := decide) only [nullary_result_ne', unary_result_ne', binary_result_ne', ternary_result_ne', reshape_result_ne', nary_result_ne']; exact f47_main_v5
  have f48_main_v24 : V48 (Proc.devRef .tc main_v24) = Read.val_main_v24 (F := F) x0 := by
    rw [← hV]; simp (disch := decide) only [nullary_result_ne', unary_result_ne', binary_result_ne', ternary_result_ne', reshape_result_ne', nary_result_ne']; exact f47_main_v24
  have f48_main_v30 : V48 (Proc.devRef .tc main_v30) = Read.val_main_v30 (F := F) x1 x4 x5 := by
    rw [← hV]; simp (disch := decide) only [nullary_result_ne', unary_result_ne', binary_result_ne', ternary_result_ne', reshape_result_ne', nary_result_ne']; exact f47_main_v30
  have f48_main_v31 : V48 (Proc.devRef .tc main_v31) = Read.val_main_v31 (F := F) x1 x4 x5 := by
    rw [← hV]; simp (disch := decide) only [nullary_result_ne', unary_result_ne', binary_result_ne', ternary_result_ne', reshape_result_ne', nary_result_ne']; exact f47_main_v31
  have f48_main_v32 : V48 (Proc.devRef .tc main_v32) = Read.val_main_v32 (F := F) x1 x4 x5 := by
    rw [← hV]; simp (disch := decide) only [nullary_result_ne', unary_result_ne', binary_result_ne', ternary_result_ne', reshape_result_ne', nary_result_ne']; exact f47_main_v32
  have f48_main_v33 : V48 (Proc.devRef .tc main_v33) = Read.val_main_v33 (F := F) x1 x4 x5 := by
    rw [← hV]; simp (disch := decide) only [nullary_result_ne', unary_result_ne', binary_result_ne', ternary_result_ne', reshape_result_ne', nary_result_ne']; exact f47_main_v33
  have f48_main_v34 : V48 (Proc.devRef .tc main_v34) = Read.val_main_v34 (F := F) x1 x4 x5 := by
    rw [← hV]; simp (disch := decide) only [nullary_result_ne', unary_result_ne', binary_result_ne', ternary_result_ne', reshape_result_ne', nary_result_ne']; exact f47_main_v34
  have f48_main_v35 : V48 (Proc.devRef .tc main_v35) = Read.val_main_v35 (F := F) x1 x4 x5 := by
    rw [← hV]; simp (disch := decide) only [nullary_result_ne', unary_result_ne', binary_result_ne', ternary_result_ne', reshape_result_ne', nary_result_ne']; exact f47_main_v35
  have f48_main_v36 : V48 (Proc.devRef .tc main_v36) = Read.val_main_v36 (F := F) x1 x4 x5 := by
    rw [← hV]; simp (disch := decide) only [nullary_result_ne', unary_result_ne', binary_result_ne', ternary_result_ne', reshape_result_ne', nary_result_ne']; exact f47_main_v36
  have f48_main_v37 : V48 (Proc.devRef .tc main_v37) = Read.val_main_v37 (F := F) x1 x4 x5 := by
    rw [← hV]; simp (disch := decide) only [nullary_result_ne', unary_result_ne', binary_result_ne', ternary_result_ne', reshape_result_ne', nary_result_ne']; exact f47_main_v37
  have f48_main_arg0 : V48 (Proc.devRef .tc main_arg0) = x0 := by
    rw [← hV]; simp (disch := decide) only [nullary_result_ne', unary_result_ne', binary_result_ne', ternary_result_ne', reshape_result_ne', nary_result_ne']; exact f47_main_arg0
  have f48_main_arg2 : V48 (Proc.devRef .tc main_arg2) = x2 := by
    rw [← hV]; simp (disch := decide) only [nullary_result_ne', unary_result_ne', binary_result_ne', ternary_result_ne', reshape_result_ne', nary_result_ne']; exact f47_main_arg2
  have f48_main_arg3 : V48 (Proc.devRef .tc main_arg3) = x3 := by
    rw [← hV]; simp (disch := decide) only [nullary_result_ne', unary_result_ne', binary_result_ne', ternary_result_ne', reshape_result_ne', nary_result_ne']; exact f47_main_arg3
  clear hV f47_main_v5 f47_main_v24 f47_main_v29 f47_main_v30 f47_main_v31 f47_main_v32 f47_main_v33 f47_main_v34 f47_main_v35 f47_main_v36 f47_main_v37 f47_main_arg0 f47_main_arg2 f47_main_arg3 V47
  -- operation 48: main_v39
  rw [after_cons]
  generalize hV : HloOp.result _ V48 = V49
  have f49_main_v39 : V49 (Proc.devRef .tc main_v39) = Read.val_main_v39 (F := F) x1 x4 x5 := by
    rw [← hV]; refine (unary_result _ _ _ _ _ _).trans ?_; unfold Read.val_main_v39
    rw [← f48_main_v30]
    all_goals rfl
  have f49_main_v5 : V49 (Proc.devRef .tc main_v5) = Read.val_main_v5 (F := F) x2 := by
    rw [← hV]; simp (disch := decide) only [nullary_result_ne', unary_result_ne', binary_result_ne', ternary_result_ne', reshape_result_ne', nary_result_ne']; exact f48_main_v5
  have f49_main_v24 : V49 (Proc.devRef .tc main_v24) = Read.val_main_v24 (F := F) x0 := by
    rw [← hV]; simp (disch := decide) only [nullary_result_ne', unary_result_ne', binary_result_ne', ternary_result_ne', reshape_result_ne', nary_result_ne']; exact f48_main_v24
  have f49_main_v31 : V49 (Proc.devRef .tc main_v31) = Read.val_main_v31 (F := F) x1 x4 x5 := by
    rw [← hV]; simp (disch := decide) only [nullary_result_ne', unary_result_ne', binary_result_ne', ternary_result_ne', reshape_result_ne', nary_result_ne']; exact f48_main_v31
  have f49_main_v32 : V49 (Proc.devRef .tc main_v32) = Read.val_main_v32 (F := F) x1 x4 x5 := by
    rw [← hV]; simp (disch := decide) only [nullary_result_ne', unary_result_ne', binary_result_ne', ternary_result_ne', reshape_result_ne', nary_result_ne']; exact f48_main_v32
  have f49_main_v33 : V49 (Proc.devRef .tc main_v33) = Read.val_main_v33 (F := F) x1 x4 x5 := by
    rw [← hV]; simp (disch := decide) only [nullary_result_ne', unary_result_ne', binary_result_ne', ternary_result_ne', reshape_result_ne', nary_result_ne']; exact f48_main_v33
  have f49_main_v34 : V49 (Proc.devRef .tc main_v34) = Read.val_main_v34 (F := F) x1 x4 x5 := by
    rw [← hV]; simp (disch := decide) only [nullary_result_ne', unary_result_ne', binary_result_ne', ternary_result_ne', reshape_result_ne', nary_result_ne']; exact f48_main_v34
  have f49_main_v35 : V49 (Proc.devRef .tc main_v35) = Read.val_main_v35 (F := F) x1 x4 x5 := by
    rw [← hV]; simp (disch := decide) only [nullary_result_ne', unary_result_ne', binary_result_ne', ternary_result_ne', reshape_result_ne', nary_result_ne']; exact f48_main_v35
  have f49_main_v36 : V49 (Proc.devRef .tc main_v36) = Read.val_main_v36 (F := F) x1 x4 x5 := by
    rw [← hV]; simp (disch := decide) only [nullary_result_ne', unary_result_ne', binary_result_ne', ternary_result_ne', reshape_result_ne', nary_result_ne']; exact f48_main_v36
  have f49_main_v37 : V49 (Proc.devRef .tc main_v37) = Read.val_main_v37 (F := F) x1 x4 x5 := by
    rw [← hV]; simp (disch := decide) only [nullary_result_ne', unary_result_ne', binary_result_ne', ternary_result_ne', reshape_result_ne', nary_result_ne']; exact f48_main_v37
  have f49_main_v38 : V49 (Proc.devRef .tc main_v38) = Read.val_main_v38 (F := F) x1 x4 x5 := by
    rw [← hV]; simp (disch := decide) only [nullary_result_ne', unary_result_ne', binary_result_ne', ternary_result_ne', reshape_result_ne', nary_result_ne']; exact f48_main_v38
  have f49_main_arg0 : V49 (Proc.devRef .tc main_arg0) = x0 := by
    rw [← hV]; simp (disch := decide) only [nullary_result_ne', unary_result_ne', binary_result_ne', ternary_result_ne', reshape_result_ne', nary_result_ne']; exact f48_main_arg0
  have f49_main_arg2 : V49 (Proc.devRef .tc main_arg2) = x2 := by
    rw [← hV]; simp (disch := decide) only [nullary_result_ne', unary_result_ne', binary_result_ne', ternary_result_ne', reshape_result_ne', nary_result_ne']; exact f48_main_arg2
  have f49_main_arg3 : V49 (Proc.devRef .tc main_arg3) = x3 := by
    rw [← hV]; simp (disch := decide) only [nullary_result_ne', unary_result_ne', binary_result_ne', ternary_result_ne', reshape_result_ne', nary_result_ne']; exact f48_main_arg3
  clear hV f48_main_v5 f48_main_v24 f48_main_v30 f48_main_v31 f48_main_v32 f48_main_v33 f48_main_v34 f48_main_v35 f48_main_v36 f48_main_v37 f48_main_v38 f48_main_arg0 f48_main_arg2 f48_main_arg3 V48
  -- operation 49: main_v40
  rw [after_cons]
  generalize hV : HloOp.result _ V49 = V50
  have f50_main_v40 : V50 (Proc.devRef .tc main_v40) = Read.val_main_v40 (F := F) x1 x4 x5 := by
    rw [← hV]; refine (unary_result _ _ _ _ _ _).trans ?_; unfold Read.val_main_v40
    rw [← f49_main_v31]
    all_goals rfl
  have f50_main_v5 : V50 (Proc.devRef .tc main_v5) = Read.val_main_v5 (F := F) x2 := by
    rw [← hV]; simp (disch := decide) only [nullary_result_ne', unary_result_ne', binary_result_ne', ternary_result_ne', reshape_result_ne', nary_result_ne']; exact f49_main_v5
  have f50_main_v24 : V50 (Proc.devRef .tc main_v24) = Read.val_main_v24 (F := F) x0 := by
    rw [← hV]; simp (disch := decide) only [nullary_result_ne', unary_result_ne', binary_result_ne', ternary_result_ne', reshape_result_ne', nary_result_ne']; exact f49_main_v24
  have f50_main_v32 : V50 (Proc.devRef .tc main_v32) = Read.val_main_v32 (F := F) x1 x4 x5 := by
    rw [← hV]; simp (disch := decide) only [nullary_result_ne', unary_result_ne', binary_result_ne', ternary_result_ne', reshape_result_ne', nary_result_ne']; exact f49_main_v32
  have f50_main_v33 : V50 (Proc.devRef .tc main_v33) = Read.val_main_v33 (F := F) x1 x4 x5 := by
    rw [← hV]; simp (disch := decide) only [nullary_result_ne', unary_result_ne', binary_result_ne', ternary_result_ne', reshape_result_ne', nary_result_ne']; exact f49_main_v33
  have f50_main_v34 : V50 (Proc.devRef .tc main_v34) = Read.val_main_v34 (F := F) x1 x4 x5 := by
    rw [← hV]; simp (disch := decide) only [nullary_result_ne', unary_result_ne', binary_result_ne', ternary_result_ne', reshape_result_ne', nary_result_ne']; exact f49_main_v34
  have f50_main_v35 : V50 (Proc.devRef .tc main_v35) = Read.val_main_v35 (F := F) x1 x4 x5 := by
    rw [← hV]; simp (disch := decide) only [nullary_result_ne', unary_result_ne', binary_result_ne', ternary_result_ne', reshape_result_ne', nary_result_ne']; exact f49_main_v35
  have f50_main_v36 : V50 (Proc.devRef .tc main_v36) = Read.val_main_v36 (F := F) x1 x4 x5 := by
    rw [← hV]; simp (disch := decide) only [nullary_result_ne', unary_result_ne', binary_result_ne', ternary_result_ne', reshape_result_ne', nary_result_ne']; exact f49_main_v36
  have f50_main_v37 : V50 (Proc.devRef .tc main_v37) = Read.val_main_v37 (F := F) x1 x4 x5 := by
    rw [← hV]; simp (disch := decide) only [nullary_result_ne', unary_result_ne', binary_result_ne', ternary_result_ne', reshape_result_ne', nary_result_ne']; exact f49_main_v37
  have f50_main_v38 : V50 (Proc.devRef .tc main_v38) = Read.val_main_v38 (F := F) x1 x4 x5 := by
    rw [← hV]; simp (disch := decide) only [nullary_result_ne', unary_result_ne', binary_result_ne', ternary_result_ne', reshape_result_ne', nary_result_ne']; exact f49_main_v38
  have f50_main_v39 : V50 (Proc.devRef .tc main_v39) = Read.val_main_v39 (F := F) x1 x4 x5 := by
    rw [← hV]; simp (disch := decide) only [nullary_result_ne', unary_result_ne', binary_result_ne', ternary_result_ne', reshape_result_ne', nary_result_ne']; exact f49_main_v39
  have f50_main_arg0 : V50 (Proc.devRef .tc main_arg0) = x0 := by
    rw [← hV]; simp (disch := decide) only [nullary_result_ne', unary_result_ne', binary_result_ne', ternary_result_ne', reshape_result_ne', nary_result_ne']; exact f49_main_arg0
  have f50_main_arg2 : V50 (Proc.devRef .tc main_arg2) = x2 := by
    rw [← hV]; simp (disch := decide) only [nullary_result_ne', unary_result_ne', binary_result_ne', ternary_result_ne', reshape_result_ne', nary_result_ne']; exact f49_main_arg2
  have f50_main_arg3 : V50 (Proc.devRef .tc main_arg3) = x3 := by
    rw [← hV]; simp (disch := decide) only [nullary_result_ne', unary_result_ne', binary_result_ne', ternary_result_ne', reshape_result_ne', nary_result_ne']; exact f49_main_arg3
  clear hV f49_main_v5 f49_main_v24 f49_main_v31 f49_main_v32 f49_main_v33 f49_main_v34 f49_main_v35 f49_main_v36 f49_main_v37 f49_main_v38 f49_main_v39 f49_main_arg0 f49_main_arg2 f49_main_arg3 V49
  exact ⟨f50_main_v5, f50_main_v24, f50_main_v32, f50_main_v33, f50_main_v34, f50_main_v35, f50_main_v36, f50_main_v37, f50_main_v38, f50_main_v39, f50_main_v40, f50_main_arg0, f50_main_arg2, f50_main_arg3⟩

set_option maxRecDepth 16384 in
set_option maxHeartbeats 0 in
/-- Operations 50 … 59: from contents at which the buffers still read hold their stages, to contents at which the
    buffers read later hold theirs. -/
theorem stages5 (V50 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f50_main_v5 : V50 (Proc.devRef .tc main_v5) = Read.val_main_v5 (F := F) x2)
    (f50_main_v24 : V50 (Proc.devRef .tc main_v24) = Read.val_main_v24 (F := F) x0)
    (f50_main_v32 : V50 (Proc.devRef .tc main_v32) = Read.val_main_v32 (F := F) x1 x4 x5)
    (f50_main_v33 : V50 (Proc.devRef .tc main_v33) = Read.val_main_v33 (F := F) x1 x4 x5)
    (f50_main_v34 : V50 (Proc.devRef .tc main_v34) = Read.val_main_v34 (F := F) x1 x4 x5)
    (f50_main_v35 : V50 (Proc.devRef .tc main_v35) = Read.val_main_v35 (F := F) x1 x4 x5)
    (f50_main_v36 : V50 (Proc.devRef .tc main_v36) = Read.val_main_v36 (F := F) x1 x4 x5)
    (f50_main_v37 : V50 (Proc.devRef .tc main_v37) = Read.val_main_v37 (F := F) x1 x4 x5)
    (f50_main_v38 : V50 (Proc.devRef .tc main_v38) = Read.val_main_v38 (F := F) x1 x4 x5)
    (f50_main_v39 : V50 (Proc.devRef .tc main_v39) = Read.val_main_v39 (F := F) x1 x4 x5)
    (f50_main_v40 : V50 (Proc.devRef .tc main_v40) = Read.val_main_v40 (F := F) x1 x4 x5)
    (f50_main_arg0 : V50 (Proc.devRef .tc main_arg0) = x0)
    (f50_main_arg2 : V50 (Proc.devRef .tc main_arg2) = x2)
    (f50_main_arg3 : V50 (Proc.devRef .tc main_arg3) = x3) :
    after (ops5 (F := F)) V50 (Proc.devRef .tc main_v5) = Read.val_main_v5 (F := F) x2
    ∧ after (ops5 (F := F)) V50 (Proc.devRef .tc main_v24) = Read.val_main_v24 (F := F) x0
    ∧ after (ops5 (F := F)) V50 (Proc.devRef .tc main_v43) = Read.val_main_v43 (F := F) x1 x4 x5
    ∧ after (ops5 (F := F)) V50 (Proc.devRef .tc main_v44) = Read.val_main_v44 (F := F) x2
    ∧ after (ops5 (F := F)) V50 (Proc.devRef .tc main_v45) = Read.val_main_v45 (F := F) x2
    ∧ after (ops5 (F := F)) V50 (Proc.devRef .tc main_v46) = Read.val_main_v46 (F := F) x2
    ∧ after (ops5 (F := F)) V50 (Proc.devRef .tc main_v47) = Read.val_main_v47 (F := F) x2
    ∧ after (ops5 (F := F)) V50 (Proc.devRef .tc main_v48) = Read.val_main_v48 (F := F) x2
    ∧ after (ops5 (F := F)) V50 (Proc.devRef .tc main_v49) = Read.val_main_v49 (F := F) x2
    ∧ after (ops5 (F := F)) V50 (Proc.devRef .tc main_v50) = Read.val_main_v50 (F := F) x2
    ∧ after (ops5 (F := F)) V50 (Proc.devRef .tc main_arg0) = x0
    ∧ after (ops5 (F := F)) V50 (Proc.devRef .tc main_arg2) = x2
    ∧ after (ops5 (F := F)) V50 (Proc.devRef .tc main_arg3) = x3 := by
  unfold ops5
  -- operation 50: main_v41
  rw [after_cons]
  generalize hV : HloOp.result _ V50 = V51
  have f51_main_v41 : V51 (Proc.devRef .tc main_v41) = Read.val_main_v41 (F := F) x1 x4 x5 := by
    rw [← hV]; refine (unary_result _ _ _ _ _ _).trans ?_; unfold Read.val_main_v41
    rw [← f50_main_v32]
    all_goals rfl
  have f51_main_v5 : V51 (Proc.devRef .tc main_v5) = Read.val_main_v5 (F := F) x2 := by
    rw [← hV]; simp (disch := decide) only [nullary_result_ne', unary_result_ne', binary_result_ne', ternary_result_ne', reshape_result_ne', nary_result_ne']; exact f50_main_v5
  have f51_main_v24 : V51 (Proc.devRef .tc main_v24) = Read.val_main_v24 (F := F) x0 := by
    rw [← hV]; simp (disch := decide) only [nullary_result_ne', unary_result_ne', binary_result_ne', ternary_result_ne', reshape_result_ne', nary_result_ne']; exact f50_main_v24
  have f51_main_v33 : V51 (Proc.devRef .tc main_v33) = Read.val_main_v33 (F := F) x1 x4 x5 := by
    rw [← hV]; simp (disch := decide) only [nullary_result_ne', unary_result_ne', binary_result_ne', ternary_result_ne', reshape_result_ne', nary_result_ne']; exact f50_main_v33
  have f51_main_v34 : V51 (Proc.devRef .tc main_v34) = Read.val_main_v34 (F := F) x1 x4 x5 := by
    rw [← hV]; simp (disch := decide) only [nullary_result_ne', unary_result_ne', binary_result_ne', ternary_result_ne', reshape_result_ne', nary_result_ne']; exact f50_main_v34
  have f51_main_v35 : V51 (Proc.devRef .tc main_v35) = Read.val_main_v35 (F := F) x1 x4 x5 := by
    rw [← hV]; simp (disch := decide) only [nullary_result_ne', unary_result_ne', binary_result_ne', ternary_result_ne', reshape_result_ne', nary_result_ne']; exact f50_main_v35
  have f51_main_v36 : V51 (Proc.devRef .tc main_v36) = Read.val_main_v36 (F := F) x1 x4 x5 := by
    rw [← hV]; simp (disch := decide) only [nullary_result_ne', unary_result_ne', binary_result_ne', ternary_result_ne', reshape_result_ne', nary_result_ne']; exact f50_main_v36
  have f51_main_v37 : V51 (Proc.devRef .tc main_v37) = Read.val_main_v37 (F := F) x1 x4 x5 := by
    rw [← hV]; simp (disch := decide) only [nullary_result_ne', unary_result_ne', binary_result_ne', ternary_result_ne', reshape_result_ne', nary_result_ne']; exact f50_main_v37
  have f51_main_v38 : V51 (Proc.devRef .tc main_v38) = Read.val_main_v38 (F := F) x1 x4 x5 := by
    rw [← hV]; simp (disch := decide) only [nullary_result_ne', unary_result_ne', binary_result_ne', ternary_result_ne', reshape_result_ne', nary_result_ne']; exact f50_main_v38
  have f51_main_v39 : V51 (Proc.devRef .tc main_v39) = Read.val_main_v39 (F := F) x1 x4 x5 := by
    rw [← hV]; simp (disch := decide) only [nullary_result_ne', unary_result_ne', binary_result_ne', ternary_result_ne', reshape_result_ne', nary_result_ne']; exact f50_main_v39
  have f51_main_v40 : V51 (Proc.devRef .tc main_v40) = Read.val_main_v40 (F := F) x1 x4 x5 := by
    rw [← hV]; simp (disch := decide) only [nullary_result_ne', unary_result_ne', binary_result_ne', ternary_result_ne', reshape_result_ne', nary_result_ne']; exact f50_main_v40
  have f51_main_arg0 : V51 (Proc.devRef .tc main_arg0) = x0 := by
    rw [← hV]; simp (disch := decide) only [nullary_result_ne', unary_result_ne', binary_result_ne', ternary_result_ne', reshape_result_ne', nary_result_ne']; exact f50_main_arg0
  have f51_main_arg2 : V51 (Proc.devRef .tc main_arg2) = x2 := by
    rw [← hV]; simp (disch := decide) only [nullary_result_ne', unary_result_ne', binary_result_ne', ternary_result_ne', reshape_result_ne', nary_result_ne']; exact f50_main_arg2
  have f51_main_arg3 : V51 (Proc.devRef .tc main_arg3) = x3 := by
    rw [← hV]; simp (disch := decide) only [nullary_result_ne', unary_result_ne', binary_result_ne', ternary_result_ne', reshape_result_ne', nary_result_ne']; exact f50_main_arg3
  clear hV f50_main_v5 f50_main_v24 f50_main_v32 f50_main_v33 f50_main_v34 f50_main_v35 f50_main_v36 f50_main_v37 f50_main_v38 f50_main_v39 f50_main_v40 f50_main_arg0 f50_main_arg2 f50_main_arg3 V50
  -- operation 51: main_v42
  rw [after_cons]
  generalize hV : HloOp.result _ V51 = V52
  have f52_main_v42 : V52 (Proc.devRef .tc main_v42) = Read.val_main_v42 (F := F) x1 x4 x5 := by
    rw [← hV]; refine (unary_result _ _ _ _ _ _).trans ?_; unfold Read.val_main_v42
    rw [← f51_main_v33]
    all_goals rfl
  have f52_main_v5 : V52 (Proc.devRef .tc main_v5) = Read.val_main_v5 (F := F) x2 := by
    rw [← hV]; simp (disch := decide) only [nullary_result_ne', unary_result_ne', binary_result_ne', ternary_result_ne', reshape_result_ne', nary_result_ne']; exact f51_main_v5
  have f52_main_v24 : V52 (Proc.devRef .tc main_v24) = Read.val_main_v24 (F := F) x0 := by
    rw [← hV]; simp (disch := decide) only [nullary_result_ne', unary_result_ne', binary_result_ne', ternary_result_ne', reshape_result_ne', nary_result_ne']; exact f51_main_v24
  have f52_main_v34 : V52 (Proc.devRef .tc main_v34) = Read.val_main_v34 (F := F) x1 x4 x5 := by
    rw [← hV]; simp (disch := decide) only [nullary_result_ne', unary_result_ne', binary_result_ne', ternary_result_ne', reshape_result_ne', nary_result_ne']; exact f51_main_v34
  have f52_main_v35 : V52 (Proc.devRef .tc main_v35) = Read.val_main_v35 (F := F) x1 x4 x5 := by
    rw [← hV]; simp (disch := decide) only [nullary_result_ne', unary_result_ne', binary_result_ne', ternary_result_ne', reshape_result_ne', nary_result_ne']; exact f51_main_v35
  have f52_main_v36 : V52 (Proc.devRef .tc main_v36) = Read.val_main_v36 (F := F) x1 x4 x5 := by
    rw [← hV]; simp (disch := decide) only [nullary_result_ne', unary_result_ne', binary_result_ne', ternary_result_ne', reshape_result_ne', nary_result_ne']; exact f51_main_v36
  have f52_main_v37 : V52 (Proc.devRef .tc main_v37) = Read.val_main_v37 (F := F) x1 x4 x5 := by
    rw [← hV]; simp (disch := decide) only [nullary_result_ne', unary_result_ne', binary_result_ne', ternary_result_ne', reshape_result_ne', nary_result_ne']; exact f51_main_v37
  have f52_main_v38 : V52 (Proc.devRef .tc main_v38) = Read.val_main_v38 (F := F) x1 x4 x5 := by
    rw [← hV]; simp (disch := decide) only [nullary_result_ne', unary_result_ne', binary_result_ne', ternary_result_ne', reshape_result_ne', nary_result_ne']; exact f51_main_v38
  have f52_main_v39 : V52 (Proc.devRef .tc main_v39) = Read.val_main_v39 (F := F) x1 x4 x5 := by
    rw [← hV]; simp (disch := decide) only [nullary_result_ne', unary_result_ne', binary_result_ne', ternary_result_ne', reshape_result_ne', nary_result_ne']; exact f51_main_v39
  have f52_main_v40 : V52 (Proc.devRef .tc main_v40) = Read.val_main_v40 (F := F) x1 x4 x5 := by
    rw [← hV]; simp (disch := decide) only [nullary_result_ne', unary_result_ne', binary_result_ne', ternary_result_ne', reshape_result_ne', nary_result_ne']; exact f51_main_v40
  have f52_main_v41 : V52 (Proc.devRef .tc main_v41) = Read.val_main_v41 (F := F) x1 x4 x5 := by
    rw [← hV]; simp (disch := decide) only [nullary_result_ne', unary_result_ne', binary_result_ne', ternary_result_ne', reshape_result_ne', nary_result_ne']; exact f51_main_v41
  have f52_main_arg0 : V52 (Proc.devRef .tc main_arg0) = x0 := by
    rw [← hV]; simp (disch := decide) only [nullary_result_ne', unary_result_ne', binary_result_ne', ternary_result_ne', reshape_result_ne', nary_result_ne']; exact f51_main_arg0
  have f52_main_arg2 : V52 (Proc.devRef .tc main_arg2) = x2 := by
    rw [← hV]; simp (disch := decide) only [nullary_result_ne', unary_result_ne', binary_result_ne', ternary_result_ne', reshape_result_ne', nary_result_ne']; exact f51_main_arg2
  have f52_main_arg3 : V52 (Proc.devRef .tc main_arg3) = x3 := by
    rw [← hV]; simp (disch := decide) only [nullary_result_ne', unary_result_ne', binary_result_ne', ternary_result_ne', reshape_result_ne', nary_result_ne']; exact f51_main_arg3
  clear hV f51_main_v5 f51_main_v24 f51_main_v33 f51_main_v34 f51_main_v35 f51_main_v36 f51_main_v37 f51_main_v38 f51_main_v39 f51_main_v40 f51_main_v41 f51_main_arg0 f51_main_arg2 f51_main_arg3 V51
  -- operation 52: main_v43
  rw [after_cons]
  generalize hV : HloOp.result _ V52 = V53
  have f53_main_v43 : V53 (Proc.devRef .tc main_v43) = Read.val_main_v43 (F := F) x1 x4 x5 := by
    rw [← hV]; refine (nary_result _ _ _ _ _ _).trans ?_; unfold Read.val_main_v43
    rw [← f52_main_v34, ← f52_main_v35, ← f52_main_v36, ← f52_main_v37, ← f52_main_v38, ← f52_main_v39, ← f52_main_v40, ← f52_main_v41, ← f52_main_v42]
    all_goals rfl
  have f53_main_v5 : V53 (Proc.devRef .tc main_v5) = Read.val_main_v5 (F := F) x2 := by
    rw [← hV]; simp (disch := decide) only [nullary_result_ne', unary_result_ne', binary_result_ne', ternary_result_ne', reshape_result_ne', nary_result_ne']; exact f52_main_v5
  have f53_main_v24 : V53 (Proc.devRef .tc main_v24) = Read.val_main_v24 (F := F) x0 := by
    rw [← hV]; simp (disch := decide) only [nullary_result_ne', unary_result_ne', binary_result_ne', ternary_result_ne', reshape_result_ne', nary_result_ne']; exact f52_main_v24
  have f53_main_arg0 : V53 (Proc.devRef .tc main_arg0) = x0 := by
    rw [← hV]; simp (disch := decide) only [nullary_result_ne', unary_result_ne', binary_result_ne', ternary_result_ne', reshape_result_ne', nary_result_ne']; exact f52_main_arg0
  have f53_main_arg2 : V53 (Proc.devRef .tc main_arg2) = x2 := by
    rw [← hV]; simp (disch := decide) only [nullary_result_ne', unary_result_ne', binary_result_ne', ternary_result_ne', reshape_result_ne', nary_result_ne']; exact f52_main_arg2
  have f53_main_arg3 : V53 (Proc.devRef .tc main_arg3) = x3 := by
    rw [← hV]; simp (disch := decide) only [nullary_result_ne', unary_result_ne', binary_result_ne', ternary_result_ne', reshape_result_ne', nary_result_ne']; exact f52_main_arg3
  clear hV f52_main_v5 f52_main_v24 f52_main_v34 f52_main_v35 f52_main_v36 f52_main_v37 f52_main_v38 f52_main_v39 f52_main_v40 f52_main_v41 f52_main_v42 f52_main_arg0 f52_main_arg2 f52_main_arg3 V52
  -- operation 53: main_v44
  rw [after_cons]
  generalize hV : HloOp.result _ V53 = V54
  have f54_main_v44 : V54 (Proc.devRef .tc main_v44) = Read.val_main_v44 (F := F) x2 := by
    rw [← hV]; refine (unary_result _ _ _ _ _ _).trans ?_; unfold Read.val_main_v44
    rw [← f53_main_v5]
    all_goals rfl
  have f54_main_v5 : V54 (Proc.devRef .tc main_v5) = Read.val_main_v5 (F := F) x2 := by
    rw [← hV]; simp (disch := decide) only [nullary_result_ne', unary_result_ne', binary_result_ne', ternary_result_ne', reshape_result_ne', nary_result_ne']; exact f53_main_v5
  have f54_main_v24 : V54 (Proc.devRef .tc main_v24) = Read.val_main_v24 (F := F) x0 := by
    rw [← hV]; simp (disch := decide) only [nullary_result_ne', unary_result_ne', binary_result_ne', ternary_result_ne', reshape_result_ne', nary_result_ne']; exact f53_main_v24
  have f54_main_v43 : V54 (Proc.devRef .tc main_v43) = Read.val_main_v43 (F := F) x1 x4 x5 := by
    rw [← hV]; simp (disch := decide) only [nullary_result_ne', unary_result_ne', binary_result_ne', ternary_result_ne', reshape_result_ne', nary_result_ne']; exact f53_main_v43
  have f54_main_arg0 : V54 (Proc.devRef .tc main_arg0) = x0 := by
    rw [← hV]; simp (disch := decide) only [nullary_result_ne', unary_result_ne', binary_result_ne', ternary_result_ne', reshape_result_ne', nary_result_ne']; exact f53_main_arg0
  have f54_main_arg2 : V54 (Proc.devRef .tc main_arg2) = x2 := by
    rw [← hV]; simp (disch := decide) only [nullary_result_ne', unary_result_ne', binary_result_ne', ternary_result_ne', reshape_result_ne', nary_result_ne']; exact f53_main_arg2
  have f54_main_arg3 : V54 (Proc.devRef .tc main_arg3) = x3 := by
    rw [← hV]; simp (disch := decide) only [nullary_result_ne', unary_result_ne', binary_result_ne', ternary_result_ne', reshape_result_ne', nary_result_ne']; exact f53_main_arg3
  clear hV f53_main_v5 f53_main_v24 f53_main_v43 f53_main_arg0 f53_main_arg2 f53_main_arg3 V53
  -- operation 54: main_v45
  rw [after_cons]
  generalize hV : HloOp.result _ V54 = V55
  have f55_main_v45 : V55 (Proc.devRef .tc main_v45) = Read.val_main_v45 (F := F) x2 := by
    rw [← hV]; refine (unary_result _ _ _ _ _ _).trans ?_; unfold Read.val_main_v45
    rw [← f54_main_v5]
    all_goals rfl
  have f55_main_v5 : V55 (Proc.devRef .tc main_v5) = Read.val_main_v5 (F := F) x2 := by
    rw [← hV]; simp (disch := decide) only [nullary_result_ne', unary_result_ne', binary_result_ne', ternary_result_ne', reshape_result_ne', nary_result_ne']; exact f54_main_v5
  have f55_main_v24 : V55 (Proc.devRef .tc main_v24) = Read.val_main_v24 (F := F) x0 := by
    rw [← hV]; simp (disch := decide) only [nullary_result_ne', unary_result_ne', binary_result_ne', ternary_result_ne', reshape_result_ne', nary_result_ne']; exact f54_main_v24
  have f55_main_v43 : V55 (Proc.devRef .tc main_v43) = Read.val_main_v43 (F := F) x1 x4 x5 := by
    rw [← hV]; simp (disch := decide) only [nullary_result_ne', unary_result_ne', binary_result_ne', ternary_result_ne', reshape_result_ne', nary_result_ne']; exact f54_main_v43
  have f55_main_v44 : V55 (Proc.devRef .tc main_v44) = Read.val_main_v44 (F := F) x2 := by
    rw [← hV]; simp (disch := decide) only [nullary_result_ne', unary_result_ne', binary_result_ne', ternary_result_ne', reshape_result_ne', nary_result_ne']; exact f54_main_v44
  have f55_main_arg0 : V55 (Proc.devRef .tc main_arg0) = x0 := by
    rw [← hV]; simp (disch := decide) only [nullary_result_ne', unary_result_ne', binary_result_ne', ternary_result_ne', reshape_result_ne', nary_result_ne']; exact f54_main_arg0
  have f55_main_arg2 : V55 (Proc.devRef .tc main_arg2) = x2 := by
    rw [← hV]; simp (disch := decide) only [nullary_result_ne', unary_result_ne', binary_result_ne', ternary_result_ne', reshape_result_ne', nary_result_ne']; exact f54_main_arg2
  have f55_main_arg3 : V55 (Proc.devRef .tc main_arg3) = x3 := by
    rw [← hV]; simp (disch := decide) only [nullary_result_ne', unary_result_ne', binary_result_ne', ternary_result_ne', reshape_result_ne', nary_result_ne']; exact f54_main_arg3
  clear hV f54_main_v5 f54_main_v24 f54_main_v43 f54_main_v44 f54_main_arg0 f54_main_arg2 f54_main_arg3 V54
  -- operation 55: main_v46
  rw [after_cons]
  generalize hV : HloOp.result _ V55 = V56
  have f56_main_v46 : V56 (Proc.devRef .tc main_v46) = Read.val_main_v46 (F := F) x2 := by
    rw [← hV]; refine (unary_result _ _ _ _ _ _).trans ?_; unfold Read.val_main_v46
    rw [← f55_main_v5]
    all_goals rfl
  have f56_main_v5 : V56 (Proc.devRef .tc main_v5) = Read.val_main_v5 (F := F) x2 := by
    rw [← hV]; simp (disch := decide) only [nullary_result_ne', unary_result_ne', binary_result_ne', ternary_result_ne', reshape_result_ne', nary_result_ne']; exact f55_main_v5
  have f56_main_v24 : V56 (Proc.devRef .tc main_v24) = Read.val_main_v24 (F := F) x0 := by
    rw [← hV]; simp (disch := decide) only [nullary_result_ne', unary_result_ne', binary_result_ne', ternary_result_ne', reshape_result_ne', nary_result_ne']; exact f55_main_v24
  have f56_main_v43 : V56 (Proc.devRef .tc main_v43) = Read.val_main_v43 (F := F) x1 x4 x5 := by
    rw [← hV]; simp (disch := decide) only [nullary_result_ne', unary_result_ne', binary_result_ne', ternary_result_ne', reshape_result_ne', nary_result_ne']; exact f55_main_v43
  have f56_main_v44 : V56 (Proc.devRef .tc main_v44) = Read.val_main_v44 (F := F) x2 := by
    rw [← hV]; simp (disch := decide) only [nullary_result_ne', unary_result_ne', binary_result_ne', ternary_result_ne', reshape_result_ne', nary_result_ne']; exact f55_main_v44
  have f56_main_v45 : V56 (Proc.devRef .tc main_v45) = Read.val_main_v45 (F := F) x2 := by
    rw [← hV]; simp (disch := decide) only [nullary_result_ne', unary_result_ne', binary_result_ne', ternary_result_ne', reshape_result_ne', nary_result_ne']; exact f55_main_v45
  have f56_main_arg0 : V56 (Proc.devRef .tc main_arg0) = x0 := by
    rw [← hV]; simp (disch := decide) only [nullary_result_ne', unary_result_ne', binary_result_ne', ternary_result_ne', reshape_result_ne', nary_result_ne']; exact f55_main_arg0
  have f56_main_arg2 : V56 (Proc.devRef .tc main_arg2) = x2 := by
    rw [← hV]; simp (disch := decide) only [nullary_result_ne', unary_result_ne', binary_result_ne', ternary_result_ne', reshape_result_ne', nary_result_ne']; exact f55_main_arg2
  have f56_main_arg3 : V56 (Proc.devRef .tc main_arg3) = x3 := by
    rw [← hV]; simp (disch := decide) only [nullary_result_ne', unary_result_ne', binary_result_ne', ternary_result_ne', reshape_result_ne', nary_result_ne']; exact f55_main_arg3
  clear hV f55_main_v5 f55_main_v24 f55_main_v43 f55_main_v44 f55_main_v45 f55_main_arg0 f55_main_arg2 f55_main_arg3 V55
  -- operation 56: main_v47
  rw [after_cons]
  generalize hV : HloOp.result _ V56 = V57
  have f57_main_v47 : V57 (Proc.devRef .tc main_v47) = Read.val_main_v47 (F := F) x2 := by
    rw [← hV]; refine (unary_result _ _ _ _ _ _).trans ?_; unfold Read.val_main_v47
    rw [← f56_main_v5]
    all_goals rfl
  have f57_main_v5 : V57 (Proc.devRef .tc main_v5) = Read.val_main_v5 (F := F) x2 := by
    rw [← hV]; simp (disch := decide) only [nullary_result_ne', unary_result_ne', binary_result_ne', ternary_result_ne', reshape_result_ne', nary_result_ne']; exact f56_main_v5
  have f57_main_v24 : V57 (Proc.devRef .tc main_v24) = Read.val_main_v24 (F := F) x0 := by
    rw [← hV]; simp (disch := decide) only [nullary_result_ne', unary_result_ne', binary_result_ne', ternary_result_ne', reshape_result_ne', nary_result_ne']; exact f56_main_v24
  have f57_main_v43 : V57 (Proc.devRef .tc main_v43) = Read.val_main_v43 (F := F) x1 x4 x5 := by
    rw [← hV]; simp (disch := decide) only [nullary_result_ne', unary_result_ne', binary_result_ne', ternary_result_ne', reshape_result_ne', nary_result_ne']; exact f56_main_v43
  have f57_main_v44 : V57 (Proc.devRef .tc main_v44) = Read.val_main_v44 (F := F) x2 := by
    rw [← hV]; simp (disch := decide) only [nullary_result_ne', unary_result_ne', binary_result_ne', ternary_result_ne', reshape_result_ne', nary_result_ne']; exact f56_main_v44
  have f57_main_v45 : V57 (Proc.devRef .tc main_v45) = Read.val_main_v45 (F := F) x2 := by
    rw [← hV]; simp (disch := decide) only [nullary_result_ne', unary_result_ne', binary_result_ne', ternary_result_ne', reshape_result_ne', nary_result_ne']; exact f56_main_v45
  have f57_main_v46 : V57 (Proc.devRef .tc main_v46) = Read.val_main_v46 (F := F) x2 := by
    rw [← hV]; simp (disch := decide) only [nullary_result_ne', unary_result_ne', binary_result_ne', ternary_result_ne', reshape_result_ne', nary_result_ne']; exact f56_main_v46
  have f57_main_arg0 : V57 (Proc.devRef .tc main_arg0) = x0 := by
    rw [← hV]; simp (disch := decide) only [nullary_result_ne', unary_result_ne', binary_result_ne', ternary_result_ne', reshape_result_ne', nary_result_ne']; exact f56_main_arg0
  have f57_main_arg2 : V57 (Proc.devRef .tc main_arg2) = x2 := by
    rw [← hV]; simp (disch := decide) only [nullary_result_ne', unary_result_ne', binary_result_ne', ternary_result_ne', reshape_result_ne', nary_result_ne']; exact f56_main_arg2
  have f57_main_arg3 : V57 (Proc.devRef .tc main_arg3) = x3 := by
    rw [← hV]; simp (disch := decide) only [nullary_result_ne', unary_result_ne', binary_result_ne', ternary_result_ne', reshape_result_ne', nary_result_ne']; exact f56_main_arg3
  clear hV f56_main_v5 f56_main_v24 f56_main_v43 f56_main_v44 f56_main_v45 f56_main_v46 f56_main_arg0 f56_main_arg2 f56_main_arg3 V56
  -- operation 57: main_v48
  rw [after_cons]
  generalize hV : HloOp.result _ V57 = V58
  have f58_main_v48 : V58 (Proc.devRef .tc main_v48) = Read.val_main_v48 (F := F) x2 := by
    rw [← hV]; refine (unary_result _ _ _ _ _ _).trans ?_; unfold Read.val_main_v48
    rw [← f57_main_v5]
    all_goals rfl
  have f58_main_v5 : V58 (Proc.devRef .tc main_v5) = Read.val_main_v5 (F := F) x2 := by
    rw [← hV]; simp (disch := decide) only [nullary_result_ne', unary_result_ne', binary_result_ne', ternary_result_ne', reshape_result_ne', nary_result_ne']; exact f57_main_v5
  have f58_main_v24 : V58 (Proc.devRef .tc main_v24) = Read.val_main_v24 (F := F) x0 := by
    rw [← hV]; simp (disch := decide) only [nullary_result_ne', unary_result_ne', binary_result_ne', ternary_result_ne', reshape_result_ne', nary_result_ne']; exact f57_main_v24
  have f58_main_v43 : V58 (Proc.devRef .tc main_v43) = Read.val_main_v43 (F := F) x1 x4 x5 := by
    rw [← hV]; simp (disch := decide) only [nullary_result_ne', unary_result_ne', binary_result_ne', ternary_result_ne', reshape_result_ne', nary_result_ne']; exact f57_main_v43
  have f58_main_v44 : V58 (Proc.devRef .tc main_v44) = Read.val_main_v44 (F := F) x2 := by
    rw [← hV]; simp (disch := decide) only [nullary_result_ne', unary_result_ne', binary_result_ne', ternary_result_ne', reshape_result_ne', nary_result_ne']; exact f57_main_v44
  have f58_main_v45 : V58 (Proc.devRef .tc main_v45) = Read.val_main_v45 (F := F) x2 := by
    rw [← hV]; simp (disch := decide) only [nullary_result_ne', unary_result_ne', binary_result_ne', ternary_result_ne', reshape_result_ne', nary_result_ne']; exact f57_main_v45
  have f58_main_v46 : V58 (Proc.devRef .tc main_v46) = Read.val_main_v46 (F := F) x2 := by
    rw [← hV]; simp (disch := decide) only [nullary_result_ne', unary_result_ne', binary_result_ne', ternary_result_ne', reshape_result_ne', nary_result_ne']; exact f57_main_v46
  have f58_main_v47 : V58 (Proc.devRef .tc main_v47) = Read.val_main_v47 (F := F) x2 := by
    rw [← hV]; simp (disch := decide) only [nullary_result_ne', unary_result_ne', binary_result_ne', ternary_result_ne', reshape_result_ne', nary_result_ne']; exact f57_main_v47
  have f58_main_arg0 : V58 (Proc.devRef .tc main_arg0) = x0 := by
    rw [← hV]; simp (disch := decide) only [nullary_result_ne', unary_result_ne', binary_result_ne', ternary_result_ne', reshape_result_ne', nary_result_ne']; exact f57_main_arg0
  have f58_main_arg2 : V58 (Proc.devRef .tc main_arg2) = x2 := by
    rw [← hV]; simp (disch := decide) only [nullary_result_ne', unary_result_ne', binary_result_ne', ternary_result_ne', reshape_result_ne', nary_result_ne']; exact f57_main_arg2
  have f58_main_arg3 : V58 (Proc.devRef .tc main_arg3) = x3 := by
    rw [← hV]; simp (disch := decide) only [nullary_result_ne', unary_result_ne', binary_result_ne', ternary_result_ne', reshape_result_ne', nary_result_ne']; exact f57_main_arg3
  clear hV f57_main_v5 f57_main_v24 f57_main_v43 f57_main_v44 f57_main_v45 f57_main_v46 f57_main_v47 f57_main_arg0 f57_main_arg2 f57_main_arg3 V57
  -- operation 58: main_v49
  rw [after_cons]
  generalize hV : HloOp.result _ V58 = V59
  have f59_main_v49 : V59 (Proc.devRef .tc main_v49) = Read.val_main_v49 (F := F) x2 := by
    rw [← hV]; refine (unary_result _ _ _ _ _ _).trans ?_; unfold Read.val_main_v49
    rw [← f58_main_v5]
    all_goals rfl
  have f59_main_v5 : V59 (Proc.devRef .tc main_v5) = Read.val_main_v5 (F := F) x2 := by
    rw [← hV]; simp (disch := decide) only [nullary_result_ne', unary_result_ne', binary_result_ne', ternary_result_ne', reshape_result_ne', nary_result_ne']; exact f58_main_v5
  have f59_main_v24 : V59 (Proc.devRef .tc main_v24) = Read.val_main_v24 (F := F) x0 := by
    rw [← hV]; simp (disch := decide) only [nullary_result_ne', unary_result_ne', binary_result_ne', ternary_result_ne', reshape_result_ne', nary_result_ne']; exact f58_main_v24
  have f59_main_v43 : V59 (Proc.devRef .tc main_v43) = Read.val_main_v43 (F := F) x1 x4 x5 := by
    rw [← hV]; simp (disch := decide) only [nullary_result_ne', unary_result_ne', binary_result_ne', ternary_result_ne', reshape_result_ne', nary_result_ne']; exact f58_main_v43
  have f59_main_v44 : V59 (Proc.devRef .tc main_v44) = Read.val_main_v44 (F := F) x2 := by
    rw [← hV]; simp (disch := decide) only [nullary_result_ne', unary_result_ne', binary_result_ne', ternary_result_ne', reshape_result_ne', nary_result_ne']; exact f58_main_v44
  have f59_main_v45 : V59 (Proc.devRef .tc main_v45) = Read.val_main_v45 (F := F) x2 := by
    rw [← hV]; simp (disch := decide) only [nullary_result_ne', unary_result_ne', binary_result_ne', ternary_result_ne', reshape_result_ne', nary_result_ne']; exact f58_main_v45
  have f59_main_v46 : V59 (Proc.devRef .tc main_v46) = Read.val_main_v46 (F := F) x2 := by
    rw [← hV]; simp (disch := decide) only [nullary_result_ne', unary_result_ne', binary_result_ne', ternary_result_ne', reshape_result_ne', nary_result_ne']; exact f58_main_v46
  have f59_main_v47 : V59 (Proc.devRef .tc main_v47) = Read.val_main_v47 (F := F) x2 := by
    rw [← hV]; simp (disch := decide) only [nullary_result_ne', unary_result_ne', binary_result_ne', ternary_result_ne', reshape_result_ne', nary_result_ne']; exact f58_main_v47
  have f59_main_v48 : V59 (Proc.devRef .tc main_v48) = Read.val_main_v48 (F := F) x2 := by
    rw [← hV]; simp (disch := decide) only [nullary_result_ne', unary_result_ne', binary_result_ne', ternary_result_ne', reshape_result_ne', nary_result_ne']; exact f58_main_v48
  have f59_main_arg0 : V59 (Proc.devRef .tc main_arg0) = x0 := by
    rw [← hV]; simp (disch := decide) only [nullary_result_ne', unary_result_ne', binary_result_ne', ternary_result_ne', reshape_result_ne', nary_result_ne']; exact f58_main_arg0
  have f59_main_arg2 : V59 (Proc.devRef .tc main_arg2) = x2 := by
    rw [← hV]; simp (disch := decide) only [nullary_result_ne', unary_result_ne', binary_result_ne', ternary_result_ne', reshape_result_ne', nary_result_ne']; exact f58_main_arg2
  have f59_main_arg3 : V59 (Proc.devRef .tc main_arg3) = x3 := by
    rw [← hV]; simp (disch := decide) only [nullary_result_ne', unary_result_ne', binary_result_ne', ternary_result_ne', reshape_result_ne', nary_result_ne']; exact f58_main_arg3
  clear hV f58_main_v5 f58_main_v24 f58_main_v43 f58_main_v44 f58_main_v45 f58_main_v46 f58_main_v47 f58_main_v48 f58_main_arg0 f58_main_arg2 f58_main_arg3 V58
  -- operation 59: main_v50
  rw [after_cons]
  generalize hV : HloOp.result _ V59 = V60
  have f60_main_v50 : V60 (Proc.devRef .tc main_v50) = Read.val_main_v50 (F := F) x2 := by
    rw [← hV]; refine (unary_result _ _ _ _ _ _).trans ?_; unfold Read.val_main_v50
    rw [← f59_main_v5]
    all_goals rfl
  have f60_main_v5 : V60 (Proc.devRef .tc main_v5) = Read.val_main_v5 (F := F) x2 := by
    rw [← hV]; simp (disch := decide) only [nullary_result_ne', unary_result_ne', binary_result_ne', ternary_result_ne', reshape_result_ne', nary_result_ne']; exact f59_main_v5
  have f60_main_v24 : V60 (Proc.devRef .tc main_v24) = Read.val_main_v24 (F := F) x0 := by
    rw [← hV]; simp (disch := decide) only [nullary_result_ne', unary_result_ne', binary_result_ne', ternary_result_ne', reshape_result_ne', nary_result_ne']; exact f59_main_v24
  have f60_main_v43 : V60 (Proc.devRef .tc main_v43) = Read.val_main_v43 (F := F) x1 x4 x5 := by
    rw [← hV]; simp (disch := decide) only [nullary_result_ne', unary_result_ne', binary_result_ne', ternary_result_ne', reshape_result_ne', nary_result_ne']; exact f59_main_v43
  have f60_main_v44 : V60 (Proc.devRef .tc main_v44) = Read.val_main_v44 (F := F) x2 := by
    rw [← hV]; simp (disch := decide) only [nullary_result_ne', unary_result_ne', binary_result_ne', ternary_result_ne', reshape_result_ne', nary_result_ne']; exact f59_main_v44
  have f60_main_v45 : V60 (Proc.devRef .tc main_v45) = Read.val_main_v45 (F := F) x2 := by
    rw [← hV]; simp (disch := decide) only [nullary_result_ne', unary_result_ne', binary_result_ne', ternary_result_ne', reshape_result_ne', nary_result_ne']; exact f59_main_v45
  have f60_main_v46 : V60 (Proc.devRef .tc main_v46) = Read.val_main_v46 (F := F) x2 := by
    rw [← hV]; simp (disch := decide) only [nullary_result_ne', unary_result_ne', binary_result_ne', ternary_result_ne', reshape_result_ne', nary_result_ne']; exact f59_main_v46
  have f60_main_v47 : V60 (Proc.devRef .tc main_v47) = Read.val_main_v47 (F := F) x2 := by
    rw [← hV]; simp (disch := decide) only [nullary_result_ne', unary_result_ne', binary_result_ne', ternary_result_ne', reshape_result_ne', nary_result_ne']; exact f59_main_v47
  have f60_main_v48 : V60 (Proc.devRef .tc main_v48) = Read.val_main_v48 (F := F) x2 := by
    rw [← hV]; simp (disch := decide) only [nullary_result_ne', unary_result_ne', binary_result_ne', ternary_result_ne', reshape_result_ne', nary_result_ne']; exact f59_main_v48
  have f60_main_v49 : V60 (Proc.devRef .tc main_v49) = Read.val_main_v49 (F := F) x2 := by
    rw [← hV]; simp (disch := decide) only [nullary_result_ne', unary_result_ne', binary_result_ne', ternary_result_ne', reshape_result_ne', nary_result_ne']; exact f59_main_v49
  have f60_main_arg0 : V60 (Proc.devRef .tc main_arg0) = x0 := by
    rw [← hV]; simp (disch := decide) only [nullary_result_ne', unary_result_ne', binary_result_ne', ternary_result_ne', reshape_result_ne', nary_result_ne']; exact f59_main_arg0
  have f60_main_arg2 : V60 (Proc.devRef .tc main_arg2) = x2 := by
    rw [← hV]; simp (disch := decide) only [nullary_result_ne', unary_result_ne', binary_result_ne', ternary_result_ne', reshape_result_ne', nary_result_ne']; exact f59_main_arg2
  have f60_main_arg3 : V60 (Proc.devRef .tc main_arg3) = x3 := by
    rw [← hV]; simp (disch := decide) only [nullary_result_ne', unary_result_ne', binary_result_ne', ternary_result_ne', reshape_result_ne', nary_result_ne']; exact f59_main_arg3
  clear hV f59_main_v5 f59_main_v24 f59_main_v43 f59_main_v44 f59_main_v45 f59_main_v46 f59_main_v47 f59_main_v48 f59_main_v49 f59_main_arg0 f59_main_arg2 f59_main_arg3 V59
  exact ⟨f60_main_v5, f60_main_v24, f60_main_v43, f60_main_v44, f60_main_v45, f60_main_v46, f60_main_v47, f60_main_v48, f60_main_v49, f60_main_v50, f60_main_arg0, f60_main_arg2, f60_main_arg3⟩

set_option maxRecDepth 16384 in
set_option maxHeartbeats 0 in
/-- Operations 60 … 69: from contents at which the buffers still read hold their stages, to contents at which the
    buffers read later hold theirs. -/
theorem stages6 (V60 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f60_main_v5 : V60 (Proc.devRef .tc main_v5) = Read.val_main_v5 (F := F) x2)
    (f60_main_v24 : V60 (Proc.devRef .tc main_v24) = Read.val_main_v24 (F := F) x0)
    (f60_main_v43 : V60 (Proc.devRef .tc main_v43) = Read.val_main_v43 (F := F) x1 x4 x5)
    (f60_main_v44 : V60 (Proc.devRef .tc main_v44) = Read.val_main_v44 (F := F) x2)
    (f60_main_v45 : V60 (Proc.devRef .tc main_v45) = Read.val_main_v45 (F := F) x2)
    (f60_main_v46 : V60 (Proc.devRef .tc main_v46) = Read.val_main_v46 (F := F) x2)
    (f60_main_v47 : V60 (Proc.devRef .tc main_v47) = Read.val_main_v47 (F := F) x2)
    (f60_main_v48 : V60 (Proc.devRef .tc main_v48) = Read.val_main_v48 (F := F) x2)
    (f60_main_v49 : V60 (Proc.devRef .tc main_v49) = Read.val_main_v49 (F := F) x2)
    (f60_main_v50 : V60 (Proc.devRef .tc main_v50) = Read.val_main_v50 (F := F) x2)
    (f60_main_arg0 : V60 (Proc.devRef .tc main_arg0) = x0)
    (f60_main_arg2 : V60 (Proc.devRef .tc main_arg2) = x2)
    (f60_main_arg3 : V60 (Proc.devRef .tc main_arg3) = x3) :
    after (ops6 (F := F)) V60 (Proc.devRef .tc main_v24) = Read.val_main_v24 (F := F) x0
    ∧ after (ops6 (F := F)) V60 (Proc.devRef .tc main_v43) = Read.val_main_v43 (F := F) x1 x4 x5
    ∧ after (ops6 (F := F)) V60 (Proc.devRef .tc main_v52) = Read.val_main_v52 (F := F) x2
    ∧ after (ops6 (F := F)) V60 (Proc.devRef .tc main_v53) = Read.val_main_v53 (F := F) x2
    ∧ after (ops6 (F := F)) V60 (Proc.devRef .tc main_v54) = Read.val_main_v54 (F := F) x2
    ∧ after (ops6 (F := F)) V60 (Proc.devRef .tc main_v55) = Read.val_main_v55 (F := F) x2
    ∧ after (ops6 (F := F)) V60 (Proc.devRef .tc main_v56) = Read.val_main_v56 (F := F) x2
    ∧ after (ops6 (F := F)) V60 (Proc.devRef .tc main_v57) = Read.val_main_v57 (F := F) x2
    ∧ after (ops6 (F := F)) V60 (Proc.devRef .tc main_v58) = Read.val_main_v58 (F := F) x2
    ∧ after (ops6 (F := F)) V60 (Proc.devRef .tc main_v59) = Read.val_main_v59 (F := F) x2
    ∧ after (ops6 (F := F)) V60 (Proc.devRef .tc main_v60) = Read.val_main_v60 (F := F) x2
    ∧ after (ops6 (F := F)) V60 (Proc.devRef .tc main_arg0) = x0
    ∧ after (ops6 (F := F)) V60 (Proc.devRef .tc main_arg2) = x2
    ∧ after (ops6 (F := F)) V60 (Proc.devRef .tc main_arg3) = x3 := by
  unfold ops6
  -- operation 60: main_v51
  rw [after_cons]
  generalize hV : HloOp.result _ V60 = V61
  have f61_main_v51 : V61 (Proc.devRef .tc main_v51) = Read.val_main_v51 (F := F) x2 := by
    rw [← hV]; refine (unary_result _ _ _ _ _ _).trans ?_; unfold Read.val_main_v51
    rw [← f60_main_v5]
    all_goals rfl
  have f61_main_v5 : V61 (Proc.devRef .tc main_v5) = Read.val_main_v5 (F := F) x2 := by
    rw [← hV]; simp (disch := decide) only [nullary_result_ne', unary_result_ne', binary_result_ne', ternary_result_ne', reshape_result_ne', nary_result_ne']; exact f60_main_v5
  have f61_main_v24 : V61 (Proc.devRef .tc main_v24) = Read.val_main_v24 (F := F) x0 := by
    rw [← hV]; simp (disch := decide) only [nullary_result_ne', unary_result_ne', binary_result_ne', ternary_result_ne', reshape_result_ne', nary_result_ne']; exact f60_main_v24
  have f61_main_v43 : V61 (Proc.devRef .tc main_v43) = Read.val_main_v43 (F := F) x1 x4 x5 := by
    rw [← hV]; simp (disch := decide) only [nullary_result_ne', unary_result_ne', binary_result_ne', ternary_result_ne', reshape_result_ne', nary_result_ne']; exact f60_main_v43
  have f61_main_v44 : V61 (Proc.devRef .tc main_v44) = Read.val_main_v44 (F := F) x2 := by
    rw [← hV]; simp (disch := decide) only [nullary_result_ne', unary_result_ne', binary_result_ne', ternary_result_ne', reshape_result_ne', nary_result_ne']; exact f60_main_v44
  have f61_main_v45 : V61 (Proc.devRef .tc main_v45) = Read.val_main_v45 (F := F) x2 := by
    rw [← hV]; simp (disch := decide) only [nullary_result_ne', unary_result_ne', binary_result_ne', ternary_result_ne', reshape_result_ne', nary_result_ne']; exact f60_main_v45
  have f61_main_v46 : V61 (Proc.devRef .tc main_v46) = Read.val_main_v46 (F := F) x2 := by
    rw [← hV]; simp (disch := decide) only [nullary_result_ne', unary_result_ne', binary_result_ne', ternary_result_ne', reshape_result_ne', nary_result_ne']; exact f60_main_v46
  have f61_main_v47 : V61 (Proc.devRef .tc main_v47) = Read.val_main_v47 (F := F) x2 := by
    rw [← hV]; simp (disch := decide) only [nullary_result_ne', unary_result_ne', binary_result_ne', ternary_result_ne', reshape_result_ne', nary_result_ne']; exact f60_main_v47
  have f61_main_v48 : V61 (Proc.devRef .tc main_v48) = Read.val_main_v48 (F := F) x2 := by
    rw [← hV]; simp (disch := decide) only [nullary_result_ne', unary_result_ne', binary_result_ne', ternary_result_ne', reshape_result_ne', nary_result_ne']; exact f60_main_v48
  have f61_main_v49 : V61 (Proc.devRef .tc main_v49) = Read.val_main_v49 (F := F) x2 := by
    rw [← hV]; simp (disch := decide) only [nullary_result_ne', unary_result_ne', binary_result_ne', ternary_result_ne', reshape_result_ne', nary_result_ne']; exact f60_main_v49
  have f61_main_v50 : V61 (Proc.devRef .tc main_v50) = Read.val_main_v50 (F := F) x2 := by
    rw [← hV]; simp (disch := decide) only [nullary_result_ne', unary_result_ne', binary_result_ne', ternary_result_ne', reshape_result_ne', nary_result_ne']; exact f60_main_v50
  have f61_main_arg0 : V61 (Proc.devRef .tc main_arg0) = x0 := by
    rw [← hV]; simp (disch := decide) only [nullary_result_ne', unary_result_ne', binary_result_ne', ternary_result_ne', reshape_result_ne', nary_result_ne']; exact f60_main_arg0
  have f61_main_arg2 : V61 (Proc.devRef .tc main_arg2) = x2 := by
    rw [← hV]; simp (disch := decide) only [nullary_result_ne', unary_result_ne', binary_result_ne', ternary_result_ne', reshape_result_ne', nary_result_ne']; exact f60_main_arg2
  have f61_main_arg3 : V61 (Proc.devRef .tc main_arg3) = x3 := by
    rw [← hV]; simp (disch := decide) only [nullary_result_ne', unary_result_ne', binary_result_ne', ternary_result_ne', reshape_result_ne', nary_result_ne']; exact f60_main_arg3
  clear hV f60_main_v5 f60_main_v24 f60_main_v43 f60_main_v44 f60_main_v45 f60_main_v46 f60_main_v47 f60_main_v48 f60_main_v49 f60_main_v50 f60_main_arg0 f60_main_arg2 f60_main_arg3 V60
  -- operation 61: main_v52
  rw [after_cons]
  generalize hV : HloOp.result _ V61 = V62
  have f62_main_v52 : V62 (Proc.devRef .tc main_v52) = Read.val_main_v52 (F := F) x2 := by
    rw [← hV]; refine (unary_result _ _ _ _ _ _).trans ?_; unfold Read.val_main_v52
    rw [← f61_main_v5]
    all_goals rfl
  have f62_main_v24 : V62 (Proc.devRef .tc main_v24) = Read.val_main_v24 (F := F) x0 := by
    rw [← hV]; simp (disch := decide) only [nullary_result_ne', unary_result_ne', binary_result_ne', ternary_result_ne', reshape_result_ne', nary_result_ne']; exact f61_main_v24
  have f62_main_v43 : V62 (Proc.devRef .tc main_v43) = Read.val_main_v43 (F := F) x1 x4 x5 := by
    rw [← hV]; simp (disch := decide) only [nullary_result_ne', unary_result_ne', binary_result_ne', ternary_result_ne', reshape_result_ne', nary_result_ne']; exact f61_main_v43
  have f62_main_v44 : V62 (Proc.devRef .tc main_v44) = Read.val_main_v44 (F := F) x2 := by
    rw [← hV]; simp (disch := decide) only [nullary_result_ne', unary_result_ne', binary_result_ne', ternary_result_ne', reshape_result_ne', nary_result_ne']; exact f61_main_v44
  have f62_main_v45 : V62 (Proc.devRef .tc main_v45) = Read.val_main_v45 (F := F) x2 := by
    rw [← hV]; simp (disch := decide) only [nullary_result_ne', unary_result_ne', binary_result_ne', ternary_result_ne', reshape_result_ne', nary_result_ne']; exact f61_main_v45
  have f62_main_v46 : V62 (Proc.devRef .tc main_v46) = Read.val_main_v46 (F := F) x2 := by
    rw [← hV]; simp (disch := decide) only [nullary_result_ne', unary_result_ne', binary_result_ne', ternary_result_ne', reshape_result_ne', nary_result_ne']; exact f61_main_v46
  have f62_main_v47 : V62 (Proc.devRef .tc main_v47) = Read.val_main_v47 (F := F) x2 := by
    rw [← hV]; simp (disch := decide) only [nullary_result_ne', unary_result_ne', binary_result_ne', ternary_result_ne', reshape_result_ne', nary_result_ne']; exact f61_main_v47
  have f62_main_v48 : V62 (Proc.devRef .tc main_v48) = Read.val_main_v48 (F := F) x2 := by
    rw [← hV]; simp (disch := decide) only [nullary_result_ne', unary_result_ne', binary_result_ne', ternary_result_ne', reshape_result_ne', nary_result_ne']; exact f61_main_v48
  have f62_main_v49 : V62 (Proc.devRef .tc main_v49) = Read.val_main_v49 (F := F) x2 := by
    rw [← hV]; simp (disch := decide) only [nullary_result_ne', unary_result_ne', binary_result_ne', ternary_result_ne', reshape_result_ne', nary_result_ne']; exact f61_main_v49
  have f62_main_v50 : V62 (Proc.devRef .tc main_v50) = Read.val_main_v50 (F := F) x2 := by
    rw [← hV]; simp (disch := decide) only [nullary_result_ne', unary_result_ne', binary_result_ne', ternary_result_ne', reshape_result_ne', nary_result_ne']; exact f61_main_v50
  have f62_main_v51 : V62 (Proc.devRef .tc main_v51) = Read.val_main_v51 (F := F) x2 := by
    rw [← hV]; simp (disch := decide) only [nullary_result_ne', unary_result_ne', binary_result_ne', ternary_result_ne', reshape_result_ne', nary_result_ne']; exact f61_main_v51
  have f62_main_arg0 : V62 (Proc.devRef .tc main_arg0) = x0 := by
    rw [← hV]; simp (disch := decide) only [nullary_result_ne', unary_result_ne', binary_result_ne', ternary_result_ne', reshape_result_ne', nary_result_ne']; exact f61_main_arg0
  have f62_main_arg2 : V62 (Proc.devRef .tc main_arg2) = x2 := by
    rw [← hV]; simp (disch := decide) only [nullary_result_ne', unary_result_ne', binary_result_ne', ternary_result_ne', reshape_result_ne', nary_result_ne']; exact f61_main_arg2
  have f62_main_arg3 : V62 (Proc.devRef .tc main_arg3) = x3 := by
    rw [← hV]; simp (disch := decide) only [nullary_result_ne', unary_result_ne', binary_result_ne', ternary_result_ne', reshape_result_ne', nary_result_ne']; exact f61_main_arg3
  clear hV f61_main_v5 f61_main_v24 f61_main_v43 f61_main_v44 f61_main_v45 f61_main_v46 f61_main_v47 f61_main_v48 f61_main_v49 f61_main_v50 f61_main_v51 f61_main_arg0 f61_main_arg2 f61_main_arg3 V61
  -- operation 62: main_v53
  rw [after_cons]
  generalize hV : HloOp.result _ V62 = V63
  have f63_main_v53 : V63 (Proc.devRef .tc main_v53) = Read.val_main_v53 (F := F) x2 := by
    rw [← hV]; refine (unary_result _ _ _ _ _ _).trans ?_; unfold Read.val_main_v53
    rw [← f62_main_v44]
    all_goals rfl
  have f63_main_v24 : V63 (Proc.devRef .tc main_v24) = Read.val_main_v24 (F := F) x0 := by
    rw [← hV]; simp (disch := decide) only [nullary_result_ne', unary_result_ne', binary_result_ne', ternary_result_ne', reshape_result_ne', nary_result_ne']; exact f62_main_v24
  have f63_main_v43 : V63 (Proc.devRef .tc main_v43) = Read.val_main_v43 (F := F) x1 x4 x5 := by
    rw [← hV]; simp (disch := decide) only [nullary_result_ne', unary_result_ne', binary_result_ne', ternary_result_ne', reshape_result_ne', nary_result_ne']; exact f62_main_v43
  have f63_main_v45 : V63 (Proc.devRef .tc main_v45) = Read.val_main_v45 (F := F) x2 := by
    rw [← hV]; simp (disch := decide) only [nullary_result_ne', unary_result_ne', binary_result_ne', ternary_result_ne', reshape_result_ne', nary_result_ne']; exact f62_main_v45
  have f63_main_v46 : V63 (Proc.devRef .tc main_v46) = Read.val_main_v46 (F := F) x2 := by
    rw [← hV]; simp (disch := decide) only [nullary_result_ne', unary_result_ne', binary_result_ne', ternary_result_ne', reshape_result_ne', nary_result_ne']; exact f62_main_v46
  have f63_main_v47 : V63 (Proc.devRef .tc main_v47) = Read.val_main_v47 (F := F) x2 := by
    rw [← hV]; simp (disch := decide) only [nullary_result_ne', unary_result_ne', binary_result_ne', ternary_result_ne', reshape_result_ne', nary_result_ne']; exact f62_main_v47
  have f63_main_v48 : V63 (Proc.devRef .tc main_v48) = Read.val_main_v48 (F := F) x2 := by
    rw [← hV]; simp (disch := decide) only [nullary_result_ne', unary_result_ne', binary_result_ne', ternary_result_ne', reshape_result_ne', nary_result_ne']; exact f62_main_v48
  have f63_main_v49 : V63 (Proc.devRef .tc main_v49) = Read.val_main_v49 (F := F) x2 := by
    rw [← hV]; simp (disch := decide) only [nullary_result_ne', unary_result_ne', binary_result_ne', ternary_result_ne', reshape_result_ne', nary_result_ne']; exact f62_main_v49
  have f63_main_v50 : V63 (Proc.devRef .tc main_v50) = Read.val_main_v50 (F := F) x2 := by
    rw [← hV]; simp (disch := decide) only [nullary_result_ne', unary_result_ne', binary_result_ne', ternary_result_ne', reshape_result_ne', nary_result_ne']; exact f62_main_v50
  have f63_main_v51 : V63 (Proc.devRef .tc main_v51) = Read.val_main_v51 (F := F) x2 := by
    rw [← hV]; simp (disch := decide) only [nullary_result_ne', unary_result_ne', binary_result_ne', ternary_result_ne', reshape_result_ne', nary_result_ne']; exact f62_main_v51
  have f63_main_v52 : V63 (Proc.devRef .tc main_v52) = Read.val_main_v52 (F := F) x2 := by
    rw [← hV]; simp (disch := decide) only [nullary_result_ne', unary_result_ne', binary_result_ne', ternary_result_ne', reshape_result_ne', nary_result_ne']; exact f62_main_v52
  have f63_main_arg0 : V63 (Proc.devRef .tc main_arg0) = x0 := by
    rw [← hV]; simp (disch := decide) only [nullary_result_ne', unary_result_ne', binary_result_ne', ternary_result_ne', reshape_result_ne', nary_result_ne']; exact f62_main_arg0
  have f63_main_arg2 : V63 (Proc.devRef .tc main_arg2) = x2 := by
    rw [← hV]; simp (disch := decide) only [nullary_result_ne', unary_result_ne', binary_result_ne', ternary_result_ne', reshape_result_ne', nary_result_ne']; exact f62_main_arg2
  have f63_main_arg3 : V63 (Proc.devRef .tc main_arg3) = x3 := by
    rw [← hV]; simp (disch := decide) only [nullary_result_ne', unary_result_ne', binary_result_ne', ternary_result_ne', reshape_result_ne', nary_result_ne']; exact f62_main_arg3
  clear hV f62_main_v24 f62_main_v43 f62_main_v44 f62_main_v45 f62_main_v46 f62_main_v47 f62_main_v48 f62_main_v49 f62_main_v50 f62_main_v51 f62_main_v52 f62_main_arg0 f62_main_arg2 f62_main_arg3 V62
  -- operation 63: main_v54
  rw [after_cons]
  generalize hV : HloOp.result _ V63 = V64
  have f64_main_v54 : V64 (Proc.devRef .tc main_v54) = Read.val_main_v54 (F := F) x2 := by
    rw [← hV]; refine (unary_result _ _ _ _ _ _).trans ?_; unfold Read.val_main_v54
    rw [← f63_main_v45]
    all_goals rfl
  have f64_main_v24 : V64 (Proc.devRef .tc main_v24) = Read.val_main_v24 (F := F) x0 := by
    rw [← hV]; simp (disch := decide) only [nullary_result_ne', unary_result_ne', binary_result_ne', ternary_result_ne', reshape_result_ne', nary_result_ne']; exact f63_main_v24
  have f64_main_v43 : V64 (Proc.devRef .tc main_v43) = Read.val_main_v43 (F := F) x1 x4 x5 := by
    rw [← hV]; simp (disch := decide) only [nullary_result_ne', unary_result_ne', binary_result_ne', ternary_result_ne', reshape_result_ne', nary_result_ne']; exact f63_main_v43
  have f64_main_v46 : V64 (Proc.devRef .tc main_v46) = Read.val_main_v46 (F := F) x2 := by
    rw [← hV]; simp (disch := decide) only [nullary_result_ne', unary_result_ne', binary_result_ne', ternary_result_ne', reshape_result_ne', nary_result_ne']; exact f63_main_v46
  have f64_main_v47 : V64 (Proc.devRef .tc main_v47) = Read.val_main_v47 (F := F) x2 := by
    rw [← hV]; simp (disch := decide) only [nullary_result_ne', unary_result_ne', binary_result_ne', ternary_result_ne', reshape_result_ne', nary_result_ne']; exact f63_main_v47
  have f64_main_v48 : V64 (Proc.devRef .tc main_v48) = Read.val_main_v48 (F := F) x2 := by
    rw [← hV]; simp (disch := decide) only [nullary_result_ne', unary_result_ne', binary_result_ne', ternary_result_ne', reshape_result_ne', nary_result_ne']; exact f63_main_v48
  have f64_main_v49 : V64 (Proc.devRef .tc main_v49) = Read.val_main_v49 (F := F) x2 := by
    rw [← hV]; simp (disch := decide) only [nullary_result_ne', unary_result_ne', binary_result_ne', ternary_result_ne', reshape_result_ne', nary_result_ne']; exact f63_main_v49
  have f64_main_v50 : V64 (Proc.devRef .tc main_v50) = Read.val_main_v50 (F := F) x2 := by
    rw [← hV]; simp (disch := decide) only [nullary_result_ne', unary_result_ne', binary_result_ne', ternary_result_ne', reshape_result_ne', nary_result_ne']; exact f63_main_v50
  have f64_main_v51 : V64 (Proc.devRef .tc main_v51) = Read.val_main_v51 (F := F) x2 := by
    rw [← hV]; simp (disch := decide) only [nullary_result_ne', unary_result_ne', binary_result_ne', ternary_result_ne', reshape_result_ne', nary_result_ne']; exact f63_main_v51
  have f64_main_v52 : V64 (Proc.devRef .tc main_v52) = Read.val_main_v52 (F := F) x2 := by
    rw [← hV]; simp (disch := decide) only [nullary_result_ne', unary_result_ne', binary_result_ne', ternary_result_ne', reshape_result_ne', nary_result_ne']; exact f63_main_v52
  have f64_main_v53 : V64 (Proc.devRef .tc main_v53) = Read.val_main_v53 (F := F) x2 := by
    rw [← hV]; simp (disch := decide) only [nullary_result_ne', unary_result_ne', binary_result_ne', ternary_result_ne', reshape_result_ne', nary_result_ne']; exact f63_main_v53
  have f64_main_arg0 : V64 (Proc.devRef .tc main_arg0) = x0 := by
    rw [← hV]; simp (disch := decide) only [nullary_result_ne', unary_result_ne', binary_result_ne', ternary_result_ne', reshape_result_ne', nary_result_ne']; exact f63_main_arg0
  have f64_main_arg2 : V64 (Proc.devRef .tc main_arg2) = x2 := by
    rw [← hV]; simp (disch := decide) only [nullary_result_ne', unary_result_ne', binary_result_ne', ternary_result_ne', reshape_result_ne', nary_result_ne']; exact f63_main_arg2
  have f64_main_arg3 : V64 (Proc.devRef .tc main_arg3) = x3 := by
    rw [← hV]; simp (disch := decide) only [nullary_result_ne', unary_result_ne', binary_result_ne', ternary_result_ne', reshape_result_ne', nary_result_ne']; exact f63_main_arg3
  clear hV f63_main_v24 f63_main_v43 f63_main_v45 f63_main_v46 f63_main_v47 f63_main_v48 f63_main_v49 f63_main_v50 f63_main_v51 f63_main_v52 f63_main_v53 f63_main_arg0 f63_main_arg2 f63_main_arg3 V63
  -- operation 64: main_v55
  rw [after_cons]
  generalize hV : HloOp.result _ V64 = V65
  have f65_main_v55 : V65 (Proc.devRef .tc main_v55) = Read.val_main_v55 (F := F) x2 := by
    rw [← hV]; refine (unary_result _ _ _ _ _ _).trans ?_; unfold Read.val_main_v55
    rw [← f64_main_v46]
    all_goals rfl
  have f65_main_v24 : V65 (Proc.devRef .tc main_v24) = Read.val_main_v24 (F := F) x0 := by
    rw [← hV]; simp (disch := decide) only [nullary_result_ne', unary_result_ne', binary_result_ne', ternary_result_ne', reshape_result_ne', nary_result_ne']; exact f64_main_v24
  have f65_main_v43 : V65 (Proc.devRef .tc main_v43) = Read.val_main_v43 (F := F) x1 x4 x5 := by
    rw [← hV]; simp (disch := decide) only [nullary_result_ne', unary_result_ne', binary_result_ne', ternary_result_ne', reshape_result_ne', nary_result_ne']; exact f64_main_v43
  have f65_main_v47 : V65 (Proc.devRef .tc main_v47) = Read.val_main_v47 (F := F) x2 := by
    rw [← hV]; simp (disch := decide) only [nullary_result_ne', unary_result_ne', binary_result_ne', ternary_result_ne', reshape_result_ne', nary_result_ne']; exact f64_main_v47
  have f65_main_v48 : V65 (Proc.devRef .tc main_v48) = Read.val_main_v48 (F := F) x2 := by
    rw [← hV]; simp (disch := decide) only [nullary_result_ne', unary_result_ne', binary_result_ne', ternary_result_ne', reshape_result_ne', nary_result_ne']; exact f64_main_v48
  have f65_main_v49 : V65 (Proc.devRef .tc main_v49) = Read.val_main_v49 (F := F) x2 := by
    rw [← hV]; simp (disch := decide) only [nullary_result_ne', unary_result_ne', binary_result_ne', ternary_result_ne', reshape_result_ne', nary_result_ne']; exact f64_main_v49
  have f65_main_v50 : V65 (Proc.devRef .tc main_v50) = Read.val_main_v50 (F := F) x2 := by
    rw [← hV]; simp (disch := decide) only [nullary_result_ne', unary_result_ne', binary_result_ne', ternary_result_ne', reshape_result_ne', nary_result_ne']; exact f64_main_v50
  have f65_main_v51 : V65 (Proc.devRef .tc main_v51) = Read.val_main_v51 (F := F) x2 := by
    rw [← hV]; simp (disch := decide) only [nullary_result_ne', unary_result_ne', binary_result_ne', ternary_result_ne', reshape_result_ne', nary_result_ne']; exact f64_main_v51
  have f65_main_v52 : V65 (Proc.devRef .tc main_v52) = Read.val_main_v52 (F := F) x2 := by
    rw [← hV]; simp (disch := decide) only [nullary_result_ne', unary_result_ne', binary_result_ne', ternary_result_ne', reshape_result_ne', nary_result_ne']; exact f64_main_v52
  have f65_main_v53 : V65 (Proc.devRef .tc main_v53) = Read.val_main_v53 (F := F) x2 := by
    rw [← hV]; simp (disch := decide) only [nullary_result_ne', unary_result_ne', binary_result_ne', ternary_result_ne', reshape_result_ne', nary_result_ne']; exact f64_main_v53
  have f65_main_v54 : V65 (Proc.devRef .tc main_v54) = Read.val_main_v54 (F := F) x2 := by
    rw [← hV]; simp (disch := decide) only [nullary_result_ne', unary_result_ne', binary_result_ne', ternary_result_ne', reshape_result_ne', nary_result_ne']; exact f64_main_v54
  have f65_main_arg0 : V65 (Proc.devRef .tc main_arg0) = x0 := by
    rw [← hV]; simp (disch := decide) only [nullary_result_ne', unary_result_ne', binary_result_ne', ternary_result_ne', reshape_result_ne', nary_result_ne']; exact f64_main_arg0
  have f65_main_arg2 : V65 (Proc.devRef .tc main_arg2) = x2 := by
    rw [← hV]; simp (disch := decide) only [nullary_result_ne', unary_result_ne', binary_result_ne', ternary_result_ne', reshape_result_ne', nary_result_ne']; exact f64_main_arg2
  have f65_main_arg3 : V65 (Proc.devRef .tc main_arg3) = x3 := by
    rw [← hV]; simp (disch := decide) only [nullary_result_ne', unary_result_ne', binary_result_ne', ternary_result_ne', reshape_result_ne', nary_result_ne']; exact f64_main_arg3
  clear hV f64_main_v24 f64_main_v43 f64_main_v46 f64_main_v47 f64_main_v48 f64_main_v49 f64_main_v50 f64_main_v51 f64_main_v52 f64_main_v53 f64_main_v54 f64_main_arg0 f64_main_arg2 f64_main_arg3 V64
  -- operation 65: main_v56
  rw [after_cons]
  generalize hV : HloOp.result _ V65 = V66
  have f66_main_v56 : V66 (Proc.devRef .tc main_v56) = Read.val_main_v56 (F := F) x2 := by
    rw [← hV]; refine (unary_result _ _ _ _ _ _).trans ?_; unfold Read.val_main_v56
    rw [← f65_main_v47]
    all_goals rfl
  have f66_main_v24 : V66 (Proc.devRef .tc main_v24) = Read.val_main_v24 (F := F) x0 := by
    rw [← hV]; simp (disch := decide) only [nullary_result_ne', unary_result_ne', binary_result_ne', ternary_result_ne', reshape_result_ne', nary_result_ne']; exact f65_main_v24
  have f66_main_v43 : V66 (Proc.devRef .tc main_v43) = Read.val_main_v43 (F := F) x1 x4 x5 := by
    rw [← hV]; simp (disch := decide) only [nullary_result_ne', unary_result_ne', binary_result_ne', ternary_result_ne', reshape_result_ne', nary_result_ne']; exact f65_main_v43
  have f66_main_v48 : V66 (Proc.devRef .tc main_v48) = Read.val_main_v48 (F := F) x2 := by
    rw [← hV]; simp (disch := decide) only [nullary_result_ne', unary_result_ne', binary_result_ne', ternary_result_ne', reshape_result_ne', nary_result_ne']; exact f65_main_v48
  have f66_main_v49 : V66 (Proc.devRef .tc main_v49) = Read.val_main_v49 (F := F) x2 := by
    rw [← hV]; simp (disch := decide) only [nullary_result_ne', unary_result_ne', binary_result_ne', ternary_result_ne', reshape_result_ne', nary_result_ne']; exact f65_main_v49
  have f66_main_v50 : V66 (Proc.devRef .tc main_v50) = Read.val_main_v50 (F := F) x2 := by
    rw [← hV]; simp (disch := decide) only [nullary_result_ne', unary_result_ne', binary_result_ne', ternary_result_ne', reshape_result_ne', nary_result_ne']; exact f65_main_v50
  have f66_main_v51 : V66 (Proc.devRef .tc main_v51) = Read.val_main_v51 (F := F) x2 := by
    rw [← hV]; simp (disch := decide) only [nullary_result_ne', unary_result_ne', binary_result_ne', ternary_result_ne', reshape_result_ne', nary_result_ne']; exact f65_main_v51
  have f66_main_v52 : V66 (Proc.devRef .tc main_v52) = Read.val_main_v52 (F := F) x2 := by
    rw [← hV]; simp (disch := decide) only [nullary_result_ne', unary_result_ne', binary_result_ne', ternary_result_ne', reshape_result_ne', nary_result_ne']; exact f65_main_v52
  have f66_main_v53 : V66 (Proc.devRef .tc main_v53) = Read.val_main_v53 (F := F) x2 := by
    rw [← hV]; simp (disch := decide) only [nullary_result_ne', unary_result_ne', binary_result_ne', ternary_result_ne', reshape_result_ne', nary_result_ne']; exact f65_main_v53
  have f66_main_v54 : V66 (Proc.devRef .tc main_v54) = Read.val_main_v54 (F := F) x2 := by
    rw [← hV]; simp (disch := decide) only [nullary_result_ne', unary_result_ne', binary_result_ne', ternary_result_ne', reshape_result_ne', nary_result_ne']; exact f65_main_v54
  have f66_main_v55 : V66 (Proc.devRef .tc main_v55) = Read.val_main_v55 (F := F) x2 := by
    rw [← hV]; simp (disch := decide) only [nullary_result_ne', unary_result_ne', binary_result_ne', ternary_result_ne', reshape_result_ne', nary_result_ne']; exact f65_main_v55
  have f66_main_arg0 : V66 (Proc.devRef .tc main_arg0) = x0 := by
    rw [← hV]; simp (disch := decide) only [nullary_result_ne', unary_result_ne', binary_result_ne', ternary_result_ne', reshape_result_ne', nary_result_ne']; exact f65_main_arg0
  have f66_main_arg2 : V66 (Proc.devRef .tc main_arg2) = x2 := by
    rw [← hV]; simp (disch := decide) only [nullary_result_ne', unary_result_ne', binary_result_ne', ternary_result_ne', reshape_result_ne', nary_result_ne']; exact f65_main_arg2
  have f66_main_arg3 : V66 (Proc.devRef .tc main_arg3) = x3 := by
    rw [← hV]; simp (disch := decide) only [nullary_result_ne', unary_result_ne', binary_result_ne', ternary_result_ne', reshape_result_ne', nary_result_ne']; exact f65_main_arg3
  clear hV f65_main_v24 f65_main_v43 f65_main_v47 f65_main_v48 f65_main_v49 f65_main_v50 f65_main_v51 f65_main_v52 f65_main_v53 f65_main_v54 f65_main_v55 f65_main_arg0 f65_main_arg2 f65_main_arg3 V65
  -- operation 66: main_v57
  rw [after_cons]
  generalize hV : HloOp.result _ V66 = V67
  have f67_main_v57 : V67 (Proc.devRef .tc main_v57) = Read.val_main_v57 (F := F) x2 := by
    rw [← hV]; refine (unary_result _ _ _ _ _ _).trans ?_; unfold Read.val_main_v57
    rw [← f66_main_v48]
    all_goals rfl
  have f67_main_v24 : V67 (Proc.devRef .tc main_v24) = Read.val_main_v24 (F := F) x0 := by
    rw [← hV]; simp (disch := decide) only [nullary_result_ne', unary_result_ne', binary_result_ne', ternary_result_ne', reshape_result_ne', nary_result_ne']; exact f66_main_v24
  have f67_main_v43 : V67 (Proc.devRef .tc main_v43) = Read.val_main_v43 (F := F) x1 x4 x5 := by
    rw [← hV]; simp (disch := decide) only [nullary_result_ne', unary_result_ne', binary_result_ne', ternary_result_ne', reshape_result_ne', nary_result_ne']; exact f66_main_v43
  have f67_main_v49 : V67 (Proc.devRef .tc main_v49) = Read.val_main_v49 (F := F) x2 := by
    rw [← hV]; simp (disch := decide) only [nullary_result_ne', unary_result_ne', binary_result_ne', ternary_result_ne', reshape_result_ne', nary_result_ne']; exact f66_main_v49
  have f67_main_v50 : V67 (Proc.devRef .tc main_v50) = Read.val_main_v50 (F := F) x2 := by
    rw [← hV]; simp (disch := decide) only [nullary_result_ne', unary_result_ne', binary_result_ne', ternary_result_ne', reshape_result_ne', nary_result_ne']; exact f66_main_v50
  have f67_main_v51 : V67 (Proc.devRef .tc main_v51) = Read.val_main_v51 (F := F) x2 := by
    rw [← hV]; simp (disch := decide) only [nullary_result_ne', unary_result_ne', binary_result_ne', ternary_result_ne', reshape_result_ne', nary_result_ne']; exact f66_main_v51
  have f67_main_v52 : V67 (Proc.devRef .tc main_v52) = Read.val_main_v52 (F := F) x2 := by
    rw [← hV]; simp (disch := decide) only [nullary_result_ne', unary_result_ne', binary_result_ne', ternary_result_ne', reshape_result_ne', nary_result_ne']; exact f66_main_v52
  have f67_main_v53 : V67 (Proc.devRef .tc main_v53) = Read.val_main_v53 (F := F) x2 := by
    rw [← hV]; simp (disch := decide) only [nullary_result_ne', unary_result_ne', binary_result_ne', ternary_result_ne', reshape_result_ne', nary_result_ne']; exact f66_main_v53
  have f67_main_v54 : V67 (Proc.devRef .tc main_v54) = Read.val_main_v54 (F := F) x2 := by
    rw [← hV]; simp (disch := decide) only [nullary_result_ne', unary_result_ne', binary_result_ne', ternary_result_ne', reshape_result_ne', nary_result_ne']; exact f66_main_v54
  have f67_main_v55 : V67 (Proc.devRef .tc main_v55) = Read.val_main_v55 (F := F) x2 := by
    rw [← hV]; simp (disch := decide) only [nullary_result_ne', unary_result_ne', binary_result_ne', ternary_result_ne', reshape_result_ne', nary_result_ne']; exact f66_main_v55
  have f67_main_v56 : V67 (Proc.devRef .tc main_v56) = Read.val_main_v56 (F := F) x2 := by
    rw [← hV]; simp (disch := decide) only [nullary_result_ne', unary_result_ne', binary_result_ne', ternary_result_ne', reshape_result_ne', nary_result_ne']; exact f66_main_v56
  have f67_main_arg0 : V67 (Proc.devRef .tc main_arg0) = x0 := by
    rw [← hV]; simp (disch := decide) only [nullary_result_ne', unary_result_ne', binary_result_ne', ternary_result_ne', reshape_result_ne', nary_result_ne']; exact f66_main_arg0
  have f67_main_arg2 : V67 (Proc.devRef .tc main_arg2) = x2 := by
    rw [← hV]; simp (disch := decide) only [nullary_result_ne', unary_result_ne', binary_result_ne', ternary_result_ne', reshape_result_ne', nary_result_ne']; exact f66_main_arg2
  have f67_main_arg3 : V67 (Proc.devRef .tc main_arg3) = x3 := by
    rw [← hV]; simp (disch := decide) only [nullary_result_ne', unary_result_ne', binary_result_ne', ternary_result_ne', reshape_result_ne', nary_result_ne']; exact f66_main_arg3
  clear hV f66_main_v24 f66_main_v43 f66_main_v48 f66_main_v49 f66_main_v50 f66_main_v51 f66_main_v52 f66_main_v53 f66_main_v54 f66_main_v55 f66_main_v56 f66_main_arg0 f66_main_arg2 f66_main_arg3 V66
  -- operation 67: main_v58
  rw [after_cons]
  generalize hV : HloOp.result _ V67 = V68
  have f68_main_v58 : V68 (Proc.devRef .tc main_v58) = Read.val_main_v58 (F := F) x2 := by
    rw [← hV]; refine (unary_result _ _ _ _ _ _).trans ?_; unfold Read.val_main_v58
    rw [← f67_main_v49]
    all_goals rfl
  have f68_main_v24 : V68 (Proc.devRef .tc main_v24) = Read.val_main_v24 (F := F) x0 := by
    rw [← hV]; simp (disch := decide) only [nullary_result_ne', unary_result_ne', binary_result_ne', ternary_result_ne', reshape_result_ne', nary_result_ne']; exact f67_main_v24
  have f68_main_v43 : V68 (Proc.devRef .tc main_v43) = Read.val_main_v43 (F := F) x1 x4 x5 := by
    rw [← hV]; simp (disch := decide) only [nullary_result_ne', unary_result_ne', binary_result_ne', ternary_result_ne', reshape_result_ne', nary_result_ne']; exact f67_main_v43
  have f68_main_v50 : V68 (Proc.devRef .tc main_v50) = Read.val_main_v50 (F := F) x2 := by
    rw [← hV]; simp (disch := decide) only [nullary_result_ne', unary_result_ne', binary_result_ne', ternary_result_ne', reshape_result_ne', nary_result_ne']; exact f67_main_v50
  have f68_main_v51 : V68 (Proc.devRef .tc main_v51) = Read.val_main_v51 (F := F) x2 := by
    rw [← hV]; simp (disch := decide) only [nullary_result_ne', unary_result_ne', binary_result_ne', ternary_result_ne', reshape_result_ne', nary_result_ne']; exact f67_main_v51
  have f68_main_v52 : V68 (Proc.devRef .tc main_v52) = Read.val_main_v52 (F := F) x2 := by
    rw [← hV]; simp (disch := decide) only [nullary_result_ne', unary_result_ne', binary_result_ne', ternary_result_ne', reshape_result_ne', nary_result_ne']; exact f67_main_v52
  have f68_main_v53 : V68 (Proc.devRef .tc main_v53) = Read.val_main_v53 (F := F) x2 := by
    rw [← hV]; simp (disch := decide) only [nullary_result_ne', unary_result_ne', binary_result_ne', ternary_result_ne', reshape_result_ne', nary_result_ne']; exact f67_main_v53
  have f68_main_v54 : V68 (Proc.devRef .tc main_v54) = Read.val_main_v54 (F := F) x2 := by
    rw [← hV]; simp (disch := decide) only [nullary_result_ne', unary_result_ne', binary_result_ne', ternary_result_ne', reshape_result_ne', nary_result_ne']; exact f67_main_v54
  have f68_main_v55 : V68 (Proc.devRef .tc main_v55) = Read.val_main_v55 (F := F) x2 := by
    rw [← hV]; simp (disch := decide) only [nullary_result_ne', unary_result_ne', binary_result_ne', ternary_result_ne', reshape_result_ne', nary_result_ne']; exact f67_main_v55
  have f68_main_v56 : V68 (Proc.devRef .tc main_v56) = Read.val_main_v56 (F := F) x2 := by
    rw [← hV]; simp (disch := decide) only [nullary_result_ne', unary_result_ne', binary_result_ne', ternary_result_ne', reshape_result_ne', nary_result_ne']; exact f67_main_v56
  have f68_main_v57 : V68 (Proc.devRef .tc main_v57) = Read.val_main_v57 (F := F) x2 := by
    rw [← hV]; simp (disch := decide) only [nullary_result_ne', unary_result_ne', binary_result_ne', ternary_result_ne', reshape_result_ne', nary_result_ne']; exact f67_main_v57
  have f68_main_arg0 : V68 (Proc.devRef .tc main_arg0) = x0 := by
    rw [← hV]; simp (disch := decide) only [nullary_result_ne', unary_result_ne', binary_result_ne', ternary_result_ne', reshape_result_ne', nary_result_ne']; exact f67_main_arg0
  have f68_main_arg2 : V68 (Proc.devRef .tc main_arg2) = x2 := by
    rw [← hV]; simp (disch := decide) only [nullary_result_ne', unary_result_ne', binary_result_ne', ternary_result_ne', reshape_result_ne', nary_result_ne']; exact f67_main_arg2
  have f68_main_arg3 : V68 (Proc.devRef .tc main_arg3) = x3 := by
    rw [← hV]; simp (disch := decide) only [nullary_result_ne', unary_result_ne', binary_result_ne', ternary_result_ne', reshape_result_ne', nary_result_ne']; exact f67_main_arg3
  clear hV f67_main_v24 f67_main_v43 f67_main_v49 f67_main_v50 f67_main_v51 f67_main_v52 f67_main_v53 f67_main_v54 f67_main_v55 f67_main_v56 f67_main_v57 f67_main_arg0 f67_main_arg2 f67_main_arg3 V67
  -- operation 68: main_v59
  rw [after_cons]
  generalize hV : HloOp.result _ V68 = V69
  have f69_main_v59 : V69 (Proc.devRef .tc main_v59) = Read.val_main_v59 (F := F) x2 := by
    rw [← hV]; refine (unary_result _ _ _ _ _ _).trans ?_; unfold Read.val_main_v59
    rw [← f68_main_v50]
    all_goals rfl
  have f69_main_v24 : V69 (Proc.devRef .tc main_v24) = Read.val_main_v24 (F := F) x0 := by
    rw [← hV]; simp (disch := decide) only [nullary_result_ne', unary_result_ne', binary_result_ne', ternary_result_ne', reshape_result_ne', nary_result_ne']; exact f68_main_v24
  have f69_main_v43 : V69 (Proc.devRef .tc main_v43) = Read.val_main_v43 (F := F) x1 x4 x5 := by
    rw [← hV]; simp (disch := decide) only [nullary_result_ne', unary_result_ne', binary_result_ne', ternary_result_ne', reshape_result_ne', nary_result_ne']; exact f68_main_v43
  have f69_main_v51 : V69 (Proc.devRef .tc main_v51) = Read.val_main_v51 (F := F) x2 := by
    rw [← hV]; simp (disch := decide) only [nullary_result_ne', unary_result_ne', binary_result_ne', ternary_result_ne', reshape_result_ne', nary_result_ne']; exact f68_main_v51
  have f69_main_v52 : V69 (Proc.devRef .tc main_v52) = Read.val_main_v52 (F := F) x2 := by
    rw [← hV]; simp (disch := decide) only [nullary_result_ne', unary_result_ne', binary_result_ne', ternary_result_ne', reshape_result_ne', nary_result_ne']; exact f68_main_v52
  have f69_main_v53 : V69 (Proc.devRef .tc main_v53) = Read.val_main_v53 (F := F) x2 := by
    rw [← hV]; simp (disch := decide) only [nullary_result_ne', unary_result_ne', binary_result_ne', ternary_result_ne', reshape_result_ne', nary_result_ne']; exact f68_main_v53
  have f69_main_v54 : V69 (Proc.devRef .tc main_v54) = Read.val_main_v54 (F := F) x2 := by
    rw [← hV]; simp (disch := decide) only [nullary_result_ne', unary_result_ne', binary_result_ne', ternary_result_ne', reshape_result_ne', nary_result_ne']; exact f68_main_v54
  have f69_main_v55 : V69 (Proc.devRef .tc main_v55) = Read.val_main_v55 (F := F) x2 := by
    rw [← hV]; simp (disch := decide) only [nullary_result_ne', unary_result_ne', binary_result_ne', ternary_result_ne', reshape_result_ne', nary_result_ne']; exact f68_main_v55
  have f69_main_v56 : V69 (Proc.devRef .tc main_v56) = Read.val_main_v56 (F := F) x2 := by
    rw [← hV]; simp (disch := decide) only [nullary_result_ne', unary_result_ne', binary_result_ne', ternary_result_ne', reshape_result_ne', nary_result_ne']; exact f68_main_v56
  have f69_main_v57 : V69 (Proc.devRef .tc main_v57) = Read.val_main_v57 (F := F) x2 := by
    rw [← hV]; simp (disch := decide) only [nullary_result_ne', unary_result_ne', binary_result_ne', ternary_result_ne', reshape_result_ne', nary_result_ne']; exact f68_main_v57
  have f69_main_v58 : V69 (Proc.devRef .tc main_v58) = Read.val_main_v58 (F := F) x2 := by
    rw [← hV]; simp (disch := decide) only [nullary_result_ne', unary_result_ne', binary_result_ne', ternary_result_ne', reshape_result_ne', nary_result_ne']; exact f68_main_v58
  have f69_main_arg0 : V69 (Proc.devRef .tc main_arg0) = x0 := by
    rw [← hV]; simp (disch := decide) only [nullary_result_ne', unary_result_ne', binary_result_ne', ternary_result_ne', reshape_result_ne', nary_result_ne']; exact f68_main_arg0
  have f69_main_arg2 : V69 (Proc.devRef .tc main_arg2) = x2 := by
    rw [← hV]; simp (disch := decide) only [nullary_result_ne', unary_result_ne', binary_result_ne', ternary_result_ne', reshape_result_ne', nary_result_ne']; exact f68_main_arg2
  have f69_main_arg3 : V69 (Proc.devRef .tc main_arg3) = x3 := by
    rw [← hV]; simp (disch := decide) only [nullary_result_ne', unary_result_ne', binary_result_ne', ternary_result_ne', reshape_result_ne', nary_result_ne']; exact f68_main_arg3
  clear hV f68_main_v24 f68_main_v43 f68_main_v50 f68_main_v51 f68_main_v52 f68_main_v53 f68_main_v54 f68_main_v55 f68_main_v56 f68_main_v57 f68_main_v58 f68_main_arg0 f68_main_arg2 f68_main_arg3 V68
  -- operation 69: main_v60
  rw [after_cons]
  generalize hV : HloOp.result _ V69 = V70
  have f70_main_v60 : V70 (Proc.devRef .tc main_v60) = Read.val_main_v60 (F := F) x2 := by
    rw [← hV]; refine (unary_result _ _ _ _ _ _).trans ?_; unfold Read.val_main_v60
    rw [← f69_main_v51]
    all_goals rfl
  have f70_main_v24 : V70 (Proc.devRef .tc main_v24) = Read.val_main_v24 (F := F) x0 := by
    rw [← hV]; simp (disch := decide) only [nullary_result_ne', unary_result_ne', binary_result_ne', ternary_result_ne', reshape_result_ne', nary_result_ne']; exact f69_main_v24
  have f70_main_v43 : V70 (Proc.devRef .tc main_v43) = Read.val_main_v43 (F := F) x1 x4 x5 := by
    rw [← hV]; simp (disch := decide) only [nullary_result_ne', unary_result_ne', binary_result_ne', ternary_result_ne', reshape_result_ne', nary_result_ne']; exact f69_main_v43
  have f70_main_v52 : V70 (Proc.devRef .tc main_v52) = Read.val_main_v52 (F := F) x2 := by
    rw [← hV]; simp (disch := decide) only [nullary_result_ne', unary_result_ne', binary_result_ne', ternary_result_ne', reshape_result_ne', nary_result_ne']; exact f69_main_v52
  have f70_main_v53 : V70 (Proc.devRef .tc main_v53) = Read.val_main_v53 (F := F) x2 := by
    rw [← hV]; simp (disch := decide) only [nullary_result_ne', unary_result_ne', binary_result_ne', ternary_result_ne', reshape_result_ne', nary_result_ne']; exact f69_main_v53
  have f70_main_v54 : V70 (Proc.devRef .tc main_v54) = Read.val_main_v54 (F := F) x2 := by
    rw [← hV]; simp (disch := decide) only [nullary_result_ne', unary_result_ne', binary_result_ne', ternary_result_ne', reshape_result_ne', nary_result_ne']; exact f69_main_v54
  have f70_main_v55 : V70 (Proc.devRef .tc main_v55) = Read.val_main_v55 (F := F) x2 := by
    rw [← hV]; simp (disch := decide) only [nullary_result_ne', unary_result_ne', binary_result_ne', ternary_result_ne', reshape_result_ne', nary_result_ne']; exact f69_main_v55
  have f70_main_v56 : V70 (Proc.devRef .tc main_v56) = Read.val_main_v56 (F := F) x2 := by
    rw [← hV]; simp (disch := decide) only [nullary_result_ne', unary_result_ne', binary_result_ne', ternary_result_ne', reshape_result_ne', nary_result_ne']; exact f69_main_v56
  have f70_main_v57 : V70 (Proc.devRef .tc main_v57) = Read.val_main_v57 (F := F) x2 := by
    rw [← hV]; simp (disch := decide) only [nullary_result_ne', unary_result_ne', binary_result_ne', ternary_result_ne', reshape_result_ne', nary_result_ne']; exact f69_main_v57
  have f70_main_v58 : V70 (Proc.devRef .tc main_v58) = Read.val_main_v58 (F := F) x2 := by
    rw [← hV]; simp (disch := decide) only [nullary_result_ne', unary_result_ne', binary_result_ne', ternary_result_ne', reshape_result_ne', nary_result_ne']; exact f69_main_v58
  have f70_main_v59 : V70 (Proc.devRef .tc main_v59) = Read.val_main_v59 (F := F) x2 := by
    rw [← hV]; simp (disch := decide) only [nullary_result_ne', unary_result_ne', binary_result_ne', ternary_result_ne', reshape_result_ne', nary_result_ne']; exact f69_main_v59
  have f70_main_arg0 : V70 (Proc.devRef .tc main_arg0) = x0 := by
    rw [← hV]; simp (disch := decide) only [nullary_result_ne', unary_result_ne', binary_result_ne', ternary_result_ne', reshape_result_ne', nary_result_ne']; exact f69_main_arg0
  have f70_main_arg2 : V70 (Proc.devRef .tc main_arg2) = x2 := by
    rw [← hV]; simp (disch := decide) only [nullary_result_ne', unary_result_ne', binary_result_ne', ternary_result_ne', reshape_result_ne', nary_result_ne']; exact f69_main_arg2
  have f70_main_arg3 : V70 (Proc.devRef .tc main_arg3) = x3 := by
    rw [← hV]; simp (disch := decide) only [nullary_result_ne', unary_result_ne', binary_result_ne', ternary_result_ne', reshape_result_ne', nary_result_ne']; exact f69_main_arg3
  clear hV f69_main_v24 f69_main_v43 f69_main_v51 f69_main_v52 f69_main_v53 f69_main_v54 f69_main_v55 f69_main_v56 f69_main_v57 f69_main_v58 f69_main_v59 f69_main_arg0 f69_main_arg2 f69_main_arg3 V69
  exact ⟨f70_main_v24, f70_main_v43, f70_main_v52, f70_main_v53, f70_main_v54, f70_main_v55, f70_main_v56, f70_main_v57, f70_main_v58, f70_main_v59, f70_main_v60, f70_main_arg0, f70_main_arg2, f70_main_arg3⟩

set_option maxRecDepth 16384 in
set_option maxHeartbeats 0 in
/-- Operations 70 … 79: from contents at which the buffers still read hold their stages, to contents at which the
    buffers read later hold theirs. -/
theorem stages7 (V70 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f70_main_v24 : V70 (Proc.devRef .tc main_v24) = Read.val_main_v24 (F := F) x0)
    (f70_main_v43 : V70 (Proc.devRef .tc main_v43) = Read.val_main_v43 (F := F) x1 x4 x5)
    (f70_main_v52 : V70 (Proc.devRef .tc main_v52) = Read.val_main_v52 (F := F) x2)
    (f70_main_v53 : V70 (Proc.devRef .tc main_v53) = Read.val_main_v53 (F := F) x2)
    (f70_main_v54 : V70 (Proc.devRef .tc main_v54) = Read.val_main_v54 (F := F) x2)
    (f70_main_v55 : V70 (Proc.devRef .tc main_v55) = Read.val_main_v55 (F := F) x2)
    (f70_main_v56 : V70 (Proc.devRef .tc main_v56) = Read.val_main_v56 (F := F) x2)
    (f70_main_v57 : V70 (Proc.devRef .tc main_v57) = Read.val_main_v57 (F := F) x2)
    (f70_main_v58 : V70 (Proc.devRef .tc main_v58) = Read.val_main_v58 (F := F) x2)
    (f70_main_v59 : V70 (Proc.devRef .tc main_v59) = Read.val_main_v59 (F := F) x2)
    (f70_main_v60 : V70 (Proc.devRef .tc main_v60) = Read.val_main_v60 (F := F) x2)
    (f70_main_arg0 : V70 (Proc.devRef .tc main_arg0) = x0)
    (f70_main_arg2 : V70 (Proc.devRef .tc main_arg2) = x2)
    (f70_main_arg3 : V70 (Proc.devRef .tc main_arg3) = x3) :
    after (ops7 (F := F)) V70 (Proc.devRef .tc main_v43) = Read.val_main_v43 (F := F) x1 x4 x5
    ∧ after (ops7 (F := F)) V70 (Proc.devRef .tc main_v65) = Read.val_main_v65 (F := F) x2
    ∧ after (ops7 (F := F)) V70 (Proc.devRef .tc main_v68) = Read.val_main_v68 (F := F) x0
    ∧ after (ops7 (F := F)) V70 (Proc.devRef .tc main_call3_v0) = Read.val_main_call3_v0 (F := F)
    ∧ after (ops7 (F := F)) V70 (Proc.devRef .tc main_arg3) = x3 := by
  unfold ops7
  -- operation 70: main_v61
  rw [after_cons]
  generalize hV : HloOp.result _ V70 = V71
  have f71_main_v61 : V71 (Proc.devRef .tc main_v61) = Read.val_main_v61 (F := F) x2 := by
    rw [← hV]; refine (unary_result _ _ _ _ _ _).trans ?_; unfold Read.val_main_v61
    rw [← f70_main_v52]
    all_goals rfl
  have f71_main_v24 : V71 (Proc.devRef .tc main_v24) = Read.val_main_v24 (F := F) x0 := by
    rw [← hV]; simp (disch := decide) only [nullary_result_ne', unary_result_ne', binary_result_ne', ternary_result_ne', reshape_result_ne', nary_result_ne']; exact f70_main_v24
  have f71_main_v43 : V71 (Proc.devRef .tc main_v43) = Read.val_main_v43 (F := F) x1 x4 x5 := by
    rw [← hV]; simp (disch := decide) only [nullary_result_ne', unary_result_ne', binary_result_ne', ternary_result_ne', reshape_result_ne', nary_result_ne']; exact f70_main_v43
  have f71_main_v53 : V71 (Proc.devRef .tc main_v53) = Read.val_main_v53 (F := F) x2 := by
    rw [← hV]; simp (disch := decide) only [nullary_result_ne', unary_result_ne', binary_result_ne', ternary_result_ne', reshape_result_ne', nary_result_ne']; exact f70_main_v53
  have f71_main_v54 : V71 (Proc.devRef .tc main_v54) = Read.val_main_v54 (F := F) x2 := by
    rw [← hV]; simp (disch := decide) only [nullary_result_ne', unary_result_ne', binary_result_ne', ternary_result_ne', reshape_result_ne', nary_result_ne']; exact f70_main_v54
  have f71_main_v55 : V71 (Proc.devRef .tc main_v55) = Read.val_main_v55 (F := F) x2 := by
    rw [← hV]; simp (disch := decide) only [nullary_result_ne', unary_result_ne', binary_result_ne', ternary_result_ne', reshape_result_ne', nary_result_ne']; exact f70_main_v55
  have f71_main_v56 : V71 (Proc.devRef .tc main_v56) = Read.val_main_v56 (F := F) x2 := by
    rw [← hV]; simp (disch := decide) only [nullary_result_ne', unary_result_ne', binary_result_ne', ternary_result_ne', reshape_result_ne', nary_result_ne']; exact f70_main_v56
  have f71_main_v57 : V71 (Proc.devRef .tc main_v57) = Read.val_main_v57 (F := F) x2 := by
    rw [← hV]; simp (disch := decide) only [nullary_result_ne', unary_result_ne', binary_result_ne', ternary_result_ne', reshape_result_ne', nary_result_ne']; exact f70_main_v57
  have f71_main_v58 : V71 (Proc.devRef .tc main_v58) = Read.val_main_v58 (F := F) x2 := by
    rw [← hV]; simp (disch := decide) only [nullary_result_ne', unary_result_ne', binary_result_ne', ternary_result_ne', reshape_result_ne', nary_result_ne']; exact f70_main_v58
  have f71_main_v59 : V71 (Proc.devRef .tc main_v59) = Read.val_main_v59 (F := F) x2 := by
    rw [← hV]; simp (disch := decide) only [nullary_result_ne', unary_result_ne', binary_result_ne', ternary_result_ne', reshape_result_ne', nary_result_ne']; exact f70_main_v59
  have f71_main_v60 : V71 (Proc.devRef .tc main_v60) = Read.val_main_v60 (F := F) x2 := by
    rw [← hV]; simp (disch := decide) only [nullary_result_ne', unary_result_ne', binary_result_ne', ternary_result_ne', reshape_result_ne', nary_result_ne']; exact f70_main_v60
  have f71_main_arg0 : V71 (Proc.devRef .tc main_arg0) = x0 := by
    rw [← hV]; simp (disch := decide) only [nullary_result_ne', unary_result_ne', binary_result_ne', ternary_result_ne', reshape_result_ne', nary_result_ne']; exact f70_main_arg0
  have f71_main_arg2 : V71 (Proc.devRef .tc main_arg2) = x2 := by
    rw [← hV]; simp (disch := decide) only [nullary_result_ne', unary_result_ne', binary_result_ne', ternary_result_ne', reshape_result_ne', nary_result_ne']; exact f70_main_arg2
  have f71_main_arg3 : V71 (Proc.devRef .tc main_arg3) = x3 := by
    rw [← hV]; simp (disch := decide) only [nullary_result_ne', unary_result_ne', binary_result_ne', ternary_result_ne', reshape_result_ne', nary_result_ne']; exact f70_main_arg3
  clear hV f70_main_v24 f70_main_v43 f70_main_v52 f70_main_v53 f70_main_v54 f70_main_v55 f70_main_v56 f70_main_v57 f70_main_v58 f70_main_v59 f70_main_v60 f70_main_arg0 f70_main_arg2 f70_main_arg3 V70
  -- operation 71: main_v62
  rw [after_cons]
  generalize hV : HloOp.result _ V71 = V72
  have f72_main_v62 : V72 (Proc.devRef .tc main_v62) = Read.val_main_v62 (F := F) x2 := by
    rw [← hV]; refine (nary_result _ _ _ _ _ _).trans ?_; unfold Read.val_main_v62
    rw [← f71_main_v53, ← f71_main_v54, ← f71_main_v55, ← f71_main_v56, ← f71_main_v57, ← f71_main_v58, ← f71_main_v59, ← f71_main_v60, ← f71_main_v61]
    all_goals rfl
  have f72_main_v24 : V72 (Proc.devRef .tc main_v24) = Read.val_main_v24 (F := F) x0 := by
    rw [← hV]; simp (disch := decide) only [nullary_result_ne', unary_result_ne', binary_result_ne', ternary_result_ne', reshape_result_ne', nary_result_ne']; exact f71_main_v24
  have f72_main_v43 : V72 (Proc.devRef .tc main_v43) = Read.val_main_v43 (F := F) x1 x4 x5 := by
    rw [← hV]; simp (disch := decide) only [nullary_result_ne', unary_result_ne', binary_result_ne', ternary_result_ne', reshape_result_ne', nary_result_ne']; exact f71_main_v43
  have f72_main_arg0 : V72 (Proc.devRef .tc main_arg0) = x0 := by
    rw [← hV]; simp (disch := decide) only [nullary_result_ne', unary_result_ne', binary_result_ne', ternary_result_ne', reshape_result_ne', nary_result_ne']; exact f71_main_arg0
  have f72_main_arg2 : V72 (Proc.devRef .tc main_arg2) = x2 := by
    rw [← hV]; simp (disch := decide) only [nullary_result_ne', unary_result_ne', binary_result_ne', ternary_result_ne', reshape_result_ne', nary_result_ne']; exact f71_main_arg2
  have f72_main_arg3 : V72 (Proc.devRef .tc main_arg3) = x3 := by
    rw [← hV]; simp (disch := decide) only [nullary_result_ne', unary_result_ne', binary_result_ne', ternary_result_ne', reshape_result_ne', nary_result_ne']; exact f71_main_arg3
  clear hV f71_main_v24 f71_main_v43 f71_main_v53 f71_main_v54 f71_main_v55 f71_main_v56 f71_main_v57 f71_main_v58 f71_main_v59 f71_main_v60 f71_main_v61 f71_main_arg0 f71_main_arg2 f71_main_arg3 V71
  -- operation 72: main_v63
  rw [after_cons]
  generalize hV : HloOp.result _ V72 = V73
  have f73_main_v63 : V73 (Proc.devRef .tc main_v63) = Read.val_main_v63 (F := F) x2 := by
    rw [← hV]; refine (unary_result _ _ _ _ _ _).trans ?_; unfold Read.val_main_v63
    rw [← f72_main_arg2]
    all_goals rfl
  have f73_main_v24 : V73 (Proc.devRef .tc main_v24) = Read.val_main_v24 (F := F) x0 := by
    rw [← hV]; simp (disch := decide) only [nullary_result_ne', unary_result_ne', binary_result_ne', ternary_result_ne', reshape_result_ne', nary_result_ne']; exact f72_main_v24
  have f73_main_v43 : V73 (Proc.devRef .tc main_v43) = Read.val_main_v43 (F := F) x1 x4 x5 := by
    rw [← hV]; simp (disch := decide) only [nullary_result_ne', unary_result_ne', binary_result_ne', ternary_result_ne', reshape_result_ne', nary_result_ne']; exact f72_main_v43
  have f73_main_v62 : V73 (Proc.devRef .tc main_v62) = Read.val_main_v62 (F := F) x2 := by
    rw [← hV]; simp (disch := decide) only [nullary_result_ne', unary_result_ne', binary_result_ne', ternary_result_ne', reshape_result_ne', nary_result_ne']; exact f72_main_v62
  have f73_main_arg0 : V73 (Proc.devRef .tc main_arg0) = x0 := by
    rw [← hV]; simp (disch := decide) only [nullary_result_ne', unary_result_ne', binary_result_ne', ternary_result_ne', reshape_result_ne', nary_result_ne']; exact f72_main_arg0
  have f73_main_arg3 : V73 (Proc.devRef .tc main_arg3) = x3 := by
    rw [← hV]; simp (disch := decide) only [nullary_result_ne', unary_result_ne', binary_result_ne', ternary_result_ne', reshape_result_ne', nary_result_ne']; exact f72_main_arg3
  clear hV f72_main_v24 f72_main_v43 f72_main_v62 f72_main_arg0 f72_main_arg2 f72_main_arg3 V72
  -- operation 73: main_v64
  rw [after_cons]
  generalize hV : HloOp.result _ V73 = V74
  have f74_main_v64 : V74 (Proc.devRef .tc main_v64) = Read.val_main_v64 (F := F) x2 := by
    rw [← hV]; refine (unary_result _ _ _ _ _ _).trans ?_; unfold Read.val_main_v64
    rw [← f73_main_v63]
    all_goals rfl
  have f74_main_v24 : V74 (Proc.devRef .tc main_v24) = Read.val_main_v24 (F := F) x0 := by
    rw [← hV]; simp (disch := decide) only [nullary_result_ne', unary_result_ne', binary_result_ne', ternary_result_ne', reshape_result_ne', nary_result_ne']; exact f73_main_v24
  have f74_main_v43 : V74 (Proc.devRef .tc main_v43) = Read.val_main_v43 (F := F) x1 x4 x5 := by
    rw [← hV]; simp (disch := decide) only [nullary_result_ne', unary_result_ne', binary_result_ne', ternary_result_ne', reshape_result_ne', nary_result_ne']; exact f73_main_v43
  have f74_main_v62 : V74 (Proc.devRef .tc main_v62) = Read.val_main_v62 (F := F) x2 := by
    rw [← hV]; simp (disch := decide) only [nullary_result_ne', unary_result_ne', binary_result_ne', ternary_result_ne', reshape_result_ne', nary_result_ne']; exact f73_main_v62
  have f74_main_arg0 : V74 (Proc.devRef .tc main_arg0) = x0 := by
    rw [← hV]; simp (disch := decide) only [nullary_result_ne', unary_result_ne', binary_result_ne', ternary_result_ne', reshape_result_ne', nary_result_ne']; exact f73_main_arg0
  have f74_main_arg3 : V74 (Proc.devRef .tc main_arg3) = x3 := by
    rw [← hV]; simp (disch := decide) only [nullary_result_ne', unary_result_ne', binary_result_ne', ternary_result_ne', reshape_result_ne', nary_result_ne']; exact f73_main_arg3
  clear hV f73_main_v24 f73_main_v43 f73_main_v62 f73_main_v63 f73_main_arg0 f73_main_arg3 V73
  -- operation 74: main_v65
  rw [after_cons]
  generalize hV : HloOp.result _ V74 = V75
  have f75_main_v65 : V75 (Proc.devRef .tc main_v65) = Read.val_main_v65 (F := F) x2 := by
    rw [← hV]; refine (binary_result _ _ _ _ _ _ _ _).trans ?_; unfold Read.val_main_v65
    rw [← f74_main_v62, ← f74_main_v64]
    all_goals rfl
  have f75_main_v24 : V75 (Proc.devRef .tc main_v24) = Read.val_main_v24 (F := F) x0 := by
    rw [← hV]; simp (disch := decide) only [nullary_result_ne', unary_result_ne', binary_result_ne', ternary_result_ne', reshape_result_ne', nary_result_ne']; exact f74_main_v24
  have f75_main_v43 : V75 (Proc.devRef .tc main_v43) = Read.val_main_v43 (F := F) x1 x4 x5 := by
    rw [← hV]; simp (disch := decide) only [nullary_result_ne', unary_result_ne', binary_result_ne', ternary_result_ne', reshape_result_ne', nary_result_ne']; exact f74_main_v43
  have f75_main_arg0 : V75 (Proc.devRef .tc main_arg0) = x0 := by
    rw [← hV]; simp (disch := decide) only [nullary_result_ne', unary_result_ne', binary_result_ne', ternary_result_ne', reshape_result_ne', nary_result_ne']; exact f74_main_arg0
  have f75_main_arg3 : V75 (Proc.devRef .tc main_arg3) = x3 := by
    rw [← hV]; simp (disch := decide) only [nullary_result_ne', unary_result_ne', binary_result_ne', ternary_result_ne', reshape_result_ne', nary_result_ne']; exact f74_main_arg3
  clear hV f74_main_v24 f74_main_v43 f74_main_v62 f74_main_v64 f74_main_arg0 f74_main_arg3 V74
  -- operation 75: main_v66
  rw [after_cons]
  generalize hV : HloOp.result _ V75 = V76
  have f76_main_v66 : V76 (Proc.devRef .tc main_v66) = Read.val_main_v66 (F := F) x0 := by
    rw [← hV]; refine (unary_result _ _ _ _ _ _).trans ?_; unfold Read.val_main_v66
    rw [← f75_main_arg0]
    all_goals rfl
  have f76_main_v24 : V76 (Proc.devRef .tc main_v24) = Read.val_main_v24 (F := F) x0 := by
    rw [← hV]; simp (disch := decide) only [nullary_result_ne', unary_result_ne', binary_result_ne', ternary_result_ne', reshape_result_ne', nary_result_ne']; exact f75_main_v24
  have f76_main_v43 : V76 (Proc.devRef .tc main_v43) = Read.val_main_v43 (F := F) x1 x4 x5 := by
    rw [← hV]; simp (disch := decide) only [nullary_result_ne', unary_result_ne', binary_result_ne', ternary_result_ne', reshape_result_ne', nary_result_ne']; exact f75_main_v43
  have f76_main_v65 : V76 (Proc.devRef .tc main_v65) = Read.val_main_v65 (F := F) x2 := by
    rw [← hV]; simp (disch := decide) only [nullary_result_ne', unary_result_ne', binary_result_ne', ternary_result_ne', reshape_result_ne', nary_result_ne']; exact f75_main_v65
  have f76_main_arg3 : V76 (Proc.devRef .tc main_arg3) = x3 := by
    rw [← hV]; simp (disch := decide) only [nullary_result_ne', unary_result_ne', binary_result_ne', ternary_result_ne', reshape_result_ne', nary_result_ne']; exact f75_main_arg3
  clear hV f75_main_v24 f75_main_v43 f75_main_v65 f75_main_arg0 f75_main_arg3 V75
  -- operation 76: main_v67
  rw [after_cons]
  generalize hV : HloOp.result _ V76 = V77
  have f77_main_v67 : V77 (Proc.devRef .tc main_v67) = Read.val_main_v67 (F := F) x0 := by
    rw [← hV]; refine (unary_result _ _ _ _ _ _).trans ?_; unfold Read.val_main_v67
    rw [← f76_main_v66]
    all_goals rfl
  have f77_main_v24 : V77 (Proc.devRef .tc main_v24) = Read.val_main_v24 (F := F) x0 := by
    rw [← hV]; simp (disch := decide) only [nullary_result_ne', unary_result_ne', binary_result_ne', ternary_result_ne', reshape_result_ne', nary_result_ne']; exact f76_main_v24
  have f77_main_v43 : V77 (Proc.devRef .tc main_v43) = Read.val_main_v43 (F := F) x1 x4 x5 := by
    rw [← hV]; simp (disch := decide) only [nullary_result_ne', unary_result_ne', binary_result_ne', ternary_result_ne', reshape_result_ne', nary_result_ne']; exact f76_main_v43
  have f77_main_v65 : V77 (Proc.devRef .tc main_v65) = Read.val_main_v65 (F := F) x2 := by
    rw [← hV]; simp (disch := decide) only [nullary_result_ne', unary_result_ne', binary_result_ne', ternary_result_ne', reshape_result_ne', nary_result_ne']; exact f76_main_v65
  have f77_main_arg3 : V77 (Proc.devRef .tc main_arg3) = x3 := by
    rw [← hV]; simp (disch := decide) only [nullary_result_ne', unary_result_ne', binary_result_ne', ternary_result_ne', reshape_result_ne', nary_result_ne']; exact f76_main_arg3
  clear hV f76_main_v24 f76_main_v43 f76_main_v65 f76_main_v66 f76_main_arg3 V76
  -- operation 77: main_v68
  rw [after_cons]
  generalize hV : HloOp.result _ V77 = V78
  have f78_main_v68 : V78 (Proc.devRef .tc main_v68) = Read.val_main_v68 (F := F) x0 := by
    rw [← hV]; refine (binary_result _ _ _ _ _ _ _ _).trans ?_; unfold Read.val_main_v68
    rw [← f77_main_v67, ← f77_main_v24]
    all_goals rfl
  have f78_main_v43 : V78 (Proc.devRef .tc main_v43) = Read.val_main_v43 (F := F) x1 x4 x5 := by
    rw [← hV]; simp (disch := decide) only [nullary_result_ne', unary_result_ne', binary_result_ne', ternary_result_ne', reshape_result_ne', nary_result_ne']; exact f77_main_v43
  have f78_main_v65 : V78 (Proc.devRef .tc main_v65) = Read.val_main_v65 (F := F) x2 := by
    rw [← hV]; simp (disch := decide) only [nullary_result_ne', unary_result_ne', binary_result_ne', ternary_result_ne', reshape_result_ne', nary_result_ne']; exact f77_main_v65
  have f78_main_arg3 : V78 (Proc.devRef .tc main_arg3) = x3 := by
    rw [← hV]; simp (disch := decide) only [nullary_result_ne', unary_result_ne', binary_result_ne', ternary_result_ne', reshape_result_ne', nary_result_ne']; exact f77_main_arg3
  clear hV f77_main_v24 f77_main_v43 f77_main_v65 f77_main_v67 f77_main_arg3 V77
  -- operation 78: main_cst
  rw [after_cons]
  generalize hV : HloOp.result _ V78 = V79
  have f79_main_cst : V79 (Proc.devRef .tc main_cst) = Read.val_main_cst (F := F) := by
    rw [← hV]; refine (nullary_result _ _ _ _).trans ?_; unfold Read.val_main_cst
    rfl
  have f79_main_v43 : V79 (Proc.devRef .tc main_v43) = Read.val_main_v43 (F := F) x1 x4 x5 := by
    rw [← hV]; simp (disch := decide) only [nullary_result_ne', unary_result_ne', binary_result_ne', ternary_result_ne', reshape_result_ne', nary_result_ne']; exact f78_main_v43
  have f79_main_v65 : V79 (Proc.devRef .tc main_v65) = Read.val_main_v65 (F := F) x2 := by
    rw [← hV]; simp (disch := decide) only [nullary_result_ne', unary_result_ne', binary_result_ne', ternary_result_ne', reshape_result_ne', nary_result_ne']; exact f78_main_v65
  have f79_main_v68 : V79 (Proc.devRef .tc main_v68) = Read.val_main_v68 (F := F) x0 := by
    rw [← hV]; simp (disch := decide) only [nullary_result_ne', unary_result_ne', binary_result_ne', ternary_result_ne', reshape_result_ne', nary_result_ne']; exact f78_main_v68
  have f79_main_arg3 : V79 (Proc.devRef .tc main_arg3) = x3 := by
    rw [← hV]; simp (disch := decide) only [nullary_result_ne', unary_result_ne', binary_result_ne', ternary_result_ne', reshape_result_ne', nary_result_ne']; exact f78_main_arg3
  clear hV f78_main_v43 f78_main_v65 f78_main_v68 f78_main_arg3 V78
  -- operation 79: main_call3_v0
  rw [after_cons]
  generalize hV : HloOp.result _ V79 = V80
  have f80_main_call3_v0 : V80 (Proc.devRef .tc main_call3_v0) = Read.val_main_call3_v0 (F := F) := by
    rw [← hV]; refine (unary_result _ _ _ _ _ _).trans ?_; unfold Read.val_main_call3_v0
    rw [← f79_main_cst]
    all_goals rfl
  have f80_main_v43 : V80 (Proc.devRef .tc main_v43) = Read.val_main_v43 (F := F) x1 x4 x5 := by
    rw [← hV]; simp (disch := decide) only [nullary_result_ne', unary_result_ne', binary_result_ne', ternary_result_ne', reshape_result_ne', nary_result_ne']; exact f79_main_v43
  have f80_main_v65 : V80 (Proc.devRef .tc main_v65) = Read.val_main_v65 (F := F) x2 := by
    rw [← hV]; simp (disch := decide) only [nullary_result_ne', unary_result_ne', binary_result_ne', ternary_result_ne', reshape_result_ne', nary_result_ne']; exact f79_main_v65
  have f80_main_v68 : V80 (Proc.devRef .tc main_v68) = Read.val_main_v68 (F := F) x0 := by
    rw [← hV]; simp (disch := decide) only [nullary_result_ne', unary_result_ne', binary_result_ne', ternary_result_ne', reshape_result_ne', nary_result_ne']; exact f79_main_v68
  have f80_main_arg3 : V80 (Proc.devRef .tc main_arg3) = x3 := by
    rw [← hV]; simp (disch := decide) only [nullary_result_ne', unary_result_ne', binary_result_ne', ternary_result_ne', reshape_result_ne', nary_result_ne']; exact f79_main_arg3
  clear hV f79_main_v43 f79_main_v65 f79_main_v68 f79_main_cst f79_main_arg3 V79
  exact ⟨f80_main_v43, f80_main_v65, f80_main_v68, f80_main_call3_v0, f80_main_arg3⟩

end Cert.ReferenceIdeal.RefRun

end
-- ==== Proof.RefAfter2.lean ====
/-
  The reference program's host operations run forward, one at a time, a sublist of ten at a time.

  Each operation rewrites the buffer it writes and leaves every other buffer alone. After each operation the proof
  keeps, for exactly the buffers a later operation still reads, the equation "this buffer holds its stage" — the stage
  `val_<buffer>` being the operation's function applied to the stages of its operands, so one unfolding of the stage's
  definition and the equations of the operands close each step. The composed, tree-expanded term of the arguments is
  never formed.
  This module: operations 80 … 130.
-/
import proofs.«104800_j57621281243745_2_alg».proof.Proof.RefOps
import proofs.«104800_j57621281243745_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 0 in
/-- Operations 80 … 89: from contents at which the buffers still read hold their stages, to contents at which the
    buffers read later hold theirs. -/
theorem stages8 (V80 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f80_main_v43 : V80 (Proc.devRef .tc main_v43) = Read.val_main_v43 (F := F) x1 x4 x5)
    (f80_main_v65 : V80 (Proc.devRef .tc main_v65) = Read.val_main_v65 (F := F) x2)
    (f80_main_v68 : V80 (Proc.devRef .tc main_v68) = Read.val_main_v68 (F := F) x0)
    (f80_main_call3_v0 : V80 (Proc.devRef .tc main_call3_v0) = Read.val_main_call3_v0 (F := F))
    (f80_main_arg3 : V80 (Proc.devRef .tc main_arg3) = x3) :
    after (ops8 (F := F)) V80 (Proc.devRef .tc main_v69) = Read.val_main_v69 (F := F) x0 x2
    ∧ after (ops8 (F := F)) V80 (Proc.devRef .tc main_v72) = Read.val_main_v72 (F := F) x1 x2 x4 x5
    ∧ after (ops8 (F := F)) V80 (Proc.devRef .tc main_v73) = Read.val_main_v73 (F := F) x1 x2 x4 x5
    ∧ after (ops8 (F := F)) V80 (Proc.devRef .tc main_arg3) = x3 := by
  unfold ops8
  -- operation 80: main_call3_v1
  rw [after_cons]
  generalize hV : HloOp.result _ V80 = V81
  have f81_main_call3_v1 : V81 (Proc.devRef .tc main_call3_v1) = Read.val_main_call3_v1 (F := F) := by
    rw [← hV]; refine (unary_result _ _ _ _ _ _).trans ?_; unfold Read.val_main_call3_v1
    rw [← f80_main_call3_v0]
    all_goals rfl
  have f81_main_v43 : V81 (Proc.devRef .tc main_v43) = Read.val_main_v43 (F := F) x1 x4 x5 := by
    rw [← hV]; simp (disch := decide) only [nullary_result_ne', unary_result_ne', binary_result_ne', ternary_result_ne', reshape_result_ne', nary_result_ne']; exact f80_main_v43
  have f81_main_v65 : V81 (Proc.devRef .tc main_v65) = Read.val_main_v65 (F := F) x2 := by
    rw [← hV]; simp (disch := decide) only [nullary_result_ne', unary_result_ne', binary_result_ne', ternary_result_ne', reshape_result_ne', nary_result_ne']; exact f80_main_v65
  have f81_main_v68 : V81 (Proc.devRef .tc main_v68) = Read.val_main_v68 (F := F) x0 := by
    rw [← hV]; simp (disch := decide) only [nullary_result_ne', unary_result_ne', binary_result_ne', ternary_result_ne', reshape_result_ne', nary_result_ne']; exact f80_main_v68
  have f81_main_arg3 : V81 (Proc.devRef .tc main_arg3) = x3 := by
    rw [← hV]; simp (disch := decide) only [nullary_result_ne', unary_result_ne', binary_result_ne', ternary_result_ne', reshape_result_ne', nary_result_ne']; exact f80_main_arg3
  clear hV f80_main_v43 f80_main_v65 f80_main_v68 f80_main_call3_v0 f80_main_arg3 V80
  -- operation 81: main_v69
  rw [after_cons]
  generalize hV : HloOp.result _ V81 = V82
  have f82_main_v69 : V82 (Proc.devRef .tc main_v69) = Read.val_main_v69 (F := F) x0 x2 := by
    rw [← hV]; refine (ternary_result _ _ _ _ _ _ _ _ _ _).trans ?_; unfold Read.val_main_v69
    rw [← f81_main_v65, ← f81_main_v68, ← f81_main_call3_v1]
    all_goals rfl
  have f82_main_v43 : V82 (Proc.devRef .tc main_v43) = Read.val_main_v43 (F := F) x1 x4 x5 := by
    rw [← hV]; simp (disch := decide) only [nullary_result_ne', unary_result_ne', binary_result_ne', ternary_result_ne', reshape_result_ne', nary_result_ne']; exact f81_main_v43
  have f82_main_v65 : V82 (Proc.devRef .tc main_v65) = Read.val_main_v65 (F := F) x2 := by
    rw [← hV]; simp (disch := decide) only [nullary_result_ne', unary_result_ne', binary_result_ne', ternary_result_ne', reshape_result_ne', nary_result_ne']; exact f81_main_v65
  have f82_main_arg3 : V82 (Proc.devRef .tc main_arg3) = x3 := by
    rw [← hV]; simp (disch := decide) only [nullary_result_ne', unary_result_ne', binary_result_ne', ternary_result_ne', reshape_result_ne', nary_result_ne']; exact f81_main_arg3
  clear hV f81_main_v43 f81_main_v65 f81_main_v68 f81_main_call3_v1 f81_main_arg3 V81
  -- operation 82: main_v70
  rw [after_cons]
  generalize hV : HloOp.result _ V82 = V83
  have f83_main_v70 : V83 (Proc.devRef .tc main_v70) = Read.val_main_v70 (F := F) x2 := by
    rw [← hV]; refine (unary_result _ _ _ _ _ _).trans ?_; unfold Read.val_main_v70
    rw [← f82_main_v65]
    all_goals rfl
  have f83_main_v43 : V83 (Proc.devRef .tc main_v43) = Read.val_main_v43 (F := F) x1 x4 x5 := by
    rw [← hV]; simp (disch := decide) only [nullary_result_ne', unary_result_ne', binary_result_ne', ternary_result_ne', reshape_result_ne', nary_result_ne']; exact f82_main_v43
  have f83_main_v69 : V83 (Proc.devRef .tc main_v69) = Read.val_main_v69 (F := F) x0 x2 := by
    rw [← hV]; simp (disch := decide) only [nullary_result_ne', unary_result_ne', binary_result_ne', ternary_result_ne', reshape_result_ne', nary_result_ne']; exact f82_main_v69
  have f83_main_arg3 : V83 (Proc.devRef .tc main_arg3) = x3 := by
    rw [← hV]; simp (disch := decide) only [nullary_result_ne', unary_result_ne', binary_result_ne', ternary_result_ne', reshape_result_ne', nary_result_ne']; exact f82_main_arg3
  clear hV f82_main_v43 f82_main_v65 f82_main_v69 f82_main_arg3 V82
  -- operation 83: main_cst_2
  rw [after_cons]
  generalize hV : HloOp.result _ V83 = V84
  have f84_main_cst_2 : V84 (Proc.devRef .tc main_cst_2) = Read.val_main_cst_2 (F := F) := by
    rw [← hV]; refine (nullary_result _ _ _ _).trans ?_; unfold Read.val_main_cst_2
    rfl
  have f84_main_v43 : V84 (Proc.devRef .tc main_v43) = Read.val_main_v43 (F := F) x1 x4 x5 := by
    rw [← hV]; simp (disch := decide) only [nullary_result_ne', unary_result_ne', binary_result_ne', ternary_result_ne', reshape_result_ne', nary_result_ne']; exact f83_main_v43
  have f84_main_v69 : V84 (Proc.devRef .tc main_v69) = Read.val_main_v69 (F := F) x0 x2 := by
    rw [← hV]; simp (disch := decide) only [nullary_result_ne', unary_result_ne', binary_result_ne', ternary_result_ne', reshape_result_ne', nary_result_ne']; exact f83_main_v69
  have f84_main_v70 : V84 (Proc.devRef .tc main_v70) = Read.val_main_v70 (F := F) x2 := by
    rw [← hV]; simp (disch := decide) only [nullary_result_ne', unary_result_ne', binary_result_ne', ternary_result_ne', reshape_result_ne', nary_result_ne']; exact f83_main_v70
  have f84_main_arg3 : V84 (Proc.devRef .tc main_arg3) = x3 := by
    rw [← hV]; simp (disch := decide) only [nullary_result_ne', unary_result_ne', binary_result_ne', ternary_result_ne', reshape_result_ne', nary_result_ne']; exact f83_main_arg3
  clear hV f83_main_v43 f83_main_v69 f83_main_v70 f83_main_arg3 V83
  -- operation 84: main_call4_v0
  rw [after_cons]
  generalize hV : HloOp.result _ V84 = V85
  have f85_main_call4_v0 : V85 (Proc.devRef .tc main_call4_v0) = Read.val_main_call4_v0 (F := F) := by
    rw [← hV]; refine (unary_result _ _ _ _ _ _).trans ?_; unfold Read.val_main_call4_v0
    rw [← f84_main_cst_2]
    all_goals rfl
  have f85_main_v43 : V85 (Proc.devRef .tc main_v43) = Read.val_main_v43 (F := F) x1 x4 x5 := by
    rw [← hV]; simp (disch := decide) only [nullary_result_ne', unary_result_ne', binary_result_ne', ternary_result_ne', reshape_result_ne', nary_result_ne']; exact f84_main_v43
  have f85_main_v69 : V85 (Proc.devRef .tc main_v69) = Read.val_main_v69 (F := F) x0 x2 := by
    rw [← hV]; simp (disch := decide) only [nullary_result_ne', unary_result_ne', binary_result_ne', ternary_result_ne', reshape_result_ne', nary_result_ne']; exact f84_main_v69
  have f85_main_v70 : V85 (Proc.devRef .tc main_v70) = Read.val_main_v70 (F := F) x2 := by
    rw [← hV]; simp (disch := decide) only [nullary_result_ne', unary_result_ne', binary_result_ne', ternary_result_ne', reshape_result_ne', nary_result_ne']; exact f84_main_v70
  have f85_main_arg3 : V85 (Proc.devRef .tc main_arg3) = x3 := by
    rw [← hV]; simp (disch := decide) only [nullary_result_ne', unary_result_ne', binary_result_ne', ternary_result_ne', reshape_result_ne', nary_result_ne']; exact f84_main_arg3
  clear hV f84_main_v43 f84_main_v69 f84_main_v70 f84_main_cst_2 f84_main_arg3 V84
  -- operation 85: main_call4_v1
  rw [after_cons]
  generalize hV : HloOp.result _ V85 = V86
  have f86_main_call4_v1 : V86 (Proc.devRef .tc main_call4_v1) = Read.val_main_call4_v1 (F := F) x2 := by
    rw [← hV]; refine (unary_result _ _ _ _ _ _).trans ?_; unfold Read.val_main_call4_v1
    rw [← f85_main_v70]
    all_goals rfl
  have f86_main_v43 : V86 (Proc.devRef .tc main_v43) = Read.val_main_v43 (F := F) x1 x4 x5 := by
    rw [← hV]; simp (disch := decide) only [nullary_result_ne', unary_result_ne', binary_result_ne', ternary_result_ne', reshape_result_ne', nary_result_ne']; exact f85_main_v43
  have f86_main_v69 : V86 (Proc.devRef .tc main_v69) = Read.val_main_v69 (F := F) x0 x2 := by
    rw [← hV]; simp (disch := decide) only [nullary_result_ne', unary_result_ne', binary_result_ne', ternary_result_ne', reshape_result_ne', nary_result_ne']; exact f85_main_v69
  have f86_main_call4_v0 : V86 (Proc.devRef .tc main_call4_v0) = Read.val_main_call4_v0 (F := F) := by
    rw [← hV]; simp (disch := decide) only [nullary_result_ne', unary_result_ne', binary_result_ne', ternary_result_ne', reshape_result_ne', nary_result_ne']; exact f85_main_call4_v0
  have f86_main_arg3 : V86 (Proc.devRef .tc main_arg3) = x3 := by
    rw [← hV]; simp (disch := decide) only [nullary_result_ne', unary_result_ne', binary_result_ne', ternary_result_ne', reshape_result_ne', nary_result_ne']; exact f85_main_arg3
  clear hV f85_main_v43 f85_main_v69 f85_main_v70 f85_main_call4_v0 f85_main_arg3 V85
  -- operation 86: main_call4_v2
  rw [after_cons]
  generalize hV : HloOp.result _ V86 = V87
  have f87_main_call4_v2 : V87 (Proc.devRef .tc main_call4_v2) = Read.val_main_call4_v2 (F := F) := by
    rw [← hV]; refine (unary_result _ _ _ _ _ _).trans ?_; unfold Read.val_main_call4_v2
    rw [← f86_main_call4_v0]
    all_goals rfl
  have f87_main_v43 : V87 (Proc.devRef .tc main_v43) = Read.val_main_v43 (F := F) x1 x4 x5 := by
    rw [← hV]; simp (disch := decide) only [nullary_result_ne', unary_result_ne', binary_result_ne', ternary_result_ne', reshape_result_ne', nary_result_ne']; exact f86_main_v43
  have f87_main_v69 : V87 (Proc.devRef .tc main_v69) = Read.val_main_v69 (F := F) x0 x2 := by
    rw [← hV]; simp (disch := decide) only [nullary_result_ne', unary_result_ne', binary_result_ne', ternary_result_ne', reshape_result_ne', nary_result_ne']; exact f86_main_v69
  have f87_main_call4_v1 : V87 (Proc.devRef .tc main_call4_v1) = Read.val_main_call4_v1 (F := F) x2 := by
    rw [← hV]; simp (disch := decide) only [nullary_result_ne', unary_result_ne', binary_result_ne', ternary_result_ne', reshape_result_ne', nary_result_ne']; exact f86_main_call4_v1
  have f87_main_arg3 : V87 (Proc.devRef .tc main_arg3) = x3 := by
    rw [← hV]; simp (disch := decide) only [nullary_result_ne', unary_result_ne', binary_result_ne', ternary_result_ne', reshape_result_ne', nary_result_ne']; exact f86_main_arg3
  clear hV f86_main_v43 f86_main_v69 f86_main_call4_v0 f86_main_call4_v1 f86_main_arg3 V86
  -- operation 87: main_v71
  rw [after_cons]
  generalize hV : HloOp.result _ V87 = V88
  have f88_main_v71 : V88 (Proc.devRef .tc main_v71) = Read.val_main_v71 (F := F) x1 x2 x4 x5 := by
    rw [← hV]; refine (ternary_result _ _ _ _ _ _ _ _ _ _).trans ?_; unfold Read.val_main_v71
    rw [← f87_main_call4_v1, ← f87_main_v43, ← f87_main_call4_v2]
    all_goals rfl
  have f88_main_v69 : V88 (Proc.devRef .tc main_v69) = Read.val_main_v69 (F := F) x0 x2 := by
    rw [← hV]; simp (disch := decide) only [nullary_result_ne', unary_result_ne', binary_result_ne', ternary_result_ne', reshape_result_ne', nary_result_ne']; exact f87_main_v69
  have f88_main_arg3 : V88 (Proc.devRef .tc main_arg3) = x3 := by
    rw [← hV]; simp (disch := decide) only [nullary_result_ne', unary_result_ne', binary_result_ne', ternary_result_ne', reshape_result_ne', nary_result_ne']; exact f87_main_arg3
  clear hV f87_main_v43 f87_main_v69 f87_main_call4_v1 f87_main_call4_v2 f87_main_arg3 V87
  -- operation 88: main_v72
  rw [after_cons]
  generalize hV : HloOp.result _ V88 = V89
  have f89_main_v72 : V89 (Proc.devRef .tc main_v72) = Read.val_main_v72 (F := F) x1 x2 x4 x5 := by
    rw [← hV]; refine (unary_result _ _ _ _ _ _).trans ?_; unfold Read.val_main_v72
    rw [← f88_main_v71]
    all_goals rfl
  have f89_main_v69 : V89 (Proc.devRef .tc main_v69) = Read.val_main_v69 (F := F) x0 x2 := by
    rw [← hV]; simp (disch := decide) only [nullary_result_ne', unary_result_ne', binary_result_ne', ternary_result_ne', reshape_result_ne', nary_result_ne']; exact f88_main_v69
  have f89_main_v71 : V89 (Proc.devRef .tc main_v71) = Read.val_main_v71 (F := F) x1 x2 x4 x5 := by
    rw [← hV]; simp (disch := decide) only [nullary_result_ne', unary_result_ne', binary_result_ne', ternary_result_ne', reshape_result_ne', nary_result_ne']; exact f88_main_v71
  have f89_main_arg3 : V89 (Proc.devRef .tc main_arg3) = x3 := by
    rw [← hV]; simp (disch := decide) only [nullary_result_ne', unary_result_ne', binary_result_ne', ternary_result_ne', reshape_result_ne', nary_result_ne']; exact f88_main_arg3
  clear hV f88_main_v69 f88_main_v71 f88_main_arg3 V88
  -- operation 89: main_v73
  rw [after_cons]
  generalize hV : HloOp.result _ V89 = V90
  have f90_main_v73 : V90 (Proc.devRef .tc main_v73) = Read.val_main_v73 (F := F) x1 x2 x4 x5 := by
    rw [← hV]; refine (unary_result _ _ _ _ _ _).trans ?_; unfold Read.val_main_v73
    rw [← f89_main_v71]
    all_goals rfl
  have f90_main_v69 : V90 (Proc.devRef .tc main_v69) = Read.val_main_v69 (F := F) x0 x2 := by
    rw [← hV]; simp (disch := decide) only [nullary_result_ne', unary_result_ne', binary_result_ne', ternary_result_ne', reshape_result_ne', nary_result_ne']; exact f89_main_v69
  have f90_main_v72 : V90 (Proc.devRef .tc main_v72) = Read.val_main_v72 (F := F) x1 x2 x4 x5 := by
    rw [← hV]; simp (disch := decide) only [nullary_result_ne', unary_result_ne', binary_result_ne', ternary_result_ne', reshape_result_ne', nary_result_ne']; exact f89_main_v72
  have f90_main_arg3 : V90 (Proc.devRef .tc main_arg3) = x3 := by
    rw [← hV]; simp (disch := decide) only [nullary_result_ne', unary_result_ne', binary_result_ne', ternary_result_ne', reshape_result_ne', nary_result_ne']; exact f89_main_arg3
  clear hV f89_main_v69 f89_main_v71 f89_main_v72 f89_main_arg3 V89
  exact ⟨f90_main_v69, f90_main_v72, f90_main_v73, f90_main_arg3⟩

set_option maxRecDepth 16384 in
set_option maxHeartbeats 0 in
/-- Operations 90 … 99: from contents at which the buffers still read hold their stages, to contents at which the
    buffers read later hold theirs. -/
theorem stages9 (V90 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f90_main_v69 : V90 (Proc.devRef .tc main_v69) = Read.val_main_v69 (F := F) x0 x2)
    (f90_main_v72 : V90 (Proc.devRef .tc main_v72) = Read.val_main_v72 (F := F) x1 x2 x4 x5)
    (f90_main_v73 : V90 (Proc.devRef .tc main_v73) = Read.val_main_v73 (F := F) x1 x2 x4 x5)
    (f90_main_arg3 : V90 (Proc.devRef .tc main_arg3) = x3) :
    after (ops9 (F := F)) V90 (Proc.devRef .tc main_v69) = Read.val_main_v69 (F := F) x0 x2
    ∧ after (ops9 (F := F)) V90 (Proc.devRef .tc main_v72) = Read.val_main_v72 (F := F) x1 x2 x4 x5
    ∧ after (ops9 (F := F)) V90 (Proc.devRef .tc main_v73) = Read.val_main_v73 (F := F) x1 x2 x4 x5
    ∧ after (ops9 (F := F)) V90 (Proc.devRef .tc main_v75) = Read.val_main_v75 (F := F) x0 x2
    ∧ after (ops9 (F := F)) V90 (Proc.devRef .tc main_v82) = Read.val_main_v82 (F := F) x0 x1 x2 x4 x5
    ∧ after (ops9 (F := F)) V90 (Proc.devRef .tc main_cst_3) = Read.val_main_cst_3 (F := F)
    ∧ after (ops9 (F := F)) V90 (Proc.devRef .tc main_arg3) = x3 := by
  unfold ops9
  -- operation 90: main_v74
  rw [after_cons]
  generalize hV : HloOp.result _ V90 = V91
  have f91_main_v74 : V91 (Proc.devRef .tc main_v74) = Read.val_main_v74 (F := F) x0 x2 := by
    rw [← hV]; refine (unary_result _ _ _ _ _ _).trans ?_; unfold Read.val_main_v74
    rw [← f90_main_v69]
    all_goals rfl
  have f91_main_v69 : V91 (Proc.devRef .tc main_v69) = Read.val_main_v69 (F := F) x0 x2 := by
    rw [← hV]; simp (disch := decide) only [nullary_result_ne', unary_result_ne', binary_result_ne', ternary_result_ne', reshape_result_ne', nary_result_ne']; exact f90_main_v69
  have f91_main_v72 : V91 (Proc.devRef .tc main_v72) = Read.val_main_v72 (F := F) x1 x2 x4 x5 := by
    rw [← hV]; simp (disch := decide) only [nullary_result_ne', unary_result_ne', binary_result_ne', ternary_result_ne', reshape_result_ne', nary_result_ne']; exact f90_main_v72
  have f91_main_v73 : V91 (Proc.devRef .tc main_v73) = Read.val_main_v73 (F := F) x1 x2 x4 x5 := by
    rw [← hV]; simp (disch := decide) only [nullary_result_ne', unary_result_ne', binary_result_ne', ternary_result_ne', reshape_result_ne', nary_result_ne']; exact f90_main_v73
  have f91_main_arg3 : V91 (Proc.devRef .tc main_arg3) = x3 := by
    rw [← hV]; simp (disch := decide) only [nullary_result_ne', unary_result_ne', binary_result_ne', ternary_result_ne', reshape_result_ne', nary_result_ne']; exact f90_main_arg3
  clear hV f90_main_v69 f90_main_v72 f90_main_v73 f90_main_arg3 V90
  -- operation 91: main_v75
  rw [after_cons]
  generalize hV : HloOp.result _ V91 = V92
  have f92_main_v75 : V92 (Proc.devRef .tc main_v75) = Read.val_main_v75 (F := F) x0 x2 := by
    rw [← hV]; refine (reshape_result _ _ _ _ _ _ _).trans ?_; unfold Read.val_main_v75
    rw [← f91_main_v74]
    all_goals rfl
  have f92_main_v69 : V92 (Proc.devRef .tc main_v69) = Read.val_main_v69 (F := F) x0 x2 := by
    rw [← hV]; simp (disch := decide) only [nullary_result_ne', unary_result_ne', binary_result_ne', ternary_result_ne', reshape_result_ne', nary_result_ne']; exact f91_main_v69
  have f92_main_v72 : V92 (Proc.devRef .tc main_v72) = Read.val_main_v72 (F := F) x1 x2 x4 x5 := by
    rw [← hV]; simp (disch := decide) only [nullary_result_ne', unary_result_ne', binary_result_ne', ternary_result_ne', reshape_result_ne', nary_result_ne']; exact f91_main_v72
  have f92_main_v73 : V92 (Proc.devRef .tc main_v73) = Read.val_main_v73 (F := F) x1 x2 x4 x5 := by
    rw [← hV]; simp (disch := decide) only [nullary_result_ne', unary_result_ne', binary_result_ne', ternary_result_ne', reshape_result_ne', nary_result_ne']; exact f91_main_v73
  have f92_main_arg3 : V92 (Proc.devRef .tc main_arg3) = x3 := by
    rw [← hV]; simp (disch := decide) only [nullary_result_ne', unary_result_ne', binary_result_ne', ternary_result_ne', reshape_result_ne', nary_result_ne']; exact f91_main_arg3
  clear hV f91_main_v69 f91_main_v72 f91_main_v73 f91_main_v74 f91_main_arg3 V91
  -- operation 92: main_v76
  rw [after_cons]
  generalize hV : HloOp.result _ V92 = V93
  have f93_main_v76 : V93 (Proc.devRef .tc main_v76) = Read.val_main_v76 (F := F) x0 x2 := by
    rw [← hV]; refine (unary_result _ _ _ _ _ _).trans ?_; unfold Read.val_main_v76
    rw [← f92_main_v69]
    all_goals rfl
  have f93_main_v69 : V93 (Proc.devRef .tc main_v69) = Read.val_main_v69 (F := F) x0 x2 := by
    rw [← hV]; simp (disch := decide) only [nullary_result_ne', unary_result_ne', binary_result_ne', ternary_result_ne', reshape_result_ne', nary_result_ne']; exact f92_main_v69
  have f93_main_v72 : V93 (Proc.devRef .tc main_v72) = Read.val_main_v72 (F := F) x1 x2 x4 x5 := by
    rw [← hV]; simp (disch := decide) only [nullary_result_ne', unary_result_ne', binary_result_ne', ternary_result_ne', reshape_result_ne', nary_result_ne']; exact f92_main_v72
  have f93_main_v73 : V93 (Proc.devRef .tc main_v73) = Read.val_main_v73 (F := F) x1 x2 x4 x5 := by
    rw [← hV]; simp (disch := decide) only [nullary_result_ne', unary_result_ne', binary_result_ne', ternary_result_ne', reshape_result_ne', nary_result_ne']; exact f92_main_v73
  have f93_main_v75 : V93 (Proc.devRef .tc main_v75) = Read.val_main_v75 (F := F) x0 x2 := by
    rw [← hV]; simp (disch := decide) only [nullary_result_ne', unary_result_ne', binary_result_ne', ternary_result_ne', reshape_result_ne', nary_result_ne']; exact f92_main_v75
  have f93_main_arg3 : V93 (Proc.devRef .tc main_arg3) = x3 := by
    rw [← hV]; simp (disch := decide) only [nullary_result_ne', unary_result_ne', binary_result_ne', ternary_result_ne', reshape_result_ne', nary_result_ne']; exact f92_main_arg3
  clear hV f92_main_v69 f92_main_v72 f92_main_v73 f92_main_v75 f92_main_arg3 V92
  -- operation 93: main_v77
  rw [after_cons]
  generalize hV : HloOp.result _ V93 = V94
  have f94_main_v77 : V94 (Proc.devRef .tc main_v77) = Read.val_main_v77 (F := F) x0 x2 := by
    rw [← hV]; refine (unary_result _ _ _ _ _ _).trans ?_; unfold Read.val_main_v77
    rw [← f93_main_v76]
    all_goals rfl
  have f94_main_v69 : V94 (Proc.devRef .tc main_v69) = Read.val_main_v69 (F := F) x0 x2 := by
    rw [← hV]; simp (disch := decide) only [nullary_result_ne', unary_result_ne', binary_result_ne', ternary_result_ne', reshape_result_ne', nary_result_ne']; exact f93_main_v69
  have f94_main_v72 : V94 (Proc.devRef .tc main_v72) = Read.val_main_v72 (F := F) x1 x2 x4 x5 := by
    rw [← hV]; simp (disch := decide) only [nullary_result_ne', unary_result_ne', binary_result_ne', ternary_result_ne', reshape_result_ne', nary_result_ne']; exact f93_main_v72
  have f94_main_v73 : V94 (Proc.devRef .tc main_v73) = Read.val_main_v73 (F := F) x1 x2 x4 x5 := by
    rw [← hV]; simp (disch := decide) only [nullary_result_ne', unary_result_ne', binary_result_ne', ternary_result_ne', reshape_result_ne', nary_result_ne']; exact f93_main_v73
  have f94_main_v75 : V94 (Proc.devRef .tc main_v75) = Read.val_main_v75 (F := F) x0 x2 := by
    rw [← hV]; simp (disch := decide) only [nullary_result_ne', unary_result_ne', binary_result_ne', ternary_result_ne', reshape_result_ne', nary_result_ne']; exact f93_main_v75
  have f94_main_arg3 : V94 (Proc.devRef .tc main_arg3) = x3 := by
    rw [← hV]; simp (disch := decide) only [nullary_result_ne', unary_result_ne', binary_result_ne', ternary_result_ne', reshape_result_ne', nary_result_ne']; exact f93_main_arg3
  clear hV f93_main_v69 f93_main_v72 f93_main_v73 f93_main_v75 f93_main_v76 f93_main_arg3 V93
  -- operation 94: main_v78
  rw [after_cons]
  generalize hV : HloOp.result _ V94 = V95
  have f95_main_v78 : V95 (Proc.devRef .tc main_v78) = Read.val_main_v78 (F := F) x1 x2 x4 x5 := by
    rw [← hV]; refine (unary_result _ _ _ _ _ _).trans ?_; unfold Read.val_main_v78
    rw [← f94_main_v72]
    all_goals rfl
  have f95_main_v69 : V95 (Proc.devRef .tc main_v69) = Read.val_main_v69 (F := F) x0 x2 := by
    rw [← hV]; simp (disch := decide) only [nullary_result_ne', unary_result_ne', binary_result_ne', ternary_result_ne', reshape_result_ne', nary_result_ne']; exact f94_main_v69
  have f95_main_v72 : V95 (Proc.devRef .tc main_v72) = Read.val_main_v72 (F := F) x1 x2 x4 x5 := by
    rw [← hV]; simp (disch := decide) only [nullary_result_ne', unary_result_ne', binary_result_ne', ternary_result_ne', reshape_result_ne', nary_result_ne']; exact f94_main_v72
  have f95_main_v73 : V95 (Proc.devRef .tc main_v73) = Read.val_main_v73 (F := F) x1 x2 x4 x5 := by
    rw [← hV]; simp (disch := decide) only [nullary_result_ne', unary_result_ne', binary_result_ne', ternary_result_ne', reshape_result_ne', nary_result_ne']; exact f94_main_v73
  have f95_main_v75 : V95 (Proc.devRef .tc main_v75) = Read.val_main_v75 (F := F) x0 x2 := by
    rw [← hV]; simp (disch := decide) only [nullary_result_ne', unary_result_ne', binary_result_ne', ternary_result_ne', reshape_result_ne', nary_result_ne']; exact f94_main_v75
  have f95_main_v77 : V95 (Proc.devRef .tc main_v77) = Read.val_main_v77 (F := F) x0 x2 := by
    rw [← hV]; simp (disch := decide) only [nullary_result_ne', unary_result_ne', binary_result_ne', ternary_result_ne', reshape_result_ne', nary_result_ne']; exact f94_main_v77
  have f95_main_arg3 : V95 (Proc.devRef .tc main_arg3) = x3 := by
    rw [← hV]; simp (disch := decide) only [nullary_result_ne', unary_result_ne', binary_result_ne', ternary_result_ne', reshape_result_ne', nary_result_ne']; exact f94_main_arg3
  clear hV f94_main_v69 f94_main_v72 f94_main_v73 f94_main_v75 f94_main_v77 f94_main_arg3 V94
  -- operation 95: main_v79
  rw [after_cons]
  generalize hV : HloOp.result _ V95 = V96
  have f96_main_v79 : V96 (Proc.devRef .tc main_v79) = Read.val_main_v79 (F := F) x0 x2 := by
    rw [← hV]; refine (unary_result _ _ _ _ _ _).trans ?_; unfold Read.val_main_v79
    rw [← f95_main_v77]
    all_goals rfl
  have f96_main_v69 : V96 (Proc.devRef .tc main_v69) = Read.val_main_v69 (F := F) x0 x2 := by
    rw [← hV]; simp (disch := decide) only [nullary_result_ne', unary_result_ne', binary_result_ne', ternary_result_ne', reshape_result_ne', nary_result_ne']; exact f95_main_v69
  have f96_main_v72 : V96 (Proc.devRef .tc main_v72) = Read.val_main_v72 (F := F) x1 x2 x4 x5 := by
    rw [← hV]; simp (disch := decide) only [nullary_result_ne', unary_result_ne', binary_result_ne', ternary_result_ne', reshape_result_ne', nary_result_ne']; exact f95_main_v72
  have f96_main_v73 : V96 (Proc.devRef .tc main_v73) = Read.val_main_v73 (F := F) x1 x2 x4 x5 := by
    rw [← hV]; simp (disch := decide) only [nullary_result_ne', unary_result_ne', binary_result_ne', ternary_result_ne', reshape_result_ne', nary_result_ne']; exact f95_main_v73
  have f96_main_v75 : V96 (Proc.devRef .tc main_v75) = Read.val_main_v75 (F := F) x0 x2 := by
    rw [← hV]; simp (disch := decide) only [nullary_result_ne', unary_result_ne', binary_result_ne', ternary_result_ne', reshape_result_ne', nary_result_ne']; exact f95_main_v75
  have f96_main_v78 : V96 (Proc.devRef .tc main_v78) = Read.val_main_v78 (F := F) x1 x2 x4 x5 := by
    rw [← hV]; simp (disch := decide) only [nullary_result_ne', unary_result_ne', binary_result_ne', ternary_result_ne', reshape_result_ne', nary_result_ne']; exact f95_main_v78
  have f96_main_arg3 : V96 (Proc.devRef .tc main_arg3) = x3 := by
    rw [← hV]; simp (disch := decide) only [nullary_result_ne', unary_result_ne', binary_result_ne', ternary_result_ne', reshape_result_ne', nary_result_ne']; exact f95_main_arg3
  clear hV f95_main_v69 f95_main_v72 f95_main_v73 f95_main_v75 f95_main_v77 f95_main_v78 f95_main_arg3 V95
  -- operation 96: main_v80
  rw [after_cons]
  generalize hV : HloOp.result _ V96 = V97
  have f97_main_v80 : V97 (Proc.devRef .tc main_v80) = Read.val_main_v80 (F := F) x0 x1 x2 x4 x5 := by
    rw [← hV]; refine (binary_result _ _ _ _ _ _ _ _).trans ?_; unfold Read.val_main_v80
    rw [← f96_main_v79, ← f96_main_v78]
    all_goals rfl
  have f97_main_v69 : V97 (Proc.devRef .tc main_v69) = Read.val_main_v69 (F := F) x0 x2 := by
    rw [← hV]; simp (disch := decide) only [nullary_result_ne', unary_result_ne', binary_result_ne', ternary_result_ne', reshape_result_ne', nary_result_ne']; exact f96_main_v69
  have f97_main_v72 : V97 (Proc.devRef .tc main_v72) = Read.val_main_v72 (F := F) x1 x2 x4 x5 := by
    rw [← hV]; simp (disch := decide) only [nullary_result_ne', unary_result_ne', binary_result_ne', ternary_result_ne', reshape_result_ne', nary_result_ne']; exact f96_main_v72
  have f97_main_v73 : V97 (Proc.devRef .tc main_v73) = Read.val_main_v73 (F := F) x1 x2 x4 x5 := by
    rw [← hV]; simp (disch := decide) only [nullary_result_ne', unary_result_ne', binary_result_ne', ternary_result_ne', reshape_result_ne', nary_result_ne']; exact f96_main_v73
  have f97_main_v75 : V97 (Proc.devRef .tc main_v75) = Read.val_main_v75 (F := F) x0 x2 := by
    rw [← hV]; simp (disch := decide) only [nullary_result_ne', unary_result_ne', binary_result_ne', ternary_result_ne', reshape_result_ne', nary_result_ne']; exact f96_main_v75
  have f97_main_arg3 : V97 (Proc.devRef .tc main_arg3) = x3 := by
    rw [← hV]; simp (disch := decide) only [nullary_result_ne', unary_result_ne', binary_result_ne', ternary_result_ne', reshape_result_ne', nary_result_ne']; exact f96_main_arg3
  clear hV f96_main_v69 f96_main_v72 f96_main_v73 f96_main_v75 f96_main_v78 f96_main_v79 f96_main_arg3 V96
  -- operation 97: main_v81
  rw [after_cons]
  generalize hV : HloOp.result _ V97 = V98
  have f98_main_v81 : V98 (Proc.devRef .tc main_v81) = Read.val_main_v81 (F := F) x1 x2 x4 x5 := by
    rw [← hV]; refine (unary_result _ _ _ _ _ _).trans ?_; unfold Read.val_main_v81
    rw [← f97_main_v73]
    all_goals rfl
  have f98_main_v69 : V98 (Proc.devRef .tc main_v69) = Read.val_main_v69 (F := F) x0 x2 := by
    rw [← hV]; simp (disch := decide) only [nullary_result_ne', unary_result_ne', binary_result_ne', ternary_result_ne', reshape_result_ne', nary_result_ne']; exact f97_main_v69
  have f98_main_v72 : V98 (Proc.devRef .tc main_v72) = Read.val_main_v72 (F := F) x1 x2 x4 x5 := by
    rw [← hV]; simp (disch := decide) only [nullary_result_ne', unary_result_ne', binary_result_ne', ternary_result_ne', reshape_result_ne', nary_result_ne']; exact f97_main_v72
  have f98_main_v73 : V98 (Proc.devRef .tc main_v73) = Read.val_main_v73 (F := F) x1 x2 x4 x5 := by
    rw [← hV]; simp (disch := decide) only [nullary_result_ne', unary_result_ne', binary_result_ne', ternary_result_ne', reshape_result_ne', nary_result_ne']; exact f97_main_v73
  have f98_main_v75 : V98 (Proc.devRef .tc main_v75) = Read.val_main_v75 (F := F) x0 x2 := by
    rw [← hV]; simp (disch := decide) only [nullary_result_ne', unary_result_ne', binary_result_ne', ternary_result_ne', reshape_result_ne', nary_result_ne']; exact f97_main_v75
  have f98_main_v80 : V98 (Proc.devRef .tc main_v80) = Read.val_main_v80 (F := F) x0 x1 x2 x4 x5 := by
    rw [← hV]; simp (disch := decide) only [nullary_result_ne', unary_result_ne', binary_result_ne', ternary_result_ne', reshape_result_ne', nary_result_ne']; exact f97_main_v80
  have f98_main_arg3 : V98 (Proc.devRef .tc main_arg3) = x3 := by
    rw [← hV]; simp (disch := decide) only [nullary_result_ne', unary_result_ne', binary_result_ne', ternary_result_ne', reshape_result_ne', nary_result_ne']; exact f97_main_arg3
  clear hV f97_main_v69 f97_main_v72 f97_main_v73 f97_main_v75 f97_main_v80 f97_main_arg3 V97
  -- operation 98: main_v82
  rw [after_cons]
  generalize hV : HloOp.result _ V98 = V99
  have f99_main_v82 : V99 (Proc.devRef .tc main_v82) = Read.val_main_v82 (F := F) x0 x1 x2 x4 x5 := by
    rw [← hV]; refine (binary_result _ _ _ _ _ _ _ _).trans ?_; unfold Read.val_main_v82
    rw [← f98_main_v80, ← f98_main_v81]
    all_goals rfl
  have f99_main_v69 : V99 (Proc.devRef .tc main_v69) = Read.val_main_v69 (F := F) x0 x2 := by
    rw [← hV]; simp (disch := decide) only [nullary_result_ne', unary_result_ne', binary_result_ne', ternary_result_ne', reshape_result_ne', nary_result_ne']; exact f98_main_v69
  have f99_main_v72 : V99 (Proc.devRef .tc main_v72) = Read.val_main_v72 (F := F) x1 x2 x4 x5 := by
    rw [← hV]; simp (disch := decide) only [nullary_result_ne', unary_result_ne', binary_result_ne', ternary_result_ne', reshape_result_ne', nary_result_ne']; exact f98_main_v72
  have f99_main_v73 : V99 (Proc.devRef .tc main_v73) = Read.val_main_v73 (F := F) x1 x2 x4 x5 := by
    rw [← hV]; simp (disch := decide) only [nullary_result_ne', unary_result_ne', binary_result_ne', ternary_result_ne', reshape_result_ne', nary_result_ne']; exact f98_main_v73
  have f99_main_v75 : V99 (Proc.devRef .tc main_v75) = Read.val_main_v75 (F := F) x0 x2 := by
    rw [← hV]; simp (disch := decide) only [nullary_result_ne', unary_result_ne', binary_result_ne', ternary_result_ne', reshape_result_ne', nary_result_ne']; exact f98_main_v75
  have f99_main_arg3 : V99 (Proc.devRef .tc main_arg3) = x3 := by
    rw [← hV]; simp (disch := decide) only [nullary_result_ne', unary_result_ne', binary_result_ne', ternary_result_ne', reshape_result_ne', nary_result_ne']; exact f98_main_arg3
  clear hV f98_main_v69 f98_main_v72 f98_main_v73 f98_main_v75 f98_main_v80 f98_main_v81 f98_main_arg3 V98
  -- operation 99: main_cst_3
  rw [after_cons]
  generalize hV : HloOp.result _ V99 = V100
  have f100_main_cst_3 : V100 (Proc.devRef .tc main_cst_3) = Read.val_main_cst_3 (F := F) := by
    rw [← hV]; refine (nullary_result _ _ _ _).trans ?_; unfold Read.val_main_cst_3
    rfl
  have f100_main_v69 : V100 (Proc.devRef .tc main_v69) = Read.val_main_v69 (F := F) x0 x2 := by
    rw [← hV]; simp (disch := decide) only [nullary_result_ne', unary_result_ne', binary_result_ne', ternary_result_ne', reshape_result_ne', nary_result_ne']; exact f99_main_v69
  have f100_main_v72 : V100 (Proc.devRef .tc main_v72) = Read.val_main_v72 (F := F) x1 x2 x4 x5 := by
    rw [← hV]; simp (disch := decide) only [nullary_result_ne', unary_result_ne', binary_result_ne', ternary_result_ne', reshape_result_ne', nary_result_ne']; exact f99_main_v72
  have f100_main_v73 : V100 (Proc.devRef .tc main_v73) = Read.val_main_v73 (F := F) x1 x2 x4 x5 := by
    rw [← hV]; simp (disch := decide) only [nullary_result_ne', unary_result_ne', binary_result_ne', ternary_result_ne', reshape_result_ne', nary_result_ne']; exact f99_main_v73
  have f100_main_v75 : V100 (Proc.devRef .tc main_v75) = Read.val_main_v75 (F := F) x0 x2 := by
    rw [← hV]; simp (disch := decide) only [nullary_result_ne', unary_result_ne', binary_result_ne', ternary_result_ne', reshape_result_ne', nary_result_ne']; exact f99_main_v75
  have f100_main_v82 : V100 (Proc.devRef .tc main_v82) = Read.val_main_v82 (F := F) x0 x1 x2 x4 x5 := by
    rw [← hV]; simp (disch := decide) only [nullary_result_ne', unary_result_ne', binary_result_ne', ternary_result_ne', reshape_result_ne', nary_result_ne']; exact f99_main_v82
  have f100_main_arg3 : V100 (Proc.devRef .tc main_arg3) = x3 := by
    rw [← hV]; simp (disch := decide) only [nullary_result_ne', unary_result_ne', binary_result_ne', ternary_result_ne', reshape_result_ne', nary_result_ne']; exact f99_main_arg3
  clear hV f99_main_v69 f99_main_v72 f99_main_v73 f99_main_v75 f99_main_v82 f99_main_arg3 V99
  exact ⟨f100_main_v69, f100_main_v72, f100_main_v73, f100_main_v75, f100_main_v82, f100_main_cst_3, f100_main_arg3⟩

set_option maxRecDepth 16384 in
set_option maxHeartbeats 0 in
/-- Operations 100 … 109: from contents at which the buffers still read hold their stages, to contents at which the
    buffers read later hold theirs. -/
theorem stages10 (V100 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f100_main_v69 : V100 (Proc.devRef .tc main_v69) = Read.val_main_v69 (F := F) x0 x2)
    (f100_main_v72 : V100 (Proc.devRef .tc main_v72) = Read.val_main_v72 (F := F) x1 x2 x4 x5)
    (f100_main_v73 : V100 (Proc.devRef .tc main_v73) = Read.val_main_v73 (F := F) x1 x2 x4 x5)
    (f100_main_v75 : V100 (Proc.devRef .tc main_v75) = Read.val_main_v75 (F := F) x0 x2)
    (f100_main_v82 : V100 (Proc.devRef .tc main_v82) = Read.val_main_v82 (F := F) x0 x1 x2 x4 x5)
    (f100_main_cst_3 : V100 (Proc.devRef .tc main_cst_3) = Read.val_main_cst_3 (F := F))
    (f100_main_arg3 : V100 (Proc.devRef .tc main_arg3) = x3) :
    after (ops10 (F := F)) V100 (Proc.devRef .tc main_v72) = Read.val_main_v72 (F := F) x1 x2 x4 x5
    ∧ after (ops10 (F := F)) V100 (Proc.devRef .tc main_v75) = Read.val_main_v75 (F := F) x0 x2
    ∧ after (ops10 (F := F)) V100 (Proc.devRef .tc main_v83) = Read.val_main_v83 (F := F) x0 x1 x2 x4 x5
    ∧ after (ops10 (F := F)) V100 (Proc.devRef .tc main_v91) = Read.val_main_v91 (F := F) x0 x1 x2 x4 x5
    ∧ after (ops10 (F := F)) V100 (Proc.devRef .tc main_arg3) = x3 := by
  unfold ops10
  -- operation 100: main_v83
  rw [after_cons]
  generalize hV : HloOp.result _ V100 = V101
  have f101_main_v83 : V101 (Proc.devRef .tc main_v83) = Read.val_main_v83 (F := F) x0 x1 x2 x4 x5 := by
    rw [← hV]; refine (binary_result _ _ _ _ _ _ _ _).trans ?_; unfold Read.val_main_v83
    rw [← f100_main_v82, ← f100_main_cst_3]
    all_goals rfl
  have f101_main_v69 : V101 (Proc.devRef .tc main_v69) = Read.val_main_v69 (F := F) x0 x2 := by
    rw [← hV]; simp (disch := decide) only [nullary_result_ne', unary_result_ne', binary_result_ne', ternary_result_ne', reshape_result_ne', nary_result_ne']; exact f100_main_v69
  have f101_main_v72 : V101 (Proc.devRef .tc main_v72) = Read.val_main_v72 (F := F) x1 x2 x4 x5 := by
    rw [← hV]; simp (disch := decide) only [nullary_result_ne', unary_result_ne', binary_result_ne', ternary_result_ne', reshape_result_ne', nary_result_ne']; exact f100_main_v72
  have f101_main_v73 : V101 (Proc.devRef .tc main_v73) = Read.val_main_v73 (F := F) x1 x2 x4 x5 := by
    rw [← hV]; simp (disch := decide) only [nullary_result_ne', unary_result_ne', binary_result_ne', ternary_result_ne', reshape_result_ne', nary_result_ne']; exact f100_main_v73
  have f101_main_v75 : V101 (Proc.devRef .tc main_v75) = Read.val_main_v75 (F := F) x0 x2 := by
    rw [← hV]; simp (disch := decide) only [nullary_result_ne', unary_result_ne', binary_result_ne', ternary_result_ne', reshape_result_ne', nary_result_ne']; exact f100_main_v75
  have f101_main_arg3 : V101 (Proc.devRef .tc main_arg3) = x3 := by
    rw [← hV]; simp (disch := decide) only [nullary_result_ne', unary_result_ne', binary_result_ne', ternary_result_ne', reshape_result_ne', nary_result_ne']; exact f100_main_arg3
  clear hV f100_main_v69 f100_main_v72 f100_main_v73 f100_main_v75 f100_main_v82 f100_main_cst_3 f100_main_arg3 V100
  -- operation 101: main_v84
  rw [after_cons]
  generalize hV : HloOp.result _ V101 = V102
  have f102_main_v84 : V102 (Proc.devRef .tc main_v84) = Read.val_main_v84 (F := F) x0 x2 := by
    rw [← hV]; refine (unary_result _ _ _ _ _ _).trans ?_; unfold Read.val_main_v84
    rw [← f101_main_v69]
    all_goals rfl
  have f102_main_v72 : V102 (Proc.devRef .tc main_v72) = Read.val_main_v72 (F := F) x1 x2 x4 x5 := by
    rw [← hV]; simp (disch := decide) only [nullary_result_ne', unary_result_ne', binary_result_ne', ternary_result_ne', reshape_result_ne', nary_result_ne']; exact f101_main_v72
  have f102_main_v73 : V102 (Proc.devRef .tc main_v73) = Read.val_main_v73 (F := F) x1 x2 x4 x5 := by
    rw [← hV]; simp (disch := decide) only [nullary_result_ne', unary_result_ne', binary_result_ne', ternary_result_ne', reshape_result_ne', nary_result_ne']; exact f101_main_v73
  have f102_main_v75 : V102 (Proc.devRef .tc main_v75) = Read.val_main_v75 (F := F) x0 x2 := by
    rw [← hV]; simp (disch := decide) only [nullary_result_ne', unary_result_ne', binary_result_ne', ternary_result_ne', reshape_result_ne', nary_result_ne']; exact f101_main_v75
  have f102_main_v83 : V102 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f101_main_v83
  have f102_main_arg3 : V102 (Proc.devRef .tc main_arg3) = x3 := by
    rw [← hV]; simp (disch := decide) only [nullary_result_ne', unary_result_ne', binary_result_ne', ternary_result_ne', reshape_result_ne', nary_result_ne']; exact f101_main_arg3
  clear hV f101_main_v69 f101_main_v72 f101_main_v73 f101_main_v75 f101_main_v83 f101_main_arg3 V101
  -- operation 102: main_v85
  rw [after_cons]
  generalize hV : HloOp.result _ V102 = V103
  have f103_main_v85 : V103 (Proc.devRef .tc main_v85) = Read.val_main_v85 (F := F) x0 x2 := by
    rw [← hV]; refine (unary_result _ _ _ _ _ _).trans ?_; unfold Read.val_main_v85
    rw [← f102_main_v84]
    all_goals rfl
  have f103_main_v72 : V103 (Proc.devRef .tc main_v72) = Read.val_main_v72 (F := F) x1 x2 x4 x5 := by
    rw [← hV]; simp (disch := decide) only [nullary_result_ne', unary_result_ne', binary_result_ne', ternary_result_ne', reshape_result_ne', nary_result_ne']; exact f102_main_v72
  have f103_main_v73 : V103 (Proc.devRef .tc main_v73) = Read.val_main_v73 (F := F) x1 x2 x4 x5 := by
    rw [← hV]; simp (disch := decide) only [nullary_result_ne', unary_result_ne', binary_result_ne', ternary_result_ne', reshape_result_ne', nary_result_ne']; exact f102_main_v73
  have f103_main_v75 : V103 (Proc.devRef .tc main_v75) = Read.val_main_v75 (F := F) x0 x2 := by
    rw [← hV]; simp (disch := decide) only [nullary_result_ne', unary_result_ne', binary_result_ne', ternary_result_ne', reshape_result_ne', nary_result_ne']; exact f102_main_v75
  have f103_main_v83 : V103 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f102_main_v83
  have f103_main_arg3 : V103 (Proc.devRef .tc main_arg3) = x3 := by
    rw [← hV]; simp (disch := decide) only [nullary_result_ne', unary_result_ne', binary_result_ne', ternary_result_ne', reshape_result_ne', nary_result_ne']; exact f102_main_arg3
  clear hV f102_main_v72 f102_main_v73 f102_main_v75 f102_main_v83 f102_main_v84 f102_main_arg3 V102
  -- operation 103: main_v86
  rw [after_cons]
  generalize hV : HloOp.result _ V103 = V104
  have f104_main_v86 : V104 (Proc.devRef .tc main_v86) = Read.val_main_v86 (F := F) x1 x2 x4 x5 := by
    rw [← hV]; refine (unary_result _ _ _ _ _ _).trans ?_; unfold Read.val_main_v86
    rw [← f103_main_v72]
    all_goals rfl
  have f104_main_v72 : V104 (Proc.devRef .tc main_v72) = Read.val_main_v72 (F := F) x1 x2 x4 x5 := by
    rw [← hV]; simp (disch := decide) only [nullary_result_ne', unary_result_ne', binary_result_ne', ternary_result_ne', reshape_result_ne', nary_result_ne']; exact f103_main_v72
  have f104_main_v73 : V104 (Proc.devRef .tc main_v73) = Read.val_main_v73 (F := F) x1 x2 x4 x5 := by
    rw [← hV]; simp (disch := decide) only [nullary_result_ne', unary_result_ne', binary_result_ne', ternary_result_ne', reshape_result_ne', nary_result_ne']; exact f103_main_v73
  have f104_main_v75 : V104 (Proc.devRef .tc main_v75) = Read.val_main_v75 (F := F) x0 x2 := by
    rw [← hV]; simp (disch := decide) only [nullary_result_ne', unary_result_ne', binary_result_ne', ternary_result_ne', reshape_result_ne', nary_result_ne']; exact f103_main_v75
  have f104_main_v83 : V104 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f103_main_v83
  have f104_main_v85 : V104 (Proc.devRef .tc main_v85) = Read.val_main_v85 (F := F) x0 x2 := by
    rw [← hV]; simp (disch := decide) only [nullary_result_ne', unary_result_ne', binary_result_ne', ternary_result_ne', reshape_result_ne', nary_result_ne']; exact f103_main_v85
  have f104_main_arg3 : V104 (Proc.devRef .tc main_arg3) = x3 := by
    rw [← hV]; simp (disch := decide) only [nullary_result_ne', unary_result_ne', binary_result_ne', ternary_result_ne', reshape_result_ne', nary_result_ne']; exact f103_main_arg3
  clear hV f103_main_v72 f103_main_v73 f103_main_v75 f103_main_v83 f103_main_v85 f103_main_arg3 V103
  -- operation 104: main_v87
  rw [after_cons]
  generalize hV : HloOp.result _ V104 = V105
  have f105_main_v87 : V105 (Proc.devRef .tc main_v87) = Read.val_main_v87 (F := F) x0 x2 := by
    rw [← hV]; refine (unary_result _ _ _ _ _ _).trans ?_; unfold Read.val_main_v87
    rw [← f104_main_v85]
    all_goals rfl
  have f105_main_v72 : V105 (Proc.devRef .tc main_v72) = Read.val_main_v72 (F := F) x1 x2 x4 x5 := by
    rw [← hV]; simp (disch := decide) only [nullary_result_ne', unary_result_ne', binary_result_ne', ternary_result_ne', reshape_result_ne', nary_result_ne']; exact f104_main_v72
  have f105_main_v73 : V105 (Proc.devRef .tc main_v73) = Read.val_main_v73 (F := F) x1 x2 x4 x5 := by
    rw [← hV]; simp (disch := decide) only [nullary_result_ne', unary_result_ne', binary_result_ne', ternary_result_ne', reshape_result_ne', nary_result_ne']; exact f104_main_v73
  have f105_main_v75 : V105 (Proc.devRef .tc main_v75) = Read.val_main_v75 (F := F) x0 x2 := by
    rw [← hV]; simp (disch := decide) only [nullary_result_ne', unary_result_ne', binary_result_ne', ternary_result_ne', reshape_result_ne', nary_result_ne']; exact f104_main_v75
  have f105_main_v83 : V105 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f104_main_v83
  have f105_main_v86 : V105 (Proc.devRef .tc main_v86) = Read.val_main_v86 (F := F) x1 x2 x4 x5 := by
    rw [← hV]; simp (disch := decide) only [nullary_result_ne', unary_result_ne', binary_result_ne', ternary_result_ne', reshape_result_ne', nary_result_ne']; exact f104_main_v86
  have f105_main_arg3 : V105 (Proc.devRef .tc main_arg3) = x3 := by
    rw [← hV]; simp (disch := decide) only [nullary_result_ne', unary_result_ne', binary_result_ne', ternary_result_ne', reshape_result_ne', nary_result_ne']; exact f104_main_arg3
  clear hV f104_main_v72 f104_main_v73 f104_main_v75 f104_main_v83 f104_main_v85 f104_main_v86 f104_main_arg3 V104
  -- operation 105: main_v88
  rw [after_cons]
  generalize hV : HloOp.result _ V105 = V106
  have f106_main_v88 : V106 (Proc.devRef .tc main_v88) = Read.val_main_v88 (F := F) x0 x1 x2 x4 x5 := by
    rw [← hV]; refine (binary_result _ _ _ _ _ _ _ _).trans ?_; unfold Read.val_main_v88
    rw [← f105_main_v87, ← f105_main_v86]
    all_goals rfl
  have f106_main_v72 : V106 (Proc.devRef .tc main_v72) = Read.val_main_v72 (F := F) x1 x2 x4 x5 := by
    rw [← hV]; simp (disch := decide) only [nullary_result_ne', unary_result_ne', binary_result_ne', ternary_result_ne', reshape_result_ne', nary_result_ne']; exact f105_main_v72
  have f106_main_v73 : V106 (Proc.devRef .tc main_v73) = Read.val_main_v73 (F := F) x1 x2 x4 x5 := by
    rw [← hV]; simp (disch := decide) only [nullary_result_ne', unary_result_ne', binary_result_ne', ternary_result_ne', reshape_result_ne', nary_result_ne']; exact f105_main_v73
  have f106_main_v75 : V106 (Proc.devRef .tc main_v75) = Read.val_main_v75 (F := F) x0 x2 := by
    rw [← hV]; simp (disch := decide) only [nullary_result_ne', unary_result_ne', binary_result_ne', ternary_result_ne', reshape_result_ne', nary_result_ne']; exact f105_main_v75
  have f106_main_v83 : V106 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f105_main_v83
  have f106_main_arg3 : V106 (Proc.devRef .tc main_arg3) = x3 := by
    rw [← hV]; simp (disch := decide) only [nullary_result_ne', unary_result_ne', binary_result_ne', ternary_result_ne', reshape_result_ne', nary_result_ne']; exact f105_main_arg3
  clear hV f105_main_v72 f105_main_v73 f105_main_v75 f105_main_v83 f105_main_v86 f105_main_v87 f105_main_arg3 V105
  -- operation 106: main_v89
  rw [after_cons]
  generalize hV : HloOp.result _ V106 = V107
  have f107_main_v89 : V107 (Proc.devRef .tc main_v89) = Read.val_main_v89 (F := F) x1 x2 x4 x5 := by
    rw [← hV]; refine (unary_result _ _ _ _ _ _).trans ?_; unfold Read.val_main_v89
    rw [← f106_main_v73]
    all_goals rfl
  have f107_main_v72 : V107 (Proc.devRef .tc main_v72) = Read.val_main_v72 (F := F) x1 x2 x4 x5 := by
    rw [← hV]; simp (disch := decide) only [nullary_result_ne', unary_result_ne', binary_result_ne', ternary_result_ne', reshape_result_ne', nary_result_ne']; exact f106_main_v72
  have f107_main_v75 : V107 (Proc.devRef .tc main_v75) = Read.val_main_v75 (F := F) x0 x2 := by
    rw [← hV]; simp (disch := decide) only [nullary_result_ne', unary_result_ne', binary_result_ne', ternary_result_ne', reshape_result_ne', nary_result_ne']; exact f106_main_v75
  have f107_main_v83 : V107 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f106_main_v83
  have f107_main_v88 : V107 (Proc.devRef .tc main_v88) = Read.val_main_v88 (F := F) x0 x1 x2 x4 x5 := by
    rw [← hV]; simp (disch := decide) only [nullary_result_ne', unary_result_ne', binary_result_ne', ternary_result_ne', reshape_result_ne', nary_result_ne']; exact f106_main_v88
  have f107_main_arg3 : V107 (Proc.devRef .tc main_arg3) = x3 := by
    rw [← hV]; simp (disch := decide) only [nullary_result_ne', unary_result_ne', binary_result_ne', ternary_result_ne', reshape_result_ne', nary_result_ne']; exact f106_main_arg3
  clear hV f106_main_v72 f106_main_v73 f106_main_v75 f106_main_v83 f106_main_v88 f106_main_arg3 V106
  -- operation 107: main_v90
  rw [after_cons]
  generalize hV : HloOp.result _ V107 = V108
  have f108_main_v90 : V108 (Proc.devRef .tc main_v90) = Read.val_main_v90 (F := F) x0 x1 x2 x4 x5 := by
    rw [← hV]; refine (binary_result _ _ _ _ _ _ _ _).trans ?_; unfold Read.val_main_v90
    rw [← f107_main_v88, ← f107_main_v89]
    all_goals rfl
  have f108_main_v72 : V108 (Proc.devRef .tc main_v72) = Read.val_main_v72 (F := F) x1 x2 x4 x5 := by
    rw [← hV]; simp (disch := decide) only [nullary_result_ne', unary_result_ne', binary_result_ne', ternary_result_ne', reshape_result_ne', nary_result_ne']; exact f107_main_v72
  have f108_main_v75 : V108 (Proc.devRef .tc main_v75) = Read.val_main_v75 (F := F) x0 x2 := by
    rw [← hV]; simp (disch := decide) only [nullary_result_ne', unary_result_ne', binary_result_ne', ternary_result_ne', reshape_result_ne', nary_result_ne']; exact f107_main_v75
  have f108_main_v83 : V108 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f107_main_v83
  have f108_main_arg3 : V108 (Proc.devRef .tc main_arg3) = x3 := by
    rw [← hV]; simp (disch := decide) only [nullary_result_ne', unary_result_ne', binary_result_ne', ternary_result_ne', reshape_result_ne', nary_result_ne']; exact f107_main_arg3
  clear hV f107_main_v72 f107_main_v75 f107_main_v83 f107_main_v88 f107_main_v89 f107_main_arg3 V107
  -- operation 108: main_cst_4
  rw [after_cons]
  generalize hV : HloOp.result _ V108 = V109
  have f109_main_cst_4 : V109 (Proc.devRef .tc main_cst_4) = Read.val_main_cst_4 (F := F) := by
    rw [← hV]; refine (nullary_result _ _ _ _).trans ?_; unfold Read.val_main_cst_4
    rfl
  have f109_main_v72 : V109 (Proc.devRef .tc main_v72) = Read.val_main_v72 (F := F) x1 x2 x4 x5 := by
    rw [← hV]; simp (disch := decide) only [nullary_result_ne', unary_result_ne', binary_result_ne', ternary_result_ne', reshape_result_ne', nary_result_ne']; exact f108_main_v72
  have f109_main_v75 : V109 (Proc.devRef .tc main_v75) = Read.val_main_v75 (F := F) x0 x2 := by
    rw [← hV]; simp (disch := decide) only [nullary_result_ne', unary_result_ne', binary_result_ne', ternary_result_ne', reshape_result_ne', nary_result_ne']; exact f108_main_v75
  have f109_main_v83 : V109 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f108_main_v83
  have f109_main_v90 : V109 (Proc.devRef .tc main_v90) = Read.val_main_v90 (F := F) x0 x1 x2 x4 x5 := by
    rw [← hV]; simp (disch := decide) only [nullary_result_ne', unary_result_ne', binary_result_ne', ternary_result_ne', reshape_result_ne', nary_result_ne']; exact f108_main_v90
  have f109_main_arg3 : V109 (Proc.devRef .tc main_arg3) = x3 := by
    rw [← hV]; simp (disch := decide) only [nullary_result_ne', unary_result_ne', binary_result_ne', ternary_result_ne', reshape_result_ne', nary_result_ne']; exact f108_main_arg3
  clear hV f108_main_v72 f108_main_v75 f108_main_v83 f108_main_v90 f108_main_arg3 V108
  -- operation 109: main_v91
  rw [after_cons]
  generalize hV : HloOp.result _ V109 = V110
  have f110_main_v91 : V110 (Proc.devRef .tc main_v91) = Read.val_main_v91 (F := F) x0 x1 x2 x4 x5 := by
    rw [← hV]; refine (binary_result _ _ _ _ _ _ _ _).trans ?_; unfold Read.val_main_v91
    rw [← f109_main_v90, ← f109_main_cst_4]
    all_goals rfl
  have f110_main_v72 : V110 (Proc.devRef .tc main_v72) = Read.val_main_v72 (F := F) x1 x2 x4 x5 := by
    rw [← hV]; simp (disch := decide) only [nullary_result_ne', unary_result_ne', binary_result_ne', ternary_result_ne', reshape_result_ne', nary_result_ne']; exact f109_main_v72
  have f110_main_v75 : V110 (Proc.devRef .tc main_v75) = Read.val_main_v75 (F := F) x0 x2 := by
    rw [← hV]; simp (disch := decide) only [nullary_result_ne', unary_result_ne', binary_result_ne', ternary_result_ne', reshape_result_ne', nary_result_ne']; exact f109_main_v75
  have f110_main_v83 : V110 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f109_main_v83
  have f110_main_arg3 : V110 (Proc.devRef .tc main_arg3) = x3 := by
    rw [← hV]; simp (disch := decide) only [nullary_result_ne', unary_result_ne', binary_result_ne', ternary_result_ne', reshape_result_ne', nary_result_ne']; exact f109_main_arg3
  clear hV f109_main_v72 f109_main_v75 f109_main_v83 f109_main_v90 f109_main_cst_4 f109_main_arg3 V109
  exact ⟨f110_main_v72, f110_main_v75, f110_main_v83, f110_main_v91, f110_main_arg3⟩

set_option maxRecDepth 16384 in
set_option maxHeartbeats 0 in
/-- Operations 110 … 119: from contents at which the buffers still read hold their stages, to contents at which the
    buffers read later hold theirs. -/
theorem stages11 (V110 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f110_main_v72 : V110 (Proc.devRef .tc main_v72) = Read.val_main_v72 (F := F) x1 x2 x4 x5)
    (f110_main_v75 : V110 (Proc.devRef .tc main_v75) = Read.val_main_v75 (F := F) x0 x2)
    (f110_main_v83 : V110 (Proc.devRef .tc main_v83) = Read.val_main_v83 (F := F) x0 x1 x2 x4 x5)
    (f110_main_v91 : V110 (Proc.devRef .tc main_v91) = Read.val_main_v91 (F := F) x0 x1 x2 x4 x5)
    (f110_main_arg3 : V110 (Proc.devRef .tc main_arg3) = x3) :
    after (ops11 (F := F)) V110 (Proc.devRef .tc main_v83) = Read.val_main_v83 (F := F) x0 x1 x2 x4 x5
    ∧ after (ops11 (F := F)) V110 (Proc.devRef .tc main_v94) = Read.val_main_v94 (F := F) x0 x1 x2 x4 x5
    ∧ after (ops11 (F := F)) V110 (Proc.devRef .tc main_v99) = Read.val_main_v99 (F := F) x0 x2 x3
    ∧ after (ops11 (F := F)) V110 (Proc.devRef .tc main_v100) = Read.val_main_v100 (F := F) x1 x2 x4 x5 := by
  unfold ops11
  -- operation 110: main_v92
  rw [after_cons]
  generalize hV : HloOp.result _ V110 = V111
  have f111_main_v92 : V111 (Proc.devRef .tc main_v92) = Read.val_main_v92 (F := F) x1 x2 x4 x5 := by
    rw [← hV]; refine (unary_result _ _ _ _ _ _).trans ?_; unfold Read.val_main_v92
    rw [← f110_main_v72]
    all_goals rfl
  have f111_main_v75 : V111 (Proc.devRef .tc main_v75) = Read.val_main_v75 (F := F) x0 x2 := by
    rw [← hV]; simp (disch := decide) only [nullary_result_ne', unary_result_ne', binary_result_ne', ternary_result_ne', reshape_result_ne', nary_result_ne']; exact f110_main_v75
  have f111_main_v83 : V111 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f110_main_v83
  have f111_main_v91 : V111 (Proc.devRef .tc main_v91) = Read.val_main_v91 (F := F) x0 x1 x2 x4 x5 := by
    rw [← hV]; simp (disch := decide) only [nullary_result_ne', unary_result_ne', binary_result_ne', ternary_result_ne', reshape_result_ne', nary_result_ne']; exact f110_main_v91
  have f111_main_arg3 : V111 (Proc.devRef .tc main_arg3) = x3 := by
    rw [← hV]; simp (disch := decide) only [nullary_result_ne', unary_result_ne', binary_result_ne', ternary_result_ne', reshape_result_ne', nary_result_ne']; exact f110_main_arg3
  clear hV f110_main_v72 f110_main_v75 f110_main_v83 f110_main_v91 f110_main_arg3 V110
  -- operation 111: main_cst_5
  rw [after_cons]
  generalize hV : HloOp.result _ V111 = V112
  have f112_main_cst_5 : V112 (Proc.devRef .tc main_cst_5) = Read.val_main_cst_5 (F := F) := by
    rw [← hV]; refine (nullary_result _ _ _ _).trans ?_; unfold Read.val_main_cst_5
    rfl
  have f112_main_v75 : V112 (Proc.devRef .tc main_v75) = Read.val_main_v75 (F := F) x0 x2 := by
    rw [← hV]; simp (disch := decide) only [nullary_result_ne', unary_result_ne', binary_result_ne', ternary_result_ne', reshape_result_ne', nary_result_ne']; exact f111_main_v75
  have f112_main_v83 : V112 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f111_main_v83
  have f112_main_v91 : V112 (Proc.devRef .tc main_v91) = Read.val_main_v91 (F := F) x0 x1 x2 x4 x5 := by
    rw [← hV]; simp (disch := decide) only [nullary_result_ne', unary_result_ne', binary_result_ne', ternary_result_ne', reshape_result_ne', nary_result_ne']; exact f111_main_v91
  have f112_main_v92 : V112 (Proc.devRef .tc main_v92) = Read.val_main_v92 (F := F) x1 x2 x4 x5 := by
    rw [← hV]; simp (disch := decide) only [nullary_result_ne', unary_result_ne', binary_result_ne', ternary_result_ne', reshape_result_ne', nary_result_ne']; exact f111_main_v92
  have f112_main_arg3 : V112 (Proc.devRef .tc main_arg3) = x3 := by
    rw [← hV]; simp (disch := decide) only [nullary_result_ne', unary_result_ne', binary_result_ne', ternary_result_ne', reshape_result_ne', nary_result_ne']; exact f111_main_arg3
  clear hV f111_main_v75 f111_main_v83 f111_main_v91 f111_main_v92 f111_main_arg3 V111
  -- operation 112: main_v93
  rw [after_cons]
  generalize hV : HloOp.result _ V112 = V113
  have f113_main_v93 : V113 (Proc.devRef .tc main_v93) = Read.val_main_v93 (F := F) x1 x2 x4 x5 := by
    rw [← hV]; refine (binary_result _ _ _ _ _ _ _ _).trans ?_; unfold Read.val_main_v93
    rw [← f112_main_v92, ← f112_main_cst_5]
    all_goals rfl
  have f113_main_v75 : V113 (Proc.devRef .tc main_v75) = Read.val_main_v75 (F := F) x0 x2 := by
    rw [← hV]; simp (disch := decide) only [nullary_result_ne', unary_result_ne', binary_result_ne', ternary_result_ne', reshape_result_ne', nary_result_ne']; exact f112_main_v75
  have f113_main_v83 : V113 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f112_main_v83
  have f113_main_v91 : V113 (Proc.devRef .tc main_v91) = Read.val_main_v91 (F := F) x0 x1 x2 x4 x5 := by
    rw [← hV]; simp (disch := decide) only [nullary_result_ne', unary_result_ne', binary_result_ne', ternary_result_ne', reshape_result_ne', nary_result_ne']; exact f112_main_v91
  have f113_main_arg3 : V113 (Proc.devRef .tc main_arg3) = x3 := by
    rw [← hV]; simp (disch := decide) only [nullary_result_ne', unary_result_ne', binary_result_ne', ternary_result_ne', reshape_result_ne', nary_result_ne']; exact f112_main_arg3
  clear hV f112_main_v75 f112_main_v83 f112_main_v91 f112_main_v92 f112_main_cst_5 f112_main_arg3 V112
  -- operation 113: main_v94
  rw [after_cons]
  generalize hV : HloOp.result _ V113 = V114
  have f114_main_v94 : V114 (Proc.devRef .tc main_v94) = Read.val_main_v94 (F := F) x0 x1 x2 x4 x5 := by
    rw [← hV]; refine (unary_result _ _ _ _ _ _).trans ?_; unfold Read.val_main_v94
    rw [← f113_main_v91]
    all_goals rfl
  have f114_main_v75 : V114 (Proc.devRef .tc main_v75) = Read.val_main_v75 (F := F) x0 x2 := by
    rw [← hV]; simp (disch := decide) only [nullary_result_ne', unary_result_ne', binary_result_ne', ternary_result_ne', reshape_result_ne', nary_result_ne']; exact f113_main_v75
  have f114_main_v83 : V114 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f113_main_v83
  have f114_main_v93 : V114 (Proc.devRef .tc main_v93) = Read.val_main_v93 (F := F) x1 x2 x4 x5 := by
    rw [← hV]; simp (disch := decide) only [nullary_result_ne', unary_result_ne', binary_result_ne', ternary_result_ne', reshape_result_ne', nary_result_ne']; exact f113_main_v93
  have f114_main_arg3 : V114 (Proc.devRef .tc main_arg3) = x3 := by
    rw [← hV]; simp (disch := decide) only [nullary_result_ne', unary_result_ne', binary_result_ne', ternary_result_ne', reshape_result_ne', nary_result_ne']; exact f113_main_arg3
  clear hV f113_main_v75 f113_main_v83 f113_main_v91 f113_main_v93 f113_main_arg3 V113
  -- operation 114: main_v95
  rw [after_cons]
  generalize hV : HloOp.result _ V114 = V115
  have f115_main_v95 : V115 (Proc.devRef .tc main_v95) = Read.val_main_v95 (F := F) x0 x2 := by
    rw [← hV]; refine (unary_result _ _ _ _ _ _).trans ?_; unfold Read.val_main_v95
    rw [← f114_main_v75]
    all_goals rfl
  have f115_main_v83 : V115 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f114_main_v83
  have f115_main_v93 : V115 (Proc.devRef .tc main_v93) = Read.val_main_v93 (F := F) x1 x2 x4 x5 := by
    rw [← hV]; simp (disch := decide) only [nullary_result_ne', unary_result_ne', binary_result_ne', ternary_result_ne', reshape_result_ne', nary_result_ne']; exact f114_main_v93
  have f115_main_v94 : V115 (Proc.devRef .tc main_v94) = Read.val_main_v94 (F := F) x0 x1 x2 x4 x5 := by
    rw [← hV]; simp (disch := decide) only [nullary_result_ne', unary_result_ne', binary_result_ne', ternary_result_ne', reshape_result_ne', nary_result_ne']; exact f114_main_v94
  have f115_main_arg3 : V115 (Proc.devRef .tc main_arg3) = x3 := by
    rw [← hV]; simp (disch := decide) only [nullary_result_ne', unary_result_ne', binary_result_ne', ternary_result_ne', reshape_result_ne', nary_result_ne']; exact f114_main_arg3
  clear hV f114_main_v75 f114_main_v83 f114_main_v93 f114_main_v94 f114_main_arg3 V114
  -- operation 115: main_v96
  rw [after_cons]
  generalize hV : HloOp.result _ V115 = V116
  have f116_main_v96 : V116 (Proc.devRef .tc main_v96) = Read.val_main_v96 (F := F) x3 := by
    rw [← hV]; refine (unary_result _ _ _ _ _ _).trans ?_; unfold Read.val_main_v96
    rw [← f115_main_arg3]
    all_goals rfl
  have f116_main_v83 : V116 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f115_main_v83
  have f116_main_v93 : V116 (Proc.devRef .tc main_v93) = Read.val_main_v93 (F := F) x1 x2 x4 x5 := by
    rw [← hV]; simp (disch := decide) only [nullary_result_ne', unary_result_ne', binary_result_ne', ternary_result_ne', reshape_result_ne', nary_result_ne']; exact f115_main_v93
  have f116_main_v94 : V116 (Proc.devRef .tc main_v94) = Read.val_main_v94 (F := F) x0 x1 x2 x4 x5 := by
    rw [← hV]; simp (disch := decide) only [nullary_result_ne', unary_result_ne', binary_result_ne', ternary_result_ne', reshape_result_ne', nary_result_ne']; exact f115_main_v94
  have f116_main_v95 : V116 (Proc.devRef .tc main_v95) = Read.val_main_v95 (F := F) x0 x2 := by
    rw [← hV]; simp (disch := decide) only [nullary_result_ne', unary_result_ne', binary_result_ne', ternary_result_ne', reshape_result_ne', nary_result_ne']; exact f115_main_v95
  clear hV f115_main_v83 f115_main_v93 f115_main_v94 f115_main_v95 f115_main_arg3 V115
  -- operation 116: main_v97
  rw [after_cons]
  generalize hV : HloOp.result _ V116 = V117
  have f117_main_v97 : V117 (Proc.devRef .tc main_v97) = Read.val_main_v97 (F := F) x0 x2 := by
    rw [← hV]; refine (unary_result _ _ _ _ _ _).trans ?_; unfold Read.val_main_v97
    rw [← f116_main_v95]
    all_goals rfl
  have f117_main_v83 : V117 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f116_main_v83
  have f117_main_v93 : V117 (Proc.devRef .tc main_v93) = Read.val_main_v93 (F := F) x1 x2 x4 x5 := by
    rw [← hV]; simp (disch := decide) only [nullary_result_ne', unary_result_ne', binary_result_ne', ternary_result_ne', reshape_result_ne', nary_result_ne']; exact f116_main_v93
  have f117_main_v94 : V117 (Proc.devRef .tc main_v94) = Read.val_main_v94 (F := F) x0 x1 x2 x4 x5 := by
    rw [← hV]; simp (disch := decide) only [nullary_result_ne', unary_result_ne', binary_result_ne', ternary_result_ne', reshape_result_ne', nary_result_ne']; exact f116_main_v94
  have f117_main_v96 : V117 (Proc.devRef .tc main_v96) = Read.val_main_v96 (F := F) x3 := by
    rw [← hV]; simp (disch := decide) only [nullary_result_ne', unary_result_ne', binary_result_ne', ternary_result_ne', reshape_result_ne', nary_result_ne']; exact f116_main_v96
  clear hV f116_main_v83 f116_main_v93 f116_main_v94 f116_main_v95 f116_main_v96 V116
  -- operation 117: main_v98
  rw [after_cons]
  generalize hV : HloOp.result _ V117 = V118
  have f118_main_v98 : V118 (Proc.devRef .tc main_v98) = Read.val_main_v98 (F := F) x3 := by
    rw [← hV]; refine (unary_result _ _ _ _ _ _).trans ?_; unfold Read.val_main_v98
    rw [← f117_main_v96]
    all_goals rfl
  have f118_main_v83 : V118 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f117_main_v83
  have f118_main_v93 : V118 (Proc.devRef .tc main_v93) = Read.val_main_v93 (F := F) x1 x2 x4 x5 := by
    rw [← hV]; simp (disch := decide) only [nullary_result_ne', unary_result_ne', binary_result_ne', ternary_result_ne', reshape_result_ne', nary_result_ne']; exact f117_main_v93
  have f118_main_v94 : V118 (Proc.devRef .tc main_v94) = Read.val_main_v94 (F := F) x0 x1 x2 x4 x5 := by
    rw [← hV]; simp (disch := decide) only [nullary_result_ne', unary_result_ne', binary_result_ne', ternary_result_ne', reshape_result_ne', nary_result_ne']; exact f117_main_v94
  have f118_main_v97 : V118 (Proc.devRef .tc main_v97) = Read.val_main_v97 (F := F) x0 x2 := by
    rw [← hV]; simp (disch := decide) only [nullary_result_ne', unary_result_ne', binary_result_ne', ternary_result_ne', reshape_result_ne', nary_result_ne']; exact f117_main_v97
  clear hV f117_main_v83 f117_main_v93 f117_main_v94 f117_main_v96 f117_main_v97 V117
  -- operation 118: main_v99
  rw [after_cons]
  generalize hV : HloOp.result _ V118 = V119
  have f119_main_v99 : V119 (Proc.devRef .tc main_v99) = Read.val_main_v99 (F := F) x0 x2 x3 := by
    rw [← hV]; refine (binary_result _ _ _ _ _ _ _ _).trans ?_; unfold Read.val_main_v99
    rw [← f118_main_v97, ← f118_main_v98]
    all_goals rfl
  have f119_main_v83 : V119 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f118_main_v83
  have f119_main_v93 : V119 (Proc.devRef .tc main_v93) = Read.val_main_v93 (F := F) x1 x2 x4 x5 := by
    rw [← hV]; simp (disch := decide) only [nullary_result_ne', unary_result_ne', binary_result_ne', ternary_result_ne', reshape_result_ne', nary_result_ne']; exact f118_main_v93
  have f119_main_v94 : V119 (Proc.devRef .tc main_v94) = Read.val_main_v94 (F := F) x0 x1 x2 x4 x5 := by
    rw [← hV]; simp (disch := decide) only [nullary_result_ne', unary_result_ne', binary_result_ne', ternary_result_ne', reshape_result_ne', nary_result_ne']; exact f118_main_v94
  clear hV f118_main_v83 f118_main_v93 f118_main_v94 f118_main_v97 f118_main_v98 V118
  -- operation 119: main_v100
  rw [after_cons]
  generalize hV : HloOp.result _ V119 = V120
  have f120_main_v100 : V120 (Proc.devRef .tc main_v100) = Read.val_main_v100 (F := F) x1 x2 x4 x5 := by
    rw [← hV]; refine (unary_result _ _ _ _ _ _).trans ?_; unfold Read.val_main_v100
    rw [← f119_main_v93]
    all_goals rfl
  have f120_main_v83 : V120 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f119_main_v83
  have f120_main_v94 : V120 (Proc.devRef .tc main_v94) = Read.val_main_v94 (F := F) x0 x1 x2 x4 x5 := by
    rw [← hV]; simp (disch := decide) only [nullary_result_ne', unary_result_ne', binary_result_ne', ternary_result_ne', reshape_result_ne', nary_result_ne']; exact f119_main_v94
  have f120_main_v99 : V120 (Proc.devRef .tc main_v99) = Read.val_main_v99 (F := F) x0 x2 x3 := by
    rw [← hV]; simp (disch := decide) only [nullary_result_ne', unary_result_ne', binary_result_ne', ternary_result_ne', reshape_result_ne', nary_result_ne']; exact f119_main_v99
  clear hV f119_main_v83 f119_main_v93 f119_main_v94 f119_main_v99 V119
  exact ⟨f120_main_v83, f120_main_v94, f120_main_v99, f120_main_v100⟩

set_option maxRecDepth 16384 in
set_option maxHeartbeats 0 in
/-- Operations 120 … 130: from contents at which the buffers still read hold their stages, to contents at which the
    buffers read later hold theirs. -/
theorem stages12 (V120 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f120_main_v83 : V120 (Proc.devRef .tc main_v83) = Read.val_main_v83 (F := F) x0 x1 x2 x4 x5)
    (f120_main_v94 : V120 (Proc.devRef .tc main_v94) = Read.val_main_v94 (F := F) x0 x1 x2 x4 x5)
    (f120_main_v99 : V120 (Proc.devRef .tc main_v99) = Read.val_main_v99 (F := F) x0 x2 x3)
    (f120_main_v100 : V120 (Proc.devRef .tc main_v100) = Read.val_main_v100 (F := F) x1 x2 x4 x5) :
    after (ops12 (F := F)) V120 (Proc.devRef .tc main_v111) = Read.val_main_v111 (F := F) x0 x1 x2 x3 x4 x5 := by
  unfold ops12
  -- operation 120: main_v101
  rw [after_cons]
  generalize hV : HloOp.result _ V120 = V121
  have f121_main_v101 : V121 (Proc.devRef .tc main_v101) = Read.val_main_v101 (F := F) x0 x2 x3 := by
    rw [← hV]; refine (unary_result _ _ _ _ _ _).trans ?_; unfold Read.val_main_v101
    rw [← f120_main_v99]
    all_goals rfl
  have f121_main_v83 : V121 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f120_main_v83
  have f121_main_v94 : V121 (Proc.devRef .tc main_v94) = Read.val_main_v94 (F := F) x0 x1 x2 x4 x5 := by
    rw [← hV]; simp (disch := decide) only [nullary_result_ne', unary_result_ne', binary_result_ne', ternary_result_ne', reshape_result_ne', nary_result_ne']; exact f120_main_v94
  have f121_main_v100 : V121 (Proc.devRef .tc main_v100) = Read.val_main_v100 (F := F) x1 x2 x4 x5 := by
    rw [← hV]; simp (disch := decide) only [nullary_result_ne', unary_result_ne', binary_result_ne', ternary_result_ne', reshape_result_ne', nary_result_ne']; exact f120_main_v100
  clear hV f120_main_v83 f120_main_v94 f120_main_v99 f120_main_v100 V120
  -- operation 121: main_v102
  rw [after_cons]
  generalize hV : HloOp.result _ V121 = V122
  have f122_main_v102 : V122 (Proc.devRef .tc main_v102) = Read.val_main_v102 (F := F) x1 x2 x4 x5 := by
    rw [← hV]; refine (unary_result _ _ _ _ _ _).trans ?_; unfold Read.val_main_v102
    rw [← f121_main_v100]
    all_goals rfl
  have f122_main_v83 : V122 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f121_main_v83
  have f122_main_v94 : V122 (Proc.devRef .tc main_v94) = Read.val_main_v94 (F := F) x0 x1 x2 x4 x5 := by
    rw [← hV]; simp (disch := decide) only [nullary_result_ne', unary_result_ne', binary_result_ne', ternary_result_ne', reshape_result_ne', nary_result_ne']; exact f121_main_v94
  have f122_main_v101 : V122 (Proc.devRef .tc main_v101) = Read.val_main_v101 (F := F) x0 x2 x3 := by
    rw [← hV]; simp (disch := decide) only [nullary_result_ne', unary_result_ne', binary_result_ne', ternary_result_ne', reshape_result_ne', nary_result_ne']; exact f121_main_v101
  clear hV f121_main_v83 f121_main_v94 f121_main_v100 f121_main_v101 V121
  -- operation 122: main_v103
  rw [after_cons]
  generalize hV : HloOp.result _ V122 = V123
  have f123_main_v103 : V123 (Proc.devRef .tc main_v103) = Read.val_main_v103 (F := F) x0 x1 x2 x3 x4 x5 := by
    rw [← hV]; refine (binary_result _ _ _ _ _ _ _ _).trans ?_; unfold Read.val_main_v103
    rw [← f122_main_v101, ← f122_main_v102]
    all_goals rfl
  have f123_main_v83 : V123 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f122_main_v83
  have f123_main_v94 : V123 (Proc.devRef .tc main_v94) = Read.val_main_v94 (F := F) x0 x1 x2 x4 x5 := by
    rw [← hV]; simp (disch := decide) only [nullary_result_ne', unary_result_ne', binary_result_ne', ternary_result_ne', reshape_result_ne', nary_result_ne']; exact f122_main_v94
  clear hV f122_main_v83 f122_main_v94 f122_main_v101 f122_main_v102 V122
  -- operation 123: main_v104
  rw [after_cons]
  generalize hV : HloOp.result _ V123 = V124
  have f124_main_v104 : V124 (Proc.devRef .tc main_v104) = Read.val_main_v104 (F := F) x0 x1 x2 x4 x5 := by
    rw [← hV]; refine (unary_result _ _ _ _ _ _).trans ?_; unfold Read.val_main_v104
    rw [← f123_main_v94]
    all_goals rfl
  have f124_main_v83 : V124 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f123_main_v83
  have f124_main_v103 : V124 (Proc.devRef .tc main_v103) = Read.val_main_v103 (F := F) x0 x1 x2 x3 x4 x5 := by
    rw [← hV]; simp (disch := decide) only [nullary_result_ne', unary_result_ne', binary_result_ne', ternary_result_ne', reshape_result_ne', nary_result_ne']; exact f123_main_v103
  clear hV f123_main_v83 f123_main_v94 f123_main_v103 V123
  -- operation 124: main_v105
  rw [after_cons]
  generalize hV : HloOp.result _ V124 = V125
  have f125_main_v105 : V125 (Proc.devRef .tc main_v105) = Read.val_main_v105 (F := F) x0 x1 x2 x3 x4 x5 := by
    rw [← hV]; refine (binary_result _ _ _ _ _ _ _ _).trans ?_; unfold Read.val_main_v105
    rw [← f124_main_v104, ← f124_main_v103]
    all_goals rfl
  have f125_main_v83 : V125 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f124_main_v83
  clear hV f124_main_v83 f124_main_v103 f124_main_v104 V124
  -- operation 125: main_v106
  rw [after_cons]
  generalize hV : HloOp.result _ V125 = V126
  have f126_main_v106 : V126 (Proc.devRef .tc main_v106) = Read.val_main_v106 (F := F) x0 x1 x2 x4 x5 := by
    rw [← hV]; refine (unary_result _ _ _ _ _ _).trans ?_; unfold Read.val_main_v106
    rw [← f125_main_v83]
    all_goals rfl
  have f126_main_v83 : V126 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f125_main_v83
  have f126_main_v105 : V126 (Proc.devRef .tc main_v105) = Read.val_main_v105 (F := F) x0 x1 x2 x3 x4 x5 := by
    rw [← hV]; simp (disch := decide) only [nullary_result_ne', unary_result_ne', binary_result_ne', ternary_result_ne', reshape_result_ne', nary_result_ne']; exact f125_main_v105
  clear hV f125_main_v83 f125_main_v105 V125
  -- operation 126: main_v107
  rw [after_cons]
  generalize hV : HloOp.result _ V126 = V127
  have f127_main_v107 : V127 (Proc.devRef .tc main_v107) = Read.val_main_v107 (F := F) x0 x1 x2 x4 x5 := by
    rw [← hV]; refine (unary_result _ _ _ _ _ _).trans ?_; unfold Read.val_main_v107
    rw [← f126_main_v106]
    all_goals rfl
  have f127_main_v83 : V127 (Proc.devRef .tc main_v83) = Read.val_main_v83 (F := F) x0 x1 x2 x4 x5 := by
    rw [← hV]; simp (disch := decide) only [nullary_result_ne', unary_result_ne', binary_result_ne', ternary_result_ne', reshape_result_ne', nary_result_ne']; exact f126_main_v83
  have f127_main_v105 : V127 (Proc.devRef .tc main_v105) = Read.val_main_v105 (F := F) x0 x1 x2 x3 x4 x5 := by
    rw [← hV]; simp (disch := decide) only [nullary_result_ne', unary_result_ne', binary_result_ne', ternary_result_ne', reshape_result_ne', nary_result_ne']; exact f126_main_v105
  clear hV f126_main_v83 f126_main_v105 f126_main_v106 V126
  -- operation 127: main_v108
  rw [after_cons]
  generalize hV : HloOp.result _ V127 = V128
  have f128_main_v108 : V128 (Proc.devRef .tc main_v108) = Read.val_main_v108 (F := F) x0 x1 x2 x4 x5 := by
    rw [← hV]; refine (unary_result _ _ _ _ _ _).trans ?_; unfold Read.val_main_v108
    rw [← f127_main_v83]
    all_goals rfl
  have f128_main_v105 : V128 (Proc.devRef .tc main_v105) = Read.val_main_v105 (F := F) x0 x1 x2 x3 x4 x5 := by
    rw [← hV]; simp (disch := decide) only [nullary_result_ne', unary_result_ne', binary_result_ne', ternary_result_ne', reshape_result_ne', nary_result_ne']; exact f127_main_v105
  have f128_main_v107 : V128 (Proc.devRef .tc main_v107) = Read.val_main_v107 (F := F) x0 x1 x2 x4 x5 := by
    rw [← hV]; simp (disch := decide) only [nullary_result_ne', unary_result_ne', binary_result_ne', ternary_result_ne', reshape_result_ne', nary_result_ne']; exact f127_main_v107
  clear hV f127_main_v83 f127_main_v105 f127_main_v107 V127
  -- operation 128: main_v109
  rw [after_cons]
  generalize hV : HloOp.result _ V128 = V129
  have f129_main_v109 : V129 (Proc.devRef .tc main_v109) = Read.val_main_v109 (F := F) x0 x1 x2 x3 x4 x5 := by
    rw [← hV]; refine (binary_result _ _ _ _ _ _ _ _).trans ?_; unfold Read.val_main_v109
    rw [← f128_main_v107, ← f128_main_v105]
    all_goals rfl
  have f129_main_v108 : V129 (Proc.devRef .tc main_v108) = Read.val_main_v108 (F := F) x0 x1 x2 x4 x5 := by
    rw [← hV]; simp (disch := decide) only [nullary_result_ne', unary_result_ne', binary_result_ne', ternary_result_ne', reshape_result_ne', nary_result_ne']; exact f128_main_v108
  clear hV f128_main_v105 f128_main_v107 f128_main_v108 V128
  -- operation 129: main_v110
  rw [after_cons]
  generalize hV : HloOp.result _ V129 = V130
  have f130_main_v110 : V130 (Proc.devRef .tc main_v110) = Read.val_main_v110 (F := F) x0 x1 x2 x3 x4 x5 := by
    rw [← hV]; refine (reshape_result _ _ _ _ _ _ _).trans ?_; unfold Read.val_main_v110
    rw [← f129_main_v109]
    all_goals rfl
  have f130_main_v108 : V130 (Proc.devRef .tc main_v108) = Read.val_main_v108 (F := F) x0 x1 x2 x4 x5 := by
    rw [← hV]; simp (disch := decide) only [nullary_result_ne', unary_result_ne', binary_result_ne', ternary_result_ne', reshape_result_ne', nary_result_ne']; exact f129_main_v108
  clear hV f129_main_v108 f129_main_v109 V129
  -- operation 130: main_v111
  rw [after_cons]
  generalize hV : HloOp.result _ V130 = V131
  have f131_main_v111 : V131 (Proc.devRef .tc main_v111) = Read.val_main_v111 (F := F) x0 x1 x2 x3 x4 x5 := by
    rw [← hV]; refine (binary_result _ _ _ _ _ _ _ _).trans ?_; unfold Read.val_main_v111
    rw [← f130_main_v110, ← f130_main_v108]
    all_goals rfl
  clear hV f130_main_v108 f130_main_v110 V130
  exact f131_main_v111

end Cert.ReferenceIdeal.RefRun

end
-- ==== Proof.RefAfter.lean ====
/-
  The reference program's fold of its 131 host operations, evaluated at the result buffer.

  The sublists' step lemmas (`stages0 …`) are chained: each takes the equations "buffer = stage" for the buffers still
  read and returns them for the buffers read later, at the contents the previous sublists leave. After the last
  sublist the result buffer holds the last stage.
-/
import proofs.«104800_j57621281243745_2_alg».proof.Proof.RefRun
import proofs.«104800_j57621281243745_2_alg».proof.Proof.RefRead
import proofs.«104800_j57621281243745_2_alg».proof.Proof.RefAfter0
import proofs.«104800_j57621281243745_2_alg».proof.Proof.RefAfter1
import proofs.«104800_j57621281243745_2_alg».proof.Proof.RefAfter2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- From any contents `V0` whose argument buffers hold `x0 … x5`, the fold of the operations leaves the result buffer
    at the last stage of `x0 … x5`. -/
theorem after_val (V0 : Valuation τ sig (Elt F)) (x0 : (⟨S32x2048, .f32⟩ : BufTy).Contents (Elt F)) (x1 : (⟨S32x2048x64, .f32⟩ : BufTy).Contents (Elt F)) (x2 : (⟨S32x2048, .i1⟩ : BufTy).Contents (Elt F)) (x3 : (⟨S8, .f32⟩ : BufTy).Contents (Elt F)) (x4 : (⟨S64x64, .f32⟩ : BufTy).Contents (Elt F)) (x5 : (⟨S64x64, .f32⟩ : BufTy).Contents (Elt F))
    (f0_main_arg0 : V0 (Proc.devRef .tc main_arg0) = x0)
    (f0_main_arg1 : V0 (Proc.devRef .tc main_arg1) = x1)
    (f0_main_arg2 : V0 (Proc.devRef .tc main_arg2) = x2)
    (f0_main_arg3 : V0 (Proc.devRef .tc main_arg3) = x3)
    (f0_main_arg4 : V0 (Proc.devRef .tc main_arg4) = x4)
    (f0_main_arg5 : V0 (Proc.devRef .tc main_arg5) = x5) :
    StableHlo.after (ops (F := F)) V0 (Proc.devRef .tc main_v111) = Read.val_main_v111 (F := F) x0 x1 x2 x3 x4 x5 := by
  rw [after_ops]
  obtain ⟨f10_main_v3, f10_main_v4, f10_main_c_1, f10_main_arg0, f10_main_arg2, f10_main_arg3⟩ :=
    stages0 (F := F) (V0) x0 x1 x2 x3 x4 x5 f0_main_arg0 f0_main_arg1 f0_main_arg2 f0_main_arg3 f0_main_arg4 f0_main_arg5
  obtain ⟨f20_main_v3, f20_main_v4, f20_main_v5, f20_main_v6, f20_main_v7, f20_main_v8, f20_main_v9, f20_main_v10, f20_main_arg0, f20_main_arg2, f20_main_arg3⟩ :=
    stages1 (F := F) (after ops0 (V0)) x0 x1 x2 x3 x4 x5 f10_main_v3 f10_main_v4 f10_main_c_1 f10_main_arg0 f10_main_arg2 f10_main_arg3
  obtain ⟨f30_main_v4, f30_main_v5, f30_main_v12, f30_main_v13, f30_main_v14, f30_main_v15, f30_main_v16, f30_main_v17, f30_main_v18, f30_main_v19, f30_main_v20, f30_main_arg0, f30_main_arg2, f30_main_arg3⟩ :=
    stages2 (F := F) (after ops1 (after ops0 (V0))) x0 x1 x2 x3 x4 x5 f20_main_v3 f20_main_v4 f20_main_v5 f20_main_v6 f20_main_v7 f20_main_v8 f20_main_v9 f20_main_v10 f20_main_arg0 f20_main_arg2 f20_main_arg3
  obtain ⟨f40_main_v4, f40_main_v5, f40_main_v24, f40_main_v25, f40_main_v26, f40_main_v27, f40_main_v28, f40_main_v29, f40_main_v30, f40_main_arg0, f40_main_arg2, f40_main_arg3⟩ :=
    stages3 (F := F) (after ops2 (after ops1 (after ops0 (V0)))) x0 x1 x2 x3 x4 x5 f30_main_v4 f30_main_v5 f30_main_v12 f30_main_v13 f30_main_v14 f30_main_v15 f30_main_v16 f30_main_v17 f30_main_v18 f30_main_v19 f30_main_v20 f30_main_arg0 f30_main_arg2 f30_main_arg3
  obtain ⟨f50_main_v5, f50_main_v24, f50_main_v32, f50_main_v33, f50_main_v34, f50_main_v35, f50_main_v36, f50_main_v37, f50_main_v38, f50_main_v39, f50_main_v40, f50_main_arg0, f50_main_arg2, f50_main_arg3⟩ :=
    stages4 (F := F) (after ops3 (after ops2 (after ops1 (after ops0 (V0))))) x0 x1 x2 x3 x4 x5 f40_main_v4 f40_main_v5 f40_main_v24 f40_main_v25 f40_main_v26 f40_main_v27 f40_main_v28 f40_main_v29 f40_main_v30 f40_main_arg0 f40_main_arg2 f40_main_arg3
  obtain ⟨f60_main_v5, f60_main_v24, f60_main_v43, f60_main_v44, f60_main_v45, f60_main_v46, f60_main_v47, f60_main_v48, f60_main_v49, f60_main_v50, f60_main_arg0, f60_main_arg2, f60_main_arg3⟩ :=
    stages5 (F := F) (after ops4 (after ops3 (after ops2 (after ops1 (after ops0 (V0)))))) x0 x1 x2 x3 x4 x5 f50_main_v5 f50_main_v24 f50_main_v32 f50_main_v33 f50_main_v34 f50_main_v35 f50_main_v36 f50_main_v37 f50_main_v38 f50_main_v39 f50_main_v40 f50_main_arg0 f50_main_arg2 f50_main_arg3
  obtain ⟨f70_main_v24, f70_main_v43, f70_main_v52, f70_main_v53, f70_main_v54, f70_main_v55, f70_main_v56, f70_main_v57, f70_main_v58, f70_main_v59, f70_main_v60, f70_main_arg0, f70_main_arg2, f70_main_arg3⟩ :=
    stages6 (F := F) (after ops5 (after ops4 (after ops3 (after ops2 (after ops1 (after ops0 (V0))))))) x0 x1 x2 x3 x4 x5 f60_main_v5 f60_main_v24 f60_main_v43 f60_main_v44 f60_main_v45 f60_main_v46 f60_main_v47 f60_main_v48 f60_main_v49 f60_main_v50 f60_main_arg0 f60_main_arg2 f60_main_arg3
  obtain ⟨f80_main_v43, f80_main_v65, f80_main_v68, f80_main_call3_v0, f80_main_arg3⟩ :=
    stages7 (F := F) (after ops6 (after ops5 (after ops4 (after ops3 (after ops2 (after ops1 (after ops0 (V0)))))))) x0 x1 x2 x3 x4 x5 f70_main_v24 f70_main_v43 f70_main_v52 f70_main_v53 f70_main_v54 f70_main_v55 f70_main_v56 f70_main_v57 f70_main_v58 f70_main_v59 f70_main_v60 f70_main_arg0 f70_main_arg2 f70_main_arg3
  obtain ⟨f90_main_v69, f90_main_v72, f90_main_v73, f90_main_arg3⟩ :=
    stages8 (F := F) (after ops7 (after ops6 (after ops5 (after ops4 (after ops3 (after ops2 (after ops1 (after ops0 (V0))))))))) x0 x1 x2 x3 x4 x5 f80_main_v43 f80_main_v65 f80_main_v68 f80_main_call3_v0 f80_main_arg3
  obtain ⟨f100_main_v69, f100_main_v72, f100_main_v73, f100_main_v75, f100_main_v82, f100_main_cst_3, f100_main_arg3⟩ :=
    stages9 (F := F) (after ops8 (after ops7 (after ops6 (after ops5 (after ops4 (after ops3 (after ops2 (after ops1 (after ops0 (V0)))))))))) x0 x1 x2 x3 x4 x5 f90_main_v69 f90_main_v72 f90_main_v73 f90_main_arg3
  obtain ⟨f110_main_v72, f110_main_v75, f110_main_v83, f110_main_v91, f110_main_arg3⟩ :=
    stages10 (F := F) (after ops9 (after ops8 (after ops7 (after ops6 (after ops5 (after ops4 (after ops3 (after ops2 (after ops1 (after ops0 (V0))))))))))) x0 x1 x2 x3 x4 x5 f100_main_v69 f100_main_v72 f100_main_v73 f100_main_v75 f100_main_v82 f100_main_cst_3 f100_main_arg3
  obtain ⟨f120_main_v83, f120_main_v94, f120_main_v99, f120_main_v100⟩ :=
    stages11 (F := F) (after ops10 (after ops9 (after ops8 (after ops7 (after ops6 (after ops5 (after ops4 (after ops3 (after ops2 (after ops1 (after ops0 (V0)))))))))))) x0 x1 x2 x3 x4 x5 f110_main_v72 f110_main_v75 f110_main_v83 f110_main_v91 f110_main_arg3
  have f131_main_v111 :=
    stages12 (F := F) (after ops11 (after ops10 (after ops9 (after ops8 (after ops7 (after ops6 (after ops5 (after ops4 (after ops3 (after ops2 (after ops1 (after ops0 (V0))))))))))))) x0 x1 x2 x3 x4 x5 f120_main_v83 f120_main_v94 f120_main_v99 f120_main_v100
  exact f131_main_v111

/-- The fold over the launch contents of core `c` is the last stage of the six arguments' launch contents. -/
theorem after_eq_val (m : (ℓ : Loc nD τ sig) → Buf (Elt F) ℓ) (c : Dev nD) :
    StableHlo.after (ops (F := F)) (fun b => m (c, b)) (Proc.devRef .tc main_v111)
      = Read.val_main_v111 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  after_val (fun b => m (c, b)) _ _ _ _ _ _ rfl rfl rfl rfl rfl rfl

end Cert.ReferenceIdeal.RefRun

end
-- ==== Proof.lean ====
/-
  The five claims. A windowed continuous convolution over event sequences: per batch row, every event's feature vector
  is projected twice (a linear and a bias projection), and event `t` collects, from each of the eight events before it
  that is unpadded together with it, the time gap times the linear projection plus the bias projection; eight samples of
  the gap to the next event extend the sum. The kernel does the projections as one matrix product on blocks of 8192
  events and the windowed sums on blocks of 64 events read out of zero-padded arrays, masking by multiplication with
  0/1 mask values; the reference gathers nine shifted copies of the padded arrays and masks by selection. At the ideal
  values both are the function of Proof/Spec.lean: a product with a mask value 1 or 0 is the selection, and sums in
  either order are equal in the extended reals' commutative monoid — no finiteness of the inputs is used.

  The two kernel programs' frames are the run of Proof/Run.lean (its copy for the word-level program), the reference's
  its run with the result dropped; the idealization rewrote nothing, so it is trivially preserved; the value claim joins
  the kernel program's result (the fold's last value, read back index by index to the specification) with the
  reference's (its operations' staged term, read back likewise).
-/
import proofs.«104800_j57621281243745_2_alg».proof.Defs
import proofs.«104800_j57621281243745_2_alg».proof.Proof.Gen.Kernel
import proofs.«104800_j57621281243745_2_alg».proof.Proof.Gen.KernelIdeal
import proofs.«104800_j57621281243745_2_alg».proof.Proof.Gen.ReferenceIdeal
import proofs.«104800_j57621281243745_2_alg».proof.Proof.Gen.Pre_finite_inputs
import proofs.«104800_j57621281243745_2_alg».proof.Proof.Frame
import proofs.«104800_j57621281243745_2_alg».proof.Proof.KFrame
import proofs.«104800_j57621281243745_2_alg».proof.Proof.KernelFinal
import proofs.«104800_j57621281243745_2_alg».proof.Proof.RefValue
import proofs.«104800_j57621281243745_2_alg».proof.Proof.RefAfter
import Idealize.ShloMosaic.Adequacy
import Idealize.ShloMosaic.Init

noncomputable section

namespace Cert.Proof

open Idealize.ShloMosaic Idealize.ShloMosaic.TcCoe Idealize.SL.Sem

theorem frame_p [Cert.Kernel.Facts] [Cert.Pre_finite_inputs.Facts] : Cert.frame_Kernel :=
  fun m ρ _ => Cert.Kernel.Hand.frame (F := Bits) m ρ

theorem frame_pi [Cert.KernelIdeal.Facts] [Cert.Pre_finite_inputs.Facts] : Cert.frame_KernelIdeal :=
  fun m ρ _ => Cert.KernelIdeal.Hand.frame (F := Ideal) m ρ

/-- The reference writes none of its arguments: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RefRun.run_after (F := Ideal) m ρ)

/-- The idealization rewrote no operation. -/
theorem preserves : Cert.preserves_Kernel_KernelIdeal := trivial

/-- At the ideal values the kernel program's result array ends at the specification of its arguments (the fold's last
    value read back index by index), and so does the reference's (its operations' staged term read back likewise), of
    arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.WindowSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.kernel_value m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.RefRun.run_after (F := Ideal) m' ρ')
    rw [Cert.ReferenceIdeal.RefRun.after_eq_val, Cert.ReferenceIdeal.RefValue.ref_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
